-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_arg31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x196x768 : Shape := ⟨3, ![128, 196, 768]⟩
abbrev S1 : Shape := ⟨1, ![1]⟩
abbrev S768x768 : Shape := ⟨2, ![768, 768]⟩
abbrev S768 : Shape := ⟨1, ![768]⟩
abbrev S_ : Shape := ⟨0, ![]⟩
abbrev S196x196 : Shape := ⟨2, ![196, 196]⟩
abbrev S196 : Shape := ⟨1, ![196]⟩
abbrev S3072x768 : Shape := ⟨2, ![3072, 768]⟩
abbrev S3072 : Shape := ⟨1, ![3072]⟩
abbrev S768x3072 : Shape := ⟨2, ![768, 3072]⟩

class Facts : Prop where
  bcast_S_S128x196x768 : S_.BroadcastsInDim S128x196x768 (![] : Fin 0 → Fin S128x196x768.rank)
  reducesTo_S128x196x768_S_d0_1_2 : S128x196x768.ReducesTo [0, 1, 2] S_
  h_S_ : 0 < S_.numel
  bcast_S_S1 : S_.BroadcastsInDim S1 (![] : Fin 0 → Fin S1.rank)
  reducesTo_S1_S_d0 : S1.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  reducesTo_S_S_d : S_.ReducesTo [] S_
  bcast_S_S196x196 : S_.BroadcastsInDim S196x196 (![] : Fin 0 → Fin S196x196.rank)
  reducesTo_S196x196_S_d0_1 : S196x196.ReducesTo [0, 1] S_
  bcast_S_S196 : S_.BroadcastsInDim S196 (![] : Fin 0 → Fin S196.rank)
  reducesTo_S196_S_d0 : S196.ReducesTo [0] S_
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_

variable [Facts]

def fn_part8 {F : FTy → Type} [FloatOps F] (main_arg30 : FVec F S_ .f32) (main_arg31 : FVec F S_ .f32) (main_v130 : IVec S_ 1) (main_v132 : IVec S_ 1) : IVec S_ 1 :=
  let main_c_57 : IVec S_ 1 := constantI S_ 1 1#1
  let main_v133 : IVec S_ 1 := (fun x v => Host.reduce IntOp.andi x v reducesTo_S_S_d h_S_) main_v132 main_c_57
  let main_v134 : IVec S_ 1 := andi main_v130 main_v133
  let main_v135 : FVec F S_ .f32 := Host.absf main_arg30
  let main_cst_58 : FVec F S_ .f32 := constant S_ .f32 0x7F800000#32
  let main_v136 : IVec S_ 1 := cmpf .olt main_v135 main_cst_58
  let main_c_59 : IVec S_ 1 := constantI S_ 1 1#1
  let main_v137 : IVec S_ 1 := (fun x v => Host.reduce IntOp.andi x v reducesTo_S_S_d h_S_) main_v136 main_c_59
  let main_v138 : IVec S_ 1 := andi main_v134 main_v137
  let main_v139 : FVec F S_ .f32 := Host.absf main_arg31
  let main_cst_60 : FVec F S_ .f32 := constant S_ .f32 0x7F800000#32
  let main_v140 : IVec S_ 1 := cmpf .olt main_v139 main_cst_60
  let main_c_61 : IVec S_ 1 := constantI S_ 1 1#1
  let main_v141 : IVec S_ 1 := (fun x v => Host.reduce IntOp.andi x v reducesTo_S_S_d h_S_) main_v140 main_c_61
  let main_v142 : IVec S_ 1 := andi main_v138 main_v141
  main_v142

def fn_part7 {F : FTy → Type} [FloatOps F] (main_arg26 : FVec F S_ .f32) (main_arg27 : FVec F S768x768 .f32) (main_arg28 : FVec F S768 .f32) (main_arg29 : FVec F S_ .f32) (main_arg30 : FVec F S_ .f32) (main_arg31 : FVec F S_ .f32) (main_v112 : IVec S_ 1) (main_v115 : IVec S_ 1) : IVec S_ 1 :=
  let main_v116 : IVec S_ 1 := andi main_v112 main_v115
  let main_v117 : FVec F S_ .f32 := Host.absf main_arg26
  let main_cst_50 : FVec F S_ .f32 := constant S_ .f32 0x7F800000#32
  let main_v118 : IVec S_ 1 := cmpf .olt main_v117 main_cst_50
  let main_c_51 : IVec S_ 1 := constantI S_ 1 1#1
  let main_v119 : IVec S_ 1 := (fun x v => Host.reduce IntOp.andi x v reducesTo_S_S_d h_S_) main_v118 main_c_51
  let main_v120 : IVec S_ 1 := andi main_v116 main_v119
  let main_v121 : FVec F S768x768 .f32 := Host.absf main_arg27
  let main_cst_52 : FVec F S_ .f32 := constant S_ .f32 0x7F800000#32
  let main_v122 : FVec F S768x768 .f32 := broadcastInDim S768x768 ![] bcast_S_S768x768 main_cst_52
  let main_v123 : IVec S768x768 1 := cmpf .olt main_v121 main_v122
  let main_c_53 : IVec S_ 1 := constantI S_ 1 1#1
  let main_v124 : IVec S_ 1 := (fun x v => Host.reduce IntOp.andi x v reducesTo_S768x768_S_d0_1 h_S_) main_v123 main_c_53
  let main_v125 : IVec S_ 1 := andi main_v120 main_v124
  let main_v126 : FVec F S768 .f32 := Host.absf main_arg28
  let main_cst_54 : FVec F S_ .f32 := constant S_ .f32 0x7F800000#32
  let main_v127 : FVec F S768 .f32 := broadcastInDim S768 ![] bcast_S_S768 main_cst_54
  let main_v128 : IVec S768 1 := cmpf .olt main_v126 main_v127
  let main_c_55 : IVec S_ 1 := constantI S_ 1 1#1
  let main_v129 : IVec S_ 1 := (fun x v => Host.reduce IntOp.andi x v reducesTo_S768_S_d0 h_S_) main_v128 main_c_55
  let main_v130 : IVec S_ 1 := andi main_v125 main_v129
  let main_v131 : FVec F S_ .f32 := Host.absf main_arg29
  let main_cst_56 : FVec F S_ .f32 := constant S_ .f32 0x7F800000#32
  let main_v132 : IVec S_ 1 := cmpf .olt main_v131 main_cst_56
  fn_part8 (F := F) main_arg30 main_arg31 main_v130 main_v132

def fn_part6 {F : FTy → Type} [FloatOps F] (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) (main_v98 : IVec S_ 1) (main_v99 : FVec F S_ .f32) : IVec S_ 1 :=
  let main_cst_42 : FVec F S_ .f32 := constant S_ .f32 0x7F800000#32
  let main_v100 : IVec S_ 1 := cmpf .olt main_v99 main_cst_42
  let main_c_43 : IVec S_ 1 := constantI S_ 1 1#1
  let main_v101 : IVec S_ 1 := (fun x v => Host.reduce IntOp.andi x v reducesTo_S_S_d h_S_) main_v100 main_c_43
  let main_v102 : IVec S_ 1 := andi main_v98 main_v101
  let main_v103 : FVec F S768x3072 .f32 := Host.absf main_arg23
  let main_cst_44 : FVec F S_ .f32 := constant S_ .f32 0x7F800000#32
  let main_v104 : FVec F S768x3072 .f32 := broadcastInDim S768x3072 ![] bcast_S_S768x3072 main_cst_44
  let main_v105 : IVec S768x3072 1 := cmpf .olt main_v103 main_v104
  let main_c_45 : IVec S_ 1 := constantI S_ 1 1#1
  let main_v106 : IVec S_ 1 := (fun x v => Host.reduce IntOp.andi x v reducesTo_S768x3072_S_d0_1 h_S_) main_v105 main_c_45
  let main_v107 : IVec S_ 1 := andi main_v102 main_v106
  let main_v108 : FVec F S768 .f32 := Host.absf main_arg24
  let main_cst_46 : FVec F S_ .f32 := constant S_ .f32 0x7F800000#32
  let main_v109 : FVec F S768 .f32 := broadcastInDim S768 ![] bcast_S_S768 main_cst_46
  let main_v110 : IVec S768 1 := cmpf .olt main_v108 main_v109
  let main_c_47 : IVec S_ 1 := constantI S_ 1 1#1
  let main_v111 : IVec S_ 1 := (fun x v => Host.reduce IntOp.andi x v reducesTo_S768_S_d0 h_S_) main_v110 main_c_47
  let main_v112 : IVec S_ 1 := andi main_v107 main_v111
  let main_v113 : FVec F S_ .f32 := Host.absf main_arg25
  let main_cst_48 : FVec F S_ .f32 := constant S_ .f32 0x7F800000#32
  let main_v114 : IVec S_ 1 := cmpf .olt main_v113 main_cst_48
  let main_c_49 : IVec S_ 1 := constantI S_ 1 1#1
  let main_v115 : IVec S_ 1 := (fun x v => Host.reduce IntOp.andi x v reducesTo_S_S_d h_S_) main_v114 main_c_49
  fn_part7 (F := F) main_arg26 main_arg27 main_arg28 main_arg29 main_arg30 main_arg31 main_v112 main_v115

def fn_part5 {F : FTy → Type} [FloatOps F] (main_arg19 : FVec F S3072x768 .f32) (main_arg20 : FVec F S3072 .f32) (main_arg21 : FVec F S_ .f32) (main_arg22 : FVec F S_ .f32) (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) (main_v80 : IVec S_ 1) (main_v82 : IVec S_ 1) : IVec S_ 1 :=
  let main_c_35 : IVec S_ 1 := constantI S_ 1 1#1
  let main_v83 : IVec S_ 1 := (fun x v => Host.reduce IntOp.andi x v reducesTo_S_S_d h_S_) main_v82 main_c_35
  let main_v84 : IVec S_ 1 := andi main_v80 main_v83
  let main_v85 : FVec F S3072x768 .f32 := Host.absf main_arg19
  let main_cst_36 : FVec F S_ .f32 := constant S_ .f32 0x7F800000#32
  let main_v86 : FVec F S3072x768 .f32 := broadcastInDim S3072x768 ![] bcast_S_S3072x768 main_cst_36
  let main_v87 : IVec S3072x768 1 := cmpf .olt main_v85 main_v86
  let main_c_37 : IVec S_ 1 := constantI S_ 1 1#1
  let main_v88 : IVec S_ 1 := (fun x v => Host.reduce IntOp.andi x v reducesTo_S3072x768_S_d0_1 h_S_) main_v87 main_c_37
  let main_v89 : IVec S_ 1 := andi main_v84 main_v88
  let main_v90 : FVec F S3072 .f32 := Host.absf main_arg20
  let main_cst_38 : FVec F S_ .f32 := constant S_ .f32 0x7F800000#32
  let main_v91 : FVec F S3072 .f32 := broadcastInDim S3072 ![] bcast_S_S3072 main_cst_38
  let main_v92 : IVec S3072 1 := cmpf .olt main_v90 main_v91
  let main_c_39 : IVec S_ 1 := constantI S_ 1 1#1
  let main_v93 : IVec S_ 1 := (fun x v => Host.reduce IntOp.andi x v reducesTo_S3072_S_d0 h_S_) main_v92 main_c_39
  let main_v94 : IVec S_ 1 := andi main_v89 main_v93
  let main_v95 : FVec F S_ .f32 := Host.absf main_arg21
  let main_cst_40 : FVec F S_ .f32 := constant S_ .f32 0x7F800000#32
  let main_v96 : IVec S_ 1 := cmpf .olt main_v95 main_cst_40
  let main_c_41 : IVec S_ 1 := constantI S_ 1 1#1
  let main_v97 : IVec S_ 1 := (fun x v => Host.reduce IntOp.andi x v reducesTo_S_S_d h_S_) main_v96 main_c_41
  let main_v98 : IVec S_ 1 := andi main_v94 main_v97
  let main_v99 : FVec F S_ .f32 := Host.absf main_arg22
  fn_part6 (F := F) main_arg23 main_arg24 main_arg25 main_arg26 main_arg27 main_arg28 main_arg29 main_arg30 main_arg31 main_v98 main_v99

def fn_part4 {F : FTy → Type} [FloatOps F] (main_arg15 : FVec F S768x768 .f32) (main_arg16 : FVec F S768 .f32) (main_arg17 : FVec F S_ .f32) (main_arg18 : FVec F S_ .f32) (main_arg19 : FVec F S3072x768 .f32) (main_arg20 : FVec F S3072 .f32) (main_arg21 : FVec F S_ .f32) (main_arg22 : FVec F S_ .f32) (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) (main_v62 : IVec S_ 1) (main_v65 : IVec S_ 1) : IVec S_ 1 :=
  let main_v66 : IVec S_ 1 := andi main_v62 main_v65
  let main_v67 : FVec F S768x768 .f32 := Host.absf main_arg15
  let main_cst_28 : FVec F S_ .f32 := constant S_ .f32 0x7F800000#32
  let main_v68 : FVec F S768x768 .f32 := broadcastInDim S768x768 ![] bcast_S_S768x768 main_cst_28
  let main_v69 : IVec S768x768 1 := cmpf .olt main_v67 main_v68
  let main_c_29 : IVec S_ 1 := constantI S_ 1 1#1
  let main_v70 : IVec S_ 1 := (fun x v => Host.reduce IntOp.andi x v reducesTo_S768x768_S_d0_1 h_S_) main_v69 main_c_29
  let main_v71 : IVec S_ 1 := andi main_v66 main_v70
  let main_v72 : FVec F S768 .f32 := Host.absf main_arg16
  let main_cst_30 : FVec F S_ .f32 := constant S_ .f32 0x7F800000#32
  let main_v73 : FVec F S768 .f32 := broadcastInDim S768 ![] bcast_S_S768 main_cst_30
  let main_v74 : IVec S768 1 := cmpf .olt main_v72 main_v73
  let main_c_31 : IVec S_ 1 := constantI S_ 1 1#1
  let main_v75 : IVec S_ 1 := (fun x v => Host.reduce IntOp.andi x v reducesTo_S768_S_d0 h_S_) main_v74 main_c_31
  let main_v76 : IVec S_ 1 := andi main_v71 main_v75
  let main_v77 : FVec F S_ .f32 := Host.absf main_arg17
  let main_cst_32 : FVec F S_ .f32 := constant S_ .f32 0x7F800000#32
  let main_v78 : IVec S_ 1 := cmpf .olt main_v77 main_cst_32
  let main_c_33 : IVec S_ 1 := constantI S_ 1 1#1
  let main_v79 : IVec S_ 1 := (fun x v => Host.reduce IntOp.andi x v reducesTo_S_S_d h_S_) main_v78 main_c_33
  let main_v80 : IVec S_ 1 := andi main_v76 main_v79
  let main_v81 : FVec F S_ .f32 := Host.absf main_arg18
  let main_cst_34 : FVec F S_ .f32 := constant S_ .f32 0x7F800000#32
  let main_v82 : IVec S_ 1 := cmpf .olt main_v81 main_cst_34
  fn_part5 (F := F) main_arg19 main_arg20 main_arg21 main_arg22 main_arg23 main_arg24 main_arg25 main_arg26 main_arg27 main_arg28 main_arg29 main_arg30 main_arg31 main_v80 main_v82

def fn_part3 {F : FTy → Type} [FloatOps F] (main_arg11 : FVec F S768 .f32) (main_arg12 : FVec F S_ .f32) (main_arg13 : FVec F S_ .f32) (main_arg14 : FVec F S_ .f32) (main_arg15 : FVec F S768x768 .f32) (main_arg16 : FVec F S768 .f32) (main_arg17 : FVec F S_ .f32) (main_arg18 : FVec F S_ .f32) (main_arg19 : FVec F S3072x768 .f32) (main_arg20 : FVec F S3072 .f32) (main_arg21 : FVec F S_ .f32) (main_arg22 : FVec F S_ .f32) (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) (main_v49 : IVec S_ 1) : IVec S_ 1 :=
  let main_v50 : FVec F S768 .f32 := Host.absf main_arg11
  let main_cst_20 : FVec F S_ .f32 := constant S_ .f32 0x7F800000#32
  let main_v51 : FVec F S768 .f32 := broadcastInDim S768 ![] bcast_S_S768 main_cst_20
  let main_v52 : IVec S768 1 := cmpf .olt main_v50 main_v51
  let main_c_21 : IVec S_ 1 := constantI S_ 1 1#1
  let main_v53 : IVec S_ 1 := (fun x v => Host.reduce IntOp.andi x v reducesTo_S768_S_d0 h_S_) main_v52 main_c_21
  let main_v54 : IVec S_ 1 := andi main_v49 main_v53
  let main_v55 : FVec F S_ .f32 := Host.absf main_arg12
  let main_cst_22 : FVec F S_ .f32 := constant S_ .f32 0x7F800000#32
  let main_v56 : IVec S_ 1 := cmpf .olt main_v55 main_cst_22
  let main_c_23 : IVec S_ 1 := constantI S_ 1 1#1
  let main_v57 : IVec S_ 1 := (fun x v => Host.reduce IntOp.andi x v reducesTo_S_S_d h_S_) main_v56 main_c_23
  let main_v58 : IVec S_ 1 := andi main_v54 main_v57
  let main_v59 : FVec F S_ .f32 := Host.absf main_arg13
  let main_cst_24 : FVec F S_ .f32 := constant S_ .f32 0x7F800000#32
  let main_v60 : IVec S_ 1 := cmpf .olt main_v59 main_cst_24
  let main_c_25 : IVec S_ 1 := constantI S_ 1 1#1
  let main_v61 : IVec S_ 1 := (fun x v => Host.reduce IntOp.andi x v reducesTo_S_S_d h_S_) main_v60 main_c_25
  let main_v62 : IVec S_ 1 := andi main_v58 main_v61
  let main_v63 : FVec F S_ .f32 := Host.absf main_arg14
  let main_cst_26 : FVec F S_ .f32 := constant S_ .f32 0x7F800000#32
  let main_v64 : IVec S_ 1 := cmpf .olt main_v63 main_cst_26
  let main_c_27 : IVec S_ 1 := constantI S_ 1 1#1
  let main_v65 : IVec S_ 1 := (fun x v => Host.reduce IntOp.andi x v reducesTo_S_S_d h_S_) main_v64 main_c_27
  fn_part4 (F := F) main_arg15 main_arg16 main_arg17 main_arg18 main_arg19 main_arg20 main_arg21 main_arg22 main_arg23 main_arg24 main_arg25 main_arg26 main_arg27 main_arg28 main_arg29 main_arg30 main_arg31 main_v62 main_v65

def fn_part2 {F : FTy → Type} [FloatOps F] (main_arg8 : FVec F S_ .f32) (main_arg9 : FVec F S_ .f32) (main_arg10 : FVec F S768x768 .f32) (main_arg11 : FVec F S768 .f32) (main_arg12 : FVec F S_ .f32) (main_arg13 : FVec F S_ .f32) (main_arg14 : FVec F S_ .f32) (main_arg15 : FVec F S768x768 .f32) (main_arg16 : FVec F S768 .f32) (main_arg17 : FVec F S_ .f32) (main_arg18 : FVec F S_ .f32) (main_arg19 : FVec F S3072x768 .f32) (main_arg20 : FVec F S3072 .f32) (main_arg21 : FVec F S_ .f32) (main_arg22 : FVec F S_ .f32) (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) (main_v31 : IVec S_ 1) (main_v32 : FVec F S196 .f32) (main_cst_12 : FVec F S_ .f32) : IVec S_ 1 :=
  let main_v33 : FVec F S196 .f32 := broadcastInDim S196 ![] bcast_S_S196 main_cst_12
  let main_v34 : IVec S196 1 := cmpf .olt main_v32 main_v33
  let main_c_13 : IVec S_ 1 := constantI S_ 1 1#1
  let main_v35 : IVec S_ 1 := (fun x v => Host.reduce IntOp.andi x v reducesTo_S196_S_d0 h_S_) main_v34 main_c_13
  let main_v36 : IVec S_ 1 := andi main_v31 main_v35
  let main_v37 : FVec F S_ .f32 := Host.absf main_arg8
  let main_cst_14 : FVec F S_ .f32 := constant S_ .f32 0x7F800000#32
  let main_v38 : IVec S_ 1 := cmpf .olt main_v37 main_cst_14
  let main_c_15 : IVec S_ 1 := constantI S_ 1 1#1
  let main_v39 : IVec S_ 1 := (fun x v => Host.reduce IntOp.andi x v reducesTo_S_S_d h_S_) main_v38 main_c_15
  let main_v40 : IVec S_ 1 := andi main_v36 main_v39
  let main_v41 : FVec F S_ .f32 := Host.absf main_arg9
  let main_cst_16 : FVec F S_ .f32 := constant S_ .f32 0x7F800000#32
  let main_v42 : IVec S_ 1 := cmpf .olt main_v41 main_cst_16
  let main_c_17 : IVec S_ 1 := constantI S_ 1 1#1
  let main_v43 : IVec S_ 1 := (fun x v => Host.reduce IntOp.andi x v reducesTo_S_S_d h_S_) main_v42 main_c_17
  let main_v44 : IVec S_ 1 := andi main_v40 main_v43
  let main_v45 : FVec F S768x768 .f32 := Host.absf main_arg10
  let main_cst_18 : FVec F S_ .f32 := constant S_ .f32 0x7F800000#32
  let main_v46 : FVec F S768x768 .f32 := broadcastInDim S768x768 ![] bcast_S_S768x768 main_cst_18
  let main_v47 : IVec S768x768 1 := cmpf .olt main_v45 main_v46
  let main_c_19 : IVec S_ 1 := constantI S_ 1 1#1
  let main_v48 : IVec S_ 1 := (fun x v => Host.reduce IntOp.andi x v reducesTo_S768x768_S_d0_1 h_S_) main_v47 main_c_19
  let main_v49 : IVec S_ 1 := andi main_v44 main_v48
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v49

def fn_part1 {F : FTy → Type} [FloatOps F] (main_arg4 : FVec F S_ .f32) (main_arg5 : FVec F S_ .f32) (main_arg6 : FVec F S196x196 .f32) (main_arg7 : FVec F S196 .f32) (main_arg8 : FVec F S_ .f32) (main_arg9 : FVec F S_ .f32) (main_arg10 : FVec F S768x768 .f32) (main_arg11 : FVec F S768 .f32) (main_arg12 : FVec F S_ .f32) (main_arg13 : FVec F S_ .f32) (main_arg14 : FVec F S_ .f32) (main_arg15 : FVec F S768x768 .f32) (main_arg16 : FVec F S768 .f32) (main_arg17 : FVec F S_ .f32) (main_arg18 : FVec F S_ .f32) (main_arg19 : FVec F S3072x768 .f32) (main_arg20 : FVec F S3072 .f32) (main_arg21 : FVec F S_ .f32) (main_arg22 : FVec F S_ .f32) (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg5
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_v27 : FVec F S196x196 .f32 := Host.absf main_arg6
  let main_cst_10 : FVec F S_ .f32 := constant S_ .f32 0x7F800000#32
  let main_v28 : FVec F S196x196 .f32 := broadcastInDim S196x196 ![] bcast_S_S196x196 main_cst_10
  let main_v29 : IVec S196x196 1 := cmpf .olt main_v27 main_v28
  let main_c_11 : IVec S_ 1 := constantI S_ 1 1#1
  let main_v30 : IVec S_ 1 := (fun x v => Host.reduce IntOp.andi x v reducesTo_S196x196_S_d0_1 h_S_) main_v29 main_c_11
  let main_v31 : IVec S_ 1 := andi main_v26 main_v30
  let main_v32 : FVec F S196 .f32 := Host.absf main_arg7
  let main_cst_12 : FVec F S_ .f32 := constant S_ .f32 0x7F800000#32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v31 main_v32 main_cst_12

def fn {F : FTy → Type} [FloatOps F] (main_arg0 : FVec F S128x196x768 .f32) (main_arg1 : FVec F S1 .f32) (main_arg2 : FVec F S768x768 .f32) (main_arg3 : FVec F S768 .f32) (main_arg4 : FVec F S_ .f32) (main_arg5 : FVec F S_ .f32) (main_arg6 : FVec F S196x196 .f32) (main_arg7 : FVec F S196 .f32) (main_arg8 : FVec F S_ .f32) (main_arg9 : FVec F S_ .f32) (main_arg10 : FVec F S768x768 .f32) (main_arg11 : FVec F S768 .f32) (main_arg12 : FVec F S_ .f32) (main_arg13 : FVec F S_ .f32) (main_arg14 : FVec F S_ .f32) (main_arg15 : FVec F S768x768 .f32) (main_arg16 : FVec F S768 .f32) (main_arg17 : FVec F S_ .f32) (main_arg18 : FVec F S_ .f32) (main_arg19 : FVec F S3072x768 .f32) (main_arg20 : FVec F S3072 .f32) (main_arg21 : FVec F S_ .f32) (main_arg22 : FVec F S_ .f32) (main_arg23 : FVec F S768x3072 .f32) (main_arg24 : FVec F S768 .f32) (main_arg25 : FVec F S_ .f32) (main_arg26 : FVec F S_ .f32) (main_arg27 : FVec F S768x768 .f32) (main_arg28 : FVec F S768 .f32) (main_arg29 : FVec F S_ .f32) (main_arg30 : FVec F S_ .f32) (main_arg31 : FVec F S_ .f32) : IVec S_ 1 :=
  let main_v0 : FVec F S128x196x768 .f32 := Host.absf main_arg0
  let main_cst : FVec F S_ .f32 := constant S_ .f32 0x7F800000#32
  let main_v1 : FVec F S128x196x768 .f32 := broadcastInDim S128x196x768 ![] bcast_S_S128x196x768 main_cst
  let main_v2 : IVec S128x196x768 1 := cmpf .olt main_v0 main_v1
  let main_c : IVec S_ 1 := constantI S_ 1 1#1
  let main_v3 : IVec S_ 1 := (fun x v => Host.reduce IntOp.andi x v reducesTo_S128x196x768_S_d0_1_2 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S128x196x768 : Shape := ⟨3, ![128, 196, 768]⟩
abbrev S1 : Shape := ⟨1, ![1]⟩
abbrev S768x768 : Shape := ⟨2, ![768, 768]⟩
abbrev S768 : Shape := ⟨1, ![768]⟩
abbrev S_ : Shape := ⟨0, ![]⟩
abbrev S196x196 : Shape := ⟨2, ![196, 196]⟩
abbrev S196 : Shape := ⟨1, ![196]⟩
abbrev S3072x768 : Shape := ⟨2, ![3072, 768]⟩
abbrev S3072 : Shape := ⟨1, ![3072]⟩
abbrev S768x3072 : Shape := ⟨2, ![768, 3072]⟩
abbrev S25088x768 : Shape := ⟨2, ![25088, 768]⟩
abbrev S1x1 : Shape := ⟨2, ![1, 1]⟩
abbrev S1568x768 : Shape := ⟨2, ![1568, 768]⟩
abbrev S1x768 : Shape := ⟨2, ![1, 768]⟩
abbrev S196x1 : Shape := ⟨2, ![196, 1]⟩
abbrev S8x196x768 : Shape := ⟨3, ![8, 196, 768]⟩
abbrev S1x196x768 : Shape := ⟨3, ![1, 196, 768]⟩
abbrev S196x768 : Shape := ⟨2, ![196, 768]⟩
abbrev S784x768 : Shape := ⟨2, ![784, 768]⟩
abbrev S392x768 : Shape := ⟨2, ![392, 768]⟩
abbrev S392x3072 : Shape := ⟨2, ![392, 3072]⟩
abbrev S1x3072 : Shape := ⟨2, ![1, 3072]⟩

abbrev nBuf : Space → Nat
  | .hbm => 76
  | .vmem => 47
  | .smem => 0
  | _ => 0

abbrev bufTy : (tb : Table) → Fin (tcTables nBuf tb) → BufTy
  | .hbm, ⟨0, _⟩ => ⟨S128x196x768, .f32⟩
  | .hbm, ⟨1, _⟩ => ⟨S1, .f32⟩
  | .hbm, ⟨2, _⟩ => ⟨S768x768, .f32⟩
  | .hbm, ⟨3, _⟩ => ⟨S768, .f32⟩
  | .hbm, ⟨4, _⟩ => ⟨S_, .f32⟩
  | .hbm, ⟨5, _⟩ => ⟨S_, .f32⟩
  | .hbm, ⟨6, _⟩ => ⟨S196x196, .f32⟩
  | .hbm, ⟨7, _⟩ => ⟨S196, .f32⟩
  | .hbm, ⟨8, _⟩ => ⟨S_, .f32⟩
  | .hbm, ⟨9, _⟩ => ⟨S_, .f32⟩
  | .hbm, ⟨10, _⟩ => ⟨S768x768, .f32⟩
  | .hbm, ⟨11, _⟩ => ⟨S768, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S768x768, .f32⟩
  | .hbm, ⟨16, _⟩ => ⟨S768, .f32⟩
  | .hbm, ⟨17, _⟩ => ⟨S_, .f32⟩
  | .hbm, ⟨18, _⟩ => ⟨S_, .f32⟩
  | .hbm, ⟨19, _⟩ => ⟨S3072x768, .f32⟩
  | .hbm, ⟨20, _⟩ => ⟨S3072, .f32⟩
  | .hbm, ⟨21, _⟩ => ⟨S_, .f32⟩
  | .hbm, ⟨22, _⟩ => ⟨S_, .f32⟩
  | .hbm, ⟨23, _⟩ => ⟨S768x3072, .f32⟩
  | .hbm, ⟨24, _⟩ => ⟨S768, .f32⟩
  | .hbm, ⟨25, _⟩ => ⟨S_, .f32⟩
  | .hbm, ⟨26, _⟩ => ⟨S_, .f32⟩
  | .hbm, ⟨27, _⟩ => ⟨S768x768, .f32⟩
  | .hbm, ⟨28, _⟩ => ⟨S768, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S25088x768, .f32⟩
  | .hbm, ⟨33, _⟩ => ⟨S1x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1x1, .f32⟩
  | .hbm, ⟨38, _⟩ => ⟨S768x768, .bf16⟩
  | .hbm, ⟨39, _⟩ => ⟨S25088x768, .bf16⟩
  | .hbm, ⟨40, _⟩ => ⟨S128x196x768, .bf16⟩
  | .hbm, ⟨41, _⟩ => ⟨S_, .f32⟩
  | .hbm, ⟨42, _⟩ => ⟨S_, .f32⟩
  | .hbm, ⟨43, _⟩ => ⟨S1x1, .f32⟩
  | .hbm, ⟨44, _⟩ => ⟨S196x196, .bf16⟩
  | .hbm, ⟨45, _⟩ => ⟨S196x1, .f32⟩
  | .hbm, ⟨46, _⟩ => ⟨S128x196x768, .bf16⟩
  | .hbm, ⟨47, _⟩ => ⟨S25088x768, .bf16⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S768x768, .bf16⟩
  | .hbm, ⟨52, _⟩ => ⟨S1x1, .f32⟩
  | .hbm, ⟨53, _⟩ => ⟨S1x1, .f32⟩
  | .hbm, ⟨54, _⟩ => ⟨S25088x768, .f32⟩
  | .hbm, ⟨55, _⟩ => ⟨S25088x768, .bf16⟩
  | .hbm, ⟨56, _⟩ => ⟨S_, .f32⟩
  | .hbm, ⟨57, _⟩ => ⟨S_, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S1x1, .f32⟩
  | .hbm, ⟨62, _⟩ => ⟨S_, .f32⟩
  | .hbm, ⟨63, _⟩ => ⟨S_, .f32⟩
  | .hbm, ⟨64, _⟩ => ⟨S1x1, .f32⟩
  | .hbm, ⟨65, _⟩ => ⟨S_, .f32⟩
  | .hbm, ⟨66, _⟩ => ⟨S_, .f32⟩
  | .hbm, ⟨67, _⟩ => ⟨S1x1, .f32⟩
  | .hbm, ⟨68, _⟩ => ⟨S1x1, .f32⟩
  | .hbm, ⟨69, _⟩ => ⟨S1x1, .f32⟩
  | .hbm, ⟨70, _⟩ => ⟨S768x768, .bf16⟩
  | .hbm, ⟨71, _⟩ => ⟨S3072x768, .bf16⟩
  | .hbm, ⟨72, _⟩ => ⟨S768x3072, .bf16⟩
  | .hbm, ⟨73, _⟩ => ⟨S768x768, .bf16⟩
  | .hbm, ⟨74, _⟩ => ⟨S25088x768, .f32⟩
  | .hbm, ⟨75, _⟩ => ⟨S128x196x768, .f32⟩
  | .local _ .vmem, ⟨0, _⟩ => ⟨S1568x768, .f32⟩
  | .local _ .vmem, ⟨1, _⟩ => ⟨S1568x768, .f32⟩
  | .local _ .vmem, ⟨2, _⟩ => ⟨S768x768, .bf16⟩
  | .local _ .vmem, ⟨3, _⟩ => ⟨S768, .f32⟩
  | .local _ .vmem, ⟨4, _⟩ => ⟨S1x1, .f32⟩
  | .local _ .vmem, ⟨5, _⟩ => ⟨S1568x768, .bf16⟩
  | .local _ .vmem, ⟨6, _⟩ => ⟨S1568x768, .bf16⟩
  | .local _ .vmem, ⟨7, _⟩ => ⟨S8x196x768, .bf16⟩
  | .local _ .vmem, ⟨8, _⟩ => ⟨S8x196x768, .bf16⟩
  | .local _ .vmem, ⟨9, _⟩ => ⟨S196x196, .bf16⟩
  | .local _ .vmem, ⟨10, _⟩ => ⟨S196x1, .f32⟩
  | .local _ .vmem, ⟨11, _⟩ => ⟨S1x1, .f32⟩
  | .local _ .vmem, ⟨12, _⟩ => ⟨S8x196x768, .bf16⟩
  | .local _ .vmem, ⟨13, _⟩ => ⟨S8x196x768, .bf16⟩
  | .local _ .vmem, ⟨14, _⟩ => ⟨S784x768, .bf16⟩
  | .local _ .vmem, ⟨15, _⟩ => ⟨S784x768, .bf16⟩
  | .local _ .vmem, ⟨16, _⟩ => ⟨S784x768, .f32⟩
  | .local _ .vmem, ⟨17, _⟩ => ⟨S784x768, .f32⟩
  | .local _ .vmem, ⟨18, _⟩ => ⟨S768x768, .bf16⟩
  | .local _ .vmem, ⟨19, _⟩ => ⟨S768, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | .local _ .vmem, ⟨24, _⟩ => ⟨S784x768, .bf16⟩
  | .local _ .vmem, ⟨25, _⟩ => ⟨S784x768, .bf16⟩
  | .local _ .vmem, ⟨26, _⟩ => ⟨S392x768, .bf16⟩
  | .local _ .vmem, ⟨27, _⟩ => ⟨S392x768, .bf16⟩
  | .local _ .vmem, ⟨28, _⟩ => ⟨S392x768, .bf16⟩
  | .local _ .vmem, ⟨29, _⟩ => ⟨S392x768, .bf16⟩
  | .local _ .vmem, ⟨30, _⟩ => ⟨S768x768, .bf16⟩
  | .local _ .vmem, ⟨31, _⟩ => ⟨S768, .f32⟩
  | .local _ .vmem, ⟨32, _⟩ => ⟨S1x1, .f32⟩
  | .local _ .vmem, ⟨33, _⟩ => ⟨S3072x768, .bf16⟩
  | .local _ .vmem, ⟨34, _⟩ => ⟨S3072, .f32⟩
  | .local _ .vmem, ⟨35, _⟩ => ⟨S1x1, .f32⟩
  | .local _ .vmem, ⟨36, _⟩ => ⟨S768x3072, .bf16⟩
  | .local _ .vmem, ⟨37, _⟩ => ⟨S768, .f32⟩
  | .local _ .vmem, ⟨38, _⟩ => ⟨S1x1, .f32⟩
  | .local _ .vmem, ⟨39, _⟩ => ⟨S768x768, .bf16⟩
  | .local _ .vmem, ⟨40, _⟩ => ⟨S768, .f32⟩
  | .local _ .vmem, ⟨41, _⟩ => ⟨S1x1, .f32⟩
  | .local _ .vmem, ⟨42, _⟩ => ⟨S1x1, .f32⟩
  | .local _ .vmem, ⟨43, _⟩ => ⟨S1x1, .f32⟩
  | .local _ .vmem, ⟨44, _⟩ => ⟨S1x1, .f32⟩
  | .local _ .vmem, ⟨45, _⟩ => ⟨S392x768, .f32⟩
  | .local _ .vmem, ⟨46, _⟩ => ⟨S392x768, .f32⟩
  | _, _ => ⟨S128x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg12_0 : Ref sig .tc := ⟨.vmem, 40, rfl⟩
abbrev cc3_stg13_0 : Ref sig .tc := ⟨.vmem, 41, rfl⟩
abbrev cc3_stg14_0 : Ref sig .tc := ⟨.vmem, 42, rfl⟩
abbrev cc3_stg15_0 : Ref sig .tc := ⟨.vmem, 43, rfl⟩
abbrev cc3_stg16_0 : Ref sig .tc := ⟨.vmem, 44, rfl⟩
abbrev cc3_stg17_0 : Ref sig .tc := ⟨.vmem, 45, rfl⟩
abbrev cc3_stg17_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem12_0 : DmaSem sig := 40
abbrev cc3_sem13_0 : DmaSem sig := 41
abbrev cc3_sem14_0 : DmaSem sig := 42
abbrev cc3_sem15_0 : DmaSem sig := 43
abbrev cc3_sem16_0 : DmaSem sig := 44
abbrev cc3_sem17_0 : DmaSem sig := 45
abbrev cc3_sem17_1 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1568x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x196x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S196x196 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S196x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x196x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S784x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S784x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S784x768 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S392x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S392x768 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S768x768 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3072x768 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S3072 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S768x3072 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S768 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S768x768 .bf16 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S768 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x1 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x1 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x1 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 2 → Memref sig .tc .vmem S392x768 .f32 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true]

class Facts₀ : Prop where
  shapeCasts_S128x196x768_S25088x768 : S128x196x768.ShapeCasts S25088x768
  shapeCasts_S1_S1x1 : S1.ShapeCasts S1x1
  shapeCasts_S1_S_ : S1.ShapeCasts S_
  shapeCasts_S_S1x1 : S_.ShapeCasts S1x1
  bitsLt_bf16_f32 : FTy.bits .bf16 < FTy.bits .f32
  inb_S1568x768_S1568x768_0_0 : ∀ a, (![0, 0] : Fin 2 → Nat) a + S1568x768.size a ≤ S1568x768.size a
  h_S1568x768 : 0 < S1568x768.numel
  shapeCasts_S1568x768_S1568x768 : S1568x768.ShapeCasts S1568x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1568x768 : S1x768.Broadcasts S1568x768
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  packedbf16_S1568x768_S1568x768_0_0 : (Rect.unit (s := S1568x768) ![0, 0] S1568x768.size inb_S1568x768_S1568x768_0_0).PackedRows (EltTy.packing .bf16)
  shapeCasts_S25088x768_S128x196x768 : S25088x768.ShapeCasts S128x196x768
  shapeCasts_S196_S196x1 : S196.ShapeCasts S196x1
  inb_S196x196_S196x196_0_0 : ∀ a, (![0, 0] : Fin 2 → Nat) a + S196x196.size a ≤ S196x196.size a
  h_S196x196 : 0 < S196x196.numel
  shapeCasts_S196x196_S196x196 : S196x196.ShapeCasts S196x196
  inb_S196x1_S196x1_0_0 : ∀ a, (![0, 0] : Fin 2 → Nat) a + S196x1.size a ≤ S196x1.size a
  h_S196x1 : 0 < S196x1.numel
  shapeCasts_S196x1_S196x1 : S196x1.ShapeCasts S196x1
  inb_S8x196x768_S1x196x768_0_0_0 : ∀ a, (![0, 0, 0] : Fin 3 → Nat) a + S1x196x768.size a ≤ S8x196x768.size a
  h_S1x196x768 : 0 < S1x196x768.numel
  shapeCasts_S1x196x768_S196x768 : S1x196x768.ShapeCasts S196x768
  broadcasts_S196x1_S196x768 : S196x1.Broadcasts S196x768
  shapeCasts_S196x768_S1x196x768 : S196x768.ShapeCasts S1x196x768
  packedbf16_S8x196x768_S1x196x768_0_0_0 : (Rect.unit (s := S8x196x768) ![0, 0, 0] S1x196x768.size inb_S8x196x768_S1x196x768_0_0_0).PackedRows (EltTy.packing .bf16)
  inb_S8x196x768_S1x196x768_1_0_0 : ∀ a, (![1, 0, 0] : Fin 3 → Nat) a + S1x196x768.size a ≤ S8x196x768.size a
  packedbf16_S8x196x768_S1x196x768_1_0_0 : (Rect.unit (s := S8x196x768) ![1, 0, 0] S1x196x768.size inb_S8x196x768_S1x196x768_1_0_0).PackedRows (EltTy.packing .bf16)
  inb_S8x196x768_S1x196x768_2_0_0 : ∀ a, (![2, 0, 0] : Fin 3 → Nat) a + S1x196x768.size a ≤ S8x196x768.size a
  packedbf16_S8x196x768_S1x196x768_2_0_0 : (Rect.unit (s := S8x196x768) ![2, 0, 0] S1x196x768.size inb_S8x196x768_S1x196x768_2_0_0).PackedRows (EltTy.packing .bf16)
  inb_S8x196x768_S1x196x768_3_0_0 : ∀ a, (![3, 0, 0] : Fin 3 → Nat) a + S1x196x768.size a ≤ S8x196x768.size a
  packedbf16_S8x196x768_S1x196x768_3_0_0 : (Rect.unit (s := S8x196x768) ![3, 0, 0] S1x196x768.size inb_S8x196x768_S1x196x768_3_0_0).PackedRows (EltTy.packing .bf16)
  inb_S8x196x768_S1x196x768_4_0_0 : ∀ a, (![4, 0, 0] : Fin 3 → Nat) a + S1x196x768.size a ≤ S8x196x768.size a
  packedbf16_S8x196x768_S1x196x768_4_0_0 : (Rect.unit (s := S8x196x768) ![4, 0, 0] S1x196x768.size inb_S8x196x768_S1x196x768_4_0_0).PackedRows (EltTy.packing .bf16)
  inb_S8x196x768_S1x196x768_5_0_0 : ∀ a, (![5, 0, 0] : Fin 3 → Nat) a + S1x196x768.size a ≤ S8x196x768.size a
  packedbf16_S8x196x768_S1x196x768_5_0_0 : (Rect.unit (s := S8x196x768) ![5, 0, 0] S1x196x768.size inb_S8x196x768_S1x196x768_5_0_0).PackedRows (EltTy.packing .bf16)
  inb_S8x196x768_S1x196x768_6_0_0 : ∀ a, (![6, 0, 0] : Fin 3 → Nat) a + S1x196x768.size a ≤ S8x196x768.size a
  packedbf16_S8x196x768_S1x196x768_6_0_0 : (Rect.unit (s := S8x196x768) ![6, 0, 0] S1x196x768.size inb_S8x196x768_S1x196x768_6_0_0).PackedRows (EltTy.packing .bf16)
  inb_S8x196x768_S1x196x768_7_0_0 : ∀ a, (![7, 0, 0] : Fin 3 → Nat) a + S1x196x768.size a ≤ S8x196x768.size a
  packedbf16_S8x196x768_S1x196x768_7_0_0 : (Rect.unit (s := S8x196x768) ![7, 0, 0] S1x196x768.size inb_S8x196x768_S1x196x768_7_0_0).PackedRows (EltTy.packing .bf16)
  inb_S784x768_S784x768_0_0 : ∀ a, (![0, 0] : Fin 2 → Nat) a + S784x768.size a ≤ S784x768.size a
  h_S784x768 : 0 < S784x768.numel
  shapeCasts_S784x768_S784x768 : S784x768.ShapeCasts S784x768
  broadcasts_S1x768_S784x768 : S1x768.Broadcasts S784x768
  packedbf16_S784x768_S784x768_0_0 : (Rect.unit (s := S784x768) ![0, 0] S784x768.size inb_S784x768_S784x768_0_0).PackedRows (EltTy.packing .bf16)
  inb_S392x768_S392x768_0_0 : ∀ a, (![0, 0] : Fin 2 → Nat) a + S392x768.size a ≤ S392x768.size a
  h_S392x768 : 0 < S392x768.numel
  shapeCasts_S392x768_S392x768 : S392x768.ShapeCasts S392x768
  broadcasts_S1x768_S392x768 : S1x768.Broadcasts S392x768
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S392x3072 : S1x3072.Broadcasts S392x3072
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  dot_S1568x768_S768x768_S1568x768_1_1_0_0_n_n_wf : DotDims.WF S1568x768 S768x768 S1568x768 [1] [1] [0] [0] [] []
  dot_S196x196_S196x768_S196x768_1_0_0_1_n_n_wf : DotDims.WF S196x196 S196x768 S196x768 [1] [0] [0] [1] [] []
  dot_S784x768_S768x768_S784x768_1_1_0_0_n_n_wf : DotDims.WF S784x768 S768x768 S784x768 [1] [1] [0] [0] [] []
  dot_S392x768_S768x768_S392x768_1_1_0_0_n_n_wf : DotDims.WF S392x768 S768x768 S392x768 [1] [1] [0] [0] [] []
  dot_S392x768_S3072x768_S392x3072_1_1_0_0_n_n_wf : DotDims.WF S392x768 S3072x768 S392x3072 [1] [1] [0] [0] [] []
  dot_S392x3072_S768x3072_S392x768_1_1_0_0_n_n_wf : DotDims.WF S392x3072 S768x3072 S392x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1568x768.size a ≤ S25088x768.size a
  hwx0_0 : ∀ i : grid0.Coords, EltTy.bits .f32 = 32 ∨ (Rect.block (s := S25088x768) S1568x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1568x768.size a ≤ S25088x768.size a
  hwx0_4 : ∀ i : grid0.Coords, EltTy.bits .bf16 = 32 ∨ (Rect.block (s := S25088x768) S1568x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x196x768.size a ≤ S128x196x768.size a
  hwx1_0 : ∀ i : grid1.Coords, EltTy.bits .bf16 = 32 ∨ (Rect.block (s := S128x196x768) S8x196x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S196x196.size a ≤ S196x196.size a
  hwx1_1 : ∀ i : grid1.Coords, EltTy.bits .bf16 = 32 ∨ (Rect.block (s := S196x196) S196x196.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S196x1.size a ≤ S196x1.size a
  hwx1_2 : ∀ i : grid1.Coords, EltTy.bits .f32 = 32 ∨ (Rect.block (s := S196x1) S196x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x196x768.size a ≤ S128x196x768.size a
  hwx1_4 : ∀ i : grid1.Coords, EltTy.bits .bf16 = 32 ∨ (Rect.block (s := S128x196x768) S8x196x768.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S784x768.size a ≤ S25088x768.size a
  hwx2_0 : ∀ i : grid2.Coords, EltTy.bits .bf16 = 32 ∨ (Rect.block (s := S25088x768) S784x768.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S784x768.size a ≤ S25088x768.size a
  hwx2_1 : ∀ i : grid2.Coords, EltTy.bits .f32 = 32 ∨ (Rect.block (s := S25088x768) S784x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .bf16 = 32 ∨ (Rect.block (s := S768x768) S768x768.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768.size a ≤ S768.size a
  hwx2_3 : ∀ i : grid2.Coords, EltTy.bits .f32 = 32 ∨ (Rect.block (s := S768) S768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S784x768.size a ≤ S25088x768.size a
  hwx2_8 : ∀ i : grid2.Coords, EltTy.bits .bf16 = 32 ∨ (Rect.block (s := S25088x768) S784x768.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S392x768.size a ≤ S25088x768.size a
  hwx3_0 : ∀ i : grid3.Coords, EltTy.bits .bf16 = 32 ∨ (Rect.block (s := S25088x768) S392x768.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S392x768.size a ≤ S25088x768.size a
  hwx3_1 : ∀ i : grid3.Coords, EltTy.bits .bf16 = 32 ∨ (Rect.block (s := S25088x768) S392x768.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S768x768.size a ≤ S768x768.size a
  hwx3_2 : ∀ i : grid3.Coords, EltTy.bits .bf16 = 32 ∨ (Rect.block (s := S768x768) S768x768.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S768.size a ≤ S768.size a
  hwx3_3 : ∀ i : grid3.Coords, EltTy.bits .f32 = 32 ∨ (Rect.block (s := S768) S768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3072x768.size a ≤ S3072x768.size a
  hwx3_5 : ∀ i : grid3.Coords, EltTy.bits .bf16 = 32 ∨ (Rect.block (s := S3072x768) S3072x768.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S3072.size a ≤ S3072.size a
  hwx3_6 : ∀ i : grid3.Coords, EltTy.bits .f32 = 32 ∨ (Rect.block (s := S3072) S3072.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S768x3072.size a ≤ S768x3072.size a
  hwx3_8 : ∀ i : grid3.Coords, EltTy.bits .bf16 = 32 ∨ (Rect.block (s := S768x3072) S768x3072.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S768.size a ≤ S768.size a
  hwx3_9 : ∀ i : grid3.Coords, EltTy.bits .f32 = 32 ∨ (Rect.block (s := S768) S768.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S768x768.size a ≤ S768x768.size a
  hwx3_11 : ∀ i : grid3.Coords, EltTy.bits .bf16 = 32 ∨ (Rect.block (s := S768x768) S768x768.size (cc3_transform_11 i) (hinb3_11 i)).WholeWords (EltTy.packing .bf16)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S768.size a ≤ S768.size a
  hwx3_12 : ∀ i : grid3.Coords, EltTy.bits .f32 = 32 ∨ (Rect.block (s := S768) S768.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x1.size a ≤ S1x1.size a
  hwx3_13 : ∀ i : grid3.Coords, EltTy.bits .f32 = 32 ∨ (Rect.block (s := S1x1) S1x1.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x1.size a ≤ S1x1.size a
  hwx3_14 : ∀ i : grid3.Coords, EltTy.bits .f32 = 32 ∨ (Rect.block (s := S1x1) S1x1.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x1.size a ≤ S1x1.size a
  hwx3_15 : ∀ i : grid3.Coords, EltTy.bits .f32 = 32 ∨ (Rect.block (s := S1x1) S1x1.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x1.size a ≤ S1x1.size a
  hwx3_16 : ∀ i : grid3.Coords, EltTy.bits .f32 = 32 ∨ (Rect.block (s := S1x1) S1x1.size (cc3_transform_16 i) (hinb3_16 i)).WholeWords (EltTy.packing .f32)
  hstage3_17 : ∀ j, (stage3_17 j).IsWhole
  nbuf3_17 : grid3.bufCount reads3_17 false = 2
  hreads3_17 : ∀ i i' : grid3.Coords, (∀ a, reads3_17 a = true → i a = i' a) → cc3_transform_17 i = cc3_transform_17 i'
  hinb3_17 : ∀ (i : grid3.Coords) a, (cc3_transform_17 i a + 1) * S392x768.size a ≤ S25088x768.size a
  hwx3_17 : ∀ i : grid3.Coords, EltTy.bits .f32 = 32 ∨ (Rect.block (s := S25088x768) S392x768.size (cc3_transform_17 i) (hinb3_17 i)).WholeWords (EltTy.packing .f32)

variable [Facts₀]

def dot_S1568x768_S768x768_S1568x768_1_1_0_0_n_n : DotDims S1568x768 S768x768 S1568x768 where
  lhsContracting := [1]
  rhsContracting := [1]
  lhsNonContracting := [0]
  rhsNonContracting := [0]
  lhsBatch := []
  rhsBatch := []
  wf := dot_S1568x768_S768x768_S1568x768_1_1_0_0_n_n_wf
def dot_S196x196_S196x768_S196x768_1_0_0_1_n_n : DotDims S196x196 S196x768 S196x768 where
  lhsContracting := [1]
  rhsContracting := [0]
  lhsNonContracting := [0]
  rhsNonContracting := [1]
  lhsBatch := []
  rhsBatch := []
  wf := dot_S196x196_S196x768_S196x768_1_0_0_1_n_n_wf
def dot_S784x768_S768x768_S784x768_1_1_0_0_n_n : DotDims S784x768 S768x768 S784x768 where
  lhsContracting := [1]
  rhsContracting := [1]
  lhsNonContracting := [0]
  rhsNonContracting := [0]
  lhsBatch := []
  rhsBatch := []
  wf := dot_S784x768_S768x768_S784x768_1_1_0_0_n_n_wf
def dot_S392x768_S768x768_S392x768_1_1_0_0_n_n : DotDims S392x768 S768x768 S392x768 where
  lhsContracting := [1]
  rhsContracting := [1]
  lhsNonContracting := [0]
  rhsNonContracting := [0]
  lhsBatch := []
  rhsBatch := []
  wf := dot_S392x768_S768x768_S392x768_1_1_0_0_n_n_wf
def dot_S392x768_S3072x768_S392x3072_1_1_0_0_n_n : DotDims S392x768 S3072x768 S392x3072 where
  lhsContracting := [1]
  rhsContracting := [1]
  lhsNonContracting := [0]
  rhsNonContracting := [0]
  lhsBatch := []
  rhsBatch := []
  wf := dot_S392x768_S3072x768_S392x3072_1_1_0_0_n_n_wf
def dot_S392x3072_S768x3072_S392x768_1_1_0_0_n_n : DotDims S392x3072 S768x3072 S392x768 where
  lhsContracting := [1]
  rhsContracting := [1]
  lhsNonContracting := [0]
  rhsNonContracting := [0]
  lhsBatch := []
  rhsBatch := []
  wf := dot_S392x3072_S768x3072_S392x768_1_1_0_0_n_n_wf

abbrev win0_0 : Pipeline.Window sig grid0 :=
  Pipeline.Window.ofSpec (Memref.whole main_v0) S1568x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1568x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8) S8x196x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S196x196.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S196x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S8x196x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S784x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S784x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v1) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v21) S1x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23) S784x768.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v23) S392x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S392x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S768x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v26) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S3072x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg20) S3072.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v29) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v40) S768x3072.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg24) S768.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v32) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v41) S768x768.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg28) S768.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v35) S1x1.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v36) S1x1.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v21) S1x1.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v37) S1x1.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v42) S392x768.size cc3_transform_17 reads3_17 true false 2 stage3_17 sem3_17
    hrank3 hreads3_17 hinb3_17 nbuf3_17 (Memref.isWhole_whole _) hwx3_17 hstage3_17

abbrev win3 : Fin 18 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | ⟨_ + 18, h⟩ => absurd h (Nat.not_lt.2 (Nat.le_add_left _ _))
abbrev spec3 : Fin 18 → Pipeline.WinSpec sig grid3.rank := fun w => (win3 w).toWinSpec

class Facts : Prop extends Facts₀ where

variable [Facts]
-- ==== ReferenceIdeal.lean ====
abbrev S128x196x768 : Shape := ⟨3, ![128, 196, 768]⟩
abbrev S1 : Shape := ⟨1, ![1]⟩
abbrev S768x768 : Shape := ⟨2, ![768, 768]⟩
abbrev S768 : Shape := ⟨1, ![768]⟩
abbrev S_ : Shape := ⟨0, ![]⟩
abbrev S196x196 : Shape := ⟨2, ![196, 196]⟩
abbrev S196 : Shape := ⟨1, ![196]⟩
abbrev S3072x768 : Shape := ⟨2, ![3072, 768]⟩
abbrev S3072 : Shape := ⟨1, ![3072]⟩
abbrev S768x3072 : Shape := ⟨2, ![768, 3072]⟩
abbrev S1x1x768 : Shape := ⟨3, ![1, 1, 768]⟩
abbrev S128x768x196 : Shape := ⟨3, ![128, 768, 196]⟩
abbrev S1x1x196 : Shape := ⟨3, ![1, 1, 196]⟩
abbrev S128x196x3072 : Shape := ⟨3, ![128, 196, 3072]⟩
abbrev S1x1x3072 : Shape := ⟨3, ![1, 1, 3072]⟩

abbrev nBuf : Space → Nat
  | .hbm => 207
  | .vmem => 0
  | .smem => 0
  | _ => 0

abbrev hbmTy0_0 (i : Nat) : BufTy := match i % 128 with
  | 0 => ⟨S128x196x768, .f32⟩
  | 1 => ⟨S1, .f32⟩
  | 2 => ⟨S768x768, .f32⟩
  | 3 => ⟨S768, .f32⟩
  | 4 => ⟨S_, .f32⟩
  | 5 => ⟨S_, .f32⟩
  | 6 => ⟨S196x196, .f32⟩
  | 7 => ⟨S196, .f32⟩
  | 8 => ⟨S_, .f32⟩
  | 9 => ⟨S_, .f32⟩
  | 10 => ⟨S768x768, .f32⟩
  | 11 => ⟨S768, .f32⟩
  | 12 => ⟨S_, .f32⟩
  | 13 => ⟨S_, .f32⟩
  | 14 => ⟨S_, .f32⟩
  | 15 => ⟨S768x768, .f32⟩
  | 16 => ⟨S768, .f32⟩
  | 17 => ⟨S_, .f32⟩
  | 18 => ⟨S_, .f32⟩
  | 19 => ⟨S3072x768, .f32⟩
  | 20 => ⟨S3072, .f32⟩
  | 21 => ⟨S_, .f32⟩
  | 22 => ⟨S_, .f32⟩
  | 23 => ⟨S768x3072, .f32⟩
  | 24 => ⟨S768, .f32⟩
  | 25 => ⟨S_, .f32⟩
  | 26 => ⟨S_, .f32⟩
  | 27 => ⟨S768x768, .f32⟩
  | 28 => ⟨S768, .f32⟩
  | 29 => ⟨S_, .f32⟩
  | 30 => ⟨S_, .f32⟩
  | 31 => ⟨S_, .f32⟩
  | 32 => ⟨S_, .f32⟩
  | 33 => ⟨S128x196x768, .f32⟩
  | 34 => ⟨S1x1x768, .f32⟩
  | 35 => ⟨S128x196x768, .f32⟩
  | 36 => ⟨S128x196x768, .f32⟩
  | 37 => ⟨S_, .f32⟩
  | 38 => ⟨S_, .f32⟩
  | 39 => ⟨S128x196x768, .f32⟩
  | 40 => ⟨S128x196x768, .f32⟩
  | 41 => ⟨S_, .f32⟩
  | 42 => ⟨S_, .f32⟩
  | 43 => ⟨S_, .f32⟩
  | 44 => ⟨S128x196x768, .f32⟩
  | 45 => ⟨S128x196x768, .f32⟩
  | 46 => ⟨S_, .f32⟩
  | 47 => ⟨S128x196x768, .f32⟩
  | 48 => ⟨S128x196x768, .f32⟩
  | 49 => ⟨S128x196x768, .f32⟩
  | 50 => ⟨S128x196x768, .f32⟩
  | 51 => ⟨S128x196x768, .f32⟩
  | 52 => ⟨S128x768x196, .f32⟩
  | 53 => ⟨S128x768x196, .f32⟩
  | 54 => ⟨S1x1x196, .f32⟩
  | 55 => ⟨S128x768x196, .f32⟩
  | 56 => ⟨S128x768x196, .f32⟩
  | 57 => ⟨S_, .f32⟩
  | 58 => ⟨S_, .f32⟩
  | 59 => ⟨S128x768x196, .f32⟩
  | 60 => ⟨S128x768x196, .f32⟩
  | 61 => ⟨S_, .f32⟩
  | 62 => ⟨S_, .f32⟩
  | 63 => ⟨S_, .f32⟩
  | 64 => ⟨S128x768x196, .f32⟩
  | 65 => ⟨S128x768x196, .f32⟩
  | 66 => ⟨S_, .f32⟩
  | 67 => ⟨S128x768x196, .f32⟩
  | 68 => ⟨S128x768x196, .f32⟩
  | 69 => ⟨S128x768x196, .f32⟩
  | 70 => ⟨S128x768x196, .f32⟩
  | 71 => ⟨S128x768x196, .f32⟩
  | 72 => ⟨S128x196x768, .f32⟩
  | 73 => ⟨S128x196x768, .f32⟩
  | 74 => ⟨S1x1x768, .f32⟩
  | 75 => ⟨S128x196x768, .f32⟩
  | 76 => ⟨S128x196x768, .f32⟩
  | 77 => ⟨S_, .f32⟩
  | 78 => ⟨S_, .f32⟩
  | 79 => ⟨S128x196x768, .f32⟩
  | 80 => ⟨S128x196x768, .f32⟩
  | 81 => ⟨S_, .f32⟩
  | 82 => ⟨S_, .f32⟩
  | 83 => ⟨S_, .f32⟩
  | 84 => ⟨S128x196x768, .f32⟩
  | 85 => ⟨S128x196x768, .f32⟩
  | 86 => ⟨S_, .f32⟩
  | 87 => ⟨S128x196x768, .f32⟩
  | 88 => ⟨S128x196x768, .f32⟩
  | 89 => ⟨S128x196x768, .f32⟩
  | 90 => ⟨S128x196x768, .f32⟩
  | 91 => ⟨S128x196x768, .f32⟩
  | 92 => ⟨S128x196x768, .f32⟩
  | 93 => ⟨S128x196x768, .f32⟩
  | 94 => ⟨S128x196x768, .f32⟩
  | 95 => ⟨S128x196x768, .f32⟩
  | 96 => ⟨S128x196x768, .f32⟩
  | 97 => ⟨S128x196x768, .f32⟩
  | 98 => ⟨S128x196x768, .f32⟩
  | 99 => ⟨S_, .f32⟩
  | 100 => ⟨S_, .f32⟩
  | 101 => ⟨S_, .f32⟩
  | 102 => ⟨S128x196x768, .f32⟩
  | 103 => ⟨S128x196x768, .f32⟩
  | 104 => ⟨S_, .f32⟩
  | 105 => ⟨S128x196x768, .f32⟩
  | 106 => ⟨S128x196x768, .f32⟩
  | 107 => ⟨S128x196x768, .f32⟩
  | 108 => ⟨S128x196x768, .f32⟩
  | 109 => ⟨S128x196x768, .f32⟩
  | 110 => ⟨S128x196x768, .f32⟩
  | 111 => ⟨S1x1x768, .f32⟩
  | 112 => ⟨S128x196x768, .f32⟩
  | 113 => ⟨S128x196x768, .f32⟩
  | 114 => ⟨S_, .f32⟩
  | 115 => ⟨S_, .f32⟩
  | 116 => ⟨S128x196x768, .f32⟩
  | 117 => ⟨S128x196x768, .f32⟩
  | 118 => ⟨S_, .f32⟩
  | 119 => ⟨S_, .f32⟩
  | 120 => ⟨S_, .f32⟩
  | 121 => ⟨S128x196x768, .f32⟩
  | 122 => ⟨S128x196x768, .f32⟩
  | 123 => ⟨S_, .f32⟩
  | 124 => ⟨S128x196x768, .f32⟩
  | 125 => ⟨S128x196x768, .f32⟩
  | 126 => ⟨S128x196x768, .f32⟩
  | 127 => ⟨S128x196x768, .f32⟩
  | _ => ⟨S128x196x768, .f32⟩

abbrev hbmTy0_1 (i : Nat) : BufTy := match i % 128 with
  | 0 => ⟨S128x196x768, .f32⟩
  | 1 => ⟨S128x196x3072, .f32⟩
  | 2 => ⟨S1x1x3072, .f32⟩
  | 3 => ⟨S128x196x3072, .f32⟩
  | 4 => ⟨S128x196x3072, .f32⟩
  | 5 => ⟨S_, .f32⟩
  | 6 => ⟨S_, .f32⟩
  | 7 => ⟨S128x196x3072, .f32⟩
  | 8 => ⟨S128x196x3072, .f32⟩
  | 9 => ⟨S_, .f32⟩
  | 10 => ⟨S_, .f32⟩
  | 11 => ⟨S_, .f32⟩
  | 12 => ⟨S128x196x3072, .f32⟩
  | 13 => ⟨S128x196x3072, .f32⟩
  | 14 => ⟨S_, .f32⟩
  | 15 => ⟨S128x196x3072, .f32⟩
  | 16 => ⟨S128x196x3072, .f32⟩
  | 17 => ⟨S128x196x3072, .f32⟩
  | 18 => ⟨S128x196x3072, .f32⟩
  | 19 => ⟨S128x196x3072, .f32⟩
  | 20 => ⟨S128x196x768, .f32⟩
  | 21 => ⟨S1x1x768, .f32⟩
  | 22 => ⟨S128x196x768, .f32⟩
  | 23 => ⟨S128x196x768, .f32⟩
  | 24 => ⟨S_, .f32⟩
  | 25 => ⟨S_, .f32⟩
  | 26 => ⟨S128x196x768, .f32⟩
  | 27 => ⟨S128x196x768, .f32⟩
  | 28 => ⟨S_, .f32⟩
  | 29 => ⟨S128x196x768, .f32⟩
  | 30 => ⟨S128x196x768, .f32⟩
  | 31 => ⟨S_, .f32⟩
  | 32 => ⟨S_, .f32⟩
  | 33 => ⟨S_, .f32⟩
  | 34 => ⟨S128x196x768, .f32⟩
  | 35 => ⟨S128x196x768, .f32⟩
  | 36 => ⟨S_, .f32⟩
  | 37 => ⟨S128x196x768, .f32⟩
  | 38 => ⟨S128x196x768, .f32⟩
  | 39 => ⟨S128x196x768, .f32⟩
  | 40 => ⟨S128x196x768, .f32⟩
  | 41 => ⟨S128x196x768, .f32⟩
  | 42 => ⟨S128x196x768, .f32⟩
  | 43 => ⟨S1x1x768, .f32⟩
  | 44 => ⟨S128x196x768, .f32⟩
  | 45 => ⟨S128x196x768, .f32⟩
  | 46 => ⟨S_, .f32⟩
  | 47 => ⟨S_, .f32⟩
  | 48 => ⟨S128x196x768, .f32⟩
  | 49 => ⟨S128x196x768, .f32⟩
  | 50 => ⟨S_, .f32⟩
  | 51 => ⟨S_, .f32⟩
  | 52 => ⟨S_, .f32⟩
  | 53 => ⟨S128x196x768, .f32⟩
  | 54 => ⟨S128x196x768, .f32⟩
  | 55 => ⟨S_, .f32⟩
  | 56 => ⟨S128x196x768, .f32⟩
  | 57 => ⟨S128x196x768, .f32⟩
  | 58 => ⟨S128x196x768, .f32⟩
  | 59 => ⟨S128x196x768, .f32⟩
  | 60 => ⟨S128x196x768, .f32⟩
  | 61 => ⟨S128x196x768, .f32⟩
  | 62 => ⟨S128x196x768, .f32⟩
  | 63 => ⟨S128x196x768, .f32⟩
  | 64 => ⟨S128x196x768, .f32⟩
  | 65 => ⟨S128x196x768, .f32⟩
  | 66 => ⟨S128x196x768, .f32⟩
  | 67 => ⟨S128x196x768, .f32⟩
  | 68 => ⟨S_, .f32⟩
  | 69 => ⟨S_, .f32⟩
  | 70 => ⟨S_, .f32⟩
  | 71 => ⟨S128x196x768, .f32⟩
  | 72 => ⟨S128x196x768, .f32⟩
  | 73 => ⟨S_, .f32⟩
  | 74 => ⟨S128x196x768, .f32⟩
  | 75 => ⟨S128x196x768, .f32⟩
  | 76 => ⟨S128x196x768, .f32⟩
  | 77 => ⟨S128x196x768, .f32⟩
  | 78 => ⟨S128x196x768, .f32⟩
  | _ => ⟨S128x196x768, .f32⟩

abbrev hbmTy (i : Nat) : BufTy := match i / 128 with
  | 0 => hbmTy0_0 i
  | 1 => hbmTy0_1 i
  | _ => ⟨S128x196x768, .f32⟩

abbrev bufTy : (tb : Table) → Fin (tcTables nBuf tb) → BufTy
  | .hbm, ⟨i, _⟩ => hbmTy i
  | _, _ => ⟨S128x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst : Ref sig .tc := ⟨.hbm, 41, rfl⟩
abbrev main_cst_0 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_1 : Ref sig .tc := ⟨.hbm, 61, rfl⟩
abbrev main_cst_2 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_3 : Ref sig .tc := ⟨.hbm, 81, rfl⟩
abbrev main_cst_4 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_5 : Ref sig .tc := ⟨.hbm, 99, rfl⟩
abbrev main_cst_6 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_7 : Ref sig .tc := ⟨.hbm, 118, rfl⟩
abbrev main_cst_8 : Ref sig .tc := ⟨.hbm, 119, rfl⟩
abbrev main_call8_v0 : Ref sig .tc := ⟨.hbm, 120, rfl⟩
abbrev main_call8_v1 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_9 : Ref sig .tc := ⟨.hbm, 137, rfl⟩
abbrev main_cst_10 : Ref sig .tc := ⟨.hbm, 138, rfl⟩
abbrev main_call10_v0 : Ref sig .tc := ⟨.hbm, 139, rfl⟩
abbrev main_call10_v1 : Ref sig .tc := ⟨.hbm, 140, rfl⟩
abbrev main_call10_v2 : Ref sig .tc := ⟨.hbm, 141, rfl⟩
abbrev main_call10_v3 : Ref sig .tc := ⟨.hbm, 142, rfl⟩
abbrev main_call10_v4 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_v81 : Ref sig .tc := ⟨.hbm, 155, rfl⟩
abbrev main_cst_11 : Ref sig .tc := ⟨.hbm, 156, rfl⟩
abbrev main_v82 : Ref sig .tc := ⟨.hbm, 157, rfl⟩
abbrev main_v83 : Ref sig .tc := ⟨.hbm, 158, rfl⟩
abbrev main_cst_12 : Ref sig .tc := ⟨.hbm, 159, rfl⟩
abbrev main_cst_13 : Ref sig .tc := ⟨.hbm, 160, rfl⟩
abbrev main_call12_v0 : Ref sig .tc := ⟨.hbm, 161, rfl⟩
abbrev main_call12_v1 : Ref sig .tc := ⟨.hbm, 162, rfl⟩
abbrev main_call12_v2 : Ref sig .tc := ⟨.hbm, 163, rfl⟩
abbrev main_call12_v3 : Ref sig .tc := ⟨.hbm, 164, rfl⟩
abbrev main_call12_v4 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_cst_14 : Ref sig .tc := ⟨.hbm, 178, rfl⟩
abbrev main_cst_15 : Ref sig .tc := ⟨.hbm, 179, rfl⟩
abbrev main_call14_v0 : Ref sig .tc := ⟨.hbm, 180, rfl⟩
abbrev main_call14_v1 : Ref sig .tc := ⟨.hbm, 181, rfl⟩
abbrev main_call14_v2 : Ref sig .tc := ⟨.hbm, 182, rfl⟩
abbrev main_call14_v3 : Ref sig .tc := ⟨.hbm, 183, rfl⟩
abbrev main_call14_v4 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_cst_16 : Ref sig .tc := ⟨.hbm, 196, rfl⟩
abbrev main_cst_17 : Ref sig .tc := ⟨.hbm, 197, rfl⟩
abbrev main_call16_v0 : Ref sig .tc := ⟨.hbm, 198, rfl⟩
abbrev main_call16_v1 : Ref sig .tc := ⟨.hbm, 199, rfl⟩
abbrev main_call16_v2 : Ref sig .tc := ⟨.hbm, 200, rfl⟩
abbrev main_call16_v3 : Ref sig .tc := ⟨.hbm, 201, rfl⟩
abbrev main_call16_v4 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩

abbrev nD : Nat := 1
abbrev τ : Topo := Topo.v7x

variable {F : FTy → Type} [FloatOps F]

class Facts₀ : Prop where
  shapeCasts_S1_S_ : S1.ShapeCasts S_
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S_S128x196x768 : S_.BroadcastsInDim S128x196x768 (![] : Fin 0 → Fin S128x196x768.rank)
  transposes_S128x196x768_S128x768x196_0_2_1 : S128x196x768.Transposes [0, 2, 1] S128x768x196
  bcast_S196_S1x1x196_2 : S196.BroadcastsInDim S1x1x196 (![2] : Fin 1 → Fin S1x1x196.rank)
  bcast_S1x1x196_S128x768x196_0_1_2 : S1x1x196.BroadcastsInDim S128x768x196 (![0, 1, 2] : Fin 3 → Fin S128x768x196.rank)
  bcast_S_S128x768x196 : S_.BroadcastsInDim S128x768x196 (![] : Fin 0 → Fin S128x768x196.rank)
  transposes_S128x768x196_S128x196x768_0_2_1 : S128x768x196.Transposes [0, 2, 1] S128x196x768
  bcast_S3072_S1x1x3072_2 : S3072.BroadcastsInDim S1x1x3072 (![2] : Fin 1 → Fin S1x1x3072.rank)
  bcast_S1x1x3072_S128x196x3072_0_1_2 : S1x1x3072.BroadcastsInDim S128x196x3072 (![0, 1, 2] : Fin 3 → Fin S128x196x3072.rank)
  bcast_S_S128x196x3072 : S_.BroadcastsInDim S128x196x3072 (![] : Fin 0 → Fin S128x196x3072.rank)
  dot_S128x196x768_S768x768_S128x196x768_2_1_01_0_n_n_wf : DotDims.WF S128x196x768 S768x768 S128x196x768 [2] [1] [0, 1] [0] [] []
  dot_S128x768x196_S196x196_S128x768x196_2_1_01_0_n_n_wf : DotDims.WF S128x768x196 S196x196 S128x768x196 [2] [1] [0, 1] [0] [] []
  dot_S128x196x768_S3072x768_S128x196x3072_2_1_01_0_n_n_wf : DotDims.WF S128x196x768 S3072x768 S128x196x3072 [2] [1] [0, 1] [0] [] []
  dot_S128x196x3072_S768x3072_S128x196x768_2_1_01_0_n_n_wf : DotDims.WF S128x196x3072 S768x3072 S128x196x768 [2] [1] [0, 1] [0] [] []

variable [Facts₀]

def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf
def dot_S128x768x196_S196x196_S128x768x196_2_1_01_0_n_n : DotDims S128x768x196 S196x196 S128x768x196 where
  lhsContracting := [2]
  rhsContracting := [1]
  lhsNonContracting := [0, 1]
  rhsNonContracting := [0]
  lhsBatch := []
  rhsBatch := []
  wf := dot_S128x768x196_S196x196_S128x768x196_2_1_01_0_n_n_wf
def dot_S128x196x768_S3072x768_S128x196x3072_2_1_01_0_n_n : DotDims S128x196x768 S3072x768 S128x196x3072 where
  lhsContracting := [2]
  rhsContracting := [1]
  lhsNonContracting := [0, 1]
  rhsNonContracting := [0]
  lhsBatch := []
  rhsBatch := []
  wf := dot_S128x196x768_S3072x768_S128x196x3072_2_1_01_0_n_n_wf
def dot_S128x196x3072_S768x3072_S128x196x768_2_1_01_0_n_n : DotDims S128x196x3072 S768x3072 S128x196x768 where
  lhsContracting := [2]
  rhsContracting := [1]
  lhsNonContracting := [0, 1]
  rhsNonContracting := [0]
  lhsBatch := []
  rhsBatch := []
  wf := dot_S128x196x3072_S768x3072_S128x196x768_2_1_01_0_n_n_wf

class Facts : Prop extends Facts₀ where

variable [Facts]
-- ==== Proof.K.R0.lean ====
import proofs.«131422_j57432302682877_2_alg».proof.Proof.Gen.Kernel.Launch
import proofs.«131422_j57432302682877_2_alg».proof.Proof.Gen.Kernel.Skeleton
import proofs.«131422_j57432302682877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Launch 0: `cc0_kernel` over a grid of `grid0.N` points, from the buffer contents `V` it starts at

Each of the 5 windows stages one block per point. Windows 0, 1, 2, 3 are read only; window 4 is the result: the body
overwrites its whole staging buffer with one payload computed from the 4 blocks it read. -/

/-- Block `t` of window `w`, cut out of the window's array as `V` has it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rectangle that is all of a staging buffer, one per buffer shape. -/
abbrev all0_S1568x768 : Rect S1568x768 := Rect.unit (s := S1568x768) ![0, 0] S1568x768.size inb_S1568x768_S1568x768_0_0
abbrev all0_S768x768 : Rect S768x768 := Rect.unit (s := S768x768) ![0, 0] S768x768.size inb_S768x768_S768x768_0_0
abbrev all0_S768 : Rect S768 := Rect.unit (s := S768) ![0] S768.size inb_S768_S768_0
abbrev all0_S1x1 : Rect S1x1 := Rect.unit (s := S1x1) ![0, 0] S1x1.size inb_S1x1_S1x1_0_0

/-- The result buffer once the body has run on input blocks `x0, x1, x2, x3`: a single write, of the whole buffer. -/
def out0_4 (x0 : Vec F S1568x768 .f32) (x1 : Vec F S768x768 .bf16) (x2 : Vec F S768 .f32) (x3 : Vec F S1x1 .f32) :
    Vec F S1568x768 .bf16 :=
  View.canon [⟨all0_S1568x768,
    k0_pay1 (View.ld x0 all0_S1568x768) (View.ld x1 all0_S768x768) (View.ld x2 all0_S768) (View.ld x3 all0_S1x1)⟩]

/-- That one write reaches every index of the buffer. -/
theorem cover0_4 (p : Vec F S1568x768 .bf16) :
    ∀ y : S1568x768.Idx, ∃ pc ∈ ([⟨all0_S1568x768, p⟩] : List (View.Piece (Elt F) S1568x768 .bf16)), y ∈ pc.1.set :=
  View.cover_of_tiled _ S1568x768.size rfl

/-- What the launch is proved against: arrays as in `V`; after point `t` an input buffer still holds its block and the
    result buffer holds `out0_4` of the input blocks; the invariant is the rest of the core's memory, left alone; the
    core owes nothing; every array is held in full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  simp only [dat0]

/-! The `after` field, read off window by window. -/

theorem after0_0 (c : Dev nD) (t : Fin cfg0.N) : (dat0 V c).after 0 t = iblk0 V c 0 t := by simp only [dat0]
theorem after0_1 (c : Dev nD) (t : Fin cfg0.N) : (dat0 V c).after 1 t = iblk0 V c 1 t := by simp only [dat0]
theorem after0_2 (c : Dev nD) (t : Fin cfg0.N) : (dat0 V c).after 2 t = iblk0 V c 2 t := by simp only [dat0]
theorem after0_3 (c : Dev nD) (t : Fin cfg0.N) : (dat0 V c).after 3 t = iblk0 V c 3 t := by simp only [dat0]
theorem after0_4 (c : Dev nD) (t : Fin cfg0.N) :
    (dat0 V c).after 4 t = out0_4 (iblk0 V c 0 t) (iblk0 V c 1 t) (iblk0 V c 2 t) (iblk0 V c 3 t) := by simp only [dat0]

/-! An input window here is staged in whole blocks, is never idle, and gets its buffer back from the body unchanged. So
    whether the block was fetched at `t` or is left over from an earlier point with the same block index, the buffer the
    body finds holds block `t`. -/

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

/-- Neither the invariant nor what the core owes moves with the point. -/
theorem still0 (c : Dev nD) (n n' : Fin (cfg0.N + 1)) :
    (dat0 V c).Φ n = (dat0 V c).Φ n' ∧ (dat0 V c).owesAt () n = (dat0 V c).owesAt () n' := ⟨rfl, rfl⟩

/-- A buffer holding the writes `L` over anything, where `L` reaches every index of the memref, is owned at the contents
    `L` alone determines. -/
private theorem owns_writes (c : Thread nD τ) {sp : Space} {sh : Shape} {e : EltTy} (m : Memref sig c.2.kind sp sh e)
    (q : PosShare TreeShare) (f : m.view.ty.Contents (Elt F)) (L : List (View.Piece (Elt F) sh e))
    (hL : ∀ y, ∃ p ∈ L, y ∈ p.1.set) :
    (m.view.loc c ↦[m.view.set]{q} m.view.writes (Elt F) f L : sProp 𝕄) ⊢ owns c m q (View.canon L) :=
  View.read_writes_eq_canon m.view f L hL ▸ owns_intro c m q _

/-- The 5 staging buffers of one grid point: the inputs at `x0, x1, x2, x3`, the result buffer at `y`. -/
def bufs0 (c : Dev nD) (a0 : Memref sig .tc .vmem S1568x768 .f32) (a1 : Memref sig .tc .vmem S768x768 .bf16) (a2 : Memref sig .tc .vmem S768 .f32) (a3 : Memref sig .tc .vmem S1x1 .f32) (a4 : Memref sig .tc .vmem S1568x768 .bf16)
    (x0 : Vec F S1568x768 .f32) (x1 : Vec F S768x768 .bf16) (x2 : Vec F S768 .f32) (x3 : Vec F S1x1 .f32)
    (y : Vec F S1568x768 .bf16) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare y)

set_option maxHeartbeats 1000000 in
/-- One run of the kernel on whole buffers: it reads the inputs, overwrites the whole result buffer with the payload of
    what it read, and touches nothing else; whatever `P` is held aside is still held when it returns. -/
theorem sound_kernel0 (c : Dev nD) (E : Set ℕ) (i : grid0.Coords)
    (a0 : Memref sig .tc .vmem S1568x768 .f32) (h0 : a0.IsWhole)
    (a1 : Memref sig .tc .vmem S768x768 .bf16) (h1 : a1.IsWhole)
    (a2 : Memref sig .tc .vmem S768 .f32) (h2 : a2.IsWhole)
    (a3 : Memref sig .tc .vmem S1x1 .f32) (h3 : a3.IsWhole)
    (a4 : Memref sig .tc .vmem S1568x768 .bf16) (h4 : a4.IsWhole)
    (x0 : Vec F S1568x768 .f32) (x1 : Vec F S768x768 .bf16) (x2 : Vec F S768 .f32) (x3 : Vec F S1x1 .f32)
    (y : Vec F S1568x768 .bf16) (P : sProp 𝕄) (K : PUnit → sProp 𝕄)
    (hK : ∀ u, iprop(P ∗ bufs0 c a0 a1 a2 a3 a4 x0 x1 x2 x3 (out0_4 x0 x1 x2 x3)) ⊢ K u) :
    iprop(P ∗ bufs0 c a0 a1 a2 a3 a4 x0 x1 x2 x3 y)
      ⊢ wp frame (wpE (defs₀ (F := F)) Variants.none c none) E (cc0_kernel i a0 h0 a1 h1 a2 h2 a3 h3 a4 h4) K := by
  rw [cc0_kernel_eq_skeleton]
  unfold cc0_kernel_skel
  unfold bufs0 owns
  iintro ⟨HP, ⟨%f0, %e0, H0⟩, ⟨%f1, %e1, H1⟩, ⟨%f2, %e2, H2⟩, ⟨%f3, %e3, H3⟩, ⟨%f4, -, H4⟩⟩
  subst e0 e1 e2 e3
  sl_exec
  sl_step
  iapply hK
  unfold bufs0
  isplitl [HP]
  · iexact HP
  isplitl [H0]
  · iapply owns_intro; iexact H0
  isplitl [H1]
  · iapply owns_intro; iexact H1
  isplitl [H2]
  · iapply owns_intro; iexact H2
  isplitl [H3]
  · iapply owns_intro; iexact H3
  iapply owns_writes _ _ _ _ _ (cover0_4 _)
  iexact H4

/-- At every grid point the pipeline calls the body on buffers that, by the lemmas above, hold the input blocks; the body's
    run then leaves exactly what `dat0` says, the invariant and the core's debts riding along as `P`. -/
theorem body_obligation0 (c : Dev nD) : BodyObligation (dat0 (F := F) V c) (defs₀ (F := F)) Variants.none () Set.univ := by
  intro t
  rw [bigSep_W0, bigSep_W0]
  simp only [before0_0, before0_1, before0_2, before0_3,
    after0_0, after0_1, after0_2, after0_3, after0_4]
  rw [(still0 V c t.succ t.castSucc).1, (still0 V c t.succ t.castSucc).2]
  show _ ⊢ wp frame _ Set.univ (bodyAt0 t) _
  iintro ⟨HΦ, Ho, ⟨%_, H0⟩, ⟨%_, H1⟩, ⟨%_, H2⟩, ⟨%_, H3⟩, ⟨%y, H4⟩⟩
  iapply sound_kernel0 c Set.univ (grid0.coords t) _ _ _ _ _ _ _ _ _ _
    (iblk0 V c 0 t) (iblk0 V c 1 t) (iblk0 V c 2 t) (iblk0 V c 3 t)
    ((dat0 V c).before 4 t y) iprop((dat0 V c).Φ t.castSucc ∗ (dat0 V c).owesAt () t.castSucc) _ (fun _ => sep_assoc.1)
  unfold bufs0
  iframe

end Cert.Kernel.Hand
-- ==== Proof.K.R1.lean ====
import proofs.«131422_j57432302682877_2_alg».proof.Proof.Gen.Kernel.Launch
import proofs.«131422_j57432302682877_2_alg».proof.Proof.Gen.Kernel.Skeleton
import proofs.«131422_j57432302682877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extent 196 × 768 are decided by structural evaluation, one level per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: token mixing, 8 batch rows per grid point

Grid point `t` of 16 takes batch rows `8t … 8t+7` of a `[128, 196, 768]` activation array. Each row `X`
(`196 × 768`) becomes `quant ((W · X + b) * g)`: `W` the `196 × 196` mixing matrix, `b` a bias per output token,
`g` one scale, `quant` the clamp to `[-128, 127]`, rounding to even and narrowing. `V` is what the core's buffers
hold when the region starts. -/

/-- The part of window `w`'s array that grid point `t` addresses, read from the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Where the body reads and writes -/

/-- All of the mixing matrix, -/
abbrev r1_mix : Rect S196x196 := Rect.unit (s := S196x196) ![0, 0] S196x196.size inb_S196x196_S196x196_0_0
/-- all of the bias column, -/
abbrev r1_bias : Rect S196x1 := Rect.unit (s := S196x1) ![0, 0] S196x1.size inb_S196x1_S196x1_0_0
/-- the one scale, -/
abbrev r1_scale : Rect S1x1 := Rect.unit (s := S1x1) ![0, 0] S1x1.size inb_S1x1_S1x1_0_0
/-- and batch row `s` of an `8 × 196 × 768` block, `s = 0 … 7`. -/
abbrev r1_row0 : Rect S8x196x768 := Rect.unit (s := S8x196x768) ![0, 0, 0] S1x196x768.size inb_S8x196x768_S1x196x768_0_0_0
abbrev r1_row1 : Rect S8x196x768 := Rect.unit (s := S8x196x768) ![1, 0, 0] S1x196x768.size inb_S8x196x768_S1x196x768_1_0_0
abbrev r1_row2 : Rect S8x196x768 := Rect.unit (s := S8x196x768) ![2, 0, 0] S1x196x768.size inb_S8x196x768_S1x196x768_2_0_0
abbrev r1_row3 : Rect S8x196x768 := Rect.unit (s := S8x196x768) ![3, 0, 0] S1x196x768.size inb_S8x196x768_S1x196x768_3_0_0
abbrev r1_row4 : Rect S8x196x768 := Rect.unit (s := S8x196x768) ![4, 0, 0] S1x196x768.size inb_S8x196x768_S1x196x768_4_0_0
abbrev r1_row5 : Rect S8x196x768 := Rect.unit (s := S8x196x768) ![5, 0, 0] S1x196x768.size inb_S8x196x768_S1x196x768_5_0_0
abbrev r1_row6 : Rect S8x196x768 := Rect.unit (s := S8x196x768) ![6, 0, 0] S1x196x768.size inb_S8x196x768_S1x196x768_6_0_0
abbrev r1_row7 : Rect S8x196x768 := Rect.unit (s := S8x196x768) ![7, 0, 0] S1x196x768.size inb_S8x196x768_S1x196x768_7_0_0

/-! ## What the body computes for each batch row

Every row is the same function of `(W, b, g, X)`; only the payloads' names differ from row to row (rows 0 and 1
take the operands as loaded, the others after their conversion `k1_pay3 … k1_pay5`). -/

abbrev row1_0 (W : Vec F S196x196 .bf16) (b : Vec F S196x1 .f32) (g : Vec F S1x1 .f32) (X : Vec F S1x196x768 .bf16) : Vec F S1x196x768 .bf16 :=
  k1_pay6 W b g X
abbrev row1_1 (W : Vec F S196x196 .bf16) (b : Vec F S196x1 .f32) (g : Vec F S1x1 .f32) (X : Vec F S1x196x768 .bf16) : Vec F S1x196x768 .bf16 :=
  k1_pay8 (k1_pay7 W b g X)
abbrev row1_2 (W : Vec F S196x196 .bf16) (b : Vec F S196x1 .f32) (g : Vec F S1x1 .f32) (X : Vec F S1x196x768 .bf16) : Vec F S1x196x768 .bf16 :=
  k1_pay9 (k1_pay3 W) (k1_pay4 b) (k1_pay5 g) X
abbrev row1_3 (W : Vec F S196x196 .bf16) (b : Vec F S196x1 .f32) (g : Vec F S1x1 .f32) (X : Vec F S1x196x768 .bf16) : Vec F S1x196x768 .bf16 :=
  k1_pay10 (k1_pay3 W) (k1_pay4 b) (k1_pay5 g) X
abbrev row1_4 (W : Vec F S196x196 .bf16) (b : Vec F S196x1 .f32) (g : Vec F S1x1 .f32) (X : Vec F S1x196x768 .bf16) : Vec F S1x196x768 .bf16 :=
  k1_pay11 (k1_pay3 W) (k1_pay4 b) (k1_pay5 g) X
abbrev row1_5 (W : Vec F S196x196 .bf16) (b : Vec F S196x1 .f32) (g : Vec F S1x1 .f32) (X : Vec F S1x196x768 .bf16) : Vec F S1x196x768 .bf16 :=
  k1_pay12 (k1_pay3 W) (k1_pay4 b) (k1_pay5 g) X
abbrev row1_6 (W : Vec F S196x196 .bf16) (b : Vec F S196x1 .f32) (g : Vec F S1x1 .f32) (X : Vec F S1x196x768 .bf16) : Vec F S1x196x768 .bf16 :=
  k1_pay1 (k1_pay13 (k1_pay3 W) (k1_pay4 b) (k1_pay5 g) X)
abbrev row1_7 (W : Vec F S196x196 .bf16) (b : Vec F S196x1 .f32) (g : Vec F S1x1 .f32) (X : Vec F S1x196x768 .bf16) : Vec F S1x196x768 .bf16 :=
  k1_pay2 (k1_pay3 W) (k1_pay4 b) (k1_pay5 g) X

/-- The output block after the body, as a function of the four input blocks: eight row stores, the latest
    listed first. -/
def out1_4 (x0 : Vec F S8x196x768 .bf16) (x1 : Vec F S196x196 .bf16) (x2 : Vec F S196x1 .f32) (x3 : Vec F S1x1 .f32) : Vec F S8x196x768 .bf16 :=
  View.canon [⟨r1_row7, row1_7 (View.ld x1 r1_mix) (View.ld x2 r1_bias) (View.ld x3 r1_scale) (View.ld x0 r1_row7)⟩,
    ⟨r1_row6, row1_6 (View.ld x1 r1_mix) (View.ld x2 r1_bias) (View.ld x3 r1_scale) (View.ld x0 r1_row6)⟩,
    ⟨r1_row5, row1_5 (View.ld x1 r1_mix) (View.ld x2 r1_bias) (View.ld x3 r1_scale) (View.ld x0 r1_row5)⟩,
    ⟨r1_row4, row1_4 (View.ld x1 r1_mix) (View.ld x2 r1_bias) (View.ld x3 r1_scale) (View.ld x0 r1_row4)⟩,
    ⟨r1_row3, row1_3 (View.ld x1 r1_mix) (View.ld x2 r1_bias) (View.ld x3 r1_scale) (View.ld x0 r1_row3)⟩,
    ⟨r1_row2, row1_2 (View.ld x1 r1_mix) (View.ld x2 r1_bias) (View.ld x3 r1_scale) (View.ld x0 r1_row2)⟩,
    ⟨r1_row1, row1_1 (View.ld x1 r1_mix) (View.ld x2 r1_bias) (View.ld x3 r1_scale) (View.ld x0 r1_row1)⟩,
    ⟨r1_row0, row1_0 (View.ld x1 r1_mix) (View.ld x2 r1_bias) (View.ld x3 r1_scale) (View.ld x0 r1_row0)⟩]

/-- Eight rows of extent `1 × 196 × 768` at offsets `0 … 7` along the first axis fill the `8 × 196 × 768` block. -/
theorem cover1_4 (p7 : Vec F S1x196x768 .bf16) (p6 : Vec F S1x196x768 .bf16) (p5 : Vec F S1x196x768 .bf16) (p4 : Vec F S1x196x768 .bf16) (p3 : Vec F S1x196x768 .bf16) (p2 : Vec F S1x196x768 .bf16) (p1 : Vec F S1x196x768 .bf16) (p0 : Vec F S1x196x768 .bf16) (y : S8x196x768.Idx) :
    ∃ pc ∈ ([⟨r1_row7, p7⟩, ⟨r1_row6, p6⟩, ⟨r1_row5, p5⟩, ⟨r1_row4, p4⟩, ⟨r1_row3, p3⟩, ⟨r1_row2, p2⟩, ⟨r1_row1, p1⟩, ⟨r1_row0, p0⟩] : List (View.Piece (Elt F) S8x196x768 .bf16)), y ∈ pc.1.set :=
  View.cover_of_tiled [⟨r1_row7, p7⟩, ⟨r1_row6, p6⟩, ⟨r1_row5, p5⟩, ⟨r1_row4, p4⟩, ⟨r1_row3, p3⟩, ⟨r1_row2, p2⟩, ⟨r1_row1, p1⟩, ⟨r1_row0, p0⟩] S1x196x768.size (by rfl) y

/-! ## Running the body once -/

/-- From the raw contents `f` of a buffer, the buffer owned at what is read of `f`. -/
local macro "back_as_read " H:ident " of " f:term : tactic =>
  `(tactic| (iexists $f; isplitr; (ipureintro; rfl); iexact $H))

set_option maxHeartbeats 4000000 in
/-- One run of the body. The four input buffers hold `x0 … x3` and the output buffer anything; afterwards the
    inputs are unchanged and the output buffer reads `out1_4 x0 x1 x2 x3`. Whatever the output held is read
    before each row store and dropped. -/
theorem sound_kernel1 (c : Dev nD) (E : Set ℕ) (i : grid1.Coords) (arg1 : Memref sig .tc .vmem S8x196x768 .bf16) (harg1 : arg1.IsWhole) (arg2 : Memref sig .tc .vmem S196x196 .bf16) (harg2 : arg2.IsWhole) (arg3 : Memref sig .tc .vmem S196x1 .f32) (harg3 : arg3.IsWhole) (arg4 : Memref sig .tc .vmem S1x1 .f32) (harg4 : arg4.IsWhole) (arg5 : Memref sig .tc .vmem S8x196x768 .bf16) (harg5 : arg5.IsWhole)
    (x0 : Vec F S8x196x768 .bf16) (x1 : Vec F S196x196 .bf16) (x2 : Vec F S196x1 .f32) (x3 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ junk, owns (c : Thread nD τ) arg5 fullShare junk)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  -- the body and the three functions it calls, as sequences of loads and stores around the payloads
  rw [cc1_kernel_eq_skeleton]; unfold cc1_kernel_skel
  rw [k1_part1_eq_skeleton, k1_part2_eq_skeleton, k1_part3_eq_skeleton]
  unfold k1_part1_skel k1_part2_skel k1_part3_skel
  -- every buffer down to its raw contents; what is read of an input's names its `x`
  unfold owns
  iintro ⟨⟨%fx, %ex, Hx⟩, ⟨%fW, %eW, HW⟩, ⟨%fb, %eb, Hb⟩, ⟨%fg, %eg, Hg⟩, ⟨%junk, %fo, -, Ho⟩, Hrest⟩
  cases ex; cases eW; cases eb; cases eg
  -- 19 loads, 8 stores
  sl_exec
  sl_step
  -- the inputs are as they were; the output is the eight stores over whatever it held
  iapply Hrest
  isplitl [Hx]; · back_as_read Hx of fx
  isplitl [HW]; · back_as_read HW of fW
  isplitl [Hb]; · back_as_read Hb of fb
  isplitl [Hg]; · back_as_read Hg of fg
  iexists _
  isplitr
  on_goal 2 => iexact Ho
  ipureintro
  exact View.read_writes_eq_canon _ _ _ (cover1_4 _ _ _ _ _ _ _ _)

/-! ## The pipeline's data -/

/-- Region 1's data on core `c`: each array at its contents in `V`; after point `t` an input buffer holds its
    block and the output buffer `out1_4` of the four blocks; between points only the class invariant; whole
    shares; no dues. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The block the data read at a point is `iblk1`, whichever the window. -/
theorem blockOf1 (c : Dev nD) (w : Fin cfg1.W) (t : Fin cfg1.N) : (dat1 V c).blockOf w t = iblk1 V c w t := by
  unfold Dat.blockOf iblk1; rw [A_eq1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What the body finds in the input buffers

Window 0 is fetched at every point. Windows 1–3 are fetched at the first point only: their block index never
moves and the body leaves them alone, so the buffer still holds the block. Either way an input buffer holds its
window's block; `hleft` is the window's `after` equation. -/

local macro "input_still_block " hleft:term : tactic =>
  `(tactic| (
    refine (Dat.before_in_eq_fetched _ _ rfl (fun _ => rfl) (fun _ _ _ => rfl) (fun s => ?_) _ _).trans ?_
    · rw [$hleft:term, blockOf1]
    · unfold Dat.fetched; rw [blockOf1]; rfl))

theorem before1_0 (c : Dev nD) (t : Fin cfg1.N) (d) : (dat1 V c).before 0 t d = iblk1 V c 0 t := by
  input_still_block after1_0
theorem before1_1 (c : Dev nD) (t : Fin cfg1.N) (d) : (dat1 V c).before 1 t d = iblk1 V c 1 t := by
  input_still_block after1_1
theorem before1_2 (c : Dev nD) (t : Fin cfg1.N) (d) : (dat1 V c).before 2 t d = iblk1 V c 2 t := by
  input_still_block after1_2
theorem before1_3 (c : Dev nD) (t : Fin cfg1.N) (d) : (dat1 V c).before 3 t d = iblk1 V c 3 t := by
  input_still_block after1_3

/-! ## Every grid point -/

/-- The invariant and the dues do not depend on the point. -/
theorem steady1 (c : Dev nD) (t : Fin cfg1.N) :
    (dat1 V c).Φ t.succ = (dat1 V c).Φ t.castSucc ∧ (dat1 V c).owesAt () t.succ = (dat1 V c).owesAt () t.castSucc :=
  ⟨rfl, rfl⟩

/-- Point `t`, the five windows written out: with the invariant, the dues and each window's current buffer as the
    pipeline hands it over, the body returns the same invariant and dues and each buffer at the data's `after`. -/
theorem at_point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t))) := by
  rw [(steady1 V c t).1, (steady1 V c t).2, after1_0, after1_1, after1_2, after1_3, after1_4]
  simp only [before1_0, before1_1, before1_2, before1_3]
  iintro ⟨Hinv, Hdues, ⟨%_, Hx⟩, ⟨%_, HW⟩, ⟨%_, Hb⟩, ⟨%_, Hg⟩, ⟨%_, Hout⟩⟩
  unfold bodyAt1
  iapply (sound_kernel1 c Set.univ (grid1.coords t) _ _ _ _ _ _ _ _ _ _
    (iblk1 V c 0 t) (iblk1 V c 1 t) (iblk1 V c 2 t) (iblk1 V c 3 t) _)
  isplitl [Hx]; · iexact Hx
  isplitl [HW]; · iexact HW
  isplitl [Hb]; · iexact Hb
  isplitl [Hg]; · iexact Hg
  isplitl [Hout]; · iexists _; iexact Hout
  iintro ⟨Hx, HW, Hb, Hg, Hout⟩
  isplitl [Hinv]; · iexact Hinv
  isplitl [Hdues]; · iexact Hdues
  isplitl [Hx]; · iexact Hx
  isplitl [HW]; · iexact HW
  isplitl [Hb]; · iexact Hb
  isplitl [Hg]; · iexact Hg
  iexact Hout

/-- The obligation the pipeline rule asks of the body: the product over the five windows is the one written out
    in `at_point1`. -/
theorem body_obligation1 (c : Dev nD) : BodyObligation (dat1 (F := F) V c) (defs₀ (F := F)) Variants.none () Set.univ := by
  intro t
  rw [bigSep_W1, bigSep_W1]
  exact at_point1 V c t

end Cert.Kernel.Hand
-- ==== Proof.K.R2.lean ====
import proofs.«131422_j57432302682877_2_alg».proof.Proof.Gen.Kernel.Launch
import proofs.«131422_j57432302682877_2_alg».proof.Proof.Gen.Kernel.Skeleton
import proofs.«131422_j57432302682877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Launch 2: `cc2_kernel` over a grid of `grid2.N` points, from the buffer contents `V` it starts at

Each of the 9 windows stages one block per point. Windows 0, 1, 2, 3, 4, 5, 6, 7 are read only; window 8 is the result: the body
overwrites its whole staging buffer with one payload computed from the 8 blocks it read. -/

/-- Block `t` of window `w`, cut out of the window's array as `V` has it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rectangle that is all of a staging buffer, one per buffer shape. -/
abbrev all2_S784x768 : Rect S784x768 := Rect.unit (s := S784x768) ![0, 0] S784x768.size inb_S784x768_S784x768_0_0
abbrev all2_S768x768 : Rect S768x768 := Rect.unit (s := S768x768) ![0, 0] S768x768.size inb_S768x768_S768x768_0_0
abbrev all2_S768 : Rect S768 := Rect.unit (s := S768) ![0] S768.size inb_S768_S768_0
abbrev all2_S1x1 : Rect S1x1 := Rect.unit (s := S1x1) ![0, 0] S1x1.size inb_S1x1_S1x1_0_0

/-- The result buffer once the body has run on input blocks `x0, x1, x2, x3, x4, x5, x6, x7`: a single write, of the whole buffer. -/
def out2_8 (x0 : Vec F S784x768 .bf16) (x1 : Vec F S784x768 .f32) (x2 : Vec F S768x768 .bf16) (x3 : Vec F S768 .f32) (x4 : Vec F S1x1 .f32) (x5 : Vec F S1x1 .f32) (x6 : Vec F S1x1 .f32) (x7 : Vec F S1x1 .f32) :
    Vec F S784x768 .bf16 :=
  View.canon [⟨all2_S784x768,
    k2_pay1 (View.ld x0 all2_S784x768) (View.ld x2 all2_S768x768) (View.ld x3 all2_S768) (View.ld x4 all2_S1x1) (View.ld x1 all2_S784x768) (View.ld x5 all2_S1x1) (View.ld x6 all2_S1x1) (View.ld x7 all2_S1x1)⟩]

/-- That one write reaches every index of the buffer. -/
theorem cover2_8 (p : Vec F S784x768 .bf16) :
    ∀ y : S784x768.Idx, ∃ pc ∈ ([⟨all2_S784x768, p⟩] : List (View.Piece (Elt F) S784x768 .bf16)), y ∈ pc.1.set :=
  View.cover_of_tiled _ S784x768.size rfl

/-- What the launch is proved against: arrays as in `V`; after point `t` an input buffer still holds its block and the
    result buffer holds `out2_8` of the input blocks; the invariant is the rest of the core's memory, left alone; the
    core owes nothing; every array is held in full. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  simp only [dat2]

/-! The `after` field, read off window by window. -/

theorem after2_0 (c : Dev nD) (t : Fin cfg2.N) : (dat2 V c).after 0 t = iblk2 V c 0 t := by simp only [dat2]
theorem after2_1 (c : Dev nD) (t : Fin cfg2.N) : (dat2 V c).after 1 t = iblk2 V c 1 t := by simp only [dat2]
theorem after2_2 (c : Dev nD) (t : Fin cfg2.N) : (dat2 V c).after 2 t = iblk2 V c 2 t := by simp only [dat2]
theorem after2_3 (c : Dev nD) (t : Fin cfg2.N) : (dat2 V c).after 3 t = iblk2 V c 3 t := by simp only [dat2]
theorem after2_4 (c : Dev nD) (t : Fin cfg2.N) : (dat2 V c).after 4 t = iblk2 V c 4 t := by simp only [dat2]
theorem after2_5 (c : Dev nD) (t : Fin cfg2.N) : (dat2 V c).after 5 t = iblk2 V c 5 t := by simp only [dat2]
theorem after2_6 (c : Dev nD) (t : Fin cfg2.N) : (dat2 V c).after 6 t = iblk2 V c 6 t := by simp only [dat2]
theorem after2_7 (c : Dev nD) (t : Fin cfg2.N) : (dat2 V c).after 7 t = iblk2 V c 7 t := by simp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by simp only [dat2]

/-! An input window here is staged in whole blocks, is never idle, and gets its buffer back from the body unchanged. So
    whether the block was fetched at `t` or is left over from an earlier point with the same block index, the buffer the
    body finds holds block `t`. -/

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

/-- Neither the invariant nor what the core owes moves with the point. -/
theorem still2 (c : Dev nD) (n n' : Fin (cfg2.N + 1)) :
    (dat2 V c).Φ n = (dat2 V c).Φ n' ∧ (dat2 V c).owesAt () n = (dat2 V c).owesAt () n' := ⟨rfl, rfl⟩

/-- A buffer holding the writes `L` over anything, where `L` reaches every index of the memref, is owned at the contents
    `L` alone determines. -/
private theorem owns_writes (c : Thread nD τ) {sp : Space} {sh : Shape} {e : EltTy} (m : Memref sig c.2.kind sp sh e)
    (q : PosShare TreeShare) (f : m.view.ty.Contents (Elt F)) (L : List (View.Piece (Elt F) sh e))
    (hL : ∀ y, ∃ p ∈ L, y ∈ p.1.set) :
    (m.view.loc c ↦[m.view.set]{q} m.view.writes (Elt F) f L : sProp 𝕄) ⊢ owns c m q (View.canon L) :=
  View.read_writes_eq_canon m.view f L hL ▸ owns_intro c m q _

/-- The 9 staging buffers of one grid point: the inputs at `x0, x1, x2, x3, x4, x5, x6, x7`, the result buffer at `y`. -/
def bufs2 (c : Dev nD) (a0 : Memref sig .tc .vmem S784x768 .bf16) (a1 : Memref sig .tc .vmem S784x768 .f32) (a2 : Memref sig .tc .vmem S768x768 .bf16) (a3 : Memref sig .tc .vmem S768 .f32) (a4 : Memref sig .tc .vmem S1x1 .f32) (a5 : Memref sig .tc .vmem S1x1 .f32) (a6 : Memref sig .tc .vmem S1x1 .f32) (a7 : Memref sig .tc .vmem S1x1 .f32) (a8 : Memref sig .tc .vmem S784x768 .bf16)
    (x0 : Vec F S784x768 .bf16) (x1 : Vec F S784x768 .f32) (x2 : Vec F S768x768 .bf16) (x3 : Vec F S768 .f32) (x4 : Vec F S1x1 .f32) (x5 : Vec F S1x1 .f32) (x6 : Vec F S1x1 .f32) (x7 : Vec F S1x1 .f32)
    (y : Vec F S784x768 .bf16) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare y)

set_option maxHeartbeats 1000000 in
/-- One run of the kernel on whole buffers: it reads the inputs, overwrites the whole result buffer with the payload of
    what it read, and touches nothing else; whatever `P` is held aside is still held when it returns. -/
theorem sound_kernel2 (c : Dev nD) (E : Set ℕ) (i : grid2.Coords)
    (a0 : Memref sig .tc .vmem S784x768 .bf16) (h0 : a0.IsWhole)
    (a1 : Memref sig .tc .vmem S784x768 .f32) (h1 : a1.IsWhole)
    (a2 : Memref sig .tc .vmem S768x768 .bf16) (h2 : a2.IsWhole)
    (a3 : Memref sig .tc .vmem S768 .f32) (h3 : a3.IsWhole)
    (a4 : Memref sig .tc .vmem S1x1 .f32) (h4 : a4.IsWhole)
    (a5 : Memref sig .tc .vmem S1x1 .f32) (h5 : a5.IsWhole)
    (a6 : Memref sig .tc .vmem S1x1 .f32) (h6 : a6.IsWhole)
    (a7 : Memref sig .tc .vmem S1x1 .f32) (h7 : a7.IsWhole)
    (a8 : Memref sig .tc .vmem S784x768 .bf16) (h8 : a8.IsWhole)
    (x0 : Vec F S784x768 .bf16) (x1 : Vec F S784x768 .f32) (x2 : Vec F S768x768 .bf16) (x3 : Vec F S768 .f32) (x4 : Vec F S1x1 .f32) (x5 : Vec F S1x1 .f32) (x6 : Vec F S1x1 .f32) (x7 : Vec F S1x1 .f32)
    (y : Vec F S784x768 .bf16) (P : sProp 𝕄) (K : PUnit → sProp 𝕄)
    (hK : ∀ u, iprop(P ∗ bufs2 c a0 a1 a2 a3 a4 a5 a6 a7 a8 x0 x1 x2 x3 x4 x5 x6 x7 (out2_8 x0 x1 x2 x3 x4 x5 x6 x7)) ⊢ K u) :
    iprop(P ∗ bufs2 c a0 a1 a2 a3 a4 a5 a6 a7 a8 x0 x1 x2 x3 x4 x5 x6 x7 y)
      ⊢ wp frame (wpE (defs₀ (F := F)) Variants.none c none) E (cc2_kernel i a0 h0 a1 h1 a2 h2 a3 h3 a4 h4 a5 h5 a6 h6 a7 h7 a8 h8) K := by
  rw [cc2_kernel_eq_skeleton]
  unfold cc2_kernel_skel
  rw [k2_part1_eq_skeleton]
  unfold k2_part1_skel
  unfold bufs2 owns
  iintro ⟨HP, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩⟩
  subst e0 e1 e2 e3 e4 e5 e6 e7
  sl_exec
  sl_step
  iapply hK
  unfold bufs2
  isplitl [HP]
  · iexact HP
  isplitl [H0]
  · iapply owns_intro; iexact H0
  isplitl [H1]
  · iapply owns_intro; iexact H1
  isplitl [H2]
  · iapply owns_intro; iexact H2
  isplitl [H3]
  · iapply owns_intro; iexact H3
  isplitl [H4]
  · iapply owns_intro; iexact H4
  isplitl [H5]
  · iapply owns_intro; iexact H5
  isplitl [H6]
  · iapply owns_intro; iexact H6
  isplitl [H7]
  · iapply owns_intro; iexact H7
  iapply owns_writes _ _ _ _ _ (cover2_8 _)
  iexact H8

/-- At every grid point the pipeline calls the body on buffers that, by the lemmas above, hold the input blocks; the body's
    run then leaves exactly what `dat2` says, the invariant and the core's debts riding along as `P`. -/
theorem body_obligation2 (c : Dev nD) : BodyObligation (dat2 (F := F) V c) (defs₀ (F := F)) Variants.none () Set.univ := by
  intro t
  rw [bigSep_W2, bigSep_W2]
  simp only [before2_0, before2_1, before2_2, before2_3, before2_4, before2_5, before2_6, before2_7,
    after2_0, after2_1, after2_2, after2_3, after2_4, after2_5, after2_6, after2_7, after2_8]
  rw [(still2 V c t.succ t.castSucc).1, (still2 V c t.succ t.castSucc).2]
  show _ ⊢ wp frame _ Set.univ (bodyAt2 t) _
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%y, H8⟩⟩
  iapply sound_kernel2 c Set.univ (grid2.coords t) _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t)
    ((dat2 V c).before 8 t y) iprop((dat2 V c).Φ t.castSucc ∗ (dat2 V c).owesAt () t.castSucc) _ (fun _ => sep_assoc.1)
  unfold bufs2
  iframe

end Cert.Kernel.Hand
-- ==== Proof.K.R3.lean ====
/-
  The fourth kernel region of the program (custom_call 3, grid of 64 points, eighteen windows of which the last
  is the one output).

  * what each window sees of its array at a grid point, the arrays at the contents the region is entered with;
  * the block the kernel body stores in the output window, as a function of the seventeen input blocks, and the
    triple of the body that says so;
  * the proof data of the pipeline and its body obligation;
  * windows 0 and 1 see one array: how that array's ownership is dealt between the two on entry and
    reassembled on exit.
-/
import proofs.«131422_j57432302682877_2_alg».proof.Proof.Gen.Kernel.Launch
import proofs.«131422_j57432302682877_2_alg».proof.Proof.Gen.Kernel.Skeleton
import proofs.«131422_j57432302682877_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What a window sees -/

/-- The part of window `w`'s array that lies under the window at grid point `t`, the array holding what the
    region was entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The output block -/

/-- Every access of the body is to a whole staging buffer: per buffer shape, the rectangle that is all of it. -/
abbrev whole_S392x768 : Rect S392x768 := Rect.unit (s := S392x768) ![0, 0] S392x768.size inb_S392x768_S392x768_0_0
abbrev whole_S768x768 : Rect S768x768 := Rect.unit (s := S768x768) ![0, 0] S768x768.size inb_S768x768_S768x768_0_0
abbrev whole_S768 : Rect S768 := Rect.unit (s := S768) ![0] S768.size inb_S768_S768_0
abbrev whole_S1x1 : Rect S1x1 := Rect.unit (s := S1x1) ![0, 0] S1x1.size inb_S1x1_S1x1_0_0
abbrev whole_S3072x768 : Rect S3072x768 := Rect.unit (s := S3072x768) ![0, 0] S3072x768.size inb_S3072x768_S3072x768_0_0
abbrev whole_S3072 : Rect S3072 := Rect.unit (s := S3072) ![0] S3072.size inb_S3072_S3072_0
abbrev whole_S768x3072 : Rect S768x3072 := Rect.unit (s := S768x3072) ![0, 0] S768x3072.size inb_S768x3072_S768x3072_0_0

/-- The output window's buffer once the body has run, from the blocks in the seventeen input buffers. The body
    stores once, over the whole buffer. What it stores is its last payload, applied to: a payload of the second
    input block; what the body's second part makes of the first part's two results (one computed from the first
    input block and six parameter blocks, the other from the ninth block), of a zero block and of six further
    parameter blocks; and the two one-element blocks read last. -/
def out3_17 (x0 : Vec F S392x768 .bf16) (x1 : Vec F S392x768 .bf16) (x2 : Vec F S768x768 .bf16) (x3 : Vec F S768 .f32) (x4 : Vec F S1x1 .f32) (x5 : Vec F S3072x768 .bf16) (x6 : Vec F S3072 .f32) (x7 : Vec F S1x1 .f32) (x8 : Vec F S768x3072 .bf16) (x9 : Vec F S768 .f32) (x10 : Vec F S1x1 .f32) (x11 : Vec F S768x768 .bf16) (x12 : Vec F S768 .f32) (x13 : Vec F S1x1 .f32) (x14 : Vec F S1x1 .f32) (x15 : Vec F S1x1 .f32) (x16 : Vec F S1x1 .f32) : Vec F S392x768 .f32 :=
  View.canon [⟨whole_S392x768,
    k3_pay1 (k3_pay4 (View.ld x1 whole_S392x768))
      (k3_pay5 (k3_pay2 (View.ld x0 whole_S392x768) (View.ld x2 whole_S768x768) (View.ld x3 whole_S768) (View.ld x4 whole_S1x1) (View.ld x5 whole_S3072x768) (View.ld x6 whole_S3072) (View.ld x7 whole_S1x1)) (k3_pay3 (View.ld x8 whole_S768x3072))
        (constant S392x768 .f32 0x00000000#32) (View.ld x9 whole_S768) (View.ld x10 whole_S1x1) (View.ld x11 whole_S768x768) (View.ld x12 whole_S768) (View.ld x13 whole_S1x1) (View.ld x14 whole_S1x1))
      (View.ld x15 whole_S1x1) (View.ld x16 whole_S1x1)⟩]

/-- A single store over the whole buffer leaves no index out. -/
theorem cover3_17 (p : Vec F S392x768 .f32) (y : S392x768.Idx) :
    ∃ pc ∈ ([⟨whole_S392x768, p⟩] : List (View.Piece (Elt F) S392x768 .f32)), y ∈ pc.1.set :=
  View.cover_of_tiled _ S392x768.size (by rfl) y

/-! ## The body's triple -/

/-- Hands back one buffer the body only read: from the points-to `h`, the buffer seen through its memref at the
    very contents it was opened at. -/
local macro "hand_back " h:ident : tactic =>
  `(tactic| (isplitl [$h]; · (iexists _; iframe; ipureintro; rfl)))

set_option maxHeartbeats 4000000 in
/-- Run on eighteen whole staging buffers, the first seventeen read as `x0 … x16` and the last holding anything,
    the body ends with the seventeen as they were and the last read as `out3_17 x0 … x16`. (The body also loads
    the output buffer before storing to it; the value loaded is not used.) -/
theorem sound_kernel3 (c : Dev nD) (E : Set ℕ) (i : grid3.Coords) (arg1 : Memref sig .tc .vmem S392x768 .bf16) (harg1 : arg1.IsWhole) (arg2 : Memref sig .tc .vmem S392x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S1x1 .f32) (harg5 : arg5.IsWhole) (arg6 : Memref sig .tc .vmem S3072x768 .bf16) (harg6 : arg6.IsWhole) (arg7 : Memref sig .tc .vmem S3072 .f32) (harg7 : arg7.IsWhole) (arg8 : Memref sig .tc .vmem S1x1 .f32) (harg8 : arg8.IsWhole) (arg9 : Memref sig .tc .vmem S768x3072 .bf16) (harg9 : arg9.IsWhole) (arg10 : Memref sig .tc .vmem S768 .f32) (harg10 : arg10.IsWhole) (arg11 : Memref sig .tc .vmem S1x1 .f32) (harg11 : arg11.IsWhole) (arg12 : Memref sig .tc .vmem S768x768 .bf16) (harg12 : arg12.IsWhole) (arg13 : Memref sig .tc .vmem S768 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S392x768 .f32) (harg18 : arg18.IsWhole)
    (x0 : Vec F S392x768 .bf16) (x1 : Vec F S392x768 .bf16) (x2 : Vec F S768x768 .bf16) (x3 : Vec F S768 .f32) (x4 : Vec F S1x1 .f32) (x5 : Vec F S3072x768 .bf16) (x6 : Vec F S3072 .f32) (x7 : Vec F S1x1 .f32) (x8 : Vec F S768x3072 .bf16) (x9 : Vec F S768 .f32) (x10 : Vec F S1x1 .f32) (x11 : Vec F S768x768 .bf16) (x12 : Vec F S768 .f32) (x13 : Vec F S1x1 .f32) (x14 : Vec F S1x1 .f32) (x15 : Vec F S1x1 .f32) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ junk, owns (c : Thread nD τ) arg18 fullShare junk)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out3_17 x0 x1 x2 x3 x4 x5 x6 x7 x8 x9 x10 x11 x12 x13 x14 x15 x16)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  -- by definition the body and its two parts are loads, pure payloads, and one store
  rw [cc3_kernel_eq_skeleton]; unfold cc3_kernel_skel
  rw [k3_part1_eq_skeleton, k3_part2_eq_skeleton]; unfold k3_part1_skel k3_part2_skel
  -- open each buffer: the contents `b` underneath, and the fact that the memref reads `x` of them
  unfold owns
  iintro ⟨⟨%b0, %e0, B0⟩, ⟨%b1, %e1, B1⟩, ⟨%b2, %e2, B2⟩, ⟨%b3, %e3, B3⟩, ⟨%b4, %e4, B4⟩, ⟨%b5, %e5, B5⟩, ⟨%b6, %e6, B6⟩, ⟨%b7, %e7, B7⟩, ⟨%b8, %e8, B8⟩, ⟨%b9, %e9, B9⟩, ⟨%b10, %e10, B10⟩, ⟨%b11, %e11, B11⟩, ⟨%b12, %e12, B12⟩, ⟨%b13, %e13, B13⟩, ⟨%b14, %e14, B14⟩, ⟨%b15, %e15, B15⟩, ⟨%b16, %e16, B16⟩, ⟨%junk, %b17, -, B17⟩, Hret⟩
  subst e0 e1 e2 e3 e4 e5 e6 e7 e8 e9 e10 e11 e12 e13 e14 e15 e16
  -- the loads, then the store
  sl_exec
  sl_step
  iapply Hret
  hand_back B0; hand_back B1; hand_back B2; hand_back B3; hand_back B4; hand_back B5; hand_back B6; hand_back B7; hand_back B8; hand_back B9; hand_back B10; hand_back B11; hand_back B12; hand_back B13; hand_back B14; hand_back B15; hand_back B16
  -- the output buffer: what one covering store leaves reads as the stored payload
  iexists _; iframe; ipureintro
  exact View.read_writes_eq_canon _ _ _ (cover3_17 _)

/-- The share window `w` holds of its array: windows 0 and 1 are laid over one array and hold the left and the
    right half of its full share; every other window holds the full share of its own array. -/
def q3 (w : Fin 18) : PosShare TreeShare :=
  if w = 0 then fullShare.left else if w = 1 then fullShare.right else fullShare

/-! ## The proof data -/

/-- The pipeline's proof data on core `c`. The arrays are what the region was entered with. The body leaves
    each input buffer at the window's block of its array, and the output buffer at `out3_17` of the seventeen
    input blocks. Between points the body keeps nothing but the core's scratch memory and generator register, and
    it owes nothing. Windows 0 and 1, laid over one array, hold the left and the right half of its share; every
    other window holds its array's full share. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
    | ⟨_ + 18, h⟩ => absurd h (Nat.not_lt.2 (Nat.le_add_left _ _))
  Φ _ := Pipeline.ΦA spec3 c
  q := q3
  owed _ := 0

theorem A_eq3 (c : Dev nD) (w : Fin cfg3.W) : (dat3 V c).A w = V c (Pipeline.arrRef spec3 w) := rfl

/-- The invariant does not depend on the point, -/
theorem Φ_eq3 (c : Dev nD) (k : Fin (cfg3.N + 1)) : (dat3 V c).Φ k = Pipeline.ΦA spec3 c := rfl

/-- nor does what the core owes. -/
theorem owes_eq3 (c : Dev nD) (k : Fin (cfg3.N + 1)) : (dat3 V c).owesAt () k = (dat3 V c).owesAt () 0 := rfl

/-- What the body leaves in each window's buffer (the proof data's `after`, one window at a time). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) :
    (dat3 V c).after 17 t = out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) := by
  dsimp only [dat3]

set_option maxHeartbeats 2000000 in
/-- An input window's buffer already holds, when the body is called at a point, what the body leaves in it there.
    Every window but the last is an input, uncut and never idle, and what the body leaves in its buffer is the
    window's block of the array. If the pipeline fetches the window at that point, the fetch has put the block
    there. If not, the window's block index is what it was at the point before, where the body left that same
    block in place. -/
theorem before3_in (c : Dev nD) (t : Fin cfg3.N) :
    ∀ w : Fin 18, w ≠ 17 → ∀ d, (dat3 V c).before w t d = (dat3 V c).after w t := by
  intro w
  fin_cases w <;> first
    | exact fun h => absurd rfl h
    | (intro _ d
       refine ((dat3 V c).before_in_eq_fetched _ rfl (fun _ => rfl) (fun _ _ _ => rfl) (fun _ => ?_) t d).trans ?_
       all_goals (dsimp only [dat3, Dat.fetched, Dat.blockOf, iblk3]; try rfl))

/-- The same, window by window, with the block spelled out. -/
theorem before3_0 (c : Dev nD) (t : Fin cfg3.N) (d) : (dat3 V c).before 0 t d = iblk3 V c 0 t :=
  (before3_in V c t 0 (by decide) d).trans (after3_0 V c t)
theorem before3_1 (c : Dev nD) (t : Fin cfg3.N) (d) : (dat3 V c).before 1 t d = iblk3 V c 1 t :=
  (before3_in V c t 1 (by decide) d).trans (after3_1 V c t)
theorem before3_2 (c : Dev nD) (t : Fin cfg3.N) (d) : (dat3 V c).before 2 t d = iblk3 V c 2 t :=
  (before3_in V c t 2 (by decide) d).trans (after3_2 V c t)
theorem before3_3 (c : Dev nD) (t : Fin cfg3.N) (d) : (dat3 V c).before 3 t d = iblk3 V c 3 t :=
  (before3_in V c t 3 (by decide) d).trans (after3_3 V c t)
theorem before3_4 (c : Dev nD) (t : Fin cfg3.N) (d) : (dat3 V c).before 4 t d = iblk3 V c 4 t :=
  (before3_in V c t 4 (by decide) d).trans (after3_4 V c t)
theorem before3_5 (c : Dev nD) (t : Fin cfg3.N) (d) : (dat3 V c).before 5 t d = iblk3 V c 5 t :=
  (before3_in V c t 5 (by decide) d).trans (after3_5 V c t)
theorem before3_6 (c : Dev nD) (t : Fin cfg3.N) (d) : (dat3 V c).before 6 t d = iblk3 V c 6 t :=
  (before3_in V c t 6 (by decide) d).trans (after3_6 V c t)
theorem before3_7 (c : Dev nD) (t : Fin cfg3.N) (d) : (dat3 V c).before 7 t d = iblk3 V c 7 t :=
  (before3_in V c t 7 (by decide) d).trans (after3_7 V c t)
theorem before3_8 (c : Dev nD) (t : Fin cfg3.N) (d) : (dat3 V c).before 8 t d = iblk3 V c 8 t :=
  (before3_in V c t 8 (by decide) d).trans (after3_8 V c t)
theorem before3_9 (c : Dev nD) (t : Fin cfg3.N) (d) : (dat3 V c).before 9 t d = iblk3 V c 9 t :=
  (before3_in V c t 9 (by decide) d).trans (after3_9 V c t)
theorem before3_10 (c : Dev nD) (t : Fin cfg3.N) (d) : (dat3 V c).before 10 t d = iblk3 V c 10 t :=
  (before3_in V c t 10 (by decide) d).trans (after3_10 V c t)
theorem before3_11 (c : Dev nD) (t : Fin cfg3.N) (d) : (dat3 V c).before 11 t d = iblk3 V c 11 t :=
  (before3_in V c t 11 (by decide) d).trans (after3_11 V c t)
theorem before3_12 (c : Dev nD) (t : Fin cfg3.N) (d) : (dat3 V c).before 12 t d = iblk3 V c 12 t :=
  (before3_in V c t 12 (by decide) d).trans (after3_12 V c t)
theorem before3_13 (c : Dev nD) (t : Fin cfg3.N) (d) : (dat3 V c).before 13 t d = iblk3 V c 13 t :=
  (before3_in V c t 13 (by decide) d).trans (after3_13 V c t)
theorem before3_14 (c : Dev nD) (t : Fin cfg3.N) (d) : (dat3 V c).before 14 t d = iblk3 V c 14 t :=
  (before3_in V c t 14 (by decide) d).trans (after3_14 V c t)
theorem before3_15 (c : Dev nD) (t : Fin cfg3.N) (d) : (dat3 V c).before 15 t d = iblk3 V c 15 t :=
  (before3_in V c t 15 (by decide) d).trans (after3_15 V c t)
theorem before3_16 (c : Dev nD) (t : Fin cfg3.N) (d) : (dat3 V c).before 16 t d = iblk3 V c 16 t :=
  (before3_in V c t 16 (by decide) d).trans (after3_16 V c t)

/-! ## The body obligation -/

set_option maxHeartbeats 4000000 in
/-- At every point the body, handed the invariant, the core's debts and the eighteen current staging buffers, runs
    to the same invariant and debts and the buffers at what the proof data say it leaves: the input buffers hold
    their blocks, so the body's triple applies, and it touches nothing else. -/
theorem body_obligation3 (c : Dev nD) : BodyObligation (dat3 (F := F) V c) (defs₀ (F := F)) Variants.none () Set.univ := by
  intro t
  rw [bigSep_W3, bigSep_W3]
  simp only [before3_0, before3_1, before3_2, before3_3, before3_4, before3_5, before3_6, before3_7, before3_8, before3_9, before3_10, before3_11, before3_12, before3_13, before3_14, before3_15, before3_16,
    after3_0, after3_1, after3_2, after3_3, after3_4, after3_5, after3_6, after3_7, after3_8, after3_9, after3_10, after3_11, after3_12, after3_13, after3_14, after3_15, after3_16, after3_17, Φ_eq3, owes_eq3]
  iintro ⟨Inv, Debt, ⟨%_, I0⟩, ⟨%_, I1⟩, ⟨%_, I2⟩, ⟨%_, I3⟩, ⟨%_, I4⟩, ⟨%_, I5⟩, ⟨%_, I6⟩, ⟨%_, I7⟩, ⟨%_, I8⟩, ⟨%_, I9⟩, ⟨%_, I10⟩, ⟨%_, I11⟩, ⟨%_, I12⟩, ⟨%_, I13⟩, ⟨%_, I14⟩, ⟨%_, I15⟩, ⟨%_, I16⟩, ⟨%junk, O⟩⟩
  iapply (sound_kernel3 c Set.univ (grid3.coords t) _ _ _ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) _)
  iframe I0 I1 I2 I3 I4 I5 I6 I7 I8 I9 I10 I11 I12 I13 I14 I15 I16
  isplitl [O]
  · iexists _; iexact O
  · iintro ⟨J0, J1, J2, J3, J4, J5, J6, J7, J8, J9, J10, J11, J12, J13, J14, J15, J16, J17⟩
    iframe

/-! ## One array behind two windows

Windows 0 and 1 of the region are laid over the same array, so the seventeen distinct arrays behind the eighteen
windows cannot each be held whole by "its" window. The array under windows 0 and 1 is held in two halves, window 0
the left half of the full share and window 1 the right half; every other array is held at the full share. -/

/-- Windows 0 and 1 are laid over the same array. -/
theorem sameArr3 : Pipeline.arrRef spec3 0 = Pipeline.arrRef spec3 1 := rfl

/-- From window 1 on, no two windows are laid over one array. -/
theorem arrRef3_injOn : ∀ x ∈ (Finset.univ : Finset (Fin 18)).erase 0, ∀ y ∈ (Finset.univ : Finset (Fin 18)).erase 0,
    Pipeline.arrRef spec3 x = Pipeline.arrRef spec3 y → x = y := by decide

/-- So the arrays behind the eighteen windows are the arrays behind windows 1 to 17. -/
theorem arrImage3 : (Finset.univ : Finset (Fin 18)).image (Pipeline.arrRef spec3)
    = ((Finset.univ : Finset (Fin 18)).erase 0).image (Pipeline.arrRef spec3) := by
  ext b
  simp only [Finset.mem_image, Finset.mem_erase, Finset.mem_univ, true_and, and_true]
  constructor
  · rintro ⟨w, rfl⟩
    by_cases h : w = 0
    · subst h; exact ⟨1, by decide, sameArr3.symm⟩
    · exact ⟨w, h, rfl⟩
  · rintro ⟨w, -, rfl⟩; exact ⟨w, rfl⟩

section Deal

/-- Two assertions that entail each other are the same assertion. -/
theorem eq_of_equiv {P Q : sProp 𝕄} (h : P ⊣⊢ Q) : P = Q := equiv_iff.mp (And.intro h.mp h.mpr)

variable {c : Dev nD} (dat : Dat τ (Elt F) Unit ℕ (Pipeline.UD sig nD τ) ℕ cfg3 c)
  (W : (b : Ref sig .tc) → Buf (Elt F) ((c : Thread nD τ).loc b))
  (G : (w : Fin cfg3.W) → Buf (Elt F) ((cfg3.win w).arr.view.loc (c : Thread nD τ)))

/-- Window `w`'s array as the proof data hold it: at the window's share, at contents `G w`. -/
def held3 (w : Fin cfg3.W) : sProp 𝕄 :=
  (cfg3.win w).arr.view.loc (c : Thread nD τ) ↦[(cfg3.win w).arr.view.set]{dat.share w} G w

/-- The buffer `b` whole, at share `q`, at contents `W b`. -/
def buf3 (q : PosShare TreeShare) (b : Ref sig .tc) : sProp 𝕄 := ((c : Thread nD τ).loc b) ↦{q} W b

/-- When the proof data hold the arrays at the shares `q3`, at contents `G` that are the buffers' contents `W`
    read window by window, the seventeen distinct buffers whole at the full share ARE the proof data's arrays:
    the buffer under windows 0 and 1 splits along its share into the two windows' halves, and each other buffer
    is its one window's array. -/
theorem arrays3_eq (hq : ∀ w, dat.q w = q3 w) (hG : ∀ w, G w = W (Pipeline.arrRef spec3 w)) :
    (Pipeline.arrBufs spec3 c W : sProp 𝕄) = dat.arrays G := by
  classical
  -- the shares, read off `q3`: an output window holds the full share whatever `q` says
  have s0 : dat.share 0 = fullShare.left := by
    unfold Dat.share; rw [show (cfg3.win 0).isOut = false from rfl, hq]; rfl
  have s1 : dat.share 1 = fullShare.right := by
    unfold Dat.share; rw [show (cfg3.win 1).isOut = false from rfl, hq]; rfl
  have sT : ∀ w : Fin 18, w ≠ 0 → w ≠ 1 → dat.share w = fullShare := by
    intro w n0 n1; unfold Dat.share; split
    · rfl
    · rw [hq]; unfold q3; rw [if_neg n0, if_neg n1]
  -- window by window: a window's array is a whole buffer
  have e0 : held3 dat G 0 = buf3 W fullShare.left (Pipeline.arrRef spec3 1) := by
    unfold held3 buf3; rw [(arr_whole3 0).set_eq_univ, s0, hG]
  have e1 : held3 dat G 1 = buf3 W fullShare.right (Pipeline.arrRef spec3 1) := by
    unfold held3 buf3; rw [(arr_whole3 1).set_eq_univ, s1, hG]
  have eT : bigSep (((Finset.univ : Finset (Fin 18)).erase 0).erase 1) (held3 dat G)
      = bigSep (((Finset.univ : Finset (Fin 18)).erase 0).erase 1) fun w => buf3 W fullShare (Pipeline.arrRef spec3 w) :=
    bigSep_congr fun w hw => by
      have n1 : w ≠ 1 := (Finset.mem_erase.mp hw).1
      have n0 : w ≠ 0 := (Finset.mem_erase.mp (Finset.mem_erase.mp hw).2).1
      unfold held3 buf3; rw [(arr_whole3 w).set_eq_univ, sT w n0 n1, hG]
  -- the buffers: those behind windows 1 to 17, one each
  have L : (Pipeline.arrBufs spec3 c W : sProp 𝕄)
      = iprop(buf3 W fullShare (Pipeline.arrRef spec3 1)
          ∗ bigSep (((Finset.univ : Finset (Fin 18)).erase 0).erase 1) fun w => buf3 W fullShare (Pipeline.arrRef spec3 w)) := by
    unfold Pipeline.arrBufs
    rw [arrImage3]
    refine (Finset.fold_image fun a ha b hb h => arrRef3_injOn a (Finset.mem_coe.mp ha) b (Finset.mem_coe.mp hb) h).trans ?_
    exact bigSep_erase (i := (1 : Fin 18)) (by decide)
  -- the arrays: windows 0 and 1, then the rest
  have R : dat.arrays G = iprop(held3 dat G 0 ∗ held3 dat G 1
      ∗ bigSep (((Finset.univ : Finset (Fin 18)).erase 0).erase 1) (held3 dat G)) := by
    show bigSep Finset.univ (held3 dat G) = _
    rw [bigSep_univ_split (0 : Fin 18), bigSep_erase (i := (1 : Fin 18)) (s := Finset.univ.erase 0) (by decide)]
    rfl
  rw [L, R, e0, e1, eT]
  unfold buf3
  rw [eq_of_equiv (pointsTo_share (PosShare.mem_left_op_right fullShare))]
  exact eq_of_equiv sep_assoc

end Deal

/-! ## Entry and exit of the region -/

/-- On entry: the seventeen distinct buffers behind the windows' arrays, whole at the full share at the contents the
    region is entered with, make the proof data's arrays as they stand before the first point. -/
theorem hsplit3 (c : Dev nD) :
    (Pipeline.arrBufs spec3 c (V c) : sProp 𝕄) ⊢ (dat3 V c).arrays ((dat3 V c).arrAt · 0) :=
  Entails.of_eq (arrays3_eq (dat3 V c) (V c) _ (fun _ => rfl) (fun _ => rfl))

/-- On exit: the proof data's arrays as they stand after the last point, if those are the contents `V'` read window
    by window, give back the seventeen buffers whole at the full share at `V'`. -/
theorem hjoin3 (c : Dev nD) (V' : (b : Ref sig .tc) → Buf (Elt F) ((c : Thread nD τ).loc b))
    (hF : ∀ w, (dat3 V c).arrAt w cfg3.N = V' (Pipeline.arrRef spec3 w)) :
    (dat3 V c).arrays ((dat3 V c).arrAt · cfg3.N) ⊢ (Pipeline.arrBufs spec3 c V' : sProp 𝕄) :=
  Entails.of_eq (arrays3_eq (dat3 V c) V' _ (fun _ => rfl) hF).symm

end Cert.Kernel.Hand

end
-- ==== Proof.LibRegionRecord.lean ====
/-
  Over the library only: the record of ONE kernel region of a host program of several regions, for a kernel that
  has no semaphore of its own, owes nothing at any grid point, reads no prefetched table, and whose region
  invariant is the scoped rest beside the generator register.

  Between two items of the host program a core holds every unscoped buffer whole at some contents, beside its
  generator register at some state and the fact that it owes nothing (`Rest`). The record is entered from the
  contents `Vin` and left at `Vout`. What is particular to a region — how the unscoped buffers at `Vin` make the
  proof data's arrays at entry beside a bypassing part `Z`, and how the arrays at their final contents and `Z`
  make the unscoped buffers at `Vout` — is taken as two entailments, so that the same record serves a region
  whose windows hold distinct arrays and one whose windows share an array.
-/
import Idealize.ShloMosaic.Lib.Pipeline.Regions
import Idealize.ShloMosaic.Lib.Pipeline.Frame

noncomputable section

namespace RegionRecord

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What a core holds beside its unscoped buffers between two items: the generator register at some state, and
    that it owes nothing. -/
def Rest (c : Dev nD) : sProp 𝕄 :=
  iprop((∃ r, prngReg c r) ∗ ∃ W, owes (c : Thread nD τ) (0 : CellTallies nD τ sig Unit) W)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- The region record from the layout facts, the body obligation, the proof data's shape (`howed`, `hrec`, `hΦ`,
    `hnotab`) and the two entailments that sort the arrays out of the unscoped buffers and put them back. -/
def plain (p : P) (win : WinFacts₀ (pcs p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c t, (pdats p c).recorded t = Set.univ)
    (hΦ : ∀ c t, (pdats p c).Φ t = ΦA (U := U) (Val := Val) (pin pcs a p).spec c)
    (hnotab : ∀ c : Dev nD, (BI.emp : sProp 𝕄) ⊢ prefHeld (pcs p).pre c (fun _ => fullShare) (a p).1)
    (Vin Vout : Dev nD → Valuation τ sig Val) (Z : Dev nD → sProp 𝕄)
    (hsplit : ∀ c : Dev nD, (StableHlo.held (c : Thread nD τ) (ucRefs τ sig) (Vin c) : sProp 𝕄)
      ⊢ iprop((pdats p c).arrays ((pdats p c).arrAt · 0) ∗ Z c))
    (hjoin : ∀ c : Dev nD, iprop((pdats p c).arrays ((pdats p c).arrAt · (pin pcs a p).N) ∗ Z c)
      ⊢ (StableHlo.held (c : Thread nD τ) (ucRefs τ sig) (Vout c) : sProp 𝕄)) :
    RegionSeg pcs a pdats () defs₀ 𝒱₀ L lv p where
  win := win
  block_pos := hpos
  stage_whole := hstage
  K := PEmpty
  osem k := k.elim
  ho := OwnSemFacts.none _
  hbody := hbody
  hwaits := hwaits_of_owed_zero _ _ _ _ L lv p howed
  pre c := iprop(StableHlo.held (c : Thread nD τ) (ucRefs τ sig) (Vin c) ∗ Rest c)
  post c := iprop(StableHlo.held (c : Thread nD τ) (ucRefs τ sig) (Vout c) ∗ Rest c)
  X c := iprop(∃ r, prngReg c r)
  Y c := iprop(∃ r, prngReg c r)
  Z := Z
  hentry c := by
    -- the buffers give the arrays and the bypassing part; the register enters the invariant; the debt is nothing
    unfold Rest Dat.owesAt owesWithin
    rw [howed c 0]
    iintro ⟨⟨Hheld, Hreg, ⟨%W, Howes⟩⟩, -, -⟩
    ihave Hs := (hsplit c) $$ Hheld
    icases Hs with ⟨Harr, Hz⟩
    imodintro
    isplitl [Harr]; · iexact Harr
    isplitr; · iapply (hnotab c); iempintro
    isplitl [Howes]
    · iexists W; isplitr
      · ipureintro; rw [Dat.bound, hrec c 0]; exact fun _ _ => Or.inl trivial
      iexact Howes
    isplitl [Hreg]; · iexact Hreg
    iexact Hz
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    unfold Rest Dat.owesAt owesWithin
    rw [howed c (Fin.last _)]
    iintro ⟨Harr, ⟨%W, -, Howes⟩, Hreg, Hz⟩
    imodintro
    isplitl [Harr Hz]
    · iapply (hjoin c); isplitl [Harr]; · iexact Harr
      iexact Hz
    isplitl [Hreg]; · iexact Hreg
    iexists W; iexact Howes

end RegionRecord

end
-- ==== Proof.K.Run.lean ====
/-
  The kernel program's run, item by item.

  @main is nine items: five stretches of host operations (reshapes, the layers' scales computed from the scalar
  arguments, the weights rounded for the matrix unit) around four kernel regions. Between two items a core holds
  every unscoped buffer whole; `St j` is what those buffers hold after item j − 1, from the launch memory on:
  a host stretch applies its operations, a region leaves its input arrays as it found them and its one output
  array at the blocks the grid points wrote back. The run ends with every unscoped buffer at `St9`; reading
  that valuation back gives the arguments unchanged and the result as the last reshape of region 3's output.
-/
import proofs.«131422_j57432302682877_2_alg».proof.Proof.K.R0
import proofs.«131422_j57432302682877_2_alg».proof.Proof.K.R1
import proofs.«131422_j57432302682877_2_alg».proof.Proof.K.R2
import proofs.«131422_j57432302682877_2_alg».proof.Proof.K.R3
import proofs.«131422_j57432302682877_2_alg».proof.Proof.LibRegionRecord
import proofs.«131422_j57432302682877_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A valuation of the unscoped buffers read at the TensorCore's references. -/
abbrev rd (S : Dev nD → Valuation τ sig (Elt F)) : (c : Dev nD) → (b : Ref sig .tc) → Buf (Elt F) ((c : Thread nD τ).loc b) :=
  fun c b => S c b

/-! ## The buffers' contents after each item -/

/-- At launch. -/
abbrev St0 (c : Dev nD) : Valuation τ sig (Elt F) := fun b => m (c, b)

/-- After the host operations `hostOps0`. -/
def St1 (c : Dev nD) : Valuation τ sig (Elt F) := StableHlo.after hostOps0 (St0 m c)

theorem St1_kept (c : Dev nD) (r : Ref sig .tc) (hr : r ∉ hostOps0_W) : rd (St1 m) c r = rd (St0 m) c r :=
  StableHlo.after_of_writes_sub hostOps0 _ hostOps0_writes hr

/-- After region 0: each of its arrays at what the pipeline leaves there, every other buffer as the region found it. -/
def St2 (c : Dev nD) : Valuation τ sig (Elt F) :=
  Pipeline.withArrays spec0 c (St1 m c) fun w => (dat0 (rd (St1 m)) c).arrAt w cfg0.N

theorem St2_at_array (c : Dev nD) (w : Fin cfg0.W) :
    (dat0 (rd (St1 m)) c).arrAt w cfg0.N = rd (St2 m) c (Pipeline.arrRef spec0 w) := by
  unfold St2; exact (Pipeline.withArrays_arr spec0 launch0.win.arr_inj c (St1 m c) (fun w => (dat0 (rd (St1 m)) c).arrAt w cfg0.N) w).symm

theorem St2_off_arrays (c : Dev nD) (b : Ref sig .tc) (hb : b ∉ Finset.univ.image (Pipeline.arrRef spec0)) :
    rd (St2 m) c b = rd (St1 m) c b :=
  Pipeline.withArrays_of_ne spec0 c (St1 m c) _ b fun w e => hb (Finset.mem_image.mpr ⟨w, Finset.mem_univ _, e⟩)

/-- Region 0 changes only its output array: an input array ends as it was found, and no other buffer is touched. -/
theorem St2_kept (c : Dev nD) (r : Ref sig .tc) (hr : r ≠ main_v7) : rd (St2 m) c r = rd (St1 m) c r := by
  by_cases h : r ∈ Finset.univ.image (Pipeline.arrRef spec0)
  · obtain ⟨w, -, rfl⟩ := Finset.mem_image.mp h
    rw [← St2_at_array m c w]
    have hin : (cfg0.win w).isOut = false := by
      revert hr; revert w; decide
    exact (dat0 (rd (St1 m)) c).arrAt_in w hin _
  · exact St2_off_arrays m c r h

/-- After the host operations `hostOps1`. -/
def St3 (c : Dev nD) : Valuation τ sig (Elt F) := StableHlo.after hostOps1 (St2 m c)

theorem St3_kept (c : Dev nD) (r : Ref sig .tc) (hr : r ∉ hostOps1_W) : rd (St3 m) c r = rd (St2 m) c r :=
  StableHlo.after_of_writes_sub hostOps1 _ hostOps1_writes hr

/-- After region 1: each of its arrays at what the pipeline leaves there, every other buffer as the region found it. -/
def St4 (c : Dev nD) : Valuation τ sig (Elt F) :=
  Pipeline.withArrays spec1 c (St3 m c) fun w => (dat1 (rd (St3 m)) c).arrAt w cfg1.N

theorem St4_at_array (c : Dev nD) (w : Fin cfg1.W) :
    (dat1 (rd (St3 m)) c).arrAt w cfg1.N = rd (St4 m) c (Pipeline.arrRef spec1 w) := by
  unfold St4; exact (Pipeline.withArrays_arr spec1 launch1.win.arr_inj c (St3 m c) (fun w => (dat1 (rd (St3 m)) c).arrAt w cfg1.N) w).symm

theorem St4_off_arrays (c : Dev nD) (b : Ref sig .tc) (hb : b ∉ Finset.univ.image (Pipeline.arrRef spec1)) :
    rd (St4 m) c b = rd (St3 m) c b :=
  Pipeline.withArrays_of_ne spec1 c (St3 m c) _ b fun w e => hb (Finset.mem_image.mpr ⟨w, Finset.mem_univ _, e⟩)

/-- Region 1 changes only its output array: an input array ends as it was found, and no other buffer is touched. -/
theorem St4_kept (c : Dev nD) (r : Ref sig .tc) (hr : r ≠ main_v14) : rd (St4 m) c r = rd (St3 m) c r := by
  by_cases h : r ∈ Finset.univ.image (Pipeline.arrRef spec1)
  · obtain ⟨w, -, rfl⟩ := Finset.mem_image.mp h
    rw [← St4_at_array m c w]
    have hin : (cfg1.win w).isOut = false := by
      revert hr; revert w; decide
    exact (dat1 (rd (St3 m)) c).arrAt_in w hin _
  · exact St4_off_arrays m c r h

/-- After the host operations `hostOps2`. -/
def St5 (c : Dev nD) : Valuation τ sig (Elt F) := StableHlo.after hostOps2 (St4 m c)

theorem St5_kept (c : Dev nD) (r : Ref sig .tc) (hr : r ∉ hostOps2_W) : rd (St5 m) c r = rd (St4 m) c r :=
  StableHlo.after_of_writes_sub hostOps2 _ hostOps2_writes hr

/-- After region 2: each of its arrays at what the pipeline leaves there, every other buffer as the region found it. -/
def St6 (c : Dev nD) : Valuation τ sig (Elt F) :=
  Pipeline.withArrays spec2 c (St5 m c) fun w => (dat2 (rd (St5 m)) c).arrAt w cfg2.N

theorem St6_at_array (c : Dev nD) (w : Fin cfg2.W) :
    (dat2 (rd (St5 m)) c).arrAt w cfg2.N = rd (St6 m) c (Pipeline.arrRef spec2 w) := by
  unfold St6; exact (Pipeline.withArrays_arr spec2 launch2.win.arr_inj c (St5 m c) (fun w => (dat2 (rd (St5 m)) c).arrAt w cfg2.N) w).symm

theorem St6_off_arrays (c : Dev nD) (b : Ref sig .tc) (hb : b ∉ Finset.univ.image (Pipeline.arrRef spec2)) :
    rd (St6 m) c b = rd (St5 m) c b :=
  Pipeline.withArrays_of_ne spec2 c (St5 m c) _ b fun w e => hb (Finset.mem_image.mpr ⟨w, Finset.mem_univ _, e⟩)

/-- Region 2 changes only its output array: an input array ends as it was found, and no other buffer is touched. -/
theorem St6_kept (c : Dev nD) (r : Ref sig .tc) (hr : r ≠ main_v23) : rd (St6 m) c r = rd (St5 m) c r := by
  by_cases h : r ∈ Finset.univ.image (Pipeline.arrRef spec2)
  · obtain ⟨w, -, rfl⟩ := Finset.mem_image.mp h
    rw [← St6_at_array m c w]
    have hin : (cfg2.win w).isOut = false := by
      revert hr; revert w; decide
    exact (dat2 (rd (St5 m)) c).arrAt_in w hin _
  · exact St6_off_arrays m c r h

/-- After the host operations `hostOps3`. -/
def St7 (c : Dev nD) : Valuation τ sig (Elt F) := StableHlo.after hostOps3 (St6 m c)

theorem St7_kept (c : Dev nD) (r : Ref sig .tc) (hr : r ∉ hostOps3_W) : rd (St7 m) c r = rd (St6 m) c r :=
  StableHlo.after_of_writes_sub hostOps3 _ hostOps3_writes hr

/-- After region 3: its output array at what the pipeline leaves there; its input arrays — two of its windows read
    one of them — and every other buffer as the region found them. -/
def St8 (c : Dev nD) : Valuation τ sig (Elt F) :=
  Function.update (St7 m c) (Proc.devRef .tc main_v42) ((dat3 (rd (St7 m)) c).arrAt 17 cfg3.N)

theorem St8_kept (c : Dev nD) (r : Ref sig .tc) (hr : r ≠ main_v42) : rd (St8 m) c r = rd (St7 m) c r :=
  Function.update_of_ne (fun e => hr (Proc.devRef_injective _ e)) _ _

theorem St8_at_array (c : Dev nD) (w : Fin cfg3.W) :
    (dat3 (rd (St7 m)) c).arrAt w cfg3.N = rd (St8 m) c (Pipeline.arrRef spec3 w) := by
  by_cases hw : w = 17
  · subst hw
    show _ = Function.update (St7 m c) (Proc.devRef .tc main_v42) _ (Proc.devRef .tc main_v42)
    rw [Function.update_self]
  · have hin : (cfg3.win w).isOut = false := by revert hw; revert w; decide
    have hne : Pipeline.arrRef spec3 w ≠ main_v42 := by revert hw; revert w; decide
    rw [St8_kept m c _ hne]
    exact ((dat3 (rd (St7 m)) c).arrAt_in w hin _).trans (A_eq3 (rd (St7 m)) c w)

/-- After the host operations `hostOps4`. -/
def St9 (c : Dev nD) : Valuation τ sig (Elt F) := StableHlo.after hostOps4 (St8 m c)

theorem St9_kept (c : Dev nD) (r : Ref sig .tc) (hr : r ∉ hostOps4_W) : rd (St9 m) c r = rd (St8 m) c r :=
  StableHlo.after_of_writes_sub hostOps4 _ hostOps4_writes hr

/-! ## The proof data of the four pipelines, each at its region's entry contents -/

/-- Every pipeline's proof data: a literal case split, so that each reduces to its region's own. -/
def pdats : (p : Fin 4) → (c : Dev nD) → Dat τ (Elt F) Unit ℕ (Pipeline.UD sig nD τ) ℕ (Pipeline.pin (pcfgs (F := F)) adm p) c
  | ⟨0, _⟩ => fun c => dat0 (rd (St1 m)) c
  | ⟨1, _⟩ => fun c => dat1 (rd (St3 m)) c
  | ⟨2, _⟩ => fun c => dat2 (rd (St5 m)) c
  | ⟨3, _⟩ => fun c => dat3 (rd (St7 m)) c

/-- No core owes another anything here: no level is assigned. -/
abbrev noLevels : GSem nD τ sig → Finset Unit := fun _ => ∅
abbrev noLevel : GSem nD τ sig → Unit → ℕ := fun _ _ => 0

/-- What rides beside the buffers through every item. -/
abbrev rest : Dev nD → sProp 𝕄 := fun c => RegionRecord.Rest c

/-- No pipeline reads a prefetched table. -/
theorem noTables (p : Fin 4) (c : Dev nD) :
    (BI.emp : sProp 𝕄) ⊢ Pipeline.prefHeld (pcfgs (F := F) p).pre c (fun _ => fullShare) (adm p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]
  | ⟨2, _⟩ => rw [show (Finset.univ : Finset (Fin 0)) = ∅ from rfl, BI.bigSep_empty]
  | ⟨3, _⟩ => rw [show (Finset.univ : Finset (Fin 0)) = ∅ from rfl, BI.bigSep_empty]

/-! ## The regions as items -/

/-- What bypasses a region: the unscoped buffers that are none of its arrays, as the region found them. -/
abbrev bypass0 (c : Dev nD) : sProp 𝕄 := Pipeline.unscopedRest spec0 c (rd (St1 m) c)
abbrev bypass1 (c : Dev nD) : sProp 𝕄 := Pipeline.unscopedRest spec1 c (rd (St3 m) c)
abbrev bypass2 (c : Dev nD) : sProp 𝕄 := Pipeline.unscopedRest spec2 c (rd (St5 m) c)
abbrev bypass3 (c : Dev nD) : sProp 𝕄 := Pipeline.unscopedRest spec3 c (rd (St7 m) c)

/-- Region 0's arrays, distinct whole buffers, sorted out of the unscoped buffers at entry … -/
theorem enter0 (c : Dev nD) : (StableHlo.held (c : Thread nD τ) (Pipeline.ucRefs τ sig) (St1 m c) : sProp 𝕄)
    ⊢ iprop((pdats m 0 c).arrays ((pdats m 0 c).arrAt · 0) ∗ bypass0 m c) := by
  have h := Pipeline.arrays_of_unscopedBufs (p := 0) (pcfgs (F := F)) adm (pdats m) launch0.win launch0.arr_whole c
    ((pdats m 0 c).share_full fun _ => rfl) (rd (St1 m) c) fun _ => rfl
  rwa [Pipeline.unscopedBufs_held] at h

/-- … and put back at their final contents at exit. -/
theorem leave0 (c : Dev nD) : iprop((pdats m 0 c).arrays ((pdats m 0 c).arrAt · cfg0.N) ∗ bypass0 m c)
    ⊢ (StableHlo.held (c : Thread nD τ) (Pipeline.ucRefs τ sig) (St2 m c) : sProp 𝕄) := by
  have h := Pipeline.unscopedBufs_of_arrays (p := 0) (pcfgs (F := F)) adm (Ix := Unit) (Name := ℕ) (U := Pipeline.UD sig nD τ) (Lvl := ℕ)
    launch0.win launch0.arr_whole c (pdats m) ((pdats m 0 c).share_full fun _ => rfl)
    (rd (St1 m) c) (rd (St2 m) c) ((pdats m 0 c).arrAt · cfg0.N) (St2_at_array m c) (St2_off_arrays m c)
  rwa [Pipeline.unscopedBufs_held] at h

def reg0 : Pipeline.RegionSeg (pcfgs (F := F)) adm (pdats m) () defs₀ Variants.none noLevels noLevel 0 :=
  RegionRecord.plain (pcfgs (F := F)) adm (pdats m) defs₀ Variants.none noLevels noLevel 0
    launch0.win.to₀ launch0.block_pos launch0.stage_whole
    (fun c => (body_obligation0 (rd (St1 m)) c).loose) (fun _ _ => rfl) (fun _ _ => rfl) (fun _ _ => rfl) (noTables 0)
    (St1 m) (St2 m) (bypass0 m) (enter0 m) (leave0 m)

/-- Region 1's arrays, distinct whole buffers, sorted out of the unscoped buffers at entry … -/
theorem enter1 (c : Dev nD) : (StableHlo.held (c : Thread nD τ) (Pipeline.ucRefs τ sig) (St3 m c) : sProp 𝕄)
    ⊢ iprop((pdats m 1 c).arrays ((pdats m 1 c).arrAt · 0) ∗ bypass1 m c) := by
  have h := Pipeline.arrays_of_unscopedBufs (p := 1) (pcfgs (F := F)) adm (pdats m) launch1.win launch1.arr_whole c
    ((pdats m 1 c).share_full fun _ => rfl) (rd (St3 m) c) fun _ => rfl
  rwa [Pipeline.unscopedBufs_held] at h

/-- … and put back at their final contents at exit. -/
theorem leave1 (c : Dev nD) : iprop((pdats m 1 c).arrays ((pdats m 1 c).arrAt · cfg1.N) ∗ bypass1 m c)
    ⊢ (StableHlo.held (c : Thread nD τ) (Pipeline.ucRefs τ sig) (St4 m c) : sProp 𝕄) := by
  have h := Pipeline.unscopedBufs_of_arrays (p := 1) (pcfgs (F := F)) adm (Ix := Unit) (Name := ℕ) (U := Pipeline.UD sig nD τ) (Lvl := ℕ)
    launch1.win launch1.arr_whole c (pdats m) ((pdats m 1 c).share_full fun _ => rfl)
    (rd (St3 m) c) (rd (St4 m) c) ((pdats m 1 c).arrAt · cfg1.N) (St4_at_array m c) (St4_off_arrays m c)
  rwa [Pipeline.unscopedBufs_held] at h

def reg1 : Pipeline.RegionSeg (pcfgs (F := F)) adm (pdats m) () defs₀ Variants.none noLevels noLevel 1 :=
  RegionRecord.plain (pcfgs (F := F)) adm (pdats m) defs₀ Variants.none noLevels noLevel 1
    launch1.win.to₀ launch1.block_pos launch1.stage_whole
    (fun c => (body_obligation1 (rd (St3 m)) c).loose) (fun _ _ => rfl) (fun _ _ => rfl) (fun _ _ => rfl) (noTables 1)
    (St3 m) (St4 m) (bypass1 m) (enter1 m) (leave1 m)

/-- Region 2's arrays, distinct whole buffers, sorted out of the unscoped buffers at entry … -/
theorem enter2 (c : Dev nD) : (StableHlo.held (c : Thread nD τ) (Pipeline.ucRefs τ sig) (St5 m c) : sProp 𝕄)
    ⊢ iprop((pdats m 2 c).arrays ((pdats m 2 c).arrAt · 0) ∗ bypass2 m c) := by
  have h := Pipeline.arrays_of_unscopedBufs (p := 2) (pcfgs (F := F)) adm (pdats m) launch2.win launch2.arr_whole c
    ((pdats m 2 c).share_full fun _ => rfl) (rd (St5 m) c) fun _ => rfl
  rwa [Pipeline.unscopedBufs_held] at h

/-- … and put back at their final contents at exit. -/
theorem leave2 (c : Dev nD) : iprop((pdats m 2 c).arrays ((pdats m 2 c).arrAt · cfg2.N) ∗ bypass2 m c)
    ⊢ (StableHlo.held (c : Thread nD τ) (Pipeline.ucRefs τ sig) (St6 m c) : sProp 𝕄) := by
  have h := Pipeline.unscopedBufs_of_arrays (p := 2) (pcfgs (F := F)) adm (Ix := Unit) (Name := ℕ) (U := Pipeline.UD sig nD τ) (Lvl := ℕ)
    launch2.win launch2.arr_whole c (pdats m) ((pdats m 2 c).share_full fun _ => rfl)
    (rd (St5 m) c) (rd (St6 m) c) ((pdats m 2 c).arrAt · cfg2.N) (St6_at_array m c) (St6_off_arrays m c)
  rwa [Pipeline.unscopedBufs_held] at h

def reg2 : Pipeline.RegionSeg (pcfgs (F := F)) adm (pdats m) () defs₀ Variants.none noLevels noLevel 2 :=
  RegionRecord.plain (pcfgs (F := F)) adm (pdats m) defs₀ Variants.none noLevels noLevel 2
    launch2.win.to₀ launch2.block_pos launch2.stage_whole
    (fun c => (body_obligation2 (rd (St5 m)) c).loose) (fun _ _ => rfl) (fun _ _ => rfl) (fun _ _ => rfl) (noTables 2)
    (St5 m) (St6 m) (bypass2 m) (enter2 m) (leave2 m)

/-! ### Region 3, two of whose windows read one array

Its arrays are not distinct, so they are sorted out of the distinct buffers behind them (`hsplit3`) and put back
(`hjoin3`); the buffers that are none of its arrays bypass it, and they hold the same after the region as before. -/

theorem enter3 (c : Dev nD) : (StableHlo.held (c : Thread nD τ) (Pipeline.ucRefs τ sig) (St7 m c) : sProp 𝕄)
    ⊢ iprop((pdats m 3 c).arrays ((pdats m 3 c).arrAt · 0) ∗ bypass3 m c) := by
  have e1 : (unscopedBufs c (rd (St7 m) c) : sProp 𝕄) = StableHlo.held (c : Thread nD τ) (Pipeline.ucRefs τ sig) (St7 m c) :=
    Pipeline.unscopedBufs_held c (St7 m c)
  have e2 : (unscopedBufs c (rd (St7 m) c) : sProp 𝕄)
      = iprop(Pipeline.arrBufs spec3 c (rd (St7 m) c) ∗ Pipeline.unscopedRest spec3 c (rd (St7 m) c)) :=
    Pipeline.unscopedBufs_split₀ (Pipeline.pin (pcfgs (F := F)) adm) 3 winFacts₀3.arr_unscoped c (rd (St7 m) c)
  rw [← e1, e2]
  exact sep_mono (hsplit3 (rd (St7 m)) c) .rfl

theorem leave3 (c : Dev nD) : iprop((pdats m 3 c).arrays ((pdats m 3 c).arrAt · cfg3.N) ∗ bypass3 m c)
    ⊢ (StableHlo.held (c : Thread nD τ) (Pipeline.ucRefs τ sig) (St8 m c) : sProp 𝕄) := by
  have e1 : (unscopedBufs c (rd (St8 m) c) : sProp 𝕄) = StableHlo.held (c : Thread nD τ) (Pipeline.ucRefs τ sig) (St8 m c) :=
    Pipeline.unscopedBufs_held c (St8 m c)
  have e2 : (unscopedBufs c (rd (St8 m) c) : sProp 𝕄)
      = iprop(Pipeline.arrBufs spec3 c (rd (St8 m) c) ∗ Pipeline.unscopedRest spec3 c (rd (St8 m) c)) :=
    Pipeline.unscopedBufs_split₀ (Pipeline.pin (pcfgs (F := F)) adm) 3 winFacts₀3.arr_unscoped c (rd (St8 m) c)
  have e3 : (Pipeline.unscopedRest spec3 c (rd (St8 m) c) : sProp 𝕄) = Pipeline.unscopedRest spec3 c (rd (St7 m) c) := by
    unfold Pipeline.unscopedRest
    refine bigSep_congr fun b hb => ?_
    rw [St8_kept m c b fun e => (Finset.mem_sdiff.mp hb).2 (e ▸ Finset.mem_image.mpr ⟨17, Finset.mem_univ _, rfl⟩)]
  rw [← e1, e2, e3]
  exact sep_mono (hjoin3 (rd (St7 m)) c (rd (St8 m) c) (St8_at_array m c)) .rfl

def reg3 : Pipeline.RegionSeg (pcfgs (F := F)) adm (pdats m) () defs₀ Variants.none noLevels noLevel 3 :=
  RegionRecord.plain (pcfgs (F := F)) adm (pdats m) defs₀ Variants.none noLevels noLevel 3
    winFacts₀3 block_pos3 stage_whole3
    (fun c => (body_obligation3 (rd (St7 m)) c).loose) (fun _ _ => rfl) (fun _ _ => rfl) (fun _ _ => rfl) (noTables 3)
    (St7 m) (St8 m) (bypass3 m) (enter3 m) (leave3 m)

/-! ## @main as its nine items -/

/-- A stretch of host operations as an item: every unscoped buffer from the contents `S` to those after the operations,
    the rest riding along. -/
def hostItem (ops : List (HloOp τ sig (Elt F))) (hsub : ops.Forall fun op => op.bufs ⊆ StableHlo.tcRefs τ sig)
    (hfresh : ops.Forall fun op => op.fresh = ∅) (S : Dev nD → Valuation τ sig (Elt F)) :
    Pipeline.HostSeg (Name := ℕ) (U := Pipeline.UD sig nD τ) (pcfgs (F := F)) defs₀ Variants.none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) S rest

abbrev items : List (Pipeline.Seg (pcfgs (F := F)) adm (pdats m) () defs₀ Variants.none noLevels noLevel) :=
  [ .host (hostItem hostOps0 hostOps0_sub hostOps0_fresh (St0 m)),
    .region (reg0 m),
    .host (hostItem hostOps1 hostOps1_sub hostOps1_fresh (St2 m)),
    .region (reg1 m),
    .host (hostItem hostOps2 hostOps2_sub hostOps2_fresh (St4 m)),
    .region (reg2 m),
    .host (hostItem hostOps3 hostOps3_sub hostOps3_fresh (St6 m)),
    .region (reg3 m),
    .host (hostItem hostOps4 hostOps4_sub hostOps4_fresh (St8 m)) ]

theorem main_is_items (c : Dev nD) : main (F := F) c = Pipeline.Seg.run (items m) :=
  (main_chain c).trans (by chain_rfl)

/-- The launch's ghost element gives the pipelines' part; no core needs anything else of it. -/
theorem launch_ghost :
    (ownU ((initOf (Pipeline.cells cfgs cellOf_inj) (Pipeline.launchToks cfgs cellOf_inj), 1) : Pipeline.UD sig nD τ) : sProp 𝕄)
      ⊢ |={Set.univ}=> iprop(BI.own (embL (initOf (Pipeline.cells (Pipeline.pin (pcfgs (F := F)) adm) cellOf_inj) (Pipeline.launchToks (Pipeline.pin (pcfgs (F := F)) adm) cellOf_inj)))
          ∗ bigSep Finset.univ fun _ : Dev nD => (BI.emp : sProp 𝕄)) := by
  iintro Hu
  ihave H := (ownU_pair _ _) $$ Hu
  icases H with ⟨Hpipes, -⟩
  imodintro
  isplitl [Hpipes]; · iexact Hpipes
  rw [BI.bigSep_emp_const]; iempintro

set_option backward.isDefEq.respectTransparency.types false in
/-- THE RUN: from any memory with zero counters every weakly fair execution of @main terminates, nothing faulting, and
    every final memory holds each unscoped buffer at `St9`. -/
theorem run_items (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = St9 m c b) :=
  Pipeline.θ_run_regions_kit (pcfgs (F := F)) adm (pdats m) () cellOf_inj embL defs₀ Variants.none noLevels noLevel m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := launch_ghost)
    (T₀ := fun c => iprop(StableHlo.held (c : Thread nD τ) (Pipeline.ucRefs τ sig) (St0 m c) ∗ rest c))
    (Tₙ := fun c => iprop(StableHlo.held (c : Thread nD τ) (Pipeline.ucRefs τ sig) (St9 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (St9 m c) ∗ RegionRecord.Rest c)
          ⊢ iprop((StableHlo.held (c : Thread nD τ) (Pipeline.ucRefs τ sig) (St9 m c) ∗ ∃ r, prngReg c r)
              ∗ ∃ W, owes (c : Thread nD τ) (0 : CellTallies nD τ sig Unit) W)
        unfold RegionRecord.Rest
        iintro ⟨Hh, Hreg, Ho⟩
        isplitl [Hh Hreg]
        · isplitl [Hh]; · iexact Hh
          iexact Hreg
        iexact Ho⟩)
    (hinit := by
      refine Pipeline.initEach noLevels noLevel fun c => ?_
      rw [show unscopedBufs c (fun b => m ((c : Thread nD τ).loc b)) = StableHlo.held (c : Thread nD τ) (Pipeline.ucRefs τ sig) (St0 m c)
        from Pipeline.unscopedBufs_held c (St0 m c)]
      unfold rest RegionRecord.Rest
      iintro ⟨⟨Hh, -, Ho, -, Hreg, -⟩, -⟩
      imodintro
      isplitl [Hh]; · iexact Hh
      isplitl [Hreg]; · iexists _; iexact Hreg
      iexists ∅; iexact Ho)
    (QY := fun c s => ∀ b ∈ Pipeline.ucRefs τ sig, s.mem (((c : Thread nD τ)).1, b) = St9 m c b)
    (hfin := fun c s' => by
      iintro ⟨⟨Hh, -⟩, HSI⟩
      unfold StableHlo.held
      imodintro
      iapply (pointsTo_read_all (Pipeline.ucRefs τ sig) (fun b => (((c : Thread nD τ)).1, b)) (St9 m c) s')
      isplitl [Hh] <;> iassumption)
    (hQ := fun s h c => h c)

/-! ## Reading the last valuation back -/

/-- A buffer that no host stretch writes and that is no region's output array ends at its launch contents. -/
theorem St9_untouched (c : Dev nD) (r : Ref sig .tc) (h0 : r ∉ hostOps0_W) (h1 : r ≠ main_v7) (h2 : r ∉ hostOps1_W)
    (h3 : r ≠ main_v14) (h4 : r ∉ hostOps2_W) (h5 : r ≠ main_v23) (h6 : r ∉ hostOps3_W) (h7 : r ≠ main_v42)
    (h8 : r ∉ hostOps4_W) : rd (St9 m) c r = m ((c : Thread nD τ).loc r) :=
  (St9_kept m c r h8).trans <| (St8_kept m c r h7).trans <| (St7_kept m c r h6).trans <| (St6_kept m c r h5).trans <|
    (St5_kept m c r h4).trans <| (St4_kept m c r h3).trans <| (St3_kept m c r h2).trans <| (St2_kept m c r h1).trans <|
    St1_kept m c r h0

/-- An unscoped TensorCore reference is among those the last thread state holds. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE FRAME, at any `F`: every weakly fair execution of @main terminates, nothing faulting, with every argument array
    as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨(h c _ (held_ref main_arg0 (by decide))).trans (St9_untouched m c main_arg0 (by decide) (by decide) (by decide) (by decide) (by decide) (by decide) (by decide) (by decide) (by decide)),
     (h c _ (held_ref main_arg1 (by decide))).trans (St9_untouched m c main_arg1 (by decide) (by decide) (by decide) (by decide) (by decide) (by decide) (by decide) (by decide) (by decide)),
     (h c _ (held_ref main_arg2 (by decide))).trans (St9_untouched m c main_arg2 (by decide) (by decide) (by decide) (by decide) (by decide) (by decide) (by decide) (by decide) (by decide)),
     (h c _ (held_ref main_arg3 (by decide))).trans (St9_untouched m c main_arg3 (by decide) (by decide) (by decide) (by decide) (by decide) (by decide) (by decide) (by decide) (by decide)),
     (h c _ (held_ref main_arg4 (by decide))).trans (St9_untouched m c main_arg4 (by decide) (by decide) (by decide) (by decide) (by decide) (by decide) (by decide) (by decide) (by decide)),
     (h c _ (held_ref main_arg5 (by decide))).trans (St9_untouched m c main_arg5 (by decide) (by decide) (by decide) (by decide) (by decide) (by decide) (by decide) (by decide) (by decide)),
     (h c _ (held_ref main_arg6 (by decide))).trans (St9_untouched m c main_arg6 (by decide) (by decide) (by decide) (by decide) (by decide) (by decide) (by decide) (by decide) (by decide)),
     (h c _ (held_ref main_arg7 (by decide))).trans (St9_untouched m c main_arg7 (by decide) (by decide) (by decide) (by decide) (by decide) (by decide) (by decide) (by decide) (by decide)),
     (h c _ (held_ref main_arg8 (by decide))).trans (St9_untouched m c main_arg8 (by decide) (by decide) (by decide) (by decide) (by decide) (by decide) (by decide) (by decide) (by decide)),
     (h c _ (held_ref main_arg9 (by decide))).trans (St9_untouched m c main_arg9 (by decide) (by decide) (by decide) (by decide) (by decide) (by decide) (by decide) (by decide) (by decide)),
     (h c _ (held_ref main_arg10 (by decide))).trans (St9_untouched m c main_arg10 (by decide) (by decide) (by decide) (by decide) (by decide) (by decide) (by decide) (by decide) (by decide)),
     (h c _ (held_ref main_arg11 (by decide))).trans (St9_untouched m c main_arg11 (by decide) (by decide) (by decide) (by decide) (by decide) (by decide) (by decide) (by decide) (by decide)),
     (h c _ (held_ref main_arg12 (by decide))).trans (St9_untouched m c main_arg12 (by decide) (by decide) (by decide) (by decide) (by decide) (by decide) (by decide) (by decide) (by decide)),
     (h c _ (held_ref main_arg13 (by decide))).trans (St9_untouched m c main_arg13 (by decide) (by decide) (by decide) (by decide) (by decide) (by decide) (by decide) (by decide) (by decide)),
     (h c _ (held_ref main_arg14 (by decide))).trans (St9_untouched m c main_arg14 (by decide) (by decide) (by decide) (by decide) (by decide) (by decide) (by decide) (by decide) (by decide)),
     (h c _ (held_ref main_arg15 (by decide))).trans (St9_untouched m c main_arg15 (by decide) (by decide) (by decide) (by decide) (by decide) (by decide) (by decide) (by decide) (by decide)),
     (h c _ (held_ref main_arg16 (by decide))).trans (St9_untouched m c main_arg16 (by decide) (by decide) (by decide) (by decide) (by decide) (by decide) (by decide) (by decide) (by decide)),
     (h c _ (held_ref main_arg17 (by decide))).trans (St9_untouched m c main_arg17 (by decide) (by decide) (by decide) (by decide) (by decide) (by decide) (by decide) (by decide) (by decide)),
     (h c _ (held_ref main_arg18 (by decide))).trans (St9_untouched m c main_arg18 (by decide) (by decide) (by decide) (by decide) (by decide) (by decide) (by decide) (by decide) (by decide)),
     (h c _ (held_ref main_arg19 (by decide))).trans (St9_untouched m c main_arg19 (by decide) (by decide) (by decide) (by decide) (by decide) (by decide) (by decide) (by decide) (by decide)),
     (h c _ (held_ref main_arg20 (by decide))).trans (St9_untouched m c main_arg20 (by decide) (by decide) (by decide) (by decide) (by decide) (by decide) (by decide) (by decide) (by decide)),
     (h c _ (held_ref main_arg21 (by decide))).trans (St9_untouched m c main_arg21 (by decide) (by decide) (by decide) (by decide) (by decide) (by decide) (by decide) (by decide) (by decide)),
     (h c _ (held_ref main_arg22 (by decide))).trans (St9_untouched m c main_arg22 (by decide) (by decide) (by decide) (by decide) (by decide) (by decide) (by decide) (by decide) (by decide)),
     (h c _ (held_ref main_arg23 (by decide))).trans (St9_untouched m c main_arg23 (by decide) (by decide) (by decide) (by decide) (by decide) (by decide) (by decide) (by decide) (by decide)),
     (h c _ (held_ref main_arg24 (by decide))).trans (St9_untouched m c main_arg24 (by decide) (by decide) (by decide) (by decide) (by decide) (by decide) (by decide) (by decide) (by decide)),
     (h c _ (held_ref main_arg25 (by decide))).trans (St9_untouched m c main_arg25 (by decide) (by decide) (by decide) (by decide) (by decide) (by decide) (by decide) (by decide) (by decide)),
     (h c _ (held_ref main_arg26 (by decide))).trans (St9_untouched m c main_arg26 (by decide) (by decide) (by decide) (by decide) (by decide) (by decide) (by decide) (by decide) (by decide)),
     (h c _ (held_ref main_arg27 (by decide))).trans (St9_untouched m c main_arg27 (by decide) (by decide) (by decide) (by decide) (by decide) (by decide) (by decide) (by decide) (by decide)),
     (h c _ (held_ref main_arg28 (by decide))).trans (St9_untouched m c main_arg28 (by decide) (by decide) (by decide) (by decide) (by decide) (by decide) (by decide) (by decide) (by decide)),
     (h c _ (held_ref main_arg29 (by decide))).trans (St9_untouched m c main_arg29 (by decide) (by decide) (by decide) (by decide) (by decide) (by decide) (by decide) (by decide) (by decide)),
     (h c _ (held_ref main_arg30 (by decide))).trans (St9_untouched m c main_arg30 (by decide) (by decide) (by decide) (by decide) (by decide) (by decide) (by decide) (by decide) (by decide)),
     (h c _ (held_ref main_arg31 (by decide))).trans (St9_untouched m c main_arg31 (by decide) (by decide) (by decide) (by decide) (by decide) (by decide) (by decide) (by decide) (by decide))⟩)
    (run_items m ρ)

end Cert.Kernel.Hand

end
-- ==== Proof.KI.R0.lean ====
import proofs.«131422_j57432302682877_2_alg».proof.Proof.Gen.KernelIdeal.Launch
import proofs.«131422_j57432302682877_2_alg».proof.Proof.Gen.KernelIdeal.Skeleton
import proofs.«131422_j57432302682877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Launch 0: `cc0_kernel` over a grid of `grid0.N` points, from the buffer contents `V` it starts at

Each of the 5 windows stages one block per point. Windows 0, 1, 2, 3 are read only; window 4 is the result: the body
overwrites its whole staging buffer with one payload computed from the 4 blocks it read. -/

/-- Block `t` of window `w`, cut out of the window's array as `V` has it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The rectangle that is all of a staging buffer, one per buffer shape. -/
abbrev all0_S1568x768 : Rect S1568x768 := Rect.unit (s := S1568x768) ![0, 0] S1568x768.size inb_S1568x768_S1568x768_0_0
abbrev all0_S768x768 : Rect S768x768 := Rect.unit (s := S768x768) ![0, 0] S768x768.size inb_S768x768_S768x768_0_0
abbrev all0_S768 : Rect S768 := Rect.unit (s := S768) ![0] S768.size inb_S768_S768_0
abbrev all0_S1x1 : Rect S1x1 := Rect.unit (s := S1x1) ![0, 0] S1x1.size inb_S1x1_S1x1_0_0

/-- The result buffer once the body has run on input blocks `x0, x1, x2, x3`: a single write, of the whole buffer. -/
def out0_4 (x0 : Vec F S1568x768 .f32) (x1 : Vec F S768x768 .bf16) (x2 : Vec F S768 .f32) (x3 : Vec F S1x1 .f32) :
    Vec F S1568x768 .bf16 :=
  View.canon [⟨all0_S1568x768,
    k0_pay1 (View.ld x0 all0_S1568x768) (View.ld x1 all0_S768x768) (View.ld x2 all0_S768) (View.ld x3 all0_S1x1)⟩]

/-- That one write reaches every index of the buffer. -/
theorem cover0_4 (p : Vec F S1568x768 .bf16) :
    ∀ y : S1568x768.Idx, ∃ pc ∈ ([⟨all0_S1568x768, p⟩] : List (View.Piece (Elt F) S1568x768 .bf16)), y ∈ pc.1.set :=
  View.cover_of_tiled _ S1568x768.size rfl

/-- What the launch is proved against: arrays as in `V`; after point `t` an input buffer still holds its block and the
    result buffer holds `out0_4` of the input blocks; the invariant is the rest of the core's memory, left alone; the
    core owes nothing; every array is held in full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  simp only [dat0]

/-! The `after` field, read off window by window. -/

theorem after0_0 (c : Dev nD) (t : Fin cfg0.N) : (dat0 V c).after 0 t = iblk0 V c 0 t := by simp only [dat0]
theorem after0_1 (c : Dev nD) (t : Fin cfg0.N) : (dat0 V c).after 1 t = iblk0 V c 1 t := by simp only [dat0]
theorem after0_2 (c : Dev nD) (t : Fin cfg0.N) : (dat0 V c).after 2 t = iblk0 V c 2 t := by simp only [dat0]
theorem after0_3 (c : Dev nD) (t : Fin cfg0.N) : (dat0 V c).after 3 t = iblk0 V c 3 t := by simp only [dat0]
theorem after0_4 (c : Dev nD) (t : Fin cfg0.N) :
    (dat0 V c).after 4 t = out0_4 (iblk0 V c 0 t) (iblk0 V c 1 t) (iblk0 V c 2 t) (iblk0 V c 3 t) := by simp only [dat0]

/-! An input window here is staged in whole blocks, is never idle, and gets its buffer back from the body unchanged. So
    whether the block was fetched at `t` or is left over from an earlier point with the same block index, the buffer the
    body finds holds block `t`. -/

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl

/-- Neither the invariant nor what the core owes moves with the point. -/
theorem still0 (c : Dev nD) (n n' : Fin (cfg0.N + 1)) :
    (dat0 V c).Φ n = (dat0 V c).Φ n' ∧ (dat0 V c).owesAt () n = (dat0 V c).owesAt () n' := ⟨rfl, rfl⟩

/-- A buffer holding the writes `L` over anything, where `L` reaches every index of the memref, is owned at the contents
    `L` alone determines. -/
private theorem owns_writes (c : Thread nD τ) {sp : Space} {sh : Shape} {e : EltTy} (m : Memref sig c.2.kind sp sh e)
    (q : PosShare TreeShare) (f : m.view.ty.Contents (Elt F)) (L : List (View.Piece (Elt F) sh e))
    (hL : ∀ y, ∃ p ∈ L, y ∈ p.1.set) :
    (m.view.loc c ↦[m.view.set]{q} m.view.writes (Elt F) f L : sProp 𝕄) ⊢ owns c m q (View.canon L) :=
  View.read_writes_eq_canon m.view f L hL ▸ owns_intro c m q _

/-- The 5 staging buffers of one grid point: the inputs at `x0, x1, x2, x3`, the result buffer at `y`. -/
def bufs0 (c : Dev nD) (a0 : Memref sig .tc .vmem S1568x768 .f32) (a1 : Memref sig .tc .vmem S768x768 .bf16) (a2 : Memref sig .tc .vmem S768 .f32) (a3 : Memref sig .tc .vmem S1x1 .f32) (a4 : Memref sig .tc .vmem S1568x768 .bf16)
    (x0 : Vec F S1568x768 .f32) (x1 : Vec F S768x768 .bf16) (x2 : Vec F S768 .f32) (x3 : Vec F S1x1 .f32)
    (y : Vec F S1568x768 .bf16) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare y)

set_option maxHeartbeats 1000000 in
/-- One run of the kernel on whole buffers: it reads the inputs, overwrites the whole result buffer with the payload of
    what it read, and touches nothing else; whatever `P` is held aside is still held when it returns. -/
theorem sound_kernel0 (c : Dev nD) (E : Set ℕ) (i : grid0.Coords)
    (a0 : Memref sig .tc .vmem S1568x768 .f32) (h0 : a0.IsWhole)
    (a1 : Memref sig .tc .vmem S768x768 .bf16) (h1 : a1.IsWhole)
    (a2 : Memref sig .tc .vmem S768 .f32) (h2 : a2.IsWhole)
    (a3 : Memref sig .tc .vmem S1x1 .f32) (h3 : a3.IsWhole)
    (a4 : Memref sig .tc .vmem S1568x768 .bf16) (h4 : a4.IsWhole)
    (x0 : Vec F S1568x768 .f32) (x1 : Vec F S768x768 .bf16) (x2 : Vec F S768 .f32) (x3 : Vec F S1x1 .f32)
    (y : Vec F S1568x768 .bf16) (P : sProp 𝕄) (K : PUnit → sProp 𝕄)
    (hK : ∀ u, iprop(P ∗ bufs0 c a0 a1 a2 a3 a4 x0 x1 x2 x3 (out0_4 x0 x1 x2 x3)) ⊢ K u) :
    iprop(P ∗ bufs0 c a0 a1 a2 a3 a4 x0 x1 x2 x3 y)
      ⊢ wp frame (wpE (defs₀ (F := F)) Variants.none c none) E (cc0_kernel i a0 h0 a1 h1 a2 h2 a3 h3 a4 h4) K := by
  rw [cc0_kernel_eq_skeleton]
  unfold cc0_kernel_skel
  unfold bufs0 owns
  iintro ⟨HP, ⟨%f0, %e0, H0⟩, ⟨%f1, %e1, H1⟩, ⟨%f2, %e2, H2⟩, ⟨%f3, %e3, H3⟩, ⟨%f4, -, H4⟩⟩
  subst e0 e1 e2 e3
  sl_exec
  sl_step
  iapply hK
  unfold bufs0
  isplitl [HP]
  · iexact HP
  isplitl [H0]
  · iapply owns_intro; iexact H0
  isplitl [H1]
  · iapply owns_intro; iexact H1
  isplitl [H2]
  · iapply owns_intro; iexact H2
  isplitl [H3]
  · iapply owns_intro; iexact H3
  iapply owns_writes _ _ _ _ _ (cover0_4 _)
  iexact H4

/-- At every grid point the pipeline calls the body on buffers that, by the lemmas above, hold the input blocks; the body's
    run then leaves exactly what `dat0` says, the invariant and the core's debts riding along as `P`. -/
theorem body_obligation0 (c : Dev nD) : BodyObligation (dat0 (F := F) V c) (defs₀ (F := F)) Variants.none () Set.univ := by
  intro t
  rw [bigSep_W0, bigSep_W0]
  simp only [before0_0, before0_1, before0_2, before0_3,
    after0_0, after0_1, after0_2, after0_3, after0_4]
  rw [(still0 V c t.succ t.castSucc).1, (still0 V c t.succ t.castSucc).2]
  show _ ⊢ wp frame _ Set.univ (bodyAt0 t) _
  iintro ⟨HΦ, Ho, ⟨%_, H0⟩, ⟨%_, H1⟩, ⟨%_, H2⟩, ⟨%_, H3⟩, ⟨%y, H4⟩⟩
  iapply sound_kernel0 c Set.univ (grid0.coords t) _ _ _ _ _ _ _ _ _ _
    (iblk0 V c 0 t) (iblk0 V c 1 t) (iblk0 V c 2 t) (iblk0 V c 3 t)
    ((dat0 V c).before 4 t y) iprop((dat0 V c).Φ t.castSucc ∗ (dat0 V c).owesAt () t.castSucc) _ (fun _ => sep_assoc.1)
  unfold bufs0
  iframe

end Cert.KernelIdeal.Hand
-- ==== Proof.KI.R1.lean ====
import proofs.«131422_j57432302682877_2_alg».proof.Proof.Gen.KernelIdeal.Launch
import proofs.«131422_j57432302682877_2_alg».proof.Proof.Gen.KernelIdeal.Skeleton
import proofs.«131422_j57432302682877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of extent 196 × 768 are decided by structural evaluation, one level per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: token mixing, 8 batch rows per grid point

Grid point `t` of 16 takes batch rows `8t … 8t+7` of a `[128, 196, 768]` activation array. Each row `X`
(`196 × 768`) becomes `quant ((W · X + b) * g)`: `W` the `196 × 196` mixing matrix, `b` a bias per output token,
`g` one scale, `quant` the clamp to `[-128, 127]`, rounding to even and narrowing. `V` is what the core's buffers
hold when the region starts. -/

/-- The part of window `w`'s array that grid point `t` addresses, read from the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Where the body reads and writes -/

/-- All of the mixing matrix, -/
abbrev r1_mix : Rect S196x196 := Rect.unit (s := S196x196) ![0, 0] S196x196.size inb_S196x196_S196x196_0_0
/-- all of the bias column, -/
abbrev r1_bias : Rect S196x1 := Rect.unit (s := S196x1) ![0, 0] S196x1.size inb_S196x1_S196x1_0_0
/-- the one scale, -/
abbrev r1_scale : Rect S1x1 := Rect.unit (s := S1x1) ![0, 0] S1x1.size inb_S1x1_S1x1_0_0
/-- and batch row `s` of an `8 × 196 × 768` block, `s = 0 … 7`. -/
abbrev r1_row0 : Rect S8x196x768 := Rect.unit (s := S8x196x768) ![0, 0, 0] S1x196x768.size inb_S8x196x768_S1x196x768_0_0_0
abbrev r1_row1 : Rect S8x196x768 := Rect.unit (s := S8x196x768) ![1, 0, 0] S1x196x768.size inb_S8x196x768_S1x196x768_1_0_0
abbrev r1_row2 : Rect S8x196x768 := Rect.unit (s := S8x196x768) ![2, 0, 0] S1x196x768.size inb_S8x196x768_S1x196x768_2_0_0
abbrev r1_row3 : Rect S8x196x768 := Rect.unit (s := S8x196x768) ![3, 0, 0] S1x196x768.size inb_S8x196x768_S1x196x768_3_0_0
abbrev r1_row4 : Rect S8x196x768 := Rect.unit (s := S8x196x768) ![4, 0, 0] S1x196x768.size inb_S8x196x768_S1x196x768_4_0_0
abbrev r1_row5 : Rect S8x196x768 := Rect.unit (s := S8x196x768) ![5, 0, 0] S1x196x768.size inb_S8x196x768_S1x196x768_5_0_0
abbrev r1_row6 : Rect S8x196x768 := Rect.unit (s := S8x196x768) ![6, 0, 0] S1x196x768.size inb_S8x196x768_S1x196x768_6_0_0
abbrev r1_row7 : Rect S8x196x768 := Rect.unit (s := S8x196x768) ![7, 0, 0] S1x196x768.size inb_S8x196x768_S1x196x768_7_0_0

/-! ## What the body computes for each batch row

Every row is the same function of `(W, b, g, X)`; only the payloads' names differ from row to row (rows 0 and 1
take the operands as loaded, the others after their conversion `k1_pay3 … k1_pay5`). -/

abbrev row1_0 (W : Vec F S196x196 .bf16) (b : Vec F S196x1 .f32) (g : Vec F S1x1 .f32) (X : Vec F S1x196x768 .bf16) : Vec F S1x196x768 .bf16 :=
  k1_pay6 W b g X
abbrev row1_1 (W : Vec F S196x196 .bf16) (b : Vec F S196x1 .f32) (g : Vec F S1x1 .f32) (X : Vec F S1x196x768 .bf16) : Vec F S1x196x768 .bf16 :=
  k1_pay8 (k1_pay7 W b g X)
abbrev row1_2 (W : Vec F S196x196 .bf16) (b : Vec F S196x1 .f32) (g : Vec F S1x1 .f32) (X : Vec F S1x196x768 .bf16) : Vec F S1x196x768 .bf16 :=
  k1_pay9 (k1_pay3 W) (k1_pay4 b) (k1_pay5 g) X
abbrev row1_3 (W : Vec F S196x196 .bf16) (b : Vec F S196x1 .f32) (g : Vec F S1x1 .f32) (X : Vec F S1x196x768 .bf16) : Vec F S1x196x768 .bf16 :=
  k1_pay10 (k1_pay3 W) (k1_pay4 b) (k1_pay5 g) X
abbrev row1_4 (W : Vec F S196x196 .bf16) (b : Vec F S196x1 .f32) (g : Vec F S1x1 .f32) (X : Vec F S1x196x768 .bf16) : Vec F S1x196x768 .bf16 :=
  k1_pay11 (k1_pay3 W) (k1_pay4 b) (k1_pay5 g) X
abbrev row1_5 (W : Vec F S196x196 .bf16) (b : Vec F S196x1 .f32) (g : Vec F S1x1 .f32) (X : Vec F S1x196x768 .bf16) : Vec F S1x196x768 .bf16 :=
  k1_pay12 (k1_pay3 W) (k1_pay4 b) (k1_pay5 g) X
abbrev row1_6 (W : Vec F S196x196 .bf16) (b : Vec F S196x1 .f32) (g : Vec F S1x1 .f32) (X : Vec F S1x196x768 .bf16) : Vec F S1x196x768 .bf16 :=
  k1_pay1 (k1_pay13 (k1_pay3 W) (k1_pay4 b) (k1_pay5 g) X)
abbrev row1_7 (W : Vec F S196x196 .bf16) (b : Vec F S196x1 .f32) (g : Vec F S1x1 .f32) (X : Vec F S1x196x768 .bf16) : Vec F S1x196x768 .bf16 :=
  k1_pay2 (k1_pay3 W) (k1_pay4 b) (k1_pay5 g) X

/-- The output block after the body, as a function of the four input blocks: eight row stores, the latest
    listed first. -/
def out1_4 (x0 : Vec F S8x196x768 .bf16) (x1 : Vec F S196x196 .bf16) (x2 : Vec F S196x1 .f32) (x3 : Vec F S1x1 .f32) : Vec F S8x196x768 .bf16 :=
  View.canon [⟨r1_row7, row1_7 (View.ld x1 r1_mix) (View.ld x2 r1_bias) (View.ld x3 r1_scale) (View.ld x0 r1_row7)⟩,
    ⟨r1_row6, row1_6 (View.ld x1 r1_mix) (View.ld x2 r1_bias) (View.ld x3 r1_scale) (View.ld x0 r1_row6)⟩,
    ⟨r1_row5, row1_5 (View.ld x1 r1_mix) (View.ld x2 r1_bias) (View.ld x3 r1_scale) (View.ld x0 r1_row5)⟩,
    ⟨r1_row4, row1_4 (View.ld x1 r1_mix) (View.ld x2 r1_bias) (View.ld x3 r1_scale) (View.ld x0 r1_row4)⟩,
    ⟨r1_row3, row1_3 (View.ld x1 r1_mix) (View.ld x2 r1_bias) (View.ld x3 r1_scale) (View.ld x0 r1_row3)⟩,
    ⟨r1_row2, row1_2 (View.ld x1 r1_mix) (View.ld x2 r1_bias) (View.ld x3 r1_scale) (View.ld x0 r1_row2)⟩,
    ⟨r1_row1, row1_1 (View.ld x1 r1_mix) (View.ld x2 r1_bias) (View.ld x3 r1_scale) (View.ld x0 r1_row1)⟩,
    ⟨r1_row0, row1_0 (View.ld x1 r1_mix) (View.ld x2 r1_bias) (View.ld x3 r1_scale) (View.ld x0 r1_row0)⟩]

/-- Eight rows of extent `1 × 196 × 768` at offsets `0 … 7` along the first axis fill the `8 × 196 × 768` block. -/
theorem cover1_4 (p7 : Vec F S1x196x768 .bf16) (p6 : Vec F S1x196x768 .bf16) (p5 : Vec F S1x196x768 .bf16) (p4 : Vec F S1x196x768 .bf16) (p3 : Vec F S1x196x768 .bf16) (p2 : Vec F S1x196x768 .bf16) (p1 : Vec F S1x196x768 .bf16) (p0 : Vec F S1x196x768 .bf16) (y : S8x196x768.Idx) :
    ∃ pc ∈ ([⟨r1_row7, p7⟩, ⟨r1_row6, p6⟩, ⟨r1_row5, p5⟩, ⟨r1_row4, p4⟩, ⟨r1_row3, p3⟩, ⟨r1_row2, p2⟩, ⟨r1_row1, p1⟩, ⟨r1_row0, p0⟩] : List (View.Piece (Elt F) S8x196x768 .bf16)), y ∈ pc.1.set :=
  View.cover_of_tiled [⟨r1_row7, p7⟩, ⟨r1_row6, p6⟩, ⟨r1_row5, p5⟩, ⟨r1_row4, p4⟩, ⟨r1_row3, p3⟩, ⟨r1_row2, p2⟩, ⟨r1_row1, p1⟩, ⟨r1_row0, p0⟩] S1x196x768.size (by rfl) y

/-! ## Running the body once -/

/-- From the raw contents `f` of a buffer, the buffer owned at what is read of `f`. -/
local macro "back_as_read " H:ident " of " f:term : tactic =>
  `(tactic| (iexists $f; isplitr; (ipureintro; rfl); iexact $H))

set_option maxHeartbeats 4000000 in
/-- One run of the body. The four input buffers hold `x0 … x3` and the output buffer anything; afterwards the
    inputs are unchanged and the output buffer reads `out1_4 x0 x1 x2 x3`. Whatever the output held is read
    before each row store and dropped. -/
theorem sound_kernel1 (c : Dev nD) (E : Set ℕ) (i : grid1.Coords) (arg1 : Memref sig .tc .vmem S8x196x768 .bf16) (harg1 : arg1.IsWhole) (arg2 : Memref sig .tc .vmem S196x196 .bf16) (harg2 : arg2.IsWhole) (arg3 : Memref sig .tc .vmem S196x1 .f32) (harg3 : arg3.IsWhole) (arg4 : Memref sig .tc .vmem S1x1 .f32) (harg4 : arg4.IsWhole) (arg5 : Memref sig .tc .vmem S8x196x768 .bf16) (harg5 : arg5.IsWhole)
    (x0 : Vec F S8x196x768 .bf16) (x1 : Vec F S196x196 .bf16) (x2 : Vec F S196x1 .f32) (x3 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ junk, owns (c : Thread nD τ) arg5 fullShare junk)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1_kernel i arg1 harg1 arg2 harg2 arg3 harg3 arg4 harg4 arg5 harg5) K := by
  -- the body and the three functions it calls, as sequences of loads and stores around the payloads
  rw [cc1_kernel_eq_skeleton]; unfold cc1_kernel_skel
  rw [k1_part1_eq_skeleton, k1_part2_eq_skeleton, k1_part3_eq_skeleton]
  unfold k1_part1_skel k1_part2_skel k1_part3_skel
  -- every buffer down to its raw contents; what is read of an input's names its `x`
  unfold owns
  iintro ⟨⟨%fx, %ex, Hx⟩, ⟨%fW, %eW, HW⟩, ⟨%fb, %eb, Hb⟩, ⟨%fg, %eg, Hg⟩, ⟨%junk, %fo, -, Ho⟩, Hrest⟩
  cases ex; cases eW; cases eb; cases eg
  -- 19 loads, 8 stores
  sl_exec
  sl_step
  -- the inputs are as they were; the output is the eight stores over whatever it held
  iapply Hrest
  isplitl [Hx]; · back_as_read Hx of fx
  isplitl [HW]; · back_as_read HW of fW
  isplitl [Hb]; · back_as_read Hb of fb
  isplitl [Hg]; · back_as_read Hg of fg
  iexists _
  isplitr
  on_goal 2 => iexact Ho
  ipureintro
  exact View.read_writes_eq_canon _ _ _ (cover1_4 _ _ _ _ _ _ _ _)

/-! ## The pipeline's data -/

/-- Region 1's data on core `c`: each array at its contents in `V`; after point `t` an input buffer holds its
    block and the output buffer `out1_4` of the four blocks; between points only the class invariant; whole
    shares; no dues. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- The block the data read at a point is `iblk1`, whichever the window. -/
theorem blockOf1 (c : Dev nD) (w : Fin cfg1.W) (t : Fin cfg1.N) : (dat1 V c).blockOf w t = iblk1 V c w t := by
  unfold Dat.blockOf iblk1; rw [A_eq1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-! ## What the body finds in the input buffers

Window 0 is fetched at every point. Windows 1–3 are fetched at the first point only: their block index never
moves and the body leaves them alone, so the buffer still holds the block. Either way an input buffer holds its
window's block; `hleft` is the window's `after` equation. -/

local macro "input_still_block " hleft:term : tactic =>
  `(tactic| (
    refine (Dat.before_in_eq_fetched _ _ rfl (fun _ => rfl) (fun _ _ _ => rfl) (fun s => ?_) _ _).trans ?_
    · rw [$hleft:term, blockOf1]
    · unfold Dat.fetched; rw [blockOf1]; rfl))

theorem before1_0 (c : Dev nD) (t : Fin cfg1.N) (d) : (dat1 V c).before 0 t d = iblk1 V c 0 t := by
  input_still_block after1_0
theorem before1_1 (c : Dev nD) (t : Fin cfg1.N) (d) : (dat1 V c).before 1 t d = iblk1 V c 1 t := by
  input_still_block after1_1
theorem before1_2 (c : Dev nD) (t : Fin cfg1.N) (d) : (dat1 V c).before 2 t d = iblk1 V c 2 t := by
  input_still_block after1_2
theorem before1_3 (c : Dev nD) (t : Fin cfg1.N) (d) : (dat1 V c).before 3 t d = iblk1 V c 3 t := by
  input_still_block after1_3

/-! ## Every grid point -/

/-- The invariant and the dues do not depend on the point. -/
theorem steady1 (c : Dev nD) (t : Fin cfg1.N) :
    (dat1 V c).Φ t.succ = (dat1 V c).Φ t.castSucc ∧ (dat1 V c).owesAt () t.succ = (dat1 V c).owesAt () t.castSucc :=
  ⟨rfl, rfl⟩

/-- Point `t`, the five windows written out: with the invariant, the dues and each window's current buffer as the
    pipeline hands it over, the body returns the same invariant and dues and each buffer at the data's `after`. -/
theorem at_point1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d)))
      ⊢ wp frame (wpE (defs₀ (F := F)) Variants.none c none) Set.univ (bodyAt1 t) (fun _ =>
        iprop((dat1 V c).Φ t.succ ∗ (dat1 V c).owesAt () t.succ
          ∗ owns (c : Thread nD τ) (st1_0 t) fullShare ((dat1 V c).after 0 t)
          ∗ owns (c : Thread nD τ) (st1_1 t) fullShare ((dat1 V c).after 1 t)
          ∗ owns (c : Thread nD τ) (st1_2 t) fullShare ((dat1 V c).after 2 t)
          ∗ owns (c : Thread nD τ) (st1_3 t) fullShare ((dat1 V c).after 3 t)
          ∗ owns (c : Thread nD τ) (st1_4 t) fullShare ((dat1 V c).after 4 t))) := by
  rw [(steady1 V c t).1, (steady1 V c t).2, after1_0, after1_1, after1_2, after1_3, after1_4]
  simp only [before1_0, before1_1, before1_2, before1_3]
  iintro ⟨Hinv, Hdues, ⟨%_, Hx⟩, ⟨%_, HW⟩, ⟨%_, Hb⟩, ⟨%_, Hg⟩, ⟨%_, Hout⟩⟩
  unfold bodyAt1
  iapply (sound_kernel1 c Set.univ (grid1.coords t) _ _ _ _ _ _ _ _ _ _
    (iblk1 V c 0 t) (iblk1 V c 1 t) (iblk1 V c 2 t) (iblk1 V c 3 t) _)
  isplitl [Hx]; · iexact Hx
  isplitl [HW]; · iexact HW
  isplitl [Hb]; · iexact Hb
  isplitl [Hg]; · iexact Hg
  isplitl [Hout]; · iexists _; iexact Hout
  iintro ⟨Hx, HW, Hb, Hg, Hout⟩
  isplitl [Hinv]; · iexact Hinv
  isplitl [Hdues]; · iexact Hdues
  isplitl [Hx]; · iexact Hx
  isplitl [HW]; · iexact HW
  isplitl [Hb]; · iexact Hb
  isplitl [Hg]; · iexact Hg
  iexact Hout

/-- The obligation the pipeline rule asks of the body: the product over the five windows is the one written out
    in `at_point1`. -/
theorem body_obligation1 (c : Dev nD) : BodyObligation (dat1 (F := F) V c) (defs₀ (F := F)) Variants.none () Set.univ := by
  intro t
  rw [bigSep_W1, bigSep_W1]
  exact at_point1 V c t

end Cert.KernelIdeal.Hand
-- ==== Proof.KI.R2.lean ====
import proofs.«131422_j57432302682877_2_alg».proof.Proof.Gen.KernelIdeal.Launch
import proofs.«131422_j57432302682877_2_alg».proof.Proof.Gen.KernelIdeal.Skeleton
import proofs.«131422_j57432302682877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Launch 2: `cc2_kernel` over a grid of `grid2.N` points, from the buffer contents `V` it starts at

Each of the 9 windows stages one block per point. Windows 0, 1, 2, 3, 4, 5, 6, 7 are read only; window 8 is the result: the body
overwrites its whole staging buffer with one payload computed from the 8 blocks it read. -/

/-- Block `t` of window `w`, cut out of the window's array as `V` has it. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The rectangle that is all of a staging buffer, one per buffer shape. -/
abbrev all2_S784x768 : Rect S784x768 := Rect.unit (s := S784x768) ![0, 0] S784x768.size inb_S784x768_S784x768_0_0
abbrev all2_S768x768 : Rect S768x768 := Rect.unit (s := S768x768) ![0, 0] S768x768.size inb_S768x768_S768x768_0_0
abbrev all2_S768 : Rect S768 := Rect.unit (s := S768) ![0] S768.size inb_S768_S768_0
abbrev all2_S1x1 : Rect S1x1 := Rect.unit (s := S1x1) ![0, 0] S1x1.size inb_S1x1_S1x1_0_0

/-- The result buffer once the body has run on input blocks `x0, x1, x2, x3, x4, x5, x6, x7`: a single write, of the whole buffer. -/
def out2_8 (x0 : Vec F S784x768 .bf16) (x1 : Vec F S784x768 .f32) (x2 : Vec F S768x768 .bf16) (x3 : Vec F S768 .f32) (x4 : Vec F S1x1 .f32) (x5 : Vec F S1x1 .f32) (x6 : Vec F S1x1 .f32) (x7 : Vec F S1x1 .f32) :
    Vec F S784x768 .bf16 :=
  View.canon [⟨all2_S784x768,
    k2_pay1 (View.ld x0 all2_S784x768) (View.ld x2 all2_S768x768) (View.ld x3 all2_S768) (View.ld x4 all2_S1x1) (View.ld x1 all2_S784x768) (View.ld x5 all2_S1x1) (View.ld x6 all2_S1x1) (View.ld x7 all2_S1x1)⟩]

/-- That one write reaches every index of the buffer. -/
theorem cover2_8 (p : Vec F S784x768 .bf16) :
    ∀ y : S784x768.Idx, ∃ pc ∈ ([⟨all2_S784x768, p⟩] : List (View.Piece (Elt F) S784x768 .bf16)), y ∈ pc.1.set :=
  View.cover_of_tiled _ S784x768.size rfl

/-- What the launch is proved against: arrays as in `V`; after point `t` an input buffer still holds its block and the
    result buffer holds `out2_8` of the input blocks; the invariant is the rest of the core's memory, left alone; the
    core owes nothing; every array is held in full. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  simp only [dat2]

/-! The `after` field, read off window by window. -/

theorem after2_0 (c : Dev nD) (t : Fin cfg2.N) : (dat2 V c).after 0 t = iblk2 V c 0 t := by simp only [dat2]
theorem after2_1 (c : Dev nD) (t : Fin cfg2.N) : (dat2 V c).after 1 t = iblk2 V c 1 t := by simp only [dat2]
theorem after2_2 (c : Dev nD) (t : Fin cfg2.N) : (dat2 V c).after 2 t = iblk2 V c 2 t := by simp only [dat2]
theorem after2_3 (c : Dev nD) (t : Fin cfg2.N) : (dat2 V c).after 3 t = iblk2 V c 3 t := by simp only [dat2]
theorem after2_4 (c : Dev nD) (t : Fin cfg2.N) : (dat2 V c).after 4 t = iblk2 V c 4 t := by simp only [dat2]
theorem after2_5 (c : Dev nD) (t : Fin cfg2.N) : (dat2 V c).after 5 t = iblk2 V c 5 t := by simp only [dat2]
theorem after2_6 (c : Dev nD) (t : Fin cfg2.N) : (dat2 V c).after 6 t = iblk2 V c 6 t := by simp only [dat2]
theorem after2_7 (c : Dev nD) (t : Fin cfg2.N) : (dat2 V c).after 7 t = iblk2 V c 7 t := by simp only [dat2]
theorem after2_8 (c : Dev nD) (t : Fin cfg2.N) :
    (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by simp only [dat2]

/-! An input window here is staged in whole blocks, is never idle, and gets its buffer back from the body unchanged. So
    whether the block was fetched at `t` or is left over from an earlier point with the same block index, the buffer the
    body finds holds block `t`. -/

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg2.N) (d) : (dat2 V c).before 7 t d = iblk2 V c 7 t :=
  ((dat2 V c).before_in_eq_fetched 7 rfl (fun _ => rfl) (fun _ _ _ => rfl) (fun _ => rfl) t d).trans rfl

/-- Neither the invariant nor what the core owes moves with the point. -/
theorem still2 (c : Dev nD) (n n' : Fin (cfg2.N + 1)) :
    (dat2 V c).Φ n = (dat2 V c).Φ n' ∧ (dat2 V c).owesAt () n = (dat2 V c).owesAt () n' := ⟨rfl, rfl⟩

/-- A buffer holding the writes `L` over anything, where `L` reaches every index of the memref, is owned at the contents
    `L` alone determines. -/
private theorem owns_writes (c : Thread nD τ) {sp : Space} {sh : Shape} {e : EltTy} (m : Memref sig c.2.kind sp sh e)
    (q : PosShare TreeShare) (f : m.view.ty.Contents (Elt F)) (L : List (View.Piece (Elt F) sh e))
    (hL : ∀ y, ∃ p ∈ L, y ∈ p.1.set) :
    (m.view.loc c ↦[m.view.set]{q} m.view.writes (Elt F) f L : sProp 𝕄) ⊢ owns c m q (View.canon L) :=
  View.read_writes_eq_canon m.view f L hL ▸ owns_intro c m q _

/-- The 9 staging buffers of one grid point: the inputs at `x0, x1, x2, x3, x4, x5, x6, x7`, the result buffer at `y`. -/
def bufs2 (c : Dev nD) (a0 : Memref sig .tc .vmem S784x768 .bf16) (a1 : Memref sig .tc .vmem S784x768 .f32) (a2 : Memref sig .tc .vmem S768x768 .bf16) (a3 : Memref sig .tc .vmem S768 .f32) (a4 : Memref sig .tc .vmem S1x1 .f32) (a5 : Memref sig .tc .vmem S1x1 .f32) (a6 : Memref sig .tc .vmem S1x1 .f32) (a7 : Memref sig .tc .vmem S1x1 .f32) (a8 : Memref sig .tc .vmem S784x768 .bf16)
    (x0 : Vec F S784x768 .bf16) (x1 : Vec F S784x768 .f32) (x2 : Vec F S768x768 .bf16) (x3 : Vec F S768 .f32) (x4 : Vec F S1x1 .f32) (x5 : Vec F S1x1 .f32) (x6 : Vec F S1x1 .f32) (x7 : Vec F S1x1 .f32)
    (y : Vec F S784x768 .bf16) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare y)

set_option maxHeartbeats 1000000 in
/-- One run of the kernel on whole buffers: it reads the inputs, overwrites the whole result buffer with the payload of
    what it read, and touches nothing else; whatever `P` is held aside is still held when it returns. -/
theorem sound_kernel2 (c : Dev nD) (E : Set ℕ) (i : grid2.Coords)
    (a0 : Memref sig .tc .vmem S784x768 .bf16) (h0 : a0.IsWhole)
    (a1 : Memref sig .tc .vmem S784x768 .f32) (h1 : a1.IsWhole)
    (a2 : Memref sig .tc .vmem S768x768 .bf16) (h2 : a2.IsWhole)
    (a3 : Memref sig .tc .vmem S768 .f32) (h3 : a3.IsWhole)
    (a4 : Memref sig .tc .vmem S1x1 .f32) (h4 : a4.IsWhole)
    (a5 : Memref sig .tc .vmem S1x1 .f32) (h5 : a5.IsWhole)
    (a6 : Memref sig .tc .vmem S1x1 .f32) (h6 : a6.IsWhole)
    (a7 : Memref sig .tc .vmem S1x1 .f32) (h7 : a7.IsWhole)
    (a8 : Memref sig .tc .vmem S784x768 .bf16) (h8 : a8.IsWhole)
    (x0 : Vec F S784x768 .bf16) (x1 : Vec F S784x768 .f32) (x2 : Vec F S768x768 .bf16) (x3 : Vec F S768 .f32) (x4 : Vec F S1x1 .f32) (x5 : Vec F S1x1 .f32) (x6 : Vec F S1x1 .f32) (x7 : Vec F S1x1 .f32)
    (y : Vec F S784x768 .bf16) (P : sProp 𝕄) (K : PUnit → sProp 𝕄)
    (hK : ∀ u, iprop(P ∗ bufs2 c a0 a1 a2 a3 a4 a5 a6 a7 a8 x0 x1 x2 x3 x4 x5 x6 x7 (out2_8 x0 x1 x2 x3 x4 x5 x6 x7)) ⊢ K u) :
    iprop(P ∗ bufs2 c a0 a1 a2 a3 a4 a5 a6 a7 a8 x0 x1 x2 x3 x4 x5 x6 x7 y)
      ⊢ wp frame (wpE (defs₀ (F := F)) Variants.none c none) E (cc2_kernel i a0 h0 a1 h1 a2 h2 a3 h3 a4 h4 a5 h5 a6 h6 a7 h7 a8 h8) K := by
  rw [cc2_kernel_eq_skeleton]
  unfold cc2_kernel_skel
  rw [k2_part1_eq_skeleton]
  unfold k2_part1_skel
  unfold bufs2 owns
  iintro ⟨HP, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, -, H8⟩⟩
  subst e0 e1 e2 e3 e4 e5 e6 e7
  sl_exec
  sl_step
  iapply hK
  unfold bufs2
  isplitl [HP]
  · iexact HP
  isplitl [H0]
  · iapply owns_intro; iexact H0
  isplitl [H1]
  · iapply owns_intro; iexact H1
  isplitl [H2]
  · iapply owns_intro; iexact H2
  isplitl [H3]
  · iapply owns_intro; iexact H3
  isplitl [H4]
  · iapply owns_intro; iexact H4
  isplitl [H5]
  · iapply owns_intro; iexact H5
  isplitl [H6]
  · iapply owns_intro; iexact H6
  isplitl [H7]
  · iapply owns_intro; iexact H7
  iapply owns_writes _ _ _ _ _ (cover2_8 _)
  iexact H8

/-- At every grid point the pipeline calls the body on buffers that, by the lemmas above, hold the input blocks; the body's
    run then leaves exactly what `dat2` says, the invariant and the core's debts riding along as `P`. -/
theorem body_obligation2 (c : Dev nD) : BodyObligation (dat2 (F := F) V c) (defs₀ (F := F)) Variants.none () Set.univ := by
  intro t
  rw [bigSep_W2, bigSep_W2]
  simp only [before2_0, before2_1, before2_2, before2_3, before2_4, before2_5, before2_6, before2_7,
    after2_0, after2_1, after2_2, after2_3, after2_4, after2_5, after2_6, after2_7, after2_8]
  rw [(still2 V c t.succ t.castSucc).1, (still2 V c t.succ t.castSucc).2]
  show _ ⊢ wp frame _ Set.univ (bodyAt2 t) _
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%y, H8⟩⟩
  iapply sound_kernel2 c Set.univ (grid2.coords t) _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t)
    ((dat2 V c).before 8 t y) iprop((dat2 V c).Φ t.castSucc ∗ (dat2 V c).owesAt () t.castSucc) _ (fun _ => sep_assoc.1)
  unfold bufs2
  iframe

end Cert.KernelIdeal.Hand
-- ==== Proof.KI.R3.lean ====
/-
  The fourth kernel region of the program (custom_call 3, grid of 64 points, eighteen windows of which the last
  is the one output).

  * what each window sees of its array at a grid point, the arrays at the contents the region is entered with;
  * the block the kernel body stores in the output window, as a function of the seventeen input blocks, and the
    triple of the body that says so;
  * the proof data of the pipeline and its body obligation;
  * windows 0 and 1 see one array: how that array's ownership is dealt between the two on entry and
    reassembled on exit.
-/
import proofs.«131422_j57432302682877_2_alg».proof.Proof.Gen.KernelIdeal.Launch
import proofs.«131422_j57432302682877_2_alg».proof.Proof.Gen.KernelIdeal.Skeleton
import proofs.«131422_j57432302682877_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What a window sees -/

/-- The part of window `w`'s array that lies under the window at grid point `t`, the array holding what the
    region was entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The output block -/

/-- Every access of the body is to a whole staging buffer: per buffer shape, the rectangle that is all of it. -/
abbrev whole_S392x768 : Rect S392x768 := Rect.unit (s := S392x768) ![0, 0] S392x768.size inb_S392x768_S392x768_0_0
abbrev whole_S768x768 : Rect S768x768 := Rect.unit (s := S768x768) ![0, 0] S768x768.size inb_S768x768_S768x768_0_0
abbrev whole_S768 : Rect S768 := Rect.unit (s := S768) ![0] S768.size inb_S768_S768_0
abbrev whole_S1x1 : Rect S1x1 := Rect.unit (s := S1x1) ![0, 0] S1x1.size inb_S1x1_S1x1_0_0
abbrev whole_S3072x768 : Rect S3072x768 := Rect.unit (s := S3072x768) ![0, 0] S3072x768.size inb_S3072x768_S3072x768_0_0
abbrev whole_S3072 : Rect S3072 := Rect.unit (s := S3072) ![0] S3072.size inb_S3072_S3072_0
abbrev whole_S768x3072 : Rect S768x3072 := Rect.unit (s := S768x3072) ![0, 0] S768x3072.size inb_S768x3072_S768x3072_0_0

/-- The output window's buffer once the body has run, from the blocks in the seventeen input buffers. The body
    stores once, over the whole buffer. What it stores is its last payload, applied to: a payload of the second
    input block; what the body's second part makes of the first part's two results (one computed from the first
    input block and six parameter blocks, the other from the ninth block), of a zero block and of six further
    parameter blocks; and the two one-element blocks read last. -/
def out3_17 (x0 : Vec F S392x768 .bf16) (x1 : Vec F S392x768 .bf16) (x2 : Vec F S768x768 .bf16) (x3 : Vec F S768 .f32) (x4 : Vec F S1x1 .f32) (x5 : Vec F S3072x768 .bf16) (x6 : Vec F S3072 .f32) (x7 : Vec F S1x1 .f32) (x8 : Vec F S768x3072 .bf16) (x9 : Vec F S768 .f32) (x10 : Vec F S1x1 .f32) (x11 : Vec F S768x768 .bf16) (x12 : Vec F S768 .f32) (x13 : Vec F S1x1 .f32) (x14 : Vec F S1x1 .f32) (x15 : Vec F S1x1 .f32) (x16 : Vec F S1x1 .f32) : Vec F S392x768 .f32 :=
  View.canon [⟨whole_S392x768,
    k3_pay1 (k3_pay4 (View.ld x1 whole_S392x768))
      (k3_pay5 (k3_pay2 (View.ld x0 whole_S392x768) (View.ld x2 whole_S768x768) (View.ld x3 whole_S768) (View.ld x4 whole_S1x1) (View.ld x5 whole_S3072x768) (View.ld x6 whole_S3072) (View.ld x7 whole_S1x1)) (k3_pay3 (View.ld x8 whole_S768x3072))
        (constant S392x768 .f32 0x00000000#32) (View.ld x9 whole_S768) (View.ld x10 whole_S1x1) (View.ld x11 whole_S768x768) (View.ld x12 whole_S768) (View.ld x13 whole_S1x1) (View.ld x14 whole_S1x1))
      (View.ld x15 whole_S1x1) (View.ld x16 whole_S1x1)⟩]

/-- A single store over the whole buffer leaves no index out. -/
theorem cover3_17 (p : Vec F S392x768 .f32) (y : S392x768.Idx) :
    ∃ pc ∈ ([⟨whole_S392x768, p⟩] : List (View.Piece (Elt F) S392x768 .f32)), y ∈ pc.1.set :=
  View.cover_of_tiled _ S392x768.size (by rfl) y

/-! ## The body's triple -/

/-- Hands back one buffer the body only read: from the points-to `h`, the buffer seen through its memref at the
    very contents it was opened at. -/
local macro "hand_back " h:ident : tactic =>
  `(tactic| (isplitl [$h]; · (iexists _; iframe; ipureintro; rfl)))

set_option maxHeartbeats 4000000 in
/-- Run on eighteen whole staging buffers, the first seventeen read as `x0 … x16` and the last holding anything,
    the body ends with the seventeen as they were and the last read as `out3_17 x0 … x16`. (The body also loads
    the output buffer before storing to it; the value loaded is not used.) -/
theorem sound_kernel3 (c : Dev nD) (E : Set ℕ) (i : grid3.Coords) (arg1 : Memref sig .tc .vmem S392x768 .bf16) (harg1 : arg1.IsWhole) (arg2 : Memref sig .tc .vmem S392x768 .bf16) (harg2 : arg2.IsWhole) (arg3 : Memref sig .tc .vmem S768x768 .bf16) (harg3 : arg3.IsWhole) (arg4 : Memref sig .tc .vmem S768 .f32) (harg4 : arg4.IsWhole) (arg5 : Memref sig .tc .vmem S1x1 .f32) (harg5 : arg5.IsWhole) (arg6 : Memref sig .tc .vmem S3072x768 .bf16) (harg6 : arg6.IsWhole) (arg7 : Memref sig .tc .vmem S3072 .f32) (harg7 : arg7.IsWhole) (arg8 : Memref sig .tc .vmem S1x1 .f32) (harg8 : arg8.IsWhole) (arg9 : Memref sig .tc .vmem S768x3072 .bf16) (harg9 : arg9.IsWhole) (arg10 : Memref sig .tc .vmem S768 .f32) (harg10 : arg10.IsWhole) (arg11 : Memref sig .tc .vmem S1x1 .f32) (harg11 : arg11.IsWhole) (arg12 : Memref sig .tc .vmem S768x768 .bf16) (harg12 : arg12.IsWhole) (arg13 : Memref sig .tc .vmem S768 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S1x1 .f32) (harg16 : arg16.IsWhole) (arg17 : Memref sig .tc .vmem S1x1 .f32) (harg17 : arg17.IsWhole) (arg18 : Memref sig .tc .vmem S392x768 .f32) (harg18 : arg18.IsWhole)
    (x0 : Vec F S392x768 .bf16) (x1 : Vec F S392x768 .bf16) (x2 : Vec F S768x768 .bf16) (x3 : Vec F S768 .f32) (x4 : Vec F S1x1 .f32) (x5 : Vec F S3072x768 .bf16) (x6 : Vec F S3072 .f32) (x7 : Vec F S1x1 .f32) (x8 : Vec F S768x3072 .bf16) (x9 : Vec F S768 .f32) (x10 : Vec F S1x1 .f32) (x11 : Vec F S768x768 .bf16) (x12 : Vec F S768 .f32) (x13 : Vec F S1x1 .f32) (x14 : Vec F S1x1 .f32) (x15 : Vec F S1x1 .f32) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ junk, owns (c : Thread nD τ) arg18 fullShare junk)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out3_17 x0 x1 x2 x3 x4 x5 x6 x7 x8 x9 x10 x11 x12 x13 x14 x15 x16)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  -- by definition the body and its two parts are loads, pure payloads, and one store
  rw [cc3_kernel_eq_skeleton]; unfold cc3_kernel_skel
  rw [k3_part1_eq_skeleton, k3_part2_eq_skeleton]; unfold k3_part1_skel k3_part2_skel
  -- open each buffer: the contents `b` underneath, and the fact that the memref reads `x` of them
  unfold owns
  iintro ⟨⟨%b0, %e0, B0⟩, ⟨%b1, %e1, B1⟩, ⟨%b2, %e2, B2⟩, ⟨%b3, %e3, B3⟩, ⟨%b4, %e4, B4⟩, ⟨%b5, %e5, B5⟩, ⟨%b6, %e6, B6⟩, ⟨%b7, %e7, B7⟩, ⟨%b8, %e8, B8⟩, ⟨%b9, %e9, B9⟩, ⟨%b10, %e10, B10⟩, ⟨%b11, %e11, B11⟩, ⟨%b12, %e12, B12⟩, ⟨%b13, %e13, B13⟩, ⟨%b14, %e14, B14⟩, ⟨%b15, %e15, B15⟩, ⟨%b16, %e16, B16⟩, ⟨%junk, %b17, -, B17⟩, Hret⟩
  subst e0 e1 e2 e3 e4 e5 e6 e7 e8 e9 e10 e11 e12 e13 e14 e15 e16
  -- the loads, then the store
  sl_exec
  sl_step
  iapply Hret
  hand_back B0; hand_back B1; hand_back B2; hand_back B3; hand_back B4; hand_back B5; hand_back B6; hand_back B7; hand_back B8; hand_back B9; hand_back B10; hand_back B11; hand_back B12; hand_back B13; hand_back B14; hand_back B15; hand_back B16
  -- the output buffer: what one covering store leaves reads as the stored payload
  iexists _; iframe; ipureintro
  exact View.read_writes_eq_canon _ _ _ (cover3_17 _)

/-- The share window `w` holds of its array: windows 0 and 1 are laid over one array and hold the left and the
    right half of its full share; every other window holds the full share of its own array. -/
def q3 (w : Fin 18) : PosShare TreeShare :=
  if w = 0 then fullShare.left else if w = 1 then fullShare.right else fullShare

/-! ## The proof data -/

/-- The pipeline's proof data on core `c`. The arrays are what the region was entered with. The body leaves
    each input buffer at the window's block of its array, and the output buffer at `out3_17` of the seventeen
    input blocks. Between points the body keeps nothing but the core's scratch memory and generator register, and
    it owes nothing. Windows 0 and 1, laid over one array, hold the left and the right half of its share; every
    other window holds its array's full share. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
    | ⟨_ + 18, h⟩ => absurd h (Nat.not_lt.2 (Nat.le_add_left _ _))
  Φ _ := Pipeline.ΦA spec3 c
  q := q3
  owed _ := 0

theorem A_eq3 (c : Dev nD) (w : Fin cfg3.W) : (dat3 V c).A w = V c (Pipeline.arrRef spec3 w) := rfl

/-- The invariant does not depend on the point, -/
theorem Φ_eq3 (c : Dev nD) (k : Fin (cfg3.N + 1)) : (dat3 V c).Φ k = Pipeline.ΦA spec3 c := rfl

/-- nor does what the core owes. -/
theorem owes_eq3 (c : Dev nD) (k : Fin (cfg3.N + 1)) : (dat3 V c).owesAt () k = (dat3 V c).owesAt () 0 := rfl

/-- What the body leaves in each window's buffer (the proof data's `after`, one window at a time). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) :
    (dat3 V c).after 17 t = out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) := by
  dsimp only [dat3]

set_option maxHeartbeats 2000000 in
/-- An input window's buffer already holds, when the body is called at a point, what the body leaves in it there.
    Every window but the last is an input, uncut and never idle, and what the body leaves in its buffer is the
    window's block of the array. If the pipeline fetches the window at that point, the fetch has put the block
    there. If not, the window's block index is what it was at the point before, where the body left that same
    block in place. -/
theorem before3_in (c : Dev nD) (t : Fin cfg3.N) :
    ∀ w : Fin 18, w ≠ 17 → ∀ d, (dat3 V c).before w t d = (dat3 V c).after w t := by
  intro w
  fin_cases w <;> first
    | exact fun h => absurd rfl h
    | (intro _ d
       refine ((dat3 V c).before_in_eq_fetched _ rfl (fun _ => rfl) (fun _ _ _ => rfl) (fun _ => ?_) t d).trans ?_
       all_goals (dsimp only [dat3, Dat.fetched, Dat.blockOf, iblk3]; try rfl))

/-- The same, window by window, with the block spelled out. -/
theorem before3_0 (c : Dev nD) (t : Fin cfg3.N) (d) : (dat3 V c).before 0 t d = iblk3 V c 0 t :=
  (before3_in V c t 0 (by decide) d).trans (after3_0 V c t)
theorem before3_1 (c : Dev nD) (t : Fin cfg3.N) (d) : (dat3 V c).before 1 t d = iblk3 V c 1 t :=
  (before3_in V c t 1 (by decide) d).trans (after3_1 V c t)
theorem before3_2 (c : Dev nD) (t : Fin cfg3.N) (d) : (dat3 V c).before 2 t d = iblk3 V c 2 t :=
  (before3_in V c t 2 (by decide) d).trans (after3_2 V c t)
theorem before3_3 (c : Dev nD) (t : Fin cfg3.N) (d) : (dat3 V c).before 3 t d = iblk3 V c 3 t :=
  (before3_in V c t 3 (by decide) d).trans (after3_3 V c t)
theorem before3_4 (c : Dev nD) (t : Fin cfg3.N) (d) : (dat3 V c).before 4 t d = iblk3 V c 4 t :=
  (before3_in V c t 4 (by decide) d).trans (after3_4 V c t)
theorem before3_5 (c : Dev nD) (t : Fin cfg3.N) (d) : (dat3 V c).before 5 t d = iblk3 V c 5 t :=
  (before3_in V c t 5 (by decide) d).trans (after3_5 V c t)
theorem before3_6 (c : Dev nD) (t : Fin cfg3.N) (d) : (dat3 V c).before 6 t d = iblk3 V c 6 t :=
  (before3_in V c t 6 (by decide) d).trans (after3_6 V c t)
theorem before3_7 (c : Dev nD) (t : Fin cfg3.N) (d) : (dat3 V c).before 7 t d = iblk3 V c 7 t :=
  (before3_in V c t 7 (by decide) d).trans (after3_7 V c t)
theorem before3_8 (c : Dev nD) (t : Fin cfg3.N) (d) : (dat3 V c).before 8 t d = iblk3 V c 8 t :=
  (before3_in V c t 8 (by decide) d).trans (after3_8 V c t)
theorem before3_9 (c : Dev nD) (t : Fin cfg3.N) (d) : (dat3 V c).before 9 t d = iblk3 V c 9 t :=
  (before3_in V c t 9 (by decide) d).trans (after3_9 V c t)
theorem before3_10 (c : Dev nD) (t : Fin cfg3.N) (d) : (dat3 V c).before 10 t d = iblk3 V c 10 t :=
  (before3_in V c t 10 (by decide) d).trans (after3_10 V c t)
theorem before3_11 (c : Dev nD) (t : Fin cfg3.N) (d) : (dat3 V c).before 11 t d = iblk3 V c 11 t :=
  (before3_in V c t 11 (by decide) d).trans (after3_11 V c t)
theorem before3_12 (c : Dev nD) (t : Fin cfg3.N) (d) : (dat3 V c).before 12 t d = iblk3 V c 12 t :=
  (before3_in V c t 12 (by decide) d).trans (after3_12 V c t)
theorem before3_13 (c : Dev nD) (t : Fin cfg3.N) (d) : (dat3 V c).before 13 t d = iblk3 V c 13 t :=
  (before3_in V c t 13 (by decide) d).trans (after3_13 V c t)
theorem before3_14 (c : Dev nD) (t : Fin cfg3.N) (d) : (dat3 V c).before 14 t d = iblk3 V c 14 t :=
  (before3_in V c t 14 (by decide) d).trans (after3_14 V c t)
theorem before3_15 (c : Dev nD) (t : Fin cfg3.N) (d) : (dat3 V c).before 15 t d = iblk3 V c 15 t :=
  (before3_in V c t 15 (by decide) d).trans (after3_15 V c t)
theorem before3_16 (c : Dev nD) (t : Fin cfg3.N) (d) : (dat3 V c).before 16 t d = iblk3 V c 16 t :=
  (before3_in V c t 16 (by decide) d).trans (after3_16 V c t)

/-! ## The body obligation -/

set_option maxHeartbeats 4000000 in
/-- At every point the body, handed the invariant, the core's debts and the eighteen current staging buffers, runs
    to the same invariant and debts and the buffers at what the proof data say it leaves: the input buffers hold
    their blocks, so the body's triple applies, and it touches nothing else. -/
theorem body_obligation3 (c : Dev nD) : BodyObligation (dat3 (F := F) V c) (defs₀ (F := F)) Variants.none () Set.univ := by
  intro t
  rw [bigSep_W3, bigSep_W3]
  simp only [before3_0, before3_1, before3_2, before3_3, before3_4, before3_5, before3_6, before3_7, before3_8, before3_9, before3_10, before3_11, before3_12, before3_13, before3_14, before3_15, before3_16,
    after3_0, after3_1, after3_2, after3_3, after3_4, after3_5, after3_6, after3_7, after3_8, after3_9, after3_10, after3_11, after3_12, after3_13, after3_14, after3_15, after3_16, after3_17, Φ_eq3, owes_eq3]
  iintro ⟨Inv, Debt, ⟨%_, I0⟩, ⟨%_, I1⟩, ⟨%_, I2⟩, ⟨%_, I3⟩, ⟨%_, I4⟩, ⟨%_, I5⟩, ⟨%_, I6⟩, ⟨%_, I7⟩, ⟨%_, I8⟩, ⟨%_, I9⟩, ⟨%_, I10⟩, ⟨%_, I11⟩, ⟨%_, I12⟩, ⟨%_, I13⟩, ⟨%_, I14⟩, ⟨%_, I15⟩, ⟨%_, I16⟩, ⟨%junk, O⟩⟩
  iapply (sound_kernel3 c Set.univ (grid3.coords t) _ _ _ _ _ _ _ _ _ _ _ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) _)
  iframe I0 I1 I2 I3 I4 I5 I6 I7 I8 I9 I10 I11 I12 I13 I14 I15 I16
  isplitl [O]
  · iexists _; iexact O
  · iintro ⟨J0, J1, J2, J3, J4, J5, J6, J7, J8, J9, J10, J11, J12, J13, J14, J15, J16, J17⟩
    iframe

/-! ## One array behind two windows

Windows 0 and 1 of the region are laid over the same array, so the seventeen distinct arrays behind the eighteen
windows cannot each be held whole by "its" window. The array under windows 0 and 1 is held in two halves, window 0
the left half of the full share and window 1 the right half; every other array is held at the full share. -/

/-- Windows 0 and 1 are laid over the same array. -/
theorem sameArr3 : Pipeline.arrRef spec3 0 = Pipeline.arrRef spec3 1 := rfl

/-- From window 1 on, no two windows are laid over one array. -/
theorem arrRef3_injOn : ∀ x ∈ (Finset.univ : Finset (Fin 18)).erase 0, ∀ y ∈ (Finset.univ : Finset (Fin 18)).erase 0,
    Pipeline.arrRef spec3 x = Pipeline.arrRef spec3 y → x = y := by decide

/-- So the arrays behind the eighteen windows are the arrays behind windows 1 to 17. -/
theorem arrImage3 : (Finset.univ : Finset (Fin 18)).image (Pipeline.arrRef spec3)
    = ((Finset.univ : Finset (Fin 18)).erase 0).image (Pipeline.arrRef spec3) := by
  ext b
  simp only [Finset.mem_image, Finset.mem_erase, Finset.mem_univ, true_and, and_true]
  constructor
  · rintro ⟨w, rfl⟩
    by_cases h : w = 0
    · subst h; exact ⟨1, by decide, sameArr3.symm⟩
    · exact ⟨w, h, rfl⟩
  · rintro ⟨w, -, rfl⟩; exact ⟨w, rfl⟩

section Deal

/-- Two assertions that entail each other are the same assertion. -/
theorem eq_of_equiv {P Q : sProp 𝕄} (h : P ⊣⊢ Q) : P = Q := equiv_iff.mp (And.intro h.mp h.mpr)

variable {c : Dev nD} (dat : Dat τ (Elt F) Unit ℕ (Pipeline.UD sig nD τ) ℕ cfg3 c)
  (W : (b : Ref sig .tc) → Buf (Elt F) ((c : Thread nD τ).loc b))
  (G : (w : Fin cfg3.W) → Buf (Elt F) ((cfg3.win w).arr.view.loc (c : Thread nD τ)))

/-- Window `w`'s array as the proof data hold it: at the window's share, at contents `G w`. -/
def held3 (w : Fin cfg3.W) : sProp 𝕄 :=
  (cfg3.win w).arr.view.loc (c : Thread nD τ) ↦[(cfg3.win w).arr.view.set]{dat.share w} G w

/-- The buffer `b` whole, at share `q`, at contents `W b`. -/
def buf3 (q : PosShare TreeShare) (b : Ref sig .tc) : sProp 𝕄 := ((c : Thread nD τ).loc b) ↦{q} W b

/-- When the proof data hold the arrays at the shares `q3`, at contents `G` that are the buffers' contents `W`
    read window by window, the seventeen distinct buffers whole at the full share ARE the proof data's arrays:
    the buffer under windows 0 and 1 splits along its share into the two windows' halves, and each other buffer
    is its one window's array. -/
theorem arrays3_eq (hq : ∀ w, dat.q w = q3 w) (hG : ∀ w, G w = W (Pipeline.arrRef spec3 w)) :
    (Pipeline.arrBufs spec3 c W : sProp 𝕄) = dat.arrays G := by
  classical
  -- the shares, read off `q3`: an output window holds the full share whatever `q` says
  have s0 : dat.share 0 = fullShare.left := by
    unfold Dat.share; rw [show (cfg3.win 0).isOut = false from rfl, hq]; rfl
  have s1 : dat.share 1 = fullShare.right := by
    unfold Dat.share; rw [show (cfg3.win 1).isOut = false from rfl, hq]; rfl
  have sT : ∀ w : Fin 18, w ≠ 0 → w ≠ 1 → dat.share w = fullShare := by
    intro w n0 n1; unfold Dat.share; split
    · rfl
    · rw [hq]; unfold q3; rw [if_neg n0, if_neg n1]
  -- window by window: a window's array is a whole buffer
  have e0 : held3 dat G 0 = buf3 W fullShare.left (Pipeline.arrRef spec3 1) := by
    unfold held3 buf3; rw [(arr_whole3 0).set_eq_univ, s0, hG]
  have e1 : held3 dat G 1 = buf3 W fullShare.right (Pipeline.arrRef spec3 1) := by
    unfold held3 buf3; rw [(arr_whole3 1).set_eq_univ, s1, hG]
  have eT : bigSep (((Finset.univ : Finset (Fin 18)).erase 0).erase 1) (held3 dat G)
      = bigSep (((Finset.univ : Finset (Fin 18)).erase 0).erase 1) fun w => buf3 W fullShare (Pipeline.arrRef spec3 w) :=
    bigSep_congr fun w hw => by
      have n1 : w ≠ 1 := (Finset.mem_erase.mp hw).1
      have n0 : w ≠ 0 := (Finset.mem_erase.mp (Finset.mem_erase.mp hw).2).1
      unfold held3 buf3; rw [(arr_whole3 w).set_eq_univ, sT w n0 n1, hG]
  -- the buffers: those behind windows 1 to 17, one each
  have L : (Pipeline.arrBufs spec3 c W : sProp 𝕄)
      = iprop(buf3 W fullShare (Pipeline.arrRef spec3 1)
          ∗ bigSep (((Finset.univ : Finset (Fin 18)).erase 0).erase 1) fun w => buf3 W fullShare (Pipeline.arrRef spec3 w)) := by
    unfold Pipeline.arrBufs
    rw [arrImage3]
    refine (Finset.fold_image fun a ha b hb h => arrRef3_injOn a (Finset.mem_coe.mp ha) b (Finset.mem_coe.mp hb) h).trans ?_
    exact bigSep_erase (i := (1 : Fin 18)) (by decide)
  -- the arrays: windows 0 and 1, then the rest
  have R : dat.arrays G = iprop(held3 dat G 0 ∗ held3 dat G 1
      ∗ bigSep (((Finset.univ : Finset (Fin 18)).erase 0).erase 1) (held3 dat G)) := by
    show bigSep Finset.univ (held3 dat G) = _
    rw [bigSep_univ_split (0 : Fin 18), bigSep_erase (i := (1 : Fin 18)) (s := Finset.univ.erase 0) (by decide)]
    rfl
  rw [L, R, e0, e1, eT]
  unfold buf3
  rw [eq_of_equiv (pointsTo_share (PosShare.mem_left_op_right fullShare))]
  exact eq_of_equiv sep_assoc

end Deal

/-! ## Entry and exit of the region -/

/-- On entry: the seventeen distinct buffers behind the windows' arrays, whole at the full share at the contents the
    region is entered with, make the proof data's arrays as they stand before the first point. -/
theorem hsplit3 (c : Dev nD) :
    (Pipeline.arrBufs spec3 c (V c) : sProp 𝕄) ⊢ (dat3 V c).arrays ((dat3 V c).arrAt · 0) :=
  Entails.of_eq (arrays3_eq (dat3 V c) (V c) _ (fun _ => rfl) (fun _ => rfl))

/-- On exit: the proof data's arrays as they stand after the last point, if those are the contents `V'` read window
    by window, give back the seventeen buffers whole at the full share at `V'`. -/
theorem hjoin3 (c : Dev nD) (V' : (b : Ref sig .tc) → Buf (Elt F) ((c : Thread nD τ).loc b))
    (hF : ∀ w, (dat3 V c).arrAt w cfg3.N = V' (Pipeline.arrRef spec3 w)) :
    (dat3 V c).arrays ((dat3 V c).arrAt · cfg3.N) ⊢ (Pipeline.arrBufs spec3 c V' : sProp 𝕄) :=
  Entails.of_eq (arrays3_eq (dat3 V c) V' _ (fun _ => rfl) hF).symm

end Cert.KernelIdeal.Hand

end
-- ==== Proof.KI.Run.lean ====
/-
  The kernel program's run, item by item.

  @main is nine items: five stretches of host operations (reshapes, the layers' scales computed from the scalar
  arguments, the weights rounded for the matrix unit) around four kernel regions. Between two items a core holds
  every unscoped buffer whole; `St j` is what those buffers hold after item j − 1, from the launch memory on:
  a host stretch applies its operations, a region leaves its input arrays as it found them and its one output
  array at the blocks the grid points wrote back. The run ends with every unscoped buffer at `St9`; reading
  that valuation back gives the arguments unchanged and the result as the last reshape of region 3's output.
-/
import proofs.«131422_j57432302682877_2_alg».proof.Proof.KI.R0
import proofs.«131422_j57432302682877_2_alg».proof.Proof.KI.R1
import proofs.«131422_j57432302682877_2_alg».proof.Proof.KI.R2
import proofs.«131422_j57432302682877_2_alg».proof.Proof.KI.R3
import proofs.«131422_j57432302682877_2_alg».proof.Proof.LibRegionRecord
import proofs.«131422_j57432302682877_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A valuation of the unscoped buffers read at the TensorCore's references. -/
abbrev rd (S : Dev nD → Valuation τ sig (Elt F)) : (c : Dev nD) → (b : Ref sig .tc) → Buf (Elt F) ((c : Thread nD τ).loc b) :=
  fun c b => S c b

/-! ## The buffers' contents after each item -/

/-- At launch. -/
abbrev St0 (c : Dev nD) : Valuation τ sig (Elt F) := fun b => m (c, b)

/-- After the host operations `hostOps0`. -/
def St1 (c : Dev nD) : Valuation τ sig (Elt F) := StableHlo.after hostOps0 (St0 m c)

theorem St1_kept (c : Dev nD) (r : Ref sig .tc) (hr : r ∉ hostOps0_W) : rd (St1 m) c r = rd (St0 m) c r :=
  StableHlo.after_of_writes_sub hostOps0 _ hostOps0_writes hr

/-- After region 0: each of its arrays at what the pipeline leaves there, every other buffer as the region found it. -/
def St2 (c : Dev nD) : Valuation τ sig (Elt F) :=
  Pipeline.withArrays spec0 c (St1 m c) fun w => (dat0 (rd (St1 m)) c).arrAt w cfg0.N

theorem St2_at_array (c : Dev nD) (w : Fin cfg0.W) :
    (dat0 (rd (St1 m)) c).arrAt w cfg0.N = rd (St2 m) c (Pipeline.arrRef spec0 w) := by
  unfold St2; exact (Pipeline.withArrays_arr spec0 launch0.win.arr_inj c (St1 m c) (fun w => (dat0 (rd (St1 m)) c).arrAt w cfg0.N) w).symm

theorem St2_off_arrays (c : Dev nD) (b : Ref sig .tc) (hb : b ∉ Finset.univ.image (Pipeline.arrRef spec0)) :
    rd (St2 m) c b = rd (St1 m) c b :=
  Pipeline.withArrays_of_ne spec0 c (St1 m c) _ b fun w e => hb (Finset.mem_image.mpr ⟨w, Finset.mem_univ _, e⟩)

/-- Region 0 changes only its output array: an input array ends as it was found, and no other buffer is touched. -/
theorem St2_kept (c : Dev nD) (r : Ref sig .tc) (hr : r ≠ main_v7) : rd (St2 m) c r = rd (St1 m) c r := by
  by_cases h : r ∈ Finset.univ.image (Pipeline.arrRef spec0)
  · obtain ⟨w, -, rfl⟩ := Finset.mem_image.mp h
    rw [← St2_at_array m c w]
    have hin : (cfg0.win w).isOut = false := by
      revert hr; revert w; decide
    exact (dat0 (rd (St1 m)) c).arrAt_in w hin _
  · exact St2_off_arrays m c r h

/-- After the host operations `hostOps1`. -/
def St3 (c : Dev nD) : Valuation τ sig (Elt F) := StableHlo.after hostOps1 (St2 m c)

theorem St3_kept (c : Dev nD) (r : Ref sig .tc) (hr : r ∉ hostOps1_W) : rd (St3 m) c r = rd (St2 m) c r :=
  StableHlo.after_of_writes_sub hostOps1 _ hostOps1_writes hr

/-- After region 1: each of its arrays at what the pipeline leaves there, every other buffer as the region found it. -/
def St4 (c : Dev nD) : Valuation τ sig (Elt F) :=
  Pipeline.withArrays spec1 c (St3 m c) fun w => (dat1 (rd (St3 m)) c).arrAt w cfg1.N

theorem St4_at_array (c : Dev nD) (w : Fin cfg1.W) :
    (dat1 (rd (St3 m)) c).arrAt w cfg1.N = rd (St4 m) c (Pipeline.arrRef spec1 w) := by
  unfold St4; exact (Pipeline.withArrays_arr spec1 launch1.win.arr_inj c (St3 m c) (fun w => (dat1 (rd (St3 m)) c).arrAt w cfg1.N) w).symm

theorem St4_off_arrays (c : Dev nD) (b : Ref sig .tc) (hb : b ∉ Finset.univ.image (Pipeline.arrRef spec1)) :
    rd (St4 m) c b = rd (St3 m) c b :=
  Pipeline.withArrays_of_ne spec1 c (St3 m c) _ b fun w e => hb (Finset.mem_image.mpr ⟨w, Finset.mem_univ _, e⟩)

/-- Region 1 changes only its output array: an input array ends as it was found, and no other buffer is touched. -/
theorem St4_kept (c : Dev nD) (r : Ref sig .tc) (hr : r ≠ main_v14) : rd (St4 m) c r = rd (St3 m) c r := by
  by_cases h : r ∈ Finset.univ.image (Pipeline.arrRef spec1)
  · obtain ⟨w, -, rfl⟩ := Finset.mem_image.mp h
    rw [← St4_at_array m c w]
    have hin : (cfg1.win w).isOut = false := by
      revert hr; revert w; decide
    exact (dat1 (rd (St3 m)) c).arrAt_in w hin _
  · exact St4_off_arrays m c r h

/-- After the host operations `hostOps2`. -/
def St5 (c : Dev nD) : Valuation τ sig (Elt F) := StableHlo.after hostOps2 (St4 m c)

theorem St5_kept (c : Dev nD) (r : Ref sig .tc) (hr : r ∉ hostOps2_W) : rd (St5 m) c r = rd (St4 m) c r :=
  StableHlo.after_of_writes_sub hostOps2 _ hostOps2_writes hr

/-- After region 2: each of its arrays at what the pipeline leaves there, every other buffer as the region found it. -/
def St6 (c : Dev nD) : Valuation τ sig (Elt F) :=
  Pipeline.withArrays spec2 c (St5 m c) fun w => (dat2 (rd (St5 m)) c).arrAt w cfg2.N

theorem St6_at_array (c : Dev nD) (w : Fin cfg2.W) :
    (dat2 (rd (St5 m)) c).arrAt w cfg2.N = rd (St6 m) c (Pipeline.arrRef spec2 w) := by
  unfold St6; exact (Pipeline.withArrays_arr spec2 launch2.win.arr_inj c (St5 m c) (fun w => (dat2 (rd (St5 m)) c).arrAt w cfg2.N) w).symm

theorem St6_off_arrays (c : Dev nD) (b : Ref sig .tc) (hb : b ∉ Finset.univ.image (Pipeline.arrRef spec2)) :
    rd (St6 m) c b = rd (St5 m) c b :=
  Pipeline.withArrays_of_ne spec2 c (St5 m c) _ b fun w e => hb (Finset.mem_image.mpr ⟨w, Finset.mem_univ _, e⟩)

/-- Region 2 changes only its output array: an input array ends as it was found, and no other buffer is touched. -/
theorem St6_kept (c : Dev nD) (r : Ref sig .tc) (hr : r ≠ main_v23) : rd (St6 m) c r = rd (St5 m) c r := by
  by_cases h : r ∈ Finset.univ.image (Pipeline.arrRef spec2)
  · obtain ⟨w, -, rfl⟩ := Finset.mem_image.mp h
    rw [← St6_at_array m c w]
    have hin : (cfg2.win w).isOut = false := by
      revert hr; revert w; decide
    exact (dat2 (rd (St5 m)) c).arrAt_in w hin _
  · exact St6_off_arrays m c r h

/-- After the host operations `hostOps3`. -/
def St7 (c : Dev nD) : Valuation τ sig (Elt F) := StableHlo.after hostOps3 (St6 m c)

theorem St7_kept (c : Dev nD) (r : Ref sig .tc) (hr : r ∉ hostOps3_W) : rd (St7 m) c r = rd (St6 m) c r :=
  StableHlo.after_of_writes_sub hostOps3 _ hostOps3_writes hr

/-- After region 3: its output array at what the pipeline leaves there; its input arrays — two of its windows read
    one of them — and every other buffer as the region found them. -/
def St8 (c : Dev nD) : Valuation τ sig (Elt F) :=
  Function.update (St7 m c) (Proc.devRef .tc main_v42) ((dat3 (rd (St7 m)) c).arrAt 17 cfg3.N)

theorem St8_kept (c : Dev nD) (r : Ref sig .tc) (hr : r ≠ main_v42) : rd (St8 m) c r = rd (St7 m) c r :=
  Function.update_of_ne (fun e => hr (Proc.devRef_injective _ e)) _ _

theorem St8_at_array (c : Dev nD) (w : Fin cfg3.W) :
    (dat3 (rd (St7 m)) c).arrAt w cfg3.N = rd (St8 m) c (Pipeline.arrRef spec3 w) := by
  by_cases hw : w = 17
  · subst hw
    show _ = Function.update (St7 m c) (Proc.devRef .tc main_v42) _ (Proc.devRef .tc main_v42)
    rw [Function.update_self]
  · have hin : (cfg3.win w).isOut = false := by revert hw; revert w; decide
    have hne : Pipeline.arrRef spec3 w ≠ main_v42 := by revert hw; revert w; decide
    rw [St8_kept m c _ hne]
    exact ((dat3 (rd (St7 m)) c).arrAt_in w hin _).trans (A_eq3 (rd (St7 m)) c w)

/-- After the host operations `hostOps4`. -/
def St9 (c : Dev nD) : Valuation τ sig (Elt F) := StableHlo.after hostOps4 (St8 m c)

theorem St9_kept (c : Dev nD) (r : Ref sig .tc) (hr : r ∉ hostOps4_W) : rd (St9 m) c r = rd (St8 m) c r :=
  StableHlo.after_of_writes_sub hostOps4 _ hostOps4_writes hr

/-! ## The proof data of the four pipelines, each at its region's entry contents -/

/-- Every pipeline's proof data: a literal case split, so that each reduces to its region's own. -/
def pdats : (p : Fin 4) → (c : Dev nD) → Dat τ (Elt F) Unit ℕ (Pipeline.UD sig nD τ) ℕ (Pipeline.pin (pcfgs (F := F)) adm p) c
  | ⟨0, _⟩ => fun c => dat0 (rd (St1 m)) c
  | ⟨1, _⟩ => fun c => dat1 (rd (St3 m)) c
  | ⟨2, _⟩ => fun c => dat2 (rd (St5 m)) c
  | ⟨3, _⟩ => fun c => dat3 (rd (St7 m)) c

/-- No core owes another anything here: no level is assigned. -/
abbrev noLevels : GSem nD τ sig → Finset Unit := fun _ => ∅
abbrev noLevel : GSem nD τ sig → Unit → ℕ := fun _ _ => 0

/-- What rides beside the buffers through every item. -/
abbrev rest : Dev nD → sProp 𝕄 := fun c => RegionRecord.Rest c

/-- No pipeline reads a prefetched table. -/
theorem noTables (p : Fin 4) (c : Dev nD) :
    (BI.emp : sProp 𝕄) ⊢ Pipeline.prefHeld (pcfgs (F := F) p).pre c (fun _ => fullShare) (adm p).1 := by
  unfold Pipeline.prefHeld
  match p with
  | ⟨0, _⟩ => rw [show (Finset.univ : Finset (Fin 0)) = ∅ from rfl, BI.bigSep_empty]
  | ⟨1, _⟩ => rw [show (Finset.univ : Finset (Fin 0)) = ∅ from rfl, BI.bigSep_empty]
  | ⟨2, _⟩ => rw [show (Finset.univ : Finset (Fin 0)) = ∅ from rfl, BI.bigSep_empty]
  | ⟨3, _⟩ => rw [show (Finset.univ : Finset (Fin 0)) = ∅ from rfl, BI.bigSep_empty]

/-! ## The regions as items -/

/-- What bypasses a region: the unscoped buffers that are none of its arrays, as the region found them. -/
abbrev bypass0 (c : Dev nD) : sProp 𝕄 := Pipeline.unscopedRest spec0 c (rd (St1 m) c)
abbrev bypass1 (c : Dev nD) : sProp 𝕄 := Pipeline.unscopedRest spec1 c (rd (St3 m) c)
abbrev bypass2 (c : Dev nD) : sProp 𝕄 := Pipeline.unscopedRest spec2 c (rd (St5 m) c)
abbrev bypass3 (c : Dev nD) : sProp 𝕄 := Pipeline.unscopedRest spec3 c (rd (St7 m) c)

/-- Region 0's arrays, distinct whole buffers, sorted out of the unscoped buffers at entry … -/
theorem enter0 (c : Dev nD) : (StableHlo.held (c : Thread nD τ) (Pipeline.ucRefs τ sig) (St1 m c) : sProp 𝕄)
    ⊢ iprop((pdats m 0 c).arrays ((pdats m 0 c).arrAt · 0) ∗ bypass0 m c) := by
  have h := Pipeline.arrays_of_unscopedBufs (p := 0) (pcfgs (F := F)) adm (pdats m) launch0.win launch0.arr_whole c
    ((pdats m 0 c).share_full fun _ => rfl) (rd (St1 m) c) fun _ => rfl
  rwa [Pipeline.unscopedBufs_held] at h

/-- … and put back at their final contents at exit. -/
theorem leave0 (c : Dev nD) : iprop((pdats m 0 c).arrays ((pdats m 0 c).arrAt · cfg0.N) ∗ bypass0 m c)
    ⊢ (StableHlo.held (c : Thread nD τ) (Pipeline.ucRefs τ sig) (St2 m c) : sProp 𝕄) := by
  have h := Pipeline.unscopedBufs_of_arrays (p := 0) (pcfgs (F := F)) adm (Ix := Unit) (Name := ℕ) (U := Pipeline.UD sig nD τ) (Lvl := ℕ)
    launch0.win launch0.arr_whole c (pdats m) ((pdats m 0 c).share_full fun _ => rfl)
    (rd (St1 m) c) (rd (St2 m) c) ((pdats m 0 c).arrAt · cfg0.N) (St2_at_array m c) (St2_off_arrays m c)
  rwa [Pipeline.unscopedBufs_held] at h

def reg0 : Pipeline.RegionSeg (pcfgs (F := F)) adm (pdats m) () defs₀ Variants.none noLevels noLevel 0 :=
  RegionRecord.plain (pcfgs (F := F)) adm (pdats m) defs₀ Variants.none noLevels noLevel 0
    launch0.win.to₀ launch0.block_pos launch0.stage_whole
    (fun c => (body_obligation0 (rd (St1 m)) c).loose) (fun _ _ => rfl) (fun _ _ => rfl) (fun _ _ => rfl) (noTables 0)
    (St1 m) (St2 m) (bypass0 m) (enter0 m) (leave0 m)

/-- Region 1's arrays, distinct whole buffers, sorted out of the unscoped buffers at entry … -/
theorem enter1 (c : Dev nD) : (StableHlo.held (c : Thread nD τ) (Pipeline.ucRefs τ sig) (St3 m c) : sProp 𝕄)
    ⊢ iprop((pdats m 1 c).arrays ((pdats m 1 c).arrAt · 0) ∗ bypass1 m c) := by
  have h := Pipeline.arrays_of_unscopedBufs (p := 1) (pcfgs (F := F)) adm (pdats m) launch1.win launch1.arr_whole c
    ((pdats m 1 c).share_full fun _ => rfl) (rd (St3 m) c) fun _ => rfl
  rwa [Pipeline.unscopedBufs_held] at h

/-- … and put back at their final contents at exit. -/
theorem leave1 (c : Dev nD) : iprop((pdats m 1 c).arrays ((pdats m 1 c).arrAt · cfg1.N) ∗ bypass1 m c)
    ⊢ (StableHlo.held (c : Thread nD τ) (Pipeline.ucRefs τ sig) (St4 m c) : sProp 𝕄) := by
  have h := Pipeline.unscopedBufs_of_arrays (p := 1) (pcfgs (F := F)) adm (Ix := Unit) (Name := ℕ) (U := Pipeline.UD sig nD τ) (Lvl := ℕ)
    launch1.win launch1.arr_whole c (pdats m) ((pdats m 1 c).share_full fun _ => rfl)
    (rd (St3 m) c) (rd (St4 m) c) ((pdats m 1 c).arrAt · cfg1.N) (St4_at_array m c) (St4_off_arrays m c)
  rwa [Pipeline.unscopedBufs_held] at h

def reg1 : Pipeline.RegionSeg (pcfgs (F := F)) adm (pdats m) () defs₀ Variants.none noLevels noLevel 1 :=
  RegionRecord.plain (pcfgs (F := F)) adm (pdats m) defs₀ Variants.none noLevels noLevel 1
    launch1.win.to₀ launch1.block_pos launch1.stage_whole
    (fun c => (body_obligation1 (rd (St3 m)) c).loose) (fun _ _ => rfl) (fun _ _ => rfl) (fun _ _ => rfl) (noTables 1)
    (St3 m) (St4 m) (bypass1 m) (enter1 m) (leave1 m)

/-- Region 2's arrays, distinct whole buffers, sorted out of the unscoped buffers at entry … -/
theorem enter2 (c : Dev nD) : (StableHlo.held (c : Thread nD τ) (Pipeline.ucRefs τ sig) (St5 m c) : sProp 𝕄)
    ⊢ iprop((pdats m 2 c).arrays ((pdats m 2 c).arrAt · 0) ∗ bypass2 m c) := by
  have h := Pipeline.arrays_of_unscopedBufs (p := 2) (pcfgs (F := F)) adm (pdats m) launch2.win launch2.arr_whole c
    ((pdats m 2 c).share_full fun _ => rfl) (rd (St5 m) c) fun _ => rfl
  rwa [Pipeline.unscopedBufs_held] at h

/-- … and put back at their final contents at exit. -/
theorem leave2 (c : Dev nD) : iprop((pdats m 2 c).arrays ((pdats m 2 c).arrAt · cfg2.N) ∗ bypass2 m c)
    ⊢ (StableHlo.held (c : Thread nD τ) (Pipeline.ucRefs τ sig) (St6 m c) : sProp 𝕄) := by
  have h := Pipeline.unscopedBufs_of_arrays (p := 2) (pcfgs (F := F)) adm (Ix := Unit) (Name := ℕ) (U := Pipeline.UD sig nD τ) (Lvl := ℕ)
    launch2.win launch2.arr_whole c (pdats m) ((pdats m 2 c).share_full fun _ => rfl)
    (rd (St5 m) c) (rd (St6 m) c) ((pdats m 2 c).arrAt · cfg2.N) (St6_at_array m c) (St6_off_arrays m c)
  rwa [Pipeline.unscopedBufs_held] at h

def reg2 : Pipeline.RegionSeg (pcfgs (F := F)) adm (pdats m) () defs₀ Variants.none noLevels noLevel 2 :=
  RegionRecord.plain (pcfgs (F := F)) adm (pdats m) defs₀ Variants.none noLevels noLevel 2
    launch2.win.to₀ launch2.block_pos launch2.stage_whole
    (fun c => (body_obligation2 (rd (St5 m)) c).loose) (fun _ _ => rfl) (fun _ _ => rfl) (fun _ _ => rfl) (noTables 2)
    (St5 m) (St6 m) (bypass2 m) (enter2 m) (leave2 m)

/-! ### Region 3, two of whose windows read one array

Its arrays are not distinct, so they are sorted out of the distinct buffers behind them (`hsplit3`) and put back
(`hjoin3`); the buffers that are none of its arrays bypass it, and they hold the same after the region as before. -/

theorem enter3 (c : Dev nD) : (StableHlo.held (c : Thread nD τ) (Pipeline.ucRefs τ sig) (St7 m c) : sProp 𝕄)
    ⊢ iprop((pdats m 3 c).arrays ((pdats m 3 c).arrAt · 0) ∗ bypass3 m c) := by
  have e1 : (unscopedBufs c (rd (St7 m) c) : sProp 𝕄) = StableHlo.held (c : Thread nD τ) (Pipeline.ucRefs τ sig) (St7 m c) :=
    Pipeline.unscopedBufs_held c (St7 m c)
  have e2 : (unscopedBufs c (rd (St7 m) c) : sProp 𝕄)
      = iprop(Pipeline.arrBufs spec3 c (rd (St7 m) c) ∗ Pipeline.unscopedRest spec3 c (rd (St7 m) c)) :=
    Pipeline.unscopedBufs_split₀ (Pipeline.pin (pcfgs (F := F)) adm) 3 winFacts₀3.arr_unscoped c (rd (St7 m) c)
  rw [← e1, e2]
  exact sep_mono (hsplit3 (rd (St7 m)) c) .rfl

theorem leave3 (c : Dev nD) : iprop((pdats m 3 c).arrays ((pdats m 3 c).arrAt · cfg3.N) ∗ bypass3 m c)
    ⊢ (StableHlo.held (c : Thread nD τ) (Pipeline.ucRefs τ sig) (St8 m c) : sProp 𝕄) := by
  have e1 : (unscopedBufs c (rd (St8 m) c) : sProp 𝕄) = StableHlo.held (c : Thread nD τ) (Pipeline.ucRefs τ sig) (St8 m c) :=
    Pipeline.unscopedBufs_held c (St8 m c)
  have e2 : (unscopedBufs c (rd (St8 m) c) : sProp 𝕄)
      = iprop(Pipeline.arrBufs spec3 c (rd (St8 m) c) ∗ Pipeline.unscopedRest spec3 c (rd (St8 m) c)) :=
    Pipeline.unscopedBufs_split₀ (Pipeline.pin (pcfgs (F := F)) adm) 3 winFacts₀3.arr_unscoped c (rd (St8 m) c)
  have e3 : (Pipeline.unscopedRest spec3 c (rd (St8 m) c) : sProp 𝕄) = Pipeline.unscopedRest spec3 c (rd (St7 m) c) := by
    unfold Pipeline.unscopedRest
    refine bigSep_congr fun b hb => ?_
    rw [St8_kept m c b fun e => (Finset.mem_sdiff.mp hb).2 (e ▸ Finset.mem_image.mpr ⟨17, Finset.mem_univ _, rfl⟩)]
  rw [← e1, e2, e3]
  exact sep_mono (hjoin3 (rd (St7 m)) c (rd (St8 m) c) (St8_at_array m c)) .rfl

def reg3 : Pipeline.RegionSeg (pcfgs (F := F)) adm (pdats m) () defs₀ Variants.none noLevels noLevel 3 :=
  RegionRecord.plain (pcfgs (F := F)) adm (pdats m) defs₀ Variants.none noLevels noLevel 3
    winFacts₀3 block_pos3 stage_whole3
    (fun c => (body_obligation3 (rd (St7 m)) c).loose) (fun _ _ => rfl) (fun _ _ => rfl) (fun _ _ => rfl) (noTables 3)
    (St7 m) (St8 m) (bypass3 m) (enter3 m) (leave3 m)

/-! ## @main as its nine items -/

/-- A stretch of host operations as an item: every unscoped buffer from the contents `S` to those after the operations,
    the rest riding along. -/
def hostItem (ops : List (HloOp τ sig (Elt F))) (hsub : ops.Forall fun op => op.bufs ⊆ StableHlo.tcRefs τ sig)
    (hfresh : ops.Forall fun op => op.fresh = ∅) (S : Dev nD → Valuation τ sig (Elt F)) :
    Pipeline.HostSeg (Name := ℕ) (U := Pipeline.UD sig nD τ) (pcfgs (F := F)) defs₀ Variants.none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) S rest

abbrev items : List (Pipeline.Seg (pcfgs (F := F)) adm (pdats m) () defs₀ Variants.none noLevels noLevel) :=
  [ .host (hostItem hostOps0 hostOps0_sub hostOps0_fresh (St0 m)),
    .region (reg0 m),
    .host (hostItem hostOps1 hostOps1_sub hostOps1_fresh (St2 m)),
    .region (reg1 m),
    .host (hostItem hostOps2 hostOps2_sub hostOps2_fresh (St4 m)),
    .region (reg2 m),
    .host (hostItem hostOps3 hostOps3_sub hostOps3_fresh (St6 m)),
    .region (reg3 m),
    .host (hostItem hostOps4 hostOps4_sub hostOps4_fresh (St8 m)) ]

theorem main_is_items (c : Dev nD) : main (F := F) c = Pipeline.Seg.run (items m) :=
  (main_chain c).trans (by chain_rfl)

/-- The launch's ghost element gives the pipelines' part; no core needs anything else of it. -/
theorem launch_ghost :
    (ownU ((initOf (Pipeline.cells cfgs cellOf_inj) (Pipeline.launchToks cfgs cellOf_inj), 1) : Pipeline.UD sig nD τ) : sProp 𝕄)
      ⊢ |={Set.univ}=> iprop(BI.own (embL (initOf (Pipeline.cells (Pipeline.pin (pcfgs (F := F)) adm) cellOf_inj) (Pipeline.launchToks (Pipeline.pin (pcfgs (F := F)) adm) cellOf_inj)))
          ∗ bigSep Finset.univ fun _ : Dev nD => (BI.emp : sProp 𝕄)) := by
  iintro Hu
  ihave H := (ownU_pair _ _) $$ Hu
  icases H with ⟨Hpipes, -⟩
  imodintro
  isplitl [Hpipes]; · iexact Hpipes
  rw [BI.bigSep_emp_const]; iempintro

set_option backward.isDefEq.respectTransparency.types false in
/-- THE RUN: from any memory with zero counters every weakly fair execution of @main terminates, nothing faulting, and
    every final memory holds each unscoped buffer at `St9`. -/
theorem run_items (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = St9 m c b) :=
  Pipeline.θ_run_regions_kit (pcfgs (F := F)) adm (pdats m) () cellOf_inj embL defs₀ Variants.none noLevels noLevel m ρ main (items m)
    (fun c Q => by rw [main_is_items m c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := launch_ghost)
    (T₀ := fun c => iprop(StableHlo.held (c : Thread nD τ) (Pipeline.ucRefs τ sig) (St0 m c) ∗ rest c))
    (Tₙ := fun c => iprop(StableHlo.held (c : Thread nD τ) (Pipeline.ucRefs τ sig) (St9 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (St9 m c) ∗ RegionRecord.Rest c)
          ⊢ iprop((StableHlo.held (c : Thread nD τ) (Pipeline.ucRefs τ sig) (St9 m c) ∗ ∃ r, prngReg c r)
              ∗ ∃ W, owes (c : Thread nD τ) (0 : CellTallies nD τ sig Unit) W)
        unfold RegionRecord.Rest
        iintro ⟨Hh, Hreg, Ho⟩
        isplitl [Hh Hreg]
        · isplitl [Hh]; · iexact Hh
          iexact Hreg
        iexact Ho⟩)
    (hinit := by
      refine Pipeline.initEach noLevels noLevel fun c => ?_
      rw [show unscopedBufs c (fun b => m ((c : Thread nD τ).loc b)) = StableHlo.held (c : Thread nD τ) (Pipeline.ucRefs τ sig) (St0 m c)
        from Pipeline.unscopedBufs_held c (St0 m c)]
      unfold rest RegionRecord.Rest
      iintro ⟨⟨Hh, -, Ho, -, Hreg, -⟩, -⟩
      imodintro
      isplitl [Hh]; · iexact Hh
      isplitl [Hreg]; · iexists _; iexact Hreg
      iexists ∅; iexact Ho)
    (QY := fun c s => ∀ b ∈ Pipeline.ucRefs τ sig, s.mem (((c : Thread nD τ)).1, b) = St9 m c b)
    (hfin := fun c s' => by
      iintro ⟨⟨Hh, -⟩, HSI⟩
      unfold StableHlo.held
      imodintro
      iapply (pointsTo_read_all (Pipeline.ucRefs τ sig) (fun b => (((c : Thread nD τ)).1, b)) (St9 m c) s')
      isplitl [Hh] <;> iassumption)
    (hQ := fun s h c => h c)

/-! ## Reading the last valuation back -/

/-- A buffer that no host stretch writes and that is no region's output array ends at its launch contents. -/
theorem St9_untouched (c : Dev nD) (r : Ref sig .tc) (h0 : r ∉ hostOps0_W) (h1 : r ≠ main_v7) (h2 : r ∉ hostOps1_W)
    (h3 : r ≠ main_v14) (h4 : r ∉ hostOps2_W) (h5 : r ≠ main_v23) (h6 : r ∉ hostOps3_W) (h7 : r ≠ main_v42)
    (h8 : r ∉ hostOps4_W) : rd (St9 m) c r = m ((c : Thread nD τ).loc r) :=
  (St9_kept m c r h8).trans <| (St8_kept m c r h7).trans <| (St7_kept m c r h6).trans <| (St6_kept m c r h5).trans <|
    (St5_kept m c r h4).trans <| (St4_kept m c r h3).trans <| (St3_kept m c r h2).trans <| (St2_kept m c r h1).trans <|
    St1_kept m c r h0

/-- An unscoped TensorCore reference is among those the last thread state holds. -/
theorem held_ref (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE FRAME, at any `F`: every weakly fair execution of @main terminates, nothing faulting, with every argument array
    as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨(h c _ (held_ref main_arg0 (by decide))).trans (St9_untouched m c main_arg0 (by decide) (by decide) (by decide) (by decide) (by decide) (by decide) (by decide) (by decide) (by decide)),
     (h c _ (held_ref main_arg1 (by decide))).trans (St9_untouched m c main_arg1 (by decide) (by decide) (by decide) (by decide) (by decide) (by decide) (by decide) (by decide) (by decide)),
     (h c _ (held_ref main_arg2 (by decide))).trans (St9_untouched m c main_arg2 (by decide) (by decide) (by decide) (by decide) (by decide) (by decide) (by decide) (by decide) (by decide)),
     (h c _ (held_ref main_arg3 (by decide))).trans (St9_untouched m c main_arg3 (by decide) (by decide) (by decide) (by decide) (by decide) (by decide) (by decide) (by decide) (by decide)),
     (h c _ (held_ref main_arg4 (by decide))).trans (St9_untouched m c main_arg4 (by decide) (by decide) (by decide) (by decide) (by decide) (by decide) (by decide) (by decide) (by decide)),
     (h c _ (held_ref main_arg5 (by decide))).trans (St9_untouched m c main_arg5 (by decide) (by decide) (by decide) (by decide) (by decide) (by decide) (by decide) (by decide) (by decide)),
     (h c _ (held_ref main_arg6 (by decide))).trans (St9_untouched m c main_arg6 (by decide) (by decide) (by decide) (by decide) (by decide) (by decide) (by decide) (by decide) (by decide)),
     (h c _ (held_ref main_arg7 (by decide))).trans (St9_untouched m c main_arg7 (by decide) (by decide) (by decide) (by decide) (by decide) (by decide) (by decide) (by decide) (by decide)),
     (h c _ (held_ref main_arg8 (by decide))).trans (St9_untouched m c main_arg8 (by decide) (by decide) (by decide) (by decide) (by decide) (by decide) (by decide) (by decide) (by decide)),
     (h c _ (held_ref main_arg9 (by decide))).trans (St9_untouched m c main_arg9 (by decide) (by decide) (by decide) (by decide) (by decide) (by decide) (by decide) (by decide) (by decide)),
     (h c _ (held_ref main_arg10 (by decide))).trans (St9_untouched m c main_arg10 (by decide) (by decide) (by decide) (by decide) (by decide) (by decide) (by decide) (by decide) (by decide)),
     (h c _ (held_ref main_arg11 (by decide))).trans (St9_untouched m c main_arg11 (by decide) (by decide) (by decide) (by decide) (by decide) (by decide) (by decide) (by decide) (by decide)),
     (h c _ (held_ref main_arg12 (by decide))).trans (St9_untouched m c main_arg12 (by decide) (by decide) (by decide) (by decide) (by decide) (by decide) (by decide) (by decide) (by decide)),
     (h c _ (held_ref main_arg13 (by decide))).trans (St9_untouched m c main_arg13 (by decide) (by decide) (by decide) (by decide) (by decide) (by decide) (by decide) (by decide) (by decide)),
     (h c _ (held_ref main_arg14 (by decide))).trans (St9_untouched m c main_arg14 (by decide) (by decide) (by decide) (by decide) (by decide) (by decide) (by decide) (by decide) (by decide)),
     (h c _ (held_ref main_arg15 (by decide))).trans (St9_untouched m c main_arg15 (by decide) (by decide) (by decide) (by decide) (by decide) (by decide) (by decide) (by decide) (by decide)),
     (h c _ (held_ref main_arg16 (by decide))).trans (St9_untouched m c main_arg16 (by decide) (by decide) (by decide) (by decide) (by decide) (by decide) (by decide) (by decide) (by decide)),
     (h c _ (held_ref main_arg17 (by decide))).trans (St9_untouched m c main_arg17 (by decide) (by decide) (by decide) (by decide) (by decide) (by decide) (by decide) (by decide) (by decide)),
     (h c _ (held_ref main_arg18 (by decide))).trans (St9_untouched m c main_arg18 (by decide) (by decide) (by decide) (by decide) (by decide) (by decide) (by decide) (by decide) (by decide)),
     (h c _ (held_ref main_arg19 (by decide))).trans (St9_untouched m c main_arg19 (by decide) (by decide) (by decide) (by decide) (by decide) (by decide) (by decide) (by decide) (by decide)),
     (h c _ (held_ref main_arg20 (by decide))).trans (St9_untouched m c main_arg20 (by decide) (by decide) (by decide) (by decide) (by decide) (by decide) (by decide) (by decide) (by decide)),
     (h c _ (held_ref main_arg21 (by decide))).trans (St9_untouched m c main_arg21 (by decide) (by decide) (by decide) (by decide) (by decide) (by decide) (by decide) (by decide) (by decide)),
     (h c _ (held_ref main_arg22 (by decide))).trans (St9_untouched m c main_arg22 (by decide) (by decide) (by decide) (by decide) (by decide) (by decide) (by decide) (by decide) (by decide)),
     (h c _ (held_ref main_arg23 (by decide))).trans (St9_untouched m c main_arg23 (by decide) (by decide) (by decide) (by decide) (by decide) (by decide) (by decide) (by decide) (by decide)),
     (h c _ (held_ref main_arg24 (by decide))).trans (St9_untouched m c main_arg24 (by decide) (by decide) (by decide) (by decide) (by decide) (by decide) (by decide) (by decide) (by decide)),
     (h c _ (held_ref main_arg25 (by decide))).trans (St9_untouched m c main_arg25 (by decide) (by decide) (by decide) (by decide) (by decide) (by decide) (by decide) (by decide) (by decide)),
     (h c _ (held_ref main_arg26 (by decide))).trans (St9_untouched m c main_arg26 (by decide) (by decide) (by decide) (by decide) (by decide) (by decide) (by decide) (by decide) (by decide)),
     (h c _ (held_ref main_arg27 (by decide))).trans (St9_untouched m c main_arg27 (by decide) (by decide) (by decide) (by decide) (by decide) (by decide) (by decide) (by decide) (by decide)),
     (h c _ (held_ref main_arg28 (by decide))).trans (St9_untouched m c main_arg28 (by decide) (by decide) (by decide) (by decide) (by decide) (by decide) (by decide) (by decide) (by decide)),
     (h c _ (held_ref main_arg29 (by decide))).trans (St9_untouched m c main_arg29 (by decide) (by decide) (by decide) (by decide) (by decide) (by decide) (by decide) (by decide) (by decide)),
     (h c _ (held_ref main_arg30 (by decide))).trans (St9_untouched m c main_arg30 (by decide) (by decide) (by decide) (by decide) (by decide) (by decide) (by decide) (by decide) (by decide)),
     (h c _ (held_ref main_arg31 (by decide))).trans (St9_untouched m c main_arg31 (by decide) (by decide) (by decide) (by decide) (by decide) (by decide) (by decide) (by decide) (by decide))⟩)
    (run_items m ρ)

end Cert.KernelIdeal.Hand

end
-- ==== Proof.LibFlatten.lean ====
/-
  Over the library only, any element type, every extent a variable: a three-axis array [a, b, c] shape-cast to
  the matrix of its a·b rows, and back. Row b·i + j of the matrix is row j of slab i:
  the cast matrix read at (b·i + j, k) is the array at (i, j, k), and conversely.
-/
import Idealize.ShloMosaic.Lib.ValueIdx
import Idealize.ShloMosaic.Lib.Pipeline.Value

noncomputable section

namespace Flatten

open Idealize.ShloMosaic Idealize.ShloMosaic.ValueIdx

variable {α : Type} {a b c n : ℕ}

/-- The two row-major positions agree when the matrix row is b·i + j. -/
theorem position (i : Fin a) (j : Fin b) (k : Fin c) (p : Fin n) (hp : p.val = b * i.val + j.val) :
    ((⟨3, ![a, b, c]⟩ : Shape).rowMajor (ix3 i j k)).val = ((⟨2, ![n, c]⟩ : Shape).rowMajor (ix2 p k)).val := by
  rw [Shape.rowMajor_val_three, Shape.rowMajor_val_two]
  show (i.val * b + j.val) * c + k.val = p.val * c + k.val
  rw [hp, Nat.mul_comm b i.val]

/-- The slabs laid out as rows: the matrix at (b·i + j, k) is the array at (i, j, k). -/
theorem rows_apply (x : (⟨3, ![a, b, c]⟩ : Shape).Idx → α) (h : (⟨3, ![a, b, c]⟩ : Shape).ShapeCasts ⟨2, ![n, c]⟩)
    (i : Fin a) (j : Fin b) (k : Fin c) (p : Fin n) (hp : p.val = b * i.val + j.val) :
    shapeCast ⟨2, ![n, c]⟩ x h (ix2 p k) = x (ix3 i j k) :=
  shapeCast_apply x h (ix2 p k) (ix3 i j k) (position i j k p hp)

/-- The rows cut back into slabs: the array at (i, j, k) is the matrix at (b·i + j, k). -/
theorem slabs_apply (y : (⟨2, ![n, c]⟩ : Shape).Idx → α) (h : (⟨2, ![n, c]⟩ : Shape).ShapeCasts ⟨3, ![a, b, c]⟩)
    (i : Fin a) (j : Fin b) (k : Fin c) (p : Fin n) (hp : p.val = b * i.val + j.val) :
    shapeCast ⟨3, ![a, b, c]⟩ y h (ix3 i j k) = y (ix2 p k) :=
  shapeCast_apply y h (ix3 i j k) (ix2 p k) (position i j k p hp).symm

end Flatten

end
-- ==== Proof.Spec.lean ====
/-
  The quantised residual block as plain mathematics on the extended reals, over abstract finite index types.

  A quantised value is `q y`: `y` clipped into [-128, 127], then rounded to the nearest integer, ties to even.
  A quantised linear layer reads, at row `r` and output feature `o`,
      q ((Σ_k X r k · W o k + b o) · s),
  optionally with a positive part before the clip; a quantised residual sum reads
      q ((Y r o · ag + I r o · org) / sout).
  The whole block is their composition; the second layer mixes along the patch axis, so its rows are the pairs
  (batch, feature) and its contraction runs over the patches.

  Rounding "through" the clipped value, `c + (round c − c)`, is `round c`: the clipped value is a real number.
-/
import Idealize.ShloMosaic.PureOps.Ideal

noncomputable section

namespace Cert.Spec

open Idealize.ShloMosaic
open scoped BigOperators

/-- The lower and upper clip bounds, as the binary32 words both programs carry. -/
def lo : EReal := Ideal.ofBits .f32 0xC3000000#32
def hi : EReal := Ideal.ofBits .f32 0x42FE0000#32

/-- `y` clipped into [lo, hi]. -/
def clip (y : EReal) : EReal := min hi (max lo y)

/-- The quantiser: clip, then round to nearest, ties to even. -/
def q (y : EReal) : EReal := Ideal.liftRound Ideal.roundHalfEven (clip y)

theorem lo_eq : lo = ((-128 : ℝ) : EReal) := by
  unfold lo; simp [Ideal.ofBits, Ideal.ieee]; rw [← EReal.coe_mul]; norm_num

theorem hi_eq : hi = ((127 : ℝ) : EReal) := by
  unfold hi; simp [Ideal.ofBits, Ideal.ieee]; rw [← EReal.coe_mul]; norm_num

/-- A clipped value is a real number. -/
theorem clip_real (y : EReal) : ∃ r : ℝ, clip y = (r : EReal) := by
  have h1 : clip y ≤ ((127 : ℝ) : EReal) := by unfold clip; rw [hi_eq]; exact min_le_left _ _
  have h2 : ((-128 : ℝ) : EReal) ≤ clip y := by
    unfold clip; rw [hi_eq, lo_eq]
    exact le_min (by exact_mod_cast (by norm_num : (-128 : ℝ) ≤ 127)) (le_max_left _ _)
  induction h : clip y using EReal.rec with
  | bot => rw [h] at h2; exact absurd h2 (by simp)
  | coe r => exact ⟨r, rfl⟩
  | top => rw [h] at h1; exact absurd h1 (by simp)

/-- Rounding written through the clipped value, `c + (round c − c)`, is `round c`. -/
theorem ste_eq (y : EReal) : clip y + (q y - clip y) = q y := by
  obtain ⟨r, hr⟩ := clip_real y
  unfold q; rw [hr, Ideal.liftRound_coe]
  rw [← EReal.coe_sub, ← EReal.coe_add]; congr 1; ring

variable {ρ κ ν : Type} [Fintype κ]

/-- A quantised linear layer. -/
def lin (X : ρ → κ → EReal) (W : ν → κ → EReal) (b : ν → EReal) (s : EReal) : ρ → ν → EReal :=
  fun r o => q ((∑ k, X r k * W o k + b o) * s)

/-- A quantised linear layer with a positive part before the clip. -/
def linRelu (X : ρ → κ → EReal) (W : ν → κ → EReal) (b : ν → EReal) (s z : EReal) : ρ → ν → EReal :=
  fun r o => q (max ((∑ k, X r k * W o k + b o) * s) z)

/-- A quantised residual sum. -/
def qadd (Y I : ρ → ν → EReal) (ag org sout : EReal) : ρ → ν → EReal :=
  fun r o => q (Ideal.div (Y r o * ag + I r o * org) sout)

/-- The scale of a layer: incoming scale times weight scale over outgoing scale. -/
def scale (a w s : EReal) : EReal := Ideal.div (a * w) s

/-- The zero the positive part is taken against, as the binary32 word both programs carry. -/
def zero : EReal := Ideal.ofBits .f32 0x00000000#32

/-- A layer's value at a row depends only on that row of its input. -/
theorem lin_row (X : ρ → κ → EReal) (W : ν → κ → EReal) (b : ν → EReal) (s : EReal) {ρ' : Type} (X' : ρ' → κ → EReal)
    (r : ρ) (r' : ρ') (h : X r = X' r') (o : ν) : lin X W b s r o = lin X' W b s r' o := by
  unfold lin; rw [h]

theorem linRelu_row (X : ρ → κ → EReal) (W : ν → κ → EReal) (b : ν → EReal) (s z : EReal) {ρ' : Type} (X' : ρ' → κ → EReal)
    (r : ρ) (r' : ρ') (h : X r = X' r') (o : ν) : linRelu X W b s z r o = linRelu X' W b s z r' o := by
  unfold linRelu; rw [h]

section Block

variable {β η δ χ : Type} [Fintype η] [Fintype δ] [Fintype χ]

/-- The first half of the block: the feature layer, the patch-mixing layer (rows the pairs (batch, feature),
    contraction over the patches), the second feature layer, and the residual sum with the block's input.
    Rows are the pairs (batch, patch). -/
def half1 (x : β × η → δ → EReal) (a : EReal)
    (Wn1 : δ → δ → EReal) (bn1 : δ → EReal) (wsn1 son1 : EReal)
    (Wat : η → η → EReal) (bat : η → EReal) (wsat soat : EReal)
    (Wg1 : δ → δ → EReal) (bg1 : δ → EReal) (wsg1 sog1 : EReal) (sadd1 : EReal) : β × η → δ → EReal :=
  let y1 : β × η → δ → EReal := lin x Wn1 bn1 (scale a wsn1 son1)
  let y2 : β × δ → η → EReal := lin (fun r k => y1 (r.1, k) r.2) Wat bat (scale son1 wsat soat)
  let y3 : β × η → δ → EReal := lin (fun r k => y2 (r.1, k) r.2) Wg1 bg1 (scale soat wsg1 sog1)
  qadd y3 x sog1 a sadd1

/-- Four feature layers in a row (the third with a positive part), each with its scale given, and the residual
    sum with `I`. -/
def mlp (r1 I : ρ → δ → EReal)
    (Wn2 : δ → δ → EReal) (bn2 : δ → EReal) (sn2 : EReal)
    (Wf1 : χ → δ → EReal) (bf1 : χ → EReal) (sf1 : EReal)
    (Wf2 : δ → χ → EReal) (bf2 : δ → EReal) (sf2 : EReal)
    (Wg2 : δ → δ → EReal) (bg2 : δ → EReal) (sg2 : EReal) (ag org sout : EReal) : ρ → δ → EReal :=
  let y4 : ρ → δ → EReal := lin r1 Wn2 bn2 sn2
  let y5 : ρ → χ → EReal := lin y4 Wf1 bf1 sf1
  let y6 : ρ → δ → EReal := linRelu y5 Wf2 bf2 sf2 zero
  let y7 : ρ → δ → EReal := lin y6 Wg2 bg2 sg2
  qadd y7 I ag org sout

/-- The second half of the block: `mlp` on the first half's result, each layer's scale the incoming scale times
    its weight scale over its outgoing scale, and the residual sum with the first half's result. -/
def half2 (r1 : ρ → δ → EReal) (sadd1 : EReal)
    (Wn2 : δ → δ → EReal) (bn2 : δ → EReal) (wsn2 son2 : EReal)
    (Wf1 : χ → δ → EReal) (bf1 : χ → EReal) (wsf1 sof1 : EReal)
    (Wf2 : δ → χ → EReal) (bf2 : δ → EReal) (wsf2 sof2 : EReal)
    (Wg2 : δ → δ → EReal) (bg2 : δ → EReal) (wsg2 sog2 : EReal) (sadd2 : EReal) : ρ → δ → EReal :=
  mlp r1 r1 Wn2 bn2 (scale sadd1 wsn2 son2) Wf1 bf1 (scale son2 wsf1 sof1) Wf2 bf2 (scale sof1 wsf2 sof2)
    Wg2 bg2 (scale sof2 wsg2 sog2) sog2 sadd1 sadd2

end Block

end Cert.Spec

end
-- ==== Proof.KI.Readers.lean ====
/-
  The kernel program's result as a function of its arguments, at the extended reals.

  Each region's output array is the specification's layer of the arrays the region found (the regions' value
  lemmas); what a region finds is read off the host operations before it: the input flattened to rows
  (row 196·b + n is patch n of batch b), the weights as given (rounding for the matrix unit changes nothing at the
  extended reals), each layer's scale the incoming scale times the weight scale over the outgoing scale. Chaining the
  four regions gives the two halves of the block.
-/
import proofs.«131422_j57432302682877_2_alg».proof.Proof.KI.Run
import proofs.«131422_j57432302682877_2_alg».proof.Proof.LibFlatten
import proofs.«131422_j57432302682877_2_alg».proof.Proof.Spec
import Idealize.ShloMosaic.PureOps.Ideal
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

variable (m : (ℓ : Loc nD τ sig) → Buf (Elt Ideal) ℓ) (c : Dev nD)

/-! ## Buffers no earlier item has written -/

theorem St2_arg (r : Ref sig .tc) (h0 : r ∉ hostOps0_W) (h1 : r ≠ main_v7) :
    St2 m c (Proc.devRef .tc r) = m (c, Proc.devRef .tc r) :=
  (St2_kept m c r h1).trans (St1_kept m c r h0)

theorem St4_arg (r : Ref sig .tc) (h0 : r ∉ hostOps0_W) (h1 : r ≠ main_v7) (h2 : r ∉ hostOps1_W) (h3 : r ≠ main_v14) :
    St4 m c (Proc.devRef .tc r) = m (c, Proc.devRef .tc r) :=
  (St4_kept m c r h3).trans <| (St3_kept m c r h2).trans <| St2_arg m c r h0 h1

theorem St6_arg (r : Ref sig .tc) (h0 : r ∉ hostOps0_W) (h1 : r ≠ main_v7) (h2 : r ∉ hostOps1_W) (h3 : r ≠ main_v14)
    (h4 : r ∉ hostOps2_W) (h5 : r ≠ main_v23) : St6 m c (Proc.devRef .tc r) = m (c, Proc.devRef .tc r) :=
  (St6_kept m c r h5).trans <| (St5_kept m c r h4).trans <| St4_arg m c r h0 h1 h2 h3

theorem St0_arg (r : Ref sig .tc) : St0 m c (Proc.devRef .tc r) = m (c, Proc.devRef .tc r) := rfl

/-! ## Small shape casts read at their one entry -/

/-- A scale computed on rank-0 values and cast to [1,1], read at its entry. -/
theorem scale_word (x y z : FVec Ideal S_ .f32) :
    (shapeCast S1x1 (Host.divf (F := Ideal) (mulf x y) z) shapeCasts_S_S1x1 : S1x1.Idx → EReal) (ix2 0 0)
      = Cert.Spec.scale (x ix0) (y ix0) (z ix0) :=
  (shapeCast_apply _ _ (ix2 0 0) ix0 (by rfl)).trans rfl

/-- A rank-0 value cast to [1,1], read at its entry. -/
theorem one_word (x : FVec Ideal S_ .f32) : (shapeCast S1x1 x shapeCasts_S_S1x1 : S1x1.Idx → EReal) (ix2 0 0) = x ix0 :=
  shapeCast_apply _ _ (ix2 0 0) ix0 (by rfl)

/-! ## What region 0 finds -/

theorem st1_v0_apply (b : Fin 128) (n : Fin 196) (k : Fin 768) (p : Fin 25088) (hp : p.val = 196 * b.val + n.val) :
    (rd (St1 m) c main_v0 : S25088x768.Idx → EReal) (ix2 p k) = (m (c, Proc.devRef .tc main_arg0) : S128x196x768.Idx → EReal) (ix3 b n k) := by
  show (StableHlo.after hostOps0 (St0 m c) (Proc.devRef .tc main_v0) : S25088x768.Idx → EReal) (ix2 p k) = _
  after_results
  exact Flatten.rows_apply _ _ b n k p hp

theorem st1_v6_apply (o : Fin 768) (k : Fin 768) : (rd (St1 m) c main_v6 : S768x768.Idx → EReal) (ix2 o k) = (m (c, Proc.devRef .tc main_arg2) : S768x768.Idx → EReal) (ix2 o k) := by
  show (StableHlo.after hostOps0 (St0 m c) (Proc.devRef .tc main_v6) : S768x768.Idx → EReal) (ix2 o k) = _
  after_results
  rfl

theorem st1_arg3 (o : Fin 768) : (rd (St1 m) c main_arg3 : S768.Idx → EReal) (ix1 o) = (m (c, Proc.devRef .tc main_arg3) : S768.Idx → EReal) (ix1 o) := by
  rw [show rd (St1 m) c main_arg3 = rd (St0 m) c main_arg3 from St1_kept m c main_arg3 (by decide)]

theorem st1_v5_apply : (rd (St1 m) c main_v5 : S1x1.Idx → EReal) (ix2 0 0)
    = Cert.Spec.scale ((m (c, Proc.devRef .tc main_arg1) : S1.Idx → EReal) (ix1 0)) ((m (c, Proc.devRef .tc main_arg4) : S_.Idx → EReal) ix0) ((m (c, Proc.devRef .tc main_arg5) : S_.Idx → EReal) ix0) := by
  show (StableHlo.after hostOps0 (St0 m c) (Proc.devRef .tc main_v5) : S1x1.Idx → EReal) (ix2 0 0) = _
  after_results
  have h2 : ∀ (x : S1.Idx → EReal), shapeCast S_ x shapeCasts_S1_S_ ix0 = x (ix1 0) :=
    fun x => shapeCast_apply x _ _ _ (by rfl)
  refine (one_word _).trans ?_
  exact congrArg (fun z => Ideal.div (z * (m (c, Proc.devRef .tc main_arg4) : S_.Idx → EReal) ix0) ((m (c, Proc.devRef .tc main_arg5) : S_.Idx → EReal) ix0)) (h2 _)

theorem st1_v1_apply : (rd (St1 m) c main_v1 : S1x1.Idx → EReal) (ix2 0 0) = (m (c, Proc.devRef .tc main_arg1) : S1.Idx → EReal) (ix1 0) := by
  show (StableHlo.after hostOps0 (St0 m c) (Proc.devRef .tc main_v1) : S1x1.Idx → EReal) (ix2 0 0) = _
  after_results
  exact shapeCast_apply _ _ (ix2 0 0) (ix1 0) (by rfl)

/-! ## What region 1 finds -/

theorem st3_v8_apply (b : Fin 128) (n : Fin 196) (k : Fin 768) (p : Fin 25088) (hp : p.val = 196 * b.val + n.val) :
    (rd (St3 m) c main_v8 : S128x196x768.Idx → EReal) (ix3 b n k) = (rd (St2 m) c main_v7 : S25088x768.Idx → EReal) (ix2 p k) := by
  show (StableHlo.after hostOps1 (St2 m c) (Proc.devRef .tc main_v8) : S128x196x768.Idx → EReal) (ix3 b n k) = _
  after_results
  exact Flatten.slabs_apply _ _ b n k p hp

theorem st3_v12_apply (o : Fin 196) (k : Fin 196) : (rd (St3 m) c main_v12 : S196x196.Idx → EReal) (ix2 o k) = (m (c, Proc.devRef .tc main_arg6) : S196x196.Idx → EReal) (ix2 o k) := by
  show (StableHlo.after hostOps1 (St2 m c) (Proc.devRef .tc main_v12) : S196x196.Idx → EReal) (ix2 o k) = _
  after_results
  rw [St2_arg m c main_arg6 (by decide) (by decide)]
  rfl

theorem st3_v13_apply (o : Fin 196) : (rd (St3 m) c main_v13 : S196x1.Idx → EReal) (ix2 o 0) = (m (c, Proc.devRef .tc main_arg7) : S196.Idx → EReal) (ix1 o) := by
  show (StableHlo.after hostOps1 (St2 m c) (Proc.devRef .tc main_v13) : S196x1.Idx → EReal) (ix2 o 0) = _
  after_results
  rw [St2_arg m c main_arg7 (by decide) (by decide)]
  refine shapeCast_apply _ _ (ix2 o 0) (ix1 o) ?_
  rw [Shape.rowMajor_val_two, Shape.rowMajor_val_one]
  show o.val = o.val * 1 + 0
  omega

theorem st3_v11_apply : (rd (St3 m) c main_v11 : S1x1.Idx → EReal) (ix2 0 0)
    = Cert.Spec.scale ((m (c, Proc.devRef .tc main_arg5) : S_.Idx → EReal) ix0) ((m (c, Proc.devRef .tc main_arg8) : S_.Idx → EReal) ix0) ((m (c, Proc.devRef .tc main_arg9) : S_.Idx → EReal) ix0) := by
  show (StableHlo.after hostOps1 (St2 m c) (Proc.devRef .tc main_v11) : S1x1.Idx → EReal) (ix2 0 0) = _
  after_results
  refine (scale_word _ _ _).trans ?_
  rw [St2_arg m c main_arg5 (by decide) (by decide), St2_arg m c main_arg8 (by decide) (by decide), St2_arg m c main_arg9 (by decide) (by decide)]

/-! ## What region 2 finds -/

theorem st5_v15_apply (b : Fin 128) (n : Fin 196) (k : Fin 768) (p : Fin 25088) (hp : p.val = 196 * b.val + n.val) :
    (rd (St5 m) c main_v15 : S25088x768.Idx → EReal) (ix2 p k) = (rd (St4 m) c main_v14 : S128x196x768.Idx → EReal) (ix3 b n k) := by
  show (StableHlo.after hostOps2 (St4 m c) (Proc.devRef .tc main_v15) : S25088x768.Idx → EReal) (ix2 p k) = _
  after_results
  exact Flatten.rows_apply _ _ b n k p hp

theorem st5_v22_apply (b : Fin 128) (n : Fin 196) (k : Fin 768) (p : Fin 25088) (hp : p.val = 196 * b.val + n.val) :
    (rd (St5 m) c main_v22 : S25088x768.Idx → EReal) (ix2 p k) = (m (c, Proc.devRef .tc main_arg0) : S128x196x768.Idx → EReal) (ix3 b n k) := by
  show (StableHlo.after hostOps2 (St4 m c) (Proc.devRef .tc main_v22) : S25088x768.Idx → EReal) (ix2 p k) = _
  after_results
  rw [St4_arg m c main_arg0 (by decide) (by decide) (by decide) (by decide)]
  exact Flatten.rows_apply _ _ b n k p hp

theorem st5_v19_apply (o : Fin 768) (k : Fin 768) : (rd (St5 m) c main_v19 : S768x768.Idx → EReal) (ix2 o k) = (m (c, Proc.devRef .tc main_arg10) : S768x768.Idx → EReal) (ix2 o k) := by
  show (StableHlo.after hostOps2 (St4 m c) (Proc.devRef .tc main_v19) : S768x768.Idx → EReal) (ix2 o k) = _
  after_results
  rw [St4_arg m c main_arg10 (by decide) (by decide) (by decide) (by decide)]
  rfl

theorem st5_arg11 (o : Fin 768) : (rd (St5 m) c main_arg11 : S768.Idx → EReal) (ix1 o) = (m (c, Proc.devRef .tc main_arg11) : S768.Idx → EReal) (ix1 o) := by
  have h := St4_arg m c main_arg11 (by decide) (by decide) (by decide) (by decide)
  rw [show rd (St5 m) c main_arg11 = rd (St4 m) c main_arg11 from St5_kept m c main_arg11 (by decide)]
  exact congrFun h (ix1 o)

theorem st5_v18_apply : (rd (St5 m) c main_v18 : S1x1.Idx → EReal) (ix2 0 0)
    = Cert.Spec.scale ((m (c, Proc.devRef .tc main_arg9) : S_.Idx → EReal) ix0) ((m (c, Proc.devRef .tc main_arg12) : S_.Idx → EReal) ix0) ((m (c, Proc.devRef .tc main_arg13) : S_.Idx → EReal) ix0) := by
  show (StableHlo.after hostOps2 (St4 m c) (Proc.devRef .tc main_v18) : S1x1.Idx → EReal) (ix2 0 0) = _
  after_results
  refine (scale_word _ _ _).trans ?_
  rw [St4_arg m c main_arg9 (by decide) (by decide) (by decide) (by decide), St4_arg m c main_arg12 (by decide) (by decide) (by decide) (by decide), St4_arg m c main_arg13 (by decide) (by decide) (by decide) (by decide)]

theorem st5_v20_apply : (rd (St5 m) c main_v20 : S1x1.Idx → EReal) (ix2 0 0) = (m (c, Proc.devRef .tc main_arg13) : S_.Idx → EReal) ix0 := by
  show (StableHlo.after hostOps2 (St4 m c) (Proc.devRef .tc main_v20) : S1x1.Idx → EReal) (ix2 0 0) = _
  after_results
  refine (one_word _).trans ?_
  rw [St4_arg m c main_arg13 (by decide) (by decide) (by decide) (by decide)]

theorem st5_v21_apply : (rd (St5 m) c main_v21 : S1x1.Idx → EReal) (ix2 0 0) = (m (c, Proc.devRef .tc main_arg14) : S_.Idx → EReal) ix0 := by
  show (StableHlo.after hostOps2 (St4 m c) (Proc.devRef .tc main_v21) : S1x1.Idx → EReal) (ix2 0 0) = _
  after_results
  refine (one_word _).trans ?_
  rw [St4_arg m c main_arg14 (by decide) (by decide) (by decide) (by decide)]

theorem st5_v1_apply : (rd (St5 m) c main_v1 : S1x1.Idx → EReal) (ix2 0 0) = (m (c, Proc.devRef .tc main_arg1) : S1.Idx → EReal) (ix1 0) := by
  rw [show rd (St5 m) c main_v1 = rd (St1 m) c main_v1 from
    (St5_kept m c main_v1 (by decide)).trans <| (St4_kept m c main_v1 (by decide)).trans <|
      (St3_kept m c main_v1 (by decide)).trans (St2_kept m c main_v1 (by decide))]
  exact st1_v1_apply m c

/-! ## What region 3 finds -/

theorem st7_v23 : rd (St7 m) c main_v23 = rd (St6 m) c main_v23 := St7_kept m c main_v23 (by decide)

theorem st7_v38_apply (o : Fin 768) (k : Fin 768) : (rd (St7 m) c main_v38 : S768x768.Idx → EReal) (ix2 o k) = (m (c, Proc.devRef .tc main_arg15) : S768x768.Idx → EReal) (ix2 o k) := by
  show (StableHlo.after hostOps3 (St6 m c) (Proc.devRef .tc main_v38) : S768x768.Idx → EReal) (ix2 o k) = _
  after_results
  rw [St6_arg m c main_arg15 (by decide) (by decide) (by decide) (by decide) (by decide) (by decide)]
  rfl

theorem st7_arg16 (o : Fin 768) : (rd (St7 m) c main_arg16 : S768.Idx → EReal) (ix1 o) = (m (c, Proc.devRef .tc main_arg16) : S768.Idx → EReal) (ix1 o) := by
  have h := St6_arg m c main_arg16 (by decide) (by decide) (by decide) (by decide) (by decide) (by decide)
  rw [show rd (St7 m) c main_arg16 = rd (St6 m) c main_arg16 from St7_kept m c main_arg16 (by decide)]
  exact congrFun h (ix1 o)

theorem st7_v26_apply : (rd (St7 m) c main_v26 : S1x1.Idx → EReal) (ix2 0 0)
    = Cert.Spec.scale ((m (c, Proc.devRef .tc main_arg14) : S_.Idx → EReal) ix0) ((m (c, Proc.devRef .tc main_arg17) : S_.Idx → EReal) ix0) ((m (c, Proc.devRef .tc main_arg18) : S_.Idx → EReal) ix0) := by
  show (StableHlo.after hostOps3 (St6 m c) (Proc.devRef .tc main_v26) : S1x1.Idx → EReal) (ix2 0 0) = _
  after_results
  refine (scale_word _ _ _).trans ?_
  rw [St6_arg m c main_arg14 (by decide) (by decide) (by decide) (by decide) (by decide) (by decide), St6_arg m c main_arg17 (by decide) (by decide) (by decide) (by decide) (by decide) (by decide), St6_arg m c main_arg18 (by decide) (by decide) (by decide) (by decide) (by decide) (by decide)]

theorem st7_v39_apply (o : Fin 3072) (k : Fin 768) : (rd (St7 m) c main_v39 : S3072x768.Idx → EReal) (ix2 o k) = (m (c, Proc.devRef .tc main_arg19) : S3072x768.Idx → EReal) (ix2 o k) := by
  show (StableHlo.after hostOps3 (St6 m c) (Proc.devRef .tc main_v39) : S3072x768.Idx → EReal) (ix2 o k) = _
  after_results
  rw [St6_arg m c main_arg19 (by decide) (by decide) (by decide) (by decide) (by decide) (by decide)]
  rfl

theorem st7_arg20 (o : Fin 3072) : (rd (St7 m) c main_arg20 : S3072.Idx → EReal) (ix1 o) = (m (c, Proc.devRef .tc main_arg20) : S3072.Idx → EReal) (ix1 o) := by
  have h := St6_arg m c main_arg20 (by decide) (by decide) (by decide) (by decide) (by decide) (by decide)
  rw [show rd (St7 m) c main_arg20 = rd (St6 m) c main_arg20 from St7_kept m c main_arg20 (by decide)]
  exact congrFun h (ix1 o)

theorem st7_v29_apply : (rd (St7 m) c main_v29 : S1x1.Idx → EReal) (ix2 0 0)
    = Cert.Spec.scale ((m (c, Proc.devRef .tc main_arg18) : S_.Idx → EReal) ix0) ((m (c, Proc.devRef .tc main_arg21) : S_.Idx → EReal) ix0) ((m (c, Proc.devRef .tc main_arg22) : S_.Idx → EReal) ix0) := by
  show (StableHlo.after hostOps3 (St6 m c) (Proc.devRef .tc main_v29) : S1x1.Idx → EReal) (ix2 0 0) = _
  after_results
  refine (scale_word _ _ _).trans ?_
  rw [St6_arg m c main_arg18 (by decide) (by decide) (by decide) (by decide) (by decide) (by decide), St6_arg m c main_arg21 (by decide) (by decide) (by decide) (by decide) (by decide) (by decide), St6_arg m c main_arg22 (by decide) (by decide) (by decide) (by decide) (by decide) (by decide)]

theorem st7_v40_apply (o : Fin 768) (k : Fin 3072) : (rd (St7 m) c main_v40 : S768x3072.Idx → EReal) (ix2 o k) = (m (c, Proc.devRef .tc main_arg23) : S768x3072.Idx → EReal) (ix2 o k) := by
  show (StableHlo.after hostOps3 (St6 m c) (Proc.devRef .tc main_v40) : S768x3072.Idx → EReal) (ix2 o k) = _
  after_results
  rw [St6_arg m c main_arg23 (by decide) (by decide) (by decide) (by decide) (by decide) (by decide)]
  rfl

theorem st7_arg24 (o : Fin 768) : (rd (St7 m) c main_arg24 : S768.Idx → EReal) (ix1 o) = (m (c, Proc.devRef .tc main_arg24) : S768.Idx → EReal) (ix1 o) := by
  have h := St6_arg m c main_arg24 (by decide) (by decide) (by decide) (by decide) (by decide) (by decide)
  rw [show rd (St7 m) c main_arg24 = rd (St6 m) c main_arg24 from St7_kept m c main_arg24 (by decide)]
  exact congrFun h (ix1 o)

theorem st7_v32_apply : (rd (St7 m) c main_v32 : S1x1.Idx → EReal) (ix2 0 0)
    = Cert.Spec.scale ((m (c, Proc.devRef .tc main_arg22) : S_.Idx → EReal) ix0) ((m (c, Proc.devRef .tc main_arg25) : S_.Idx → EReal) ix0) ((m (c, Proc.devRef .tc main_arg26) : S_.Idx → EReal) ix0) := by
  show (StableHlo.after hostOps3 (St6 m c) (Proc.devRef .tc main_v32) : S1x1.Idx → EReal) (ix2 0 0) = _
  after_results
  refine (scale_word _ _ _).trans ?_
  rw [St6_arg m c main_arg22 (by decide) (by decide) (by decide) (by decide) (by decide) (by decide), St6_arg m c main_arg25 (by decide) (by decide) (by decide) (by decide) (by decide) (by decide), St6_arg m c main_arg26 (by decide) (by decide) (by decide) (by decide) (by decide) (by decide)]

theorem st7_v41_apply (o : Fin 768) (k : Fin 768) : (rd (St7 m) c main_v41 : S768x768.Idx → EReal) (ix2 o k) = (m (c, Proc.devRef .tc main_arg27) : S768x768.Idx → EReal) (ix2 o k) := by
  show (StableHlo.after hostOps3 (St6 m c) (Proc.devRef .tc main_v41) : S768x768.Idx → EReal) (ix2 o k) = _
  after_results
  rw [St6_arg m c main_arg27 (by decide) (by decide) (by decide) (by decide) (by decide) (by decide)]
  rfl

theorem st7_arg28 (o : Fin 768) : (rd (St7 m) c main_arg28 : S768.Idx → EReal) (ix1 o) = (m (c, Proc.devRef .tc main_arg28) : S768.Idx → EReal) (ix1 o) := by
  have h := St6_arg m c main_arg28 (by decide) (by decide) (by decide) (by decide) (by decide) (by decide)
  rw [show rd (St7 m) c main_arg28 = rd (St6 m) c main_arg28 from St7_kept m c main_arg28 (by decide)]
  exact congrFun h (ix1 o)

theorem st7_v35_apply : (rd (St7 m) c main_v35 : S1x1.Idx → EReal) (ix2 0 0)
    = Cert.Spec.scale ((m (c, Proc.devRef .tc main_arg26) : S_.Idx → EReal) ix0) ((m (c, Proc.devRef .tc main_arg29) : S_.Idx → EReal) ix0) ((m (c, Proc.devRef .tc main_arg30) : S_.Idx → EReal) ix0) := by
  show (StableHlo.after hostOps3 (St6 m c) (Proc.devRef .tc main_v35) : S1x1.Idx → EReal) (ix2 0 0) = _
  after_results
  refine (scale_word _ _ _).trans ?_
  rw [St6_arg m c main_arg26 (by decide) (by decide) (by decide) (by decide) (by decide) (by decide), St6_arg m c main_arg29 (by decide) (by decide) (by decide) (by decide) (by decide) (by decide), St6_arg m c main_arg30 (by decide) (by decide) (by decide) (by decide) (by decide) (by decide)]

theorem st7_v36_apply : (rd (St7 m) c main_v36 : S1x1.Idx → EReal) (ix2 0 0) = (m (c, Proc.devRef .tc main_arg30) : S_.Idx → EReal) ix0 := by
  show (StableHlo.after hostOps3 (St6 m c) (Proc.devRef .tc main_v36) : S1x1.Idx → EReal) (ix2 0 0) = _
  after_results
  refine (one_word _).trans ?_
  rw [St6_arg m c main_arg30 (by decide) (by decide) (by decide) (by decide) (by decide) (by decide)]

theorem st7_v37_apply : (rd (St7 m) c main_v37 : S1x1.Idx → EReal) (ix2 0 0) = (m (c, Proc.devRef .tc main_arg31) : S_.Idx → EReal) ix0 := by
  show (StableHlo.after hostOps3 (St6 m c) (Proc.devRef .tc main_v37) : S1x1.Idx → EReal) (ix2 0 0) = _
  after_results
  refine (one_word _).trans ?_
  rw [St6_arg m c main_arg31 (by decide) (by decide) (by decide) (by decide) (by decide) (by decide)]

theorem st7_v21_apply : (rd (St7 m) c main_v21 : S1x1.Idx → EReal) (ix2 0 0) = (m (c, Proc.devRef .tc main_arg14) : S_.Idx → EReal) ix0 := by
  rw [show rd (St7 m) c main_v21 = rd (St5 m) c main_v21 from
    (St7_kept m c main_v21 (by decide)).trans (St6_kept m c main_v21 (by decide))]
  exact st5_v21_apply m c

/-! ## The result buffer -/

theorem st9_v43_apply (b : Fin 128) (n : Fin 196) (k : Fin 768) (p : Fin 25088) (hp : p.val = 196 * b.val + n.val) :
    (rd (St9 m) c main_v43 : S128x196x768.Idx → EReal) (ix3 b n k) = (rd (St8 m) c main_v42 : S25088x768.Idx → EReal) (ix2 p k) := by
  show (StableHlo.after hostOps4 (St8 m c) (Proc.devRef .tc main_v43) : S128x196x768.Idx → EReal) (ix3 b n k) = _
  after_results
  exact Flatten.slabs_apply _ _ b n k p hp

end Cert.KernelIdeal.Hand

end
-- ==== Proof.KI.ValLib.lean ====
import proofs.«131422_j57432302682877_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ValLib

open Idealize.ShloMosaic Idealize.ShloMosaic.ValueIdx
open scoped BigOperators

/-! ## A matrix product with both factors contracted along their last axis

`out (p, o) = Σ_k lhs (p, k) · rhs (o, k)`: the left factor is `[M, K]`, the right one `[N, K]`, the result `[M, N]`,
nothing is batched, and the accumulator the product is added to is the zero splat. -/

section Product

variable {M K N : ℕ} (D : DotDims ⟨2, ![M, K]⟩ ⟨2, ![N, K]⟩ ⟨2, ![M, N]⟩)

/-- The contraction runs over one axis … -/
theorem contr_rank (hlc : D.lhsContracting = [1]) : D.contr.rank = 1 := by
  rw [D.rank_contr, hlc]; rfl

/-- … of extent `K`. -/
theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

/-- Two coordinates of one index at equal positions are equal. -/
private theorem coord_congr {s : Shape} (j : s.Idx) (a b : ℕ) (ha : a < s.rank) (hb : b < s.rank) (h : a = b) :
    (j ⟨a, ha⟩).val = (j ⟨b, hb⟩).val := by subst h; rfl

/-- The left factor's row is the result's row. -/
theorem lhs_row (hln : D.lhsNonContracting = [0]) (hlb : D.lhsBatch = [])
    (j : (⟨2, ![M, N]⟩ : Shape).Idx) (k : D.contr.Idx) : (D.lhsIdx j k 0).val = (j 0).val := by
  have hb : (0 : Fin 2) ∉ D.lhsBatch := by rw [hlb]; exact List.not_mem_nil
  have hn : (0 : Fin 2) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The right factor's row is the result's column. -/
theorem rhs_row (hln : D.lhsNonContracting = [0]) (hrn : D.rhsNonContracting = [0]) (hlb : D.lhsBatch = []) (hrb : D.rhsBatch = [])
    (j : (⟨2, ![M, N]⟩ : Shape).Idx) (k : D.contr.Idx) : (D.rhsIdx j k 0).val = (j 1).val := by
  have hb : (0 : Fin 2) ∉ D.rhsBatch := by rw [hrb]; exact List.not_mem_nil
  have hn : (0 : Fin 2) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- The product into the zero accumulator, read at `(p, o)`. -/
theorem matmul_lastlast_apply (hlc : D.lhsContracting = [1]) (hrc : D.rhsContracting = [1])
    (hln : D.lhsNonContracting = [0]) (hrn : D.rhsNonContracting = [0]) (hlb : D.lhsBatch = []) (hrb : D.rhsBatch = [])
    {φ₁ φ₂ : FTy} (prec : Option ContractPrecision)
    (lhs : FVec Ideal ⟨2, ![M, K]⟩ φ₁) (rhs : FVec Ideal ⟨2, ![N, K]⟩ φ₂) (p : Fin M) (o : Fin N) :
    FloatOps.matmul D prec lhs rhs (constant ⟨2, ![M, N]⟩ .f32 0x00000000#32) (ix2 p o)
      = ∑ k : Fin K, lhs (ix2 p k) * rhs (ix2 o k) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have hl : D.lhsIdx (ix2 p o) ((contrEquiv1 D K (contr_rank D hlc) (contr_size D hlc)).symm k) = ix2 p k := by
    funext a; apply Fin.ext
    match a with
    | ⟨0, _⟩ => exact lhs_row D hln hlb _ _
    | ⟨1, _⟩ => exact (D.lhsIdx_val_of_single hlc _ _).trans hk
  have hr : D.rhsIdx (ix2 p o) ((contrEquiv1 D K (contr_rank D hlc) (contr_size D hlc)).symm k) = ix2 o k := by
    funext a; apply Fin.ext
    match a with
    | ⟨0, _⟩ => exact rhs_row D hln hrn hlb hrb _ _
    | ⟨1, _⟩ => exact (D.rhsIdx_val_of_single hrc _ _).trans hk
  rw [hl, hr]

end Product

/-! ## Layout -/

/-- The origin of a rank-1 and of a rank-2 index space, as offsets. -/
theorem zero1 : (![0] : Fin 1 → ℕ) = fun _ => 0 := funext fun a => by fin_cases a; rfl
theorem zero2 : (![0, 0] : Fin 2 → ℕ) = fun _ => 0 := funext fun a => by fin_cases a <;> rfl

section Layout

variable {α : Type}

/-- A vector of `b` entries written as one row and repeated down `a` rows reads, at `(p, c)`, its entry `c`. -/
theorem row_repeated_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-- The one entry of a `[1, 1]` array. -/
theorem extract_only (x : (⟨2, ![1, 1]⟩ : Shape).Idx → α) (h : ∀ a, (![0, 0] : Fin 2 → ℕ) a < (⟨2, ![1, 1]⟩ : Shape).size a) :
    extractAt ![0, 0] x h = x (ix2 0 0) :=
  congrArg x (funext fun a => match a with | ⟨0, _⟩ => rfl | ⟨1, _⟩ => rfl)

end Layout

/-! ## The quantiser -/

/-- Clipping into the two bounds and rounding to the nearest integer, ties to even, entry by entry, is the
    specification's quantiser at each entry. -/
theorem quant_apply {s : Shape} (v : FVec Ideal s .f32) (i : s.Idx) :
    roundeven (minimumf (broadcast s (Scalar.ofBits (F := Ideal) .f32 0x42FE0000#32))
      (maximumf (broadcast s (Scalar.ofBits (F := Ideal) .f32 0xC3000000#32)) v)) i = Cert.Spec.q (v i) := rfl

end Cert.ValLib
-- ==== Proof.KI.Val0.lean ====
import proofs.«131422_j57432302682877_2_alg».proof.Proof.KI.R0
import proofs.«131422_j57432302682877_2_alg».proof.Proof.KI.ValLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! # The first launch's result, entry by entry, over the extended reals -/

/-- The payload of one grid point at row `p`, feature `o` of its block: the rows block times the transposed weights, plus
    the bias, times the scale, quantised. -/
theorem pay0_apply (x0 : Vec Ideal S1568x768 .f32) (x1 : Vec Ideal S768x768 .bf16) (x2 : Vec Ideal S768 .f32)
    (x3 : Vec Ideal S1x1 .f32) (p : Fin 1568) (o : Fin 768) :
    k0_pay1 x0 x1 x2 x3 (ix2 p o)
      = Cert.Spec.q ((∑ k : Fin 768, x0 (ix2 p k) * x1 (ix2 o k) + x2 (ix1 o)) * x3 (ix2 0 0)) := by
  unfold k0_pay1
  refine (truncf_apply (φ := .f32) (ψ := .bf16) _ bitsLt_bf16_f32 (ix2 p o)).trans ((Cert.ValLib.quant_apply _ _).trans (congrArg Cert.Spec.q ?_))
  refine (mulf_apply _ _ _).trans ?_
  refine congr (congrArg HMul.hMul ((addf_apply _ _ _).trans (congr (congrArg HAdd.hAdd ?mm) ?bias))) ?scale
  case mm =>
    rw [shapeCast_self, shapeCast_self]
    exact Cert.ValLib.matmul_lastlast_apply dot_S1568x768_S768x768_S1568x768_1_1_0_0_n_n rfl rfl rfl rfl rfl rfl none _ _ p o
  case bias => exact Cert.ValLib.row_repeated_apply x2 _ _ p o
  case scale => exact Cert.ValLib.extract_only x3 _

variable (V : (c : Dev nD) → (b : Ref sig .tc) → Buf (Elt Ideal) ((c : Thread nD τ).loc b))

/-- The whole result array as a function of the four argument arrays. -/
def G0 (X : S25088x768.Idx → EReal) (W : S768x768.Idx → EReal) (bv : S768.Idx → EReal) (s : S1x1.Idx → EReal) :
    S25088x768.Idx → EReal :=
  fun i => Cert.Spec.lin (fun (p : Fin 25088) (k : Fin 768) => X (ix2 p k)) (fun (o : Fin 768) (k : Fin 768) => W (ix2 o k))
    (fun o => bv (ix1 o)) (s (ix2 0 0)) (i 0) (i 1)

/-- `G0` at row `R`, feature `o`. -/
theorem G0_apply (X : S25088x768.Idx → EReal) (W : S768x768.Idx → EReal) (bv : S768.Idx → EReal) (s : S1x1.Idx → EReal)
    (R : Fin 25088) (o : Fin 768) :
    G0 X W bv s (ix2 R o) = Cert.Spec.q ((∑ k : Fin 768, X (ix2 R k) * W (ix2 o k) + bv (ix1 o)) * s (ix2 0 0)) := rfl

/-- Where each window's block sits at point `t`: the rows block and the result block at block-row `t`, everything else
    at the origin. -/
theorem where0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of block `t` of the rows array is row `1568 t + r` of the array. -/
theorem rows0 (c : Dev nD) (t : Fin cfg0.N) (r : Fin 1568) (k : Fin 768) (R : Fin 25088) (hR : R.val = t.val * 1568 + r.val) :
    iblk0 V c 0 t (ix2 r k) = (V c (Pipeline.arrRef spec0 0) : S25088x768.Idx → EReal) (ix2 R k) := by
  show (V c (Pipeline.arrRef spec0 0) : S25088x768.Idx → EReal) (((cfg0.win 0).blk t).view.emb (ix2 r k)) = _
  refine congrArg _ (funext fun a => Fin.ext ?_)
  obtain ⟨e0, e1, -⟩ := where0 t
  match a with
  | ⟨0, _⟩ => show win0_0.index t (0 : Fin 2) * 1568 + 1 * r.val = R.val; omega
  | ⟨1, _⟩ => show win0_0.index t (1 : Fin 2) * 768 + 1 * k.val = k.val; omega

/-- The weights, the bias and the scale are staged whole: a block entry is the array's entry. -/
theorem whole0_1 (c : Dev nD) (t : Fin cfg0.N) (o k : Fin 768) :
    iblk0 V c 1 t (ix2 o k) = (V c (Pipeline.arrRef spec0 1) : S768x768.Idx → EReal) (ix2 o k) := by
  show (V c (Pipeline.arrRef spec0 1) : S768x768.Idx → EReal) (((cfg0.win 1).blk t).view.emb (ix2 o k)) = _
  refine congrArg _ (funext fun a => Fin.ext ?_)
  obtain ⟨-, -, e0, e1, -⟩ := where0 t
  match a with
  | ⟨0, _⟩ => show win0_1.index t (0 : Fin 2) * 768 + 1 * o.val = o.val; omega
  | ⟨1, _⟩ => show win0_1.index t (1 : Fin 2) * 768 + 1 * k.val = k.val; omega

theorem whole0_2 (c : Dev nD) (t : Fin cfg0.N) (o : Fin 768) :
    iblk0 V c 2 t (ix1 o) = (V c (Pipeline.arrRef spec0 2) : S768.Idx → EReal) (ix1 o) := by
  show (V c (Pipeline.arrRef spec0 2) : S768.Idx → EReal) (((cfg0.win 2).blk t).view.emb (ix1 o)) = _
  refine congrArg _ (funext fun a => Fin.ext ?_)
  obtain ⟨-, -, -, -, e0, -⟩ := where0 t
  match a with
  | ⟨0, _⟩ => show win0_2.index t (0 : Fin 1) * 768 + 1 * o.val = o.val; omega

theorem whole0_3 (c : Dev nD) (t : Fin cfg0.N) :
    iblk0 V c 3 t (ix2 0 0) = (V c (Pipeline.arrRef spec0 3) : S1x1.Idx → EReal) (ix2 0 0) := by
  show (V c (Pipeline.arrRef spec0 3) : S1x1.Idx → EReal) (((cfg0.win 3).blk t).view.emb (ix2 0 0)) = _
  refine congrArg _ (funext fun a => Fin.ext ?_)
  obtain ⟨-, -, -, -, -, e0, e1, -⟩ := where0 t
  match a with
  | ⟨0, _⟩ => show win0_3.index t (0 : Fin 2) * 1 + 1 * 0 = 0; omega
  | ⟨1, _⟩ => show win0_3.index t (1 : Fin 2) * 1 + 1 * 0 = 0; omega

/-- Entry `(r, o)` of result block `t` is entry `(1568 t + r, o)` of the result array. -/
theorem place0_4 (t : Fin cfg0.N) (r : Fin 1568) (o : Fin 768) (R : Fin 25088) (hR : R.val = t.val * 1568 + r.val) :
    ((cfg0.win 4).blk t).view.emb (ix2 r o) = (ix2 R o : S25088x768.Idx) := by
  refine funext fun a => Fin.ext ?_
  obtain ⟨-, -, -, -, -, -, -, e0, e1⟩ := where0 t
  match a with
  | ⟨0, _⟩ => show win0_4.index t (0 : Fin 2) * 1568 + 1 * r.val = R.val; omega
  | ⟨1, _⟩ => show win0_4.index t (1 : Fin 2) * 768 + 1 * o.val = o.val; omega

/-- What point `t` writes back is block `t` of `G0` of the argument arrays. -/
theorem flushed0 (c : Dev nD) (t : Fin cfg0.N) :
    (dat0 (F := Ideal) V c).flushed 4 t = ((cfg0.win 4).blk t).view.read (Elt Ideal)
      (G0 (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  unfold out0_4
  rw [View.canon_unit_zero Cert.ValLib.zero2]
  simp only [View.ld_unit_zero (S := S1568x768) Cert.ValLib.zero2, View.ld_unit_zero (S := S768x768) Cert.ValLib.zero2,
    View.ld_unit_zero (S := S768) Cert.ValLib.zero1, View.ld_unit_zero (S := S1x1) Cert.ValLib.zero2]
  funext y
  obtain ⟨r, o, rfl⟩ : ∃ (r : Fin 1568) (o : Fin 768), y = ix2 r o := ⟨y 0, y 1, eq_ix2 y⟩
  have h16 : t.val < 16 := lt_of_lt_of_eq t.isLt N_0
  have hR : t.val * 1568 + r.val < 25088 := by have := r.isLt; omega
  refine (pay0_apply (iblk0 V c 0 t) (iblk0 V c 1 t) (iblk0 V c 2 t) (iblk0 V c 3 t) r o).trans ?_
  refine Eq.trans ?_ (congrArg (G0 _ _ _ _) (place0_4 t r o ⟨_, hR⟩ rfl)).symm
  refine Eq.trans ?_ (G0_apply _ _ _ _ ⟨_, hR⟩ o).symm
  simp only [rows0 V c t r _ ⟨_, hR⟩ rfl, whole0_1 V c t, whole0_2 V c t, whole0_3 V c t]

/-- An index of the result array lies in block `t` exactly when each coordinate lies in the block's range. -/
theorem mem_blk0 (t : Fin cfg0.N) (i : S25088x768.Idx) :
    i ∈ ((cfg0.win 4).blk t).view.set ↔ ∀ a : Fin 2, win0_4.index t a * S1568x768.size a ≤ (i a).val
      ∧ (i a).val < win0_4.index t a * S1568x768.size a + S1568x768.size a := by
  show i ∈ ((View.whole main_v7).slice (win0_4.rect t)).set ↔ _
  rw [View.set_slice_whole, Rect.mem_set_unit]
  exact Iff.rfl

/-- Row `R` of the result lies in the block of point `R / 1568`, which writes it back. -/
theorem cover0 (i : S25088x768.Idx) :
    ∃ t : Fin cfg0.N, (cfg0.win 4).flush t = true ∧ i ∈ ((cfg0.win 4).blk t).view.set := by
  have hi0 : (i 0).val < 25088 := idx2_lt0 i
  have hi1 : (i 1).val < 768 := idx2_lt1 i
  have hN : cfg0.N = 16 := N_0
  have ht : (i 0).val / 1568 < cfg0.N := by rw [hN]; omega
  obtain ⟨-, -, -, -, -, -, -, e0, e1⟩ := where0 ⟨(i 0).val / 1568, ht⟩
  have e0' : win0_4.index ⟨(i 0).val / 1568, ht⟩ (0 : Fin 2) = (i 0).val / 1568 := e0
  refine ⟨⟨(i 0).val / 1568, ht⟩, flush0_4 _, ?_⟩
  rw [mem_blk0]
  intro a
  match a with
  | ⟨0, _⟩ =>
    show win0_4.index ⟨(i 0).val / 1568, ht⟩ (0 : Fin 2) * 1568 ≤ (i 0).val
      ∧ (i 0).val < win0_4.index ⟨(i 0).val / 1568, ht⟩ (0 : Fin 2) * 1568 + 1568
    omega
  | ⟨1, _⟩ =>
    show win0_4.index ⟨(i 0).val / 1568, ht⟩ (1 : Fin 2) * 768 ≤ (i 1).val
      ∧ (i 1).val < win0_4.index ⟨(i 0).val / 1568, ht⟩ (1 : Fin 2) * 768 + 768
    omega

/-- The result array after the launch: the quantised linear layer of the four argument arrays, entry by entry. -/
theorem final0 (c : Dev nD) (p : Fin 25088) (o : Fin 768) :
    (dat0 (F := Ideal) V c).arrAt 4 cfg0.N (ix2 p o)
      = Cert.Spec.lin (fun (p : Fin 25088) (k : Fin 768) => (V c (Pipeline.arrRef spec0 0) : S25088x768.Idx → EReal) (ix2 p k))
          (fun (o : Fin 768) (k : Fin 768) => (V c (Pipeline.arrRef spec0 1) : S768x768.Idx → EReal) (ix2 o k))
          (fun (o : Fin 768) => (V c (Pipeline.arrRef spec0 2) : S768.Idx → EReal) (ix1 o))
          ((V c (Pipeline.arrRef spec0 3) : S1x1.Idx → EReal) (ix2 0 0)) p o :=
  congrFun ((dat0 (F := Ideal) V c).arrAt_eq_of_cover 4
    (G0 (V c (Pipeline.arrRef spec0 0)) (V c (Pipeline.arrRef spec0 1)) (V c (Pipeline.arrRef spec0 2)) (V c (Pipeline.arrRef spec0 3)))
    (fun t _ => flushed0 V c t) cover0) (ix2 p o)

end Cert.KernelIdeal.Hand
-- ==== Proof.KI.Val1.lean ====
import proofs.«131422_j57432302682877_2_alg».proof.Proof.KI.R1
import proofs.«131422_j57432302682877_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! # Region 1 read as values: out(b, o, d) = q ((Σ_k W(o,k) · X(b,k,d) + bias(o)) · s) -/

namespace Val1

/-! ## The pieces of one row's payload, at an index -/

/-- A column `[a, 1]` spread over `b` columns reads, at `(p, c)`, the column's entry `p`. -/
theorem spread_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The `196 × 196` by `196 × 768` product into a zero accumulator, at `(o, d)`: the sum over the shared axis. -/
theorem mix_product_apply (w : FVec Ideal S196x196 .bf16) (Y : FVec Ideal S196x768 .bf16) (o : Fin 196) (d : Fin 768) :
    FloatOps.matmul dot_S196x196_S196x768_S196x768_1_0_0_1_n_n none w Y (constant (F := Ideal) S196x768 .f32 0x00000000#32) (ix2 o d)
      = ∑ k : Fin 196, w (ix2 o k) * Y (ix2 k d) := by
  refine (Ideal.matmul_constant_zero_apply _ none w Y (ix2 o d)).trans ?_
  rw [← Equiv.sum_comp (contrEquiv1 dot_S196x196_S196x768_S196x768_1_0_0_1_n_n 196 rfl rfl).symm]
  refine Finset.sum_congr rfl fun k _ => ?_
  have hk := contrEquiv1_symm_val dot_S196x196_S196x768_S196x768_1_0_0_1_n_n 196 rfl rfl k
  have hl : dot_S196x196_S196x768_S196x768_1_0_0_1_n_n.lhsIdx (ix2 o d)
      ((contrEquiv1 dot_S196x196_S196x768_S196x768_1_0_0_1_n_n 196 rfl rfl).symm k) = ix2 o k := by
    funext ax; apply Fin.ext
    match ax with
    | ⟨0, _⟩ => simp [DotDims.lhsIdx, dot_S196x196_S196x768_S196x768_1_0_0_1_n_n]; rfl
    | ⟨1, _⟩ => simp [DotDims.lhsIdx, dot_S196x196_S196x768_S196x768_1_0_0_1_n_n]; exact hk
  have hr : dot_S196x196_S196x768_S196x768_1_0_0_1_n_n.rhsIdx (ix2 o d)
      ((contrEquiv1 dot_S196x196_S196x768_S196x768_1_0_0_1_n_n 196 rfl rfl).symm k) = ix2 k d := by
    funext ax; apply Fin.ext
    match ax with
    | ⟨0, _⟩ => simp [DotDims.rhsIdx, dot_S196x196_S196x768_S196x768_1_0_0_1_n_n]; exact hk
    | ⟨1, _⟩ => simp [DotDims.rhsIdx, dot_S196x196_S196x768_S196x768_1_0_0_1_n_n]; rfl
  rw [hl, hr]

/-- The three small operands as the rows use them: the matrix and the column unchanged, the scale its one entry. -/
theorem mix_operand_eq (W : Vec Ideal S196x196 .bf16) : k1_pay3 W = W := shapeCast_self _ _
theorem bias_operand_eq (b : Vec Ideal S196x1 .f32) : k1_pay4 b = b := shapeCast_self _ _
theorem scale_operand_eq (g : Vec Ideal S1x1 .f32) : k1_pay5 g = g (ix2 (0 : Fin 1) (0 : Fin 1)) :=
  congrArg g (funext fun a => match a with | ⟨0, _⟩ => rfl | ⟨1, _⟩ => rfl)

/-- What one batch row stores at `(0, o, d)`: column `d` of the row mixed along the token axis by row `o` of the
    matrix, plus the bias of `o`, times the scale, quantised. -/
abbrev rowSpec (w : FVec Ideal S196x196 .bf16) (bb : FVec Ideal S196x1 .f32) (s : Ideal .f32)
    (X : Vec Ideal S1x196x768 .bf16) (o : Fin 196) (d : Fin 768) : EReal :=
  Cert.Spec.q ((∑ k : Fin 196, w (ix2 o k) * X (ix3 (0 : Fin 1) k d) + bb (ix2 o (0 : Fin 1))) * s)

/-- A row's payload, its operations laid bare, read at `(u, o, d)`: the added leading axis is dropped, the quantiser
    and the scaling are pointwise, the product is `mix_product_apply`, the bias `spread_column_apply`, and the row
    enters the product with its unit axis dropped. -/
local macro "row_at_index" : tactic => `(tactic| (
  refine (shapeCast_ab_1ab_apply _ _ _ _ _).trans ?_
  refine congrArg Cert.Spec.q ?_
  refine congrArg (· * _) ?_
  refine congrArg₂ (· + ·) ((mix_product_apply _ _ _ _).trans ?_) (spread_column_apply _ _ _ _)
  refine Finset.sum_congr rfl fun k _ => ?_
  exact congrArg (_ * ·) (shapeCast_1ab_ab_apply _ _ k _)))

section Spellings
variable (w : FVec Ideal S196x196 .bf16) (bb : FVec Ideal S196x1 .f32) (s : Ideal .f32)
  (W : Vec Ideal S196x196 .bf16) (b : Vec Ideal S196x1 .f32) (g : Vec Ideal S1x1 .f32)
  (X : Vec Ideal S1x196x768 .bf16) (u : Fin 1) (o : Fin 196) (d : Fin 768)

theorem pay6_value : k1_pay6 W b g X (ix3 u o d) = rowSpec (k1_pay3 W) (k1_pay4 b) (k1_pay5 g) X o d := by
  unfold k1_pay6; row_at_index
theorem pay8_7_value : k1_pay8 (k1_pay7 W b g X) (ix3 u o d) = rowSpec (k1_pay3 W) (k1_pay4 b) (k1_pay5 g) X o d := by
  unfold k1_pay8 k1_pay7; row_at_index
theorem pay9_value : k1_pay9 w bb s X (ix3 u o d) = rowSpec w bb s X o d := by
  unfold k1_pay9; row_at_index
theorem pay10_value : k1_pay10 w bb s X (ix3 u o d) = rowSpec w bb s X o d := by
  unfold k1_pay10; row_at_index
theorem pay11_value : k1_pay11 w bb s X (ix3 u o d) = rowSpec w bb s X o d := by
  unfold k1_pay11; row_at_index
theorem pay12_value : k1_pay12 w bb s X (ix3 u o d) = rowSpec w bb s X o d := by
  unfold k1_pay12; row_at_index
theorem pay1_13_value : k1_pay1 (k1_pay13 w bb s X) (ix3 u o d) = rowSpec w bb s X o d := by
  unfold k1_pay1 k1_pay13; row_at_index
theorem pay2_value : k1_pay2 w bb s X (ix3 u o d) = rowSpec w bb s X o d := by
  unfold k1_pay2; row_at_index

/-- With the operands as loaded. -/
theorem rowSpec_loaded : rowSpec (k1_pay3 W) (k1_pay4 b) (k1_pay5 g) X o d = rowSpec W b (g (ix2 (0 : Fin 1) (0 : Fin 1))) X o d := by
  rw [mix_operand_eq, bias_operand_eq, scale_operand_eq]

end Spellings

section Rows
variable (W : Vec Ideal S196x196 .bf16) (b : Vec Ideal S196x1 .f32) (g : Vec Ideal S1x1 .f32)
  (X : Vec Ideal S1x196x768 .bf16) (u : Fin 1) (o : Fin 196) (d : Fin 768)

/-- Each of the eight rows, in its own spelling, is `rowSpec` of the operands as loaded. -/
theorem row1_0_value : row1_0 W b g X (ix3 u o d) = rowSpec W b (g (ix2 (0 : Fin 1) (0 : Fin 1))) X o d :=
  (pay6_value W b g X u o d).trans (rowSpec_loaded W b g X o d)
theorem row1_1_value : row1_1 W b g X (ix3 u o d) = rowSpec W b (g (ix2 (0 : Fin 1) (0 : Fin 1))) X o d :=
  (pay8_7_value W b g X u o d).trans (rowSpec_loaded W b g X o d)
theorem row1_2_value : row1_2 W b g X (ix3 u o d) = rowSpec W b (g (ix2 (0 : Fin 1) (0 : Fin 1))) X o d :=
  (pay9_value _ _ _ X u o d).trans (rowSpec_loaded W b g X o d)
theorem row1_3_value : row1_3 W b g X (ix3 u o d) = rowSpec W b (g (ix2 (0 : Fin 1) (0 : Fin 1))) X o d :=
  (pay10_value _ _ _ X u o d).trans (rowSpec_loaded W b g X o d)
theorem row1_4_value : row1_4 W b g X (ix3 u o d) = rowSpec W b (g (ix2 (0 : Fin 1) (0 : Fin 1))) X o d :=
  (pay11_value _ _ _ X u o d).trans (rowSpec_loaded W b g X o d)
theorem row1_5_value : row1_5 W b g X (ix3 u o d) = rowSpec W b (g (ix2 (0 : Fin 1) (0 : Fin 1))) X o d :=
  (pay12_value _ _ _ X u o d).trans (rowSpec_loaded W b g X o d)
theorem row1_6_value : row1_6 W b g X (ix3 u o d) = rowSpec W b (g (ix2 (0 : Fin 1) (0 : Fin 1))) X o d :=
  (pay1_13_value _ _ _ X u o d).trans (rowSpec_loaded W b g X o d)
theorem row1_7_value : row1_7 W b g X (ix3 u o d) = rowSpec W b (g (ix2 (0 : Fin 1) (0 : Fin 1))) X o d :=
  (pay2_value _ _ _ X u o d).trans (rowSpec_loaded W b g X o d)

end Rows

/-! ## The output block, at an index -/

/-- The output block at `(r, o, d)` in terms of the four input blocks. -/
abbrev blockSpec (x0 : Vec Ideal S8x196x768 .bf16) (x1 : Vec Ideal S196x196 .bf16) (x2 : Vec Ideal S196x1 .f32)
    (x3 : Vec Ideal S1x1 .f32) (r : Fin 8) (o : Fin 196) (d : Fin 768) : EReal :=
  Cert.Spec.q ((∑ k : Fin 196, x1 (ix2 o k) * x0 (ix3 r k d) + x2 (ix2 o (0 : Fin 1))) * x3 (ix2 (0 : Fin 1) (0 : Fin 1)))

/-- Batch row `K` of the block: its local index `(u, o, d)` is the block's `(K, o, d)`. -/
theorem row_rect_idx (K : ℕ) (hK : K < 8) (inb : ∀ a, (![K, 0, 0] : Fin 3 → ℕ) a + S1x196x768.size a ≤ S8x196x768.size a)
    (u : Fin 1) (o : Fin 196) (d : Fin 768) :
    (Rect.unit (s := S8x196x768) ![K, 0, 0] S1x196x768.size inb).idx (ix3 u o d) = ix3 (⟨K, hK⟩ : Fin 8) o d := by
  funext a; apply Fin.ext
  match a with
  | ⟨0, _⟩ => show K + 1 * u.val = K; omega
  | ⟨1, _⟩ => show 0 + 1 * o.val = o.val; omega
  | ⟨2, _⟩ => show 0 + 1 * d.val = d.val; omega

/-- A store of `pay (row K of x0)` at row `K`, when `pay` is `rowSpec`, holds `blockSpec` at the block's indices. -/
theorem piece_agrees (x0 : Vec Ideal S8x196x768 .bf16) (x1 : Vec Ideal S196x196 .bf16) (x2 : Vec Ideal S196x1 .f32)
    (x3 : Vec Ideal S1x1 .f32) (K : ℕ) (hK : K < 8)
    (inb : ∀ a, (![K, 0, 0] : Fin 3 → ℕ) a + S1x196x768.size a ≤ S8x196x768.size a)
    (pay : Vec Ideal S1x196x768 .bf16 → Vec Ideal S1x196x768 .bf16)
    (hpay : ∀ X u o d, pay X (ix3 u o d) = rowSpec x1 x2 (x3 (ix2 (0 : Fin 1) (0 : Fin 1))) X o d)
    (x : S1x196x768.Idx) :
    pay (View.ld x0 (Rect.unit (s := S8x196x768) ![K, 0, 0] S1x196x768.size inb)) x
      = (fun y : S8x196x768.Idx => blockSpec x0 x1 x2 x3 (y 0) (y 1) (y 2))
          ((Rect.unit (s := S8x196x768) ![K, 0, 0] S1x196x768.size inb).idx x) := by
  obtain ⟨u, o, d, rfl⟩ : ∃ (u : Fin 1) (o : Fin 196) (d : Fin 768), x = ix3 u o d := ⟨x 0, x 1, x 2, eq_ix3 x⟩
  rw [hpay, row_rect_idx K hK inb u o d]
  show Cert.Spec.q _ = Cert.Spec.q _
  refine congrArg Cert.Spec.q (congrArg (· * _) (congrArg (· + _) (Finset.sum_congr rfl fun k _ => ?_)))
  show x1 (ix2 o k) * x0 ((Rect.unit (s := S8x196x768) ![K, 0, 0] S1x196x768.size inb).idx (ix3 (0 : Fin 1) k d)) = _
  rw [row_rect_idx K hK inb (0 : Fin 1) k d]

theorem zero_offsets2 : (![0, 0] : Fin 2 → ℕ) = fun _ => 0 := funext fun a => by fin_cases a <;> rfl

theorem out1_4_apply (x0 : Vec Ideal S8x196x768 .bf16) (x1 : Vec Ideal S196x196 .bf16) (x2 : Vec Ideal S196x1 .f32)
    (x3 : Vec Ideal S1x1 .f32) (r : Fin 8) (o : Fin 196) (d : Fin 768) :
    out1_4 x0 x1 x2 x3 (ix3 r o d) = blockSpec x0 x1 x2 x3 r o d := by
  unfold out1_4
  simp only [View.ld_unit_zero (S := S196x196) zero_offsets2, View.ld_unit_zero (S := S196x1) zero_offsets2, View.ld_unit_zero (S := S1x1) zero_offsets2]
  refine (View.canon_apply_of_pieces (fun y : S8x196x768.Idx => blockSpec x0 x1 x2 x3 (y 0) (y 1) (y 2)) _ ?_
    (ix3 r o d) (cover1_4 _ _ _ _ _ _ _ _ _)).trans rfl
  intro p hp x
  simp only [List.mem_cons, List.not_mem_nil, or_false] at hp
  rcases hp with rfl | rfl | rfl | rfl | rfl | rfl | rfl | rfl
  · exact piece_agrees x0 x1 x2 x3 7 (by omega) _ (row1_7 x1 x2 x3) (row1_7_value x1 x2 x3) x
  · exact piece_agrees x0 x1 x2 x3 6 (by omega) _ (row1_6 x1 x2 x3) (row1_6_value x1 x2 x3) x
  · exact piece_agrees x0 x1 x2 x3 5 (by omega) _ (row1_5 x1 x2 x3) (row1_5_value x1 x2 x3) x
  · exact piece_agrees x0 x1 x2 x3 4 (by omega) _ (row1_4 x1 x2 x3) (row1_4_value x1 x2 x3) x
  · exact piece_agrees x0 x1 x2 x3 3 (by omega) _ (row1_3 x1 x2 x3) (row1_3_value x1 x2 x3) x
  · exact piece_agrees x0 x1 x2 x3 2 (by omega) _ (row1_2 x1 x2 x3) (row1_2_value x1 x2 x3) x
  · exact piece_agrees x0 x1 x2 x3 1 (by omega) _ (row1_1 x1 x2 x3) (row1_1_value x1 x2 x3) x
  · exact piece_agrees x0 x1 x2 x3 0 (by omega) _ (row1_0 x1 x2 x3) (row1_0_value x1 x2 x3) x

/-! ## From the blocks to the array -/

/-- The output array as one function of the four input arrays. -/
def arrSpec (X : S128x196x768.Idx → EReal) (W : S196x196.Idx → EReal) (bias : S196x1.Idx → EReal) (s : S1x1.Idx → EReal) :
    S128x196x768.Idx → EReal := fun i =>
  Cert.Spec.lin (fun (r : Fin 128 × Fin 768) (k : Fin 196) => X (ix3 r.1 k r.2)) (fun (o : Fin 196) (k : Fin 196) => W (ix2 o k))
    (fun (o : Fin 196) => bias (ix2 o (0 : Fin 1))) (s (ix2 (0 : Fin 1) (0 : Fin 1))) ((i 0 : Fin 128), (i 2 : Fin 768)) (i 1 : Fin 196)

/-- The block index maps over the grid: point `t` addresses batch block `t` of the input and of the output, and
    block 0 of everything else. -/
theorem index_maps1 : ∀ t : Fin cfg1.N,
    win1_0.index t (0 : Fin 3) = t.val ∧ win1_0.index t (1 : Fin 3) = 0 ∧ win1_0.index t (2 : Fin 3) = 0
    ∧ win1_4.index t (0 : Fin 3) = t.val ∧ win1_4.index t (1 : Fin 3) = 0 ∧ win1_4.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem point_lt1 (t : Fin cfg1.N) : t.val < 16 := Nat.lt_of_lt_of_eq t.isLt N_1

variable (V : (c : Dev nD) → (b : Ref sig .tc) → Buf (Elt Ideal) ((c : Thread nD τ).loc b))

/-- Entry `(r, k, d)` of point `t`'s input block is entry `(8t + r, k, d)` of the activation array. -/
theorem input_entry1 (c : Dev nD) (t : Fin cfg1.N) (r : Fin 8) (k : Fin 196) (d : Fin 768) (R : Fin 128) (hR : R.val = 8 * t.val + r.val) :
    iblk1 V c 0 t (ix3 r k d) = (V c (Pipeline.arrRef spec1 0) : S128x196x768.Idx → EReal) (ix3 R k d) := by
  obtain ⟨a0, a1, a2, -⟩ := index_maps1 t
  unfold iblk1
  rw [View.read_apply]
  show V c (Pipeline.arrRef spec1 0) _ = _
  congr 1
  funext a; apply Fin.ext
  match a with
  | ⟨0, _⟩ => show win1_0.index t (0 : Fin 3) * 8 + 1 * r.val = R.val; omega
  | ⟨1, _⟩ => show win1_0.index t (1 : Fin 3) * 196 + 1 * k.val = k.val; omega
  | ⟨2, _⟩ => show win1_0.index t (2 : Fin 3) * 768 + 1 * d.val = d.val; omega

/-- The mixing matrix, the bias column and the scale are read whole at every point. -/
theorem mix_entry1 (c : Dev nD) (t : Fin cfg1.N) (o k : Fin 196) :
    iblk1 V c 1 t (ix2 o k) = (V c (Pipeline.arrRef spec1 1) : S196x196.Idx → EReal) (ix2 o k) := by
  obtain ⟨-, -, -, -, -, -, w0, w1, -⟩ := index_maps1 t
  unfold iblk1
  rw [View.read_apply]
  show V c (Pipeline.arrRef spec1 1) _ = _
  congr 1
  funext a; apply Fin.ext
  match a with
  | ⟨0, _⟩ => show win1_1.index t (0 : Fin 2) * 196 + 1 * o.val = o.val; omega
  | ⟨1, _⟩ => show win1_1.index t (1 : Fin 2) * 196 + 1 * k.val = k.val; omega

theorem bias_entry1 (c : Dev nD) (t : Fin cfg1.N) (o : Fin 196) :
    iblk1 V c 2 t (ix2 o (0 : Fin 1)) = (V c (Pipeline.arrRef spec1 2) : S196x1.Idx → EReal) (ix2 o (0 : Fin 1)) := by
  obtain ⟨-, -, -, -, -, -, -, -, b0, b1, -⟩ := index_maps1 t
  unfold iblk1
  rw [View.read_apply]
  show V c (Pipeline.arrRef spec1 2) _ = _
  congr 1
  funext a; apply Fin.ext
  match a with
  | ⟨0, _⟩ => show win1_2.index t (0 : Fin 2) * 196 + 1 * o.val = o.val; omega
  | ⟨1, _⟩ => show win1_2.index t (1 : Fin 2) * 1 + 1 * 0 = 0; omega

theorem scale_entry1 (c : Dev nD) (t : Fin cfg1.N) :
    iblk1 V c 3 t (ix2 (0 : Fin 1) (0 : Fin 1)) = (V c (Pipeline.arrRef spec1 3) : S1x1.Idx → EReal) (ix2 (0 : Fin 1) (0 : Fin 1)) := by
  obtain ⟨-, -, -, -, -, -, -, -, -, -, s0, s1⟩ := index_maps1 t
  unfold iblk1
  rw [View.read_apply]
  show V c (Pipeline.arrRef spec1 3) _ = _
  congr 1
  funext a; apply Fin.ext
  match a with
  | ⟨0, _⟩ => show win1_3.index t (0 : Fin 2) * 1 + 1 * 0 = 0; omega
  | ⟨1, _⟩ => show win1_3.index t (1 : Fin 2) * 1 + 1 * 0 = 0; omega

/-- Entry `(r, o, d)` of point `t`'s output block is entry `(8t + r, o, d)` of the output array. -/
theorem output_entry1 (t : Fin cfg1.N) (G : S128x196x768.Idx → EReal) (r : Fin 8) (o : Fin 196) (d : Fin 768) (R : Fin 128) (hR : R.val = 8 * t.val + r.val) :
    View.read (Elt Ideal) ((cfg1.win 4).blk t).view G (ix3 r o d) = G (ix3 R o d) := by
  obtain ⟨-, -, -, e0, e1, e2, -⟩ := index_maps1 t
  rw [View.read_apply]
  show G _ = _
  congr 1
  funext a; apply Fin.ext
  match a with
  | ⟨0, _⟩ => show win1_4.index t (0 : Fin 3) * 8 + 1 * r.val = R.val; omega
  | ⟨1, _⟩ => show win1_4.index t (1 : Fin 3) * 196 + 1 * o.val = o.val; omega
  | ⟨2, _⟩ => show win1_4.index t (2 : Fin 3) * 768 + 1 * d.val = d.val; omega

/-- What point `t` writes back is block `t` of `arrSpec` of the arrays the region starts from. -/
theorem flushed1_eq (c : Dev nD) (t : Fin cfg1.N) :
    (dat1 (F := Ideal) V c).flushed 4 t = ((cfg1.win 4).blk t).view.read (Elt Ideal)
      (arrSpec (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  funext j
  obtain ⟨r, o, d, rfl⟩ : ∃ (r : Fin 8) (o : Fin 196) (d : Fin 768), j = ix3 r o d := ⟨j 0, j 1, j 2, eq_ix3 j⟩
  refine (out1_4_apply (iblk1 V c 0 t) (iblk1 V c 1 t) (iblk1 V c 2 t) (iblk1 V c 3 t) r o d).trans ?_
  have h16 := point_lt1 t
  refine Eq.trans ?_ (output_entry1 t _ r o d ⟨8 * t.val + r.val, by omega⟩ rfl).symm
  show Cert.Spec.q ((Finset.sum _ _ + _) * _) = Cert.Spec.q ((Finset.sum _ _ + _) * _)
  refine congrArg Cert.Spec.q (congrArg₂ (· * ·) (congrArg₂ (· + ·) (Finset.sum_congr rfl fun k _ => ?_) (bias_entry1 V c t o)) (scale_entry1 V c t))
  exact (congrArg₂ (fun x y : EReal => x * y) (mix_entry1 V c t o k) (input_entry1 V c t r k d ⟨8 * t.val + r.val, by omega⟩ rfl)).trans (mul_comm _ _)

/-- An index of the output array is in point `t`'s block iff its batch coordinate is in `[8t, 8t + 8)`. -/
theorem mem_block1 (t : Fin cfg1.N) (i : S128x196x768.Idx) :
    i ∈ ((cfg1.win 4).blk t).view.set ↔ ∀ a : Fin 3, win1_4.index t a * S8x196x768.size a ≤ (i a).val
      ∧ (i a).val < win1_4.index t a * S8x196x768.size a + S8x196x768.size a := by
  show i ∈ ((View.whole main_v14).slice (win1_4.rect t)).set ↔ _
  rw [View.set_slice_whole, Rect.mem_set_unit]
  exact Iff.rfl

/-- Batch row `b` lies in the block of point `b / 8`, which is written back. -/
theorem covered1 (i : S128x196x768.Idx) :
    ∃ t : Fin cfg1.N, (cfg1.win 4).flush t = true ∧ i ∈ ((cfg1.win 4).blk t).view.set := by
  have h0 : (i 0).val < 128 := (i 0).isLt
  have h1 : (i 1).val < 196 := (i 1).isLt
  have h2 : (i 2).val < 768 := (i 2).isLt
  have hN : cfg1.N = 16 := N_1
  refine ⟨⟨(i 0).val / 8, by rw [hN]; omega⟩, flush1_4 _, ?_⟩
  rw [mem_block1]
  obtain ⟨-, -, -, e0, e1, e2, -⟩ := index_maps1 ⟨(i 0).val / 8, by rw [hN]; omega⟩
  intro a
  match a with
  | ⟨0, _⟩ =>
    show win1_4.index _ (0 : Fin 3) * 8 ≤ (i 0).val ∧ (i 0).val < win1_4.index _ (0 : Fin 3) * 8 + 8
    rw [e0]; show (i 0).val / 8 * 8 ≤ (i 0).val ∧ (i 0).val < (i 0).val / 8 * 8 + 8; omega
  | ⟨1, _⟩ =>
    show win1_4.index _ (1 : Fin 3) * 196 ≤ (i 1).val ∧ (i 1).val < win1_4.index _ (1 : Fin 3) * 196 + 196
    rw [e1]; omega
  | ⟨2, _⟩ =>
    show win1_4.index _ (2 : Fin 3) * 768 ≤ (i 2).val ∧ (i 2).val < win1_4.index _ (2 : Fin 3) * 768 + 768
    rw [e2]; omega

end Val1

open Val1

variable (V : (c : Dev nD) → (b : Ref sig .tc) → Buf (Elt Ideal) ((c : Thread nD τ).loc b))

/-- The output array after the region: entry `(b, o, d)` is the quantised linear layer along the token axis,
    `q ((Σ_k X(b,k,d) · W(o,k) + bias(o)) · s)`, of the arrays the region starts from. -/
theorem final1 (c : Dev nD) (b : Fin 128) (o : Fin 196) (d : Fin 768) :
    (dat1 (F := Ideal) V c).arrAt 4 cfg1.N (ix3 b o d)
      = Cert.Spec.lin (fun (r : Fin 128 × Fin 768) (k : Fin 196) => (V c (Pipeline.arrRef spec1 0) : S128x196x768.Idx → EReal) (ix3 r.1 k r.2))
          (fun (o : Fin 196) (k : Fin 196) => (V c (Pipeline.arrRef spec1 1) : S196x196.Idx → EReal) (ix2 o k))
          (fun (o : Fin 196) => (V c (Pipeline.arrRef spec1 2) : S196x1.Idx → EReal) (ix2 o (0 : Fin 1)))
          ((V c (Pipeline.arrRef spec1 3) : S1x1.Idx → EReal) (ix2 (0 : Fin 1) (0 : Fin 1))) (b, d) o :=
  congrFun ((dat1 (F := Ideal) V c).arrAt_eq_of_cover 4
    (arrSpec (V c (Pipeline.arrRef spec1 0)) (V c (Pipeline.arrRef spec1 1)) (V c (Pipeline.arrRef spec1 2)) (V c (Pipeline.arrRef spec1 3)))
    (fun t _ => flushed1_eq V c t) covered1) (ix3 b o d)

end Cert.KernelIdeal.Hand
-- ==== Proof.KI.Val2.lean ====
import proofs.«131422_j57432302682877_2_alg».proof.Proof.KI.R2
import proofs.«131422_j57432302682877_2_alg».proof.Proof.KI.ValLib

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

/-! # The third launch's result, entry by entry, over the extended reals -/

/-- The payload of one grid point at row `p`, feature `o` of its block: the quantised linear layer of the rows block, then
    the quantised residual sum with the same entry of the second rows block. -/
theorem pay2_apply (x0 : Vec Ideal S784x768 .bf16) (x2 : Vec Ideal S768x768 .bf16) (x3 : Vec Ideal S768 .f32)
    (x4 : Vec Ideal S1x1 .f32) (x1 : Vec Ideal S784x768 .f32) (x5 x6 x7 : Vec Ideal S1x1 .f32) (p : Fin 784) (o : Fin 768) :
    k2_pay1 x0 x2 x3 x4 x1 x5 x6 x7 (ix2 p o)
      = Cert.Spec.q (Ideal.div
          (Cert.Spec.q ((∑ k : Fin 768, x0 (ix2 p k) * x2 (ix2 o k) + x3 (ix1 o)) * x4 (ix2 0 0)) * x5 (ix2 0 0)
            + x1 (ix2 p o) * x6 (ix2 0 0))
          (x7 (ix2 0 0))) := by
  unfold k2_pay1
  refine (truncf_apply (φ := .f32) (ψ := .bf16) _ bitsLt_bf16_f32 (ix2 p o)).trans
    ((Cert.ValLib.quant_apply _ _).trans (congrArg Cert.Spec.q ?_))
  refine (divf_apply _ _ _).trans ?_
  refine congr (congrArg Ideal.div ((addf_apply _ _ _).trans (congr (congrArg HAdd.hAdd ?ya) ?io))) ?so
  case so => exact Cert.ValLib.extract_only x7 _
  case io =>
    refine (mulf_apply _ _ _).trans (congr (congrArg HMul.hMul ?i) ?org)
    case i => exact congrFun (shapeCast_self x1 _) (ix2 p o)
    case org => exact Cert.ValLib.extract_only x6 _
  case ya =>
    refine (mulf_apply _ _ _).trans (congr (congrArg HMul.hMul ?y) ?ag)
    case ag => exact Cert.ValLib.extract_only x5 _
    case y =>
      refine (Cert.ValLib.quant_apply _ _).trans (congrArg Cert.Spec.q ?_)
      refine (mulf_apply _ _ _).trans ?_
      refine congr (congrArg HMul.hMul ((addf_apply _ _ _).trans (congr (congrArg HAdd.hAdd ?mm) ?bias))) ?scale
      case mm =>
        rw [shapeCast_self, shapeCast_self]
        exact Cert.ValLib.matmul_lastlast_apply dot_S784x768_S768x768_S784x768_1_1_0_0_n_n rfl rfl rfl rfl rfl rfl none _ _ p o
      case bias => exact Cert.ValLib.row_repeated_apply x3 _ _ p o
      case scale => exact Cert.ValLib.extract_only x4 _

variable (V : (c : Dev nD) → (b : Ref sig .tc) → Buf (Elt Ideal) ((c : Thread nD τ).loc b))

/-- The whole result array as a function of the eight argument arrays. -/
def G2 (X : S25088x768.Idx → EReal) (I : S25088x768.Idx → EReal) (W : S768x768.Idx → EReal) (bv : S768.Idx → EReal)
    (s ag org sout : S1x1.Idx → EReal) : S25088x768.Idx → EReal :=
  fun i => Cert.Spec.qadd
    (Cert.Spec.lin (fun (p : Fin 25088) (k : Fin 768) => X (ix2 p k)) (fun (o : Fin 768) (k : Fin 768) => W (ix2 o k))
      (fun o => bv (ix1 o)) (s (ix2 0 0)))
    (fun (p : Fin 25088) (o : Fin 768) => I (ix2 p o)) (ag (ix2 0 0)) (org (ix2 0 0)) (sout (ix2 0 0)) (i 0) (i 1)

/-- `G2` at row `R`, feature `o`. -/
theorem G2_apply (X : S25088x768.Idx → EReal) (I : S25088x768.Idx → EReal) (W : S768x768.Idx → EReal) (bv : S768.Idx → EReal)
    (s ag org sout : S1x1.Idx → EReal) (R : Fin 25088) (o : Fin 768) :
    G2 X I W bv s ag org sout (ix2 R o)
      = Cert.Spec.q (Ideal.div
          (Cert.Spec.q ((∑ k : Fin 768, X (ix2 R k) * W (ix2 o k) + bv (ix1 o)) * s (ix2 0 0)) * ag (ix2 0 0)
            + I (ix2 R o) * org (ix2 0 0))
          (sout (ix2 0 0))) := rfl

/-- Where each window's block sits at point `t`: the two rows blocks and the result block at block-row `t`, everything
    else at the origin. -/
theorem where2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row `r` of block `t` of either rows array is row `784 t + r` of the array. -/
theorem rows2_0 (c : Dev nD) (t : Fin cfg2.N) (r : Fin 784) (k : Fin 768) (R : Fin 25088) (hR : R.val = t.val * 784 + r.val) :
    iblk2 V c 0 t (ix2 r k) = (V c (Pipeline.arrRef spec2 0) : S25088x768.Idx → EReal) (ix2 R k) := by
  show (V c (Pipeline.arrRef spec2 0) : S25088x768.Idx → EReal) (((cfg2.win 0).blk t).view.emb (ix2 r k)) = _
  refine congrArg _ (funext fun a => Fin.ext ?_)
  obtain ⟨e0, e1, -⟩ := where2 t
  match a with
  | ⟨0, _⟩ => show win2_0.index t (0 : Fin 2) * 784 + 1 * r.val = R.val; omega
  | ⟨1, _⟩ => show win2_0.index t (1 : Fin 2) * 768 + 1 * k.val = k.val; omega

theorem rows2_1 (c : Dev nD) (t : Fin cfg2.N) (r : Fin 784) (k : Fin 768) (R : Fin 25088) (hR : R.val = t.val * 784 + r.val) :
    iblk2 V c 1 t (ix2 r k) = (V c (Pipeline.arrRef spec2 1) : S25088x768.Idx → EReal) (ix2 R k) := by
  show (V c (Pipeline.arrRef spec2 1) : S25088x768.Idx → EReal) (((cfg2.win 1).blk t).view.emb (ix2 r k)) = _
  refine congrArg _ (funext fun a => Fin.ext ?_)
  obtain ⟨-, -, e0, e1, -⟩ := where2 t
  match a with
  | ⟨0, _⟩ => show win2_1.index t (0 : Fin 2) * 784 + 1 * r.val = R.val; omega
  | ⟨1, _⟩ => show win2_1.index t (1 : Fin 2) * 768 + 1 * k.val = k.val; omega

/-- The weights, the bias and the five scales are staged whole: a block entry is the array's entry. -/
theorem whole2_2 (c : Dev nD) (t : Fin cfg2.N) (o k : Fin 768) :
    iblk2 V c 2 t (ix2 o k) = (V c (Pipeline.arrRef spec2 2) : S768x768.Idx → EReal) (ix2 o k) := by
  show (V c (Pipeline.arrRef spec2 2) : S768x768.Idx → EReal) (((cfg2.win 2).blk t).view.emb (ix2 o k)) = _
  refine congrArg _ (funext fun a => Fin.ext ?_)
  obtain ⟨-, -, -, -, e0, e1, -⟩ := where2 t
  match a with
  | ⟨0, _⟩ => show win2_2.index t (0 : Fin 2) * 768 + 1 * o.val = o.val; omega
  | ⟨1, _⟩ => show win2_2.index t (1 : Fin 2) * 768 + 1 * k.val = k.val; omega

theorem whole2_3 (c : Dev nD) (t : Fin cfg2.N) (o : Fin 768) :
    iblk2 V c 3 t (ix1 o) = (V c (Pipeline.arrRef spec2 3) : S768.Idx → EReal) (ix1 o) := by
  show (V c (Pipeline.arrRef spec2 3) : S768.Idx → EReal) (((cfg2.win 3).blk t).view.emb (ix1 o)) = _
  refine congrArg _ (funext fun a => Fin.ext ?_)
  obtain ⟨-, -, -, -, -, -, e0, -⟩ := where2 t
  match a with
  | ⟨0, _⟩ => show win2_3.index t (0 : Fin 1) * 768 + 1 * o.val = o.val; omega

theorem whole2_4 (c : Dev nD) (t : Fin cfg2.N) :
    iblk2 V c 4 t (ix2 0 0) = (V c (Pipeline.arrRef spec2 4) : S1x1.Idx → EReal) (ix2 0 0) := by
  show (V c (Pipeline.arrRef spec2 4) : S1x1.Idx → EReal) (((cfg2.win 4).blk t).view.emb (ix2 0 0)) = _
  refine congrArg _ (funext fun a => Fin.ext ?_)
  obtain ⟨-, -, -, -, -, -, -, e0, e1, -⟩ := where2 t
  match a with
  | ⟨0, _⟩ => show win2_4.index t (0 : Fin 2) * 1 + 1 * 0 = 0; omega
  | ⟨1, _⟩ => show win2_4.index t (1 : Fin 2) * 1 + 1 * 0 = 0; omega

theorem whole2_5 (c : Dev nD) (t : Fin cfg2.N) :
    iblk2 V c 5 t (ix2 0 0) = (V c (Pipeline.arrRef spec2 5) : S1x1.Idx → EReal) (ix2 0 0) := by
  show (V c (Pipeline.arrRef spec2 5) : S1x1.Idx → EReal) (((cfg2.win 5).blk t).view.emb (ix2 0 0)) = _
  refine congrArg _ (funext fun a => Fin.ext ?_)
  obtain ⟨-, -, -, -, -, -, -, -, -, e0, e1, -⟩ := where2 t
  match a with
  | ⟨0, _⟩ => show win2_5.index t (0 : Fin 2) * 1 + 1 * 0 = 0; omega
  | ⟨1, _⟩ => show win2_5.index t (1 : Fin 2) * 1 + 1 * 0 = 0; omega

theorem whole2_6 (c : Dev nD) (t : Fin cfg2.N) :
    iblk2 V c 6 t (ix2 0 0) = (V c (Pipeline.arrRef spec2 6) : S1x1.Idx → EReal) (ix2 0 0) := by
  show (V c (Pipeline.arrRef spec2 6) : S1x1.Idx → EReal) (((cfg2.win 6).blk t).view.emb (ix2 0 0)) = _
  refine congrArg _ (funext fun a => Fin.ext ?_)
  obtain ⟨-, -, -, -, -, -, -, -, -, -, -, e0, e1, -⟩ := where2 t
  match a with
  | ⟨0, _⟩ => show win2_6.index t (0 : Fin 2) * 1 + 1 * 0 = 0; omega
  | ⟨1, _⟩ => show win2_6.index t (1 : Fin 2) * 1 + 1 * 0 = 0; omega

theorem whole2_7 (c : Dev nD) (t : Fin cfg2.N) :
    iblk2 V c 7 t (ix2 0 0) = (V c (Pipeline.arrRef spec2 7) : S1x1.Idx → EReal) (ix2 0 0) := by
  show (V c (Pipeline.arrRef spec2 7) : S1x1.Idx → EReal) (((cfg2.win 7).blk t).view.emb (ix2 0 0)) = _
  refine congrArg _ (funext fun a => Fin.ext ?_)
  obtain ⟨-, -, -, -, -, -, -, -, -, -, -, -, -, e0, e1, -⟩ := where2 t
  match a with
  | ⟨0, _⟩ => show win2_7.index t (0 : Fin 2) * 1 + 1 * 0 = 0; omega
  | ⟨1, _⟩ => show win2_7.index t (1 : Fin 2) * 1 + 1 * 0 = 0; omega

/-- Entry `(r, o)` of result block `t` is entry `(784 t + r, o)` of the result array. -/
theorem place2_8 (t : Fin cfg2.N) (r : Fin 784) (o : Fin 768) (R : Fin 25088) (hR : R.val = t.val * 784 + r.val) :
    ((cfg2.win 8).blk t).view.emb (ix2 r o) = (ix2 R o : S25088x768.Idx) := by
  refine funext fun a => Fin.ext ?_
  obtain ⟨-, -, -, -, -, -, -, -, -, -, -, -, -, -, -, e0, e1⟩ := where2 t
  match a with
  | ⟨0, _⟩ => show win2_8.index t (0 : Fin 2) * 784 + 1 * r.val = R.val; omega
  | ⟨1, _⟩ => show win2_8.index t (1 : Fin 2) * 768 + 1 * o.val = o.val; omega

/-- What point `t` writes back is block `t` of `G2` of the argument arrays. -/
theorem flushed2 (c : Dev nD) (t : Fin cfg2.N) :
    (dat2 (F := Ideal) V c).flushed 8 t = ((cfg2.win 8).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6)) (V c (Pipeline.arrRef spec2 7))) := by
  show (cfg2.win 8).cut (grid2.coords t) ((dat2 V c).after 8 t) = _
  rw [after2_8]
  unfold out2_8
  rw [View.canon_unit_zero Cert.ValLib.zero2]
  simp only [View.ld_unit_zero (S := S784x768) Cert.ValLib.zero2, View.ld_unit_zero (S := S768x768) Cert.ValLib.zero2,
    View.ld_unit_zero (S := S768) Cert.ValLib.zero1, View.ld_unit_zero (S := S1x1) Cert.ValLib.zero2]
  funext y
  obtain ⟨r, o, rfl⟩ : ∃ (r : Fin 784) (o : Fin 768), y = ix2 r o := ⟨y 0, y 1, eq_ix2 y⟩
  have h32 : t.val < 32 := lt_of_lt_of_eq t.isLt N_2
  have hR : t.val * 784 + r.val < 25088 := by have := r.isLt; omega
  refine (pay2_apply (iblk2 V c 0 t) (iblk2 V c 2 t) (iblk2 V c 3 t) (iblk2 V c 4 t) (iblk2 V c 1 t) (iblk2 V c 5 t)
    (iblk2 V c 6 t) (iblk2 V c 7 t) r o).trans ?_
  refine Eq.trans ?_ (congrArg (G2 _ _ _ _ _ _ _ _) (place2_8 t r o ⟨_, hR⟩ rfl)).symm
  refine Eq.trans ?_ (G2_apply _ _ _ _ _ _ _ _ ⟨_, hR⟩ o).symm
  simp only [rows2_0 V c t r _ ⟨_, hR⟩ rfl, rows2_1 V c t r _ ⟨_, hR⟩ rfl, whole2_2 V c t, whole2_3 V c t, whole2_4 V c t,
    whole2_5 V c t, whole2_6 V c t, whole2_7 V c t]

/-- An index of the result array lies in block `t` exactly when each coordinate lies in the block's range. -/
theorem mem_blk2 (t : Fin cfg2.N) (i : S25088x768.Idx) :
    i ∈ ((cfg2.win 8).blk t).view.set ↔ ∀ a : Fin 2, win2_8.index t a * S784x768.size a ≤ (i a).val
      ∧ (i a).val < win2_8.index t a * S784x768.size a + S784x768.size a := by
  show i ∈ ((View.whole main_v23).slice (win2_8.rect t)).set ↔ _
  rw [View.set_slice_whole, Rect.mem_set_unit]
  exact Iff.rfl

/-- Row `R` of the result lies in the block of point `R / 784`, which writes it back. -/
theorem cover2 (i : S25088x768.Idx) :
    ∃ t : Fin cfg2.N, (cfg2.win 8).flush t = true ∧ i ∈ ((cfg2.win 8).blk t).view.set := by
  have hi0 : (i 0).val < 25088 := idx2_lt0 i
  have hi1 : (i 1).val < 768 := idx2_lt1 i
  have hN : cfg2.N = 32 := N_2
  have ht : (i 0).val / 784 < cfg2.N := by rw [hN]; omega
  obtain ⟨-, -, -, -, -, -, -, -, -, -, -, -, -, -, -, e0, e1⟩ := where2 ⟨(i 0).val / 784, ht⟩
  have e0' : win2_8.index ⟨(i 0).val / 784, ht⟩ (0 : Fin 2) = (i 0).val / 784 := e0
  refine ⟨⟨(i 0).val / 784, ht⟩, flush2_8 _, ?_⟩
  rw [mem_blk2]
  intro a
  match a with
  | ⟨0, _⟩ =>
    show win2_8.index ⟨(i 0).val / 784, ht⟩ (0 : Fin 2) * 784 ≤ (i 0).val
      ∧ (i 0).val < win2_8.index ⟨(i 0).val / 784, ht⟩ (0 : Fin 2) * 784 + 784
    omega
  | ⟨1, _⟩ =>
    show win2_8.index ⟨(i 0).val / 784, ht⟩ (1 : Fin 2) * 768 ≤ (i 1).val
      ∧ (i 1).val < win2_8.index ⟨(i 0).val / 784, ht⟩ (1 : Fin 2) * 768 + 768
    omega

/-- The result array after the launch: the quantised residual sum of the quantised linear layer with the second rows
    array, entry by entry. -/
theorem final2 (c : Dev nD) (p : Fin 25088) (o : Fin 768) :
    (dat2 (F := Ideal) V c).arrAt 8 cfg2.N (ix2 p o)
      = Cert.Spec.qadd
          (Cert.Spec.lin (fun (p : Fin 25088) (k : Fin 768) => (V c (Pipeline.arrRef spec2 0) : S25088x768.Idx → EReal) (ix2 p k))
            (fun (o : Fin 768) (k : Fin 768) => (V c (Pipeline.arrRef spec2 2) : S768x768.Idx → EReal) (ix2 o k))
            (fun (o : Fin 768) => (V c (Pipeline.arrRef spec2 3) : S768.Idx → EReal) (ix1 o))
            ((V c (Pipeline.arrRef spec2 4) : S1x1.Idx → EReal) (ix2 0 0)))
          (fun (p : Fin 25088) (o : Fin 768) => (V c (Pipeline.arrRef spec2 1) : S25088x768.Idx → EReal) (ix2 p o))
          ((V c (Pipeline.arrRef spec2 5) : S1x1.Idx → EReal) (ix2 0 0))
          ((V c (Pipeline.arrRef spec2 6) : S1x1.Idx → EReal) (ix2 0 0))
          ((V c (Pipeline.arrRef spec2 7) : S1x1.Idx → EReal) (ix2 0 0)) p o :=
  congrFun ((dat2 (F := Ideal) V c).arrAt_eq_of_cover 8
    (G2 (V c (Pipeline.arrRef spec2 0)) (V c (Pipeline.arrRef spec2 1)) (V c (Pipeline.arrRef spec2 2))
      (V c (Pipeline.arrRef spec2 3)) (V c (Pipeline.arrRef spec2 4)) (V c (Pipeline.arrRef spec2 5))
      (V c (Pipeline.arrRef spec2 6)) (V c (Pipeline.arrRef spec2 7)))
    (fun t _ => flushed2 V c t) cover2) (ix2 p o)

end Cert.KernelIdeal.Hand
-- ==== Proof.KI.Val3Block.lean ====
import proofs.«131422_j57432302682877_2_alg».proof.Proof.KI.R3
import proofs.«131422_j57432302682877_2_alg».proof.Proof.KI.ValLib
import proofs.«131422_j57432302682877_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

namespace Val3

/-! # Region 3 read as values

The body of the region computes, for the 392 rows of a block, four quantised linear layers one after the other (the
third with a positive part) and a quantised residual sum with the second input block. -/

/-! ## One layer, as the body spells it -/

section Layer

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0]) (hlb : D.lhsBatch = []) (hrb : D.rhsBatch = [])
  {φ₁ φ₂ : FTy} (X : FVec Ideal ⟨2, ![M, K]⟩ φ₁) (W : FVec Ideal ⟨2, ![N, K]⟩ φ₂)
  (b : (⟨1, ![N]⟩ : Shape).Idx → Ideal .f32) (s : (⟨2, ![1, 1]⟩ : Shape).Idx → Ideal .f32)
  (h1 : (⟨1, ![N]⟩ : Shape).ShapeCasts ⟨2, ![1, N]⟩) (h2 : (⟨2, ![1, N]⟩ : Shape).Broadcasts ⟨2, ![M, N]⟩)
  (h0 : ∀ a, (![0, 0] : Fin 2 → ℕ) a < (⟨2, ![1, 1]⟩ : Shape).size a)

include hlc hrc hln hrn hlb hrb in
/-- The affine part of a layer at row `p` and output feature `o`: the product with both factors contracted along
    their last axis, the bias row repeated down the rows, and the one-entry scale. -/
theorem affine_at (p : Fin M) (o : Fin N) :
    mulf (addf (FloatOps.matmul D none X W (constant ⟨2, ![M, N]⟩ .f32 0x00000000#32))
        (broadcastTo ⟨2, ![M, N]⟩ (shapeCast ⟨2, ![1, N]⟩ b h1) h2))
      (broadcast ⟨2, ![M, N]⟩ (extractAt ![0, 0] s h0)) (ix2 p o)
      = (∑ k : Fin K, X (ix2 p k) * W (ix2 o k) + b (ix1 o)) * s (ix2 0 0) :=
  congrArg₂ (· * ·)
    (congrArg₂ (· + ·) (ValLib.matmul_lastlast_apply D hlc hrc hln hrn hlb hrb none X W p o)
      (ValLib.row_repeated_apply b h1 h2 p o))
    (ValLib.extract_only s h0)

include hlc hrc hln hrn hlb hrb in
/-- A quantised layer at `(p, o)`, its two factors known entry by entry. -/
theorem layer_at (Xs : Fin M → Fin K → EReal) (hX : ∀ p k, X (ix2 p k) = Xs p k)
    (Ws : Fin N → Fin K → EReal) (hW : ∀ o k, W (ix2 o k) = Ws o k) (p : Fin M) (o : Fin N) :
    roundeven (minimumf (broadcast ⟨2, ![M, N]⟩ (Scalar.ofBits (F := Ideal) .f32 0x42FE0000#32))
      (maximumf (broadcast ⟨2, ![M, N]⟩ (Scalar.ofBits (F := Ideal) .f32 0xC3000000#32))
        (mulf (addf (FloatOps.matmul D none X W (constant ⟨2, ![M, N]⟩ .f32 0x00000000#32))
            (broadcastTo ⟨2, ![M, N]⟩ (shapeCast ⟨2, ![1, N]⟩ b h1) h2))
          (broadcast ⟨2, ![M, N]⟩ (extractAt ![0, 0] s h0))))) (ix2 p o)
      = Cert.Spec.lin Xs Ws (fun o => b (ix1 o)) (s (ix2 0 0)) p o := by
  refine (ValLib.quant_apply _ _).trans (congrArg Cert.Spec.q ?_)
  refine (affine_at D hlc hrc hln hrn hlb hrb X W b s h1 h2 h0 p o).trans ?_
  simp only [hX, hW]

include hlc hrc hln hrn hlb hrb in
/-- The same with a positive part taken before the clip. -/
theorem layer_pos_at (Xs : Fin M → Fin K → EReal) (hX : ∀ p k, X (ix2 p k) = Xs p k)
    (Ws : Fin N → Fin K → EReal) (hW : ∀ o k, W (ix2 o k) = Ws o k) (p : Fin M) (o : Fin N) :
    roundeven (minimumf (broadcast ⟨2, ![M, N]⟩ (Scalar.ofBits (F := Ideal) .f32 0x42FE0000#32))
      (maximumf (broadcast ⟨2, ![M, N]⟩ (Scalar.ofBits (F := Ideal) .f32 0xC3000000#32))
        (maximumf (mulf (addf (FloatOps.matmul D none X W (constant ⟨2, ![M, N]⟩ .f32 0x00000000#32))
            (broadcastTo ⟨2, ![M, N]⟩ (shapeCast ⟨2, ![1, N]⟩ b h1) h2))
          (broadcast ⟨2, ![M, N]⟩ (extractAt ![0, 0] s h0)))
          (broadcast ⟨2, ![M, N]⟩ (Scalar.ofBits (F := Ideal) .f32 0x00000000#32))))) (ix2 p o)
      = Cert.Spec.linRelu Xs Ws (fun o => b (ix1 o)) (s (ix2 0 0)) Cert.Spec.zero p o := by
  refine (ValLib.quant_apply _ _).trans (congrArg Cert.Spec.q ?_)
  refine congrArg (max · Cert.Spec.zero) ?_
  refine (affine_at D hlc hrc hln hrn hlb hrb X W b s h1 h2 h0 p o).trans ?_
  simp only [hX, hW]

end Layer

/-- Zero offsets, however spelt. -/
theorem zeros2 : (![0, 0] : Fin 2 → ℕ) = fun _ => 0 := funext fun a => by fin_cases a <;> rfl
theorem zeros1 : (![0] : Fin 1 → ℕ) = fun _ => 0 := funext fun a => by fin_cases a <;> rfl

/-! ## The body's payloads -/

section Payloads

variable (x0 : Vec Ideal S392x768 .bf16) (x1 : Vec Ideal S392x768 .bf16) (x2 : Vec Ideal S768x768 .bf16) (x3 : Vec Ideal S768 .f32) (x4 : Vec Ideal S1x1 .f32) (x5 : Vec Ideal S3072x768 .bf16) (x6 : Vec Ideal S3072 .f32) (x7 : Vec Ideal S1x1 .f32) (x8 : Vec Ideal S768x3072 .bf16) (x9 : Vec Ideal S768 .f32) (x10 : Vec Ideal S1x1 .f32) (x11 : Vec Ideal S768x768 .bf16) (x12 : Vec Ideal S768 .f32) (x13 : Vec Ideal S1x1 .f32) (x14 : Vec Ideal S1x1 .f32) (x15 : Vec Ideal S1x1 .f32) (x16 : Vec Ideal S1x1 .f32)

/-- The first part's result: the second layer of the first, at row `p` and hidden feature `j`. -/
theorem hidden_at (p : Fin 392) (j : Fin 3072) :
    k3_pay2 x0 x2 x3 x4 x5 x6 x7 (ix2 p j)
      = Cert.Spec.lin (Cert.Spec.lin (fun (p : Fin 392) (k : Fin 768) => x0 (ix2 p k)) (fun (o : Fin 768) (k : Fin 768) => x2 (ix2 o k))
            (fun o => x3 (ix1 o)) (x4 (ix2 0 0)))
          (fun (o : Fin 3072) (k : Fin 768) => x5 (ix2 o k)) (fun o => x6 (ix1 o)) (x7 (ix2 0 0)) p j := by
  unfold k3_pay2
  refine layer_at dot_S392x768_S3072x768_S392x3072_1_1_0_0_n_n rfl rfl rfl rfl rfl rfl _ _ x6 x7 _ _ _ _
    (fun p k => ?_) _ (fun o k => congrFun (shapeCast_self x5 _) (ix2 o k)) p j
  exact layer_at dot_S392x768_S768x768_S392x768_1_1_0_0_n_n rfl rfl rfl rfl rfl rfl _ _ x3 x4 _ _ _ _
    (fun p k => congrFun (shapeCast_self x0 _) (ix2 p k)) _ (fun o k => congrFun (shapeCast_self x2 _) (ix2 o k)) p k

/-- The second part's result at row `p` and feature `o`, from the first part's two results (the hidden block `H`
    and the matrix `U`): the third layer (with a positive part) and the fourth, then the scaling by the one-entry
    block `x14`. -/
theorem second_part_at (H : FVec Ideal S392x3072 .bf16) (U : FVec Ideal S768x3072 .bf16)
    (Hs : Fin 392 → Fin 3072 → EReal) (hH : ∀ p j, H (ix2 p j) = Hs p j) (p : Fin 392) (o : Fin 768) :
    k3_pay5 H U (constant S392x768 .f32 0x00000000#32) x9 x10 x11 x12 x13 x14 (ix2 p o)
      = Cert.Spec.lin (Cert.Spec.linRelu Hs (fun (o : Fin 768) (k : Fin 3072) => U (ix2 o k)) (fun o => x9 (ix1 o)) (x10 (ix2 0 0)) Cert.Spec.zero)
          (fun (o : Fin 768) (k : Fin 768) => x11 (ix2 o k)) (fun o => x12 (ix1 o)) (x13 (ix2 0 0)) p o * x14 (ix2 0 0) := by
  unfold k3_pay5
  refine congrArg₂ (· * ·) ?_ (ValLib.extract_only x14 _)
  refine layer_at dot_S392x768_S768x768_S392x768_1_1_0_0_n_n rfl rfl rfl rfl rfl rfl _ _ x12 x13 _ _ _ _
    (fun p k => ?_) _ (fun o k => congrFun (shapeCast_self x11 _) (ix2 o k)) p o
  exact layer_pos_at dot_S392x3072_S768x3072_S392x768_1_1_0_0_n_n rfl rfl rfl rfl rfl rfl _ _ x9 x10 _ _ _ _
    hH _ (fun _ _ => rfl) p k

/-- What the body stores, at row `p` and feature `o` of the block: the four layers on the first block, and the
    quantised residual sum with the second. -/
theorem out_block_at (p : Fin 392) (o : Fin 768) :
    out3_17 x0 x1 x2 x3 x4 x5 x6 x7 x8 x9 x10 x11 x12 x13 x14 x15 x16 (ix2 p o)
      = Cert.Spec.mlp (fun (p : Fin 392) (k : Fin 768) => x0 (ix2 p k)) (fun (p : Fin 392) (o : Fin 768) => x1 (ix2 p o))
      (fun (o : Fin 768) (k : Fin 768) => x2 (ix2 o k)) (fun o => x3 (ix1 o)) (x4 (ix2 0 0))
      (fun (o : Fin 3072) (k : Fin 768) => x5 (ix2 o k)) (fun o => x6 (ix1 o)) (x7 (ix2 0 0))
      (fun (o : Fin 768) (k : Fin 3072) => x8 (ix2 o k)) (fun o => x9 (ix1 o)) (x10 (ix2 0 0))
      (fun (o : Fin 768) (k : Fin 768) => x11 (ix2 o k)) (fun o => x12 (ix1 o)) (x13 (ix2 0 0))
      (x14 (ix2 0 0)) (x15 (ix2 0 0)) (x16 (ix2 0 0)) p o := by
  unfold out3_17
  rw [View.canon_unit_zero zeros2]
  simp only [View.ld_unit_zero (S := S392x768) zeros2, View.ld_unit_zero (S := S768x768) zeros2,
    View.ld_unit_zero (S := S3072x768) zeros2, View.ld_unit_zero (S := S768x3072) zeros2,
    View.ld_unit_zero (S := S1x1) zeros2, View.ld_unit_zero (S := S768) zeros1, View.ld_unit_zero (S := S3072) zeros1]
  unfold k3_pay1 Cert.Spec.mlp Cert.Spec.qadd
  refine (ValLib.quant_apply _ _).trans (congrArg Cert.Spec.q ?_)
  refine congrArg₂ Ideal.div (congrArg₂ (· + ·) ?_ (congrArg₂ (· * ·) ?_ (ValLib.extract_only x15 _))) (ValLib.extract_only x16 _)
  · exact second_part_at x9 x10 x11 x12 x13 x14 _ _ _ (hidden_at x0 x2 x3 x4 x5 x6 x7) p o |>.trans
      (by rw [show k3_pay3 x8 = x8 from shapeCast_self x8 _])
  · exact congrFun (shapeCast_self x1 _) (ix2 p o)

end Payloads

/-! ## From the blocks to the arrays -/

/-- The block's value at a row depends only on that row of its two inputs. -/
theorem mlp_row {ρ ρ' δ χ : Type} [Fintype δ] [Fintype χ] (r1 I : ρ → δ → EReal) (r1' I' : ρ' → δ → EReal)
    (Wn2 : δ → δ → EReal) (bn2 : δ → EReal) (sn2 : EReal) (Wf1 : χ → δ → EReal) (bf1 : χ → EReal) (sf1 : EReal)
    (Wf2 : δ → χ → EReal) (bf2 : δ → EReal) (sf2 : EReal) (Wg2 : δ → δ → EReal) (bg2 : δ → EReal) (sg2 : EReal)
    (ag org sout : EReal) (r : ρ) (r' : ρ') (h1 : r1 r = r1' r') (h2 : I r = I' r') (o : δ) :
    Cert.Spec.mlp r1 I Wn2 bn2 sn2 Wf1 bf1 sf1 Wf2 bf2 sf2 Wg2 bg2 sg2 ag org sout r o
      = Cert.Spec.mlp r1' I' Wn2 bn2 sn2 Wf1 bf1 sf1 Wf2 bf2 sf2 Wg2 bg2 sg2 ag org sout r' o := by
  have e4 := funext (Cert.Spec.lin_row r1 Wn2 bn2 sn2 r1' r r' h1)
  have e5 := funext (Cert.Spec.lin_row _ Wf1 bf1 sf1 _ r r' e4)
  have e6 := funext (Cert.Spec.linRelu_row _ Wf2 bf2 sf2 Cert.Spec.zero _ r r' e5)
  have e7 := Cert.Spec.lin_row _ Wg2 bg2 sg2 _ r r' e6 o
  simp only [Cert.Spec.mlp, Cert.Spec.qadd]
  rw [e7, h2]

/-! ## A block against the arrays -/

section Rows

variable (x0 : Vec Ideal S392x768 .bf16) (x1 : Vec Ideal S392x768 .bf16) (x2 : Vec Ideal S768x768 .bf16) (x3 : Vec Ideal S768 .f32) (x4 : Vec Ideal S1x1 .f32) (x5 : Vec Ideal S3072x768 .bf16) (x6 : Vec Ideal S3072 .f32) (x7 : Vec Ideal S1x1 .f32) (x8 : Vec Ideal S768x3072 .bf16) (x9 : Vec Ideal S768 .f32) (x10 : Vec Ideal S1x1 .f32) (x11 : Vec Ideal S768x768 .bf16) (x12 : Vec Ideal S768 .f32) (x13 : Vec Ideal S1x1 .f32) (x14 : Vec Ideal S1x1 .f32) (x15 : Vec Ideal S1x1 .f32) (x16 : Vec Ideal S1x1 .f32)
  (A0 : S25088x768.Idx → Elt Ideal .bf16) (A1 : S25088x768.Idx → Elt Ideal .bf16) (A2 : S768x768.Idx → Elt Ideal .bf16) (A3 : S768.Idx → Elt Ideal .f32) (A4 : S1x1.Idx → Elt Ideal .f32) (A5 : S3072x768.Idx → Elt Ideal .bf16) (A6 : S3072.Idx → Elt Ideal .f32) (A7 : S1x1.Idx → Elt Ideal .f32) (A8 : S768x3072.Idx → Elt Ideal .bf16) (A9 : S768.Idx → Elt Ideal .f32) (A10 : S1x1.Idx → Elt Ideal .f32) (A11 : S768x768.Idx → Elt Ideal .bf16) (A12 : S768.Idx → Elt Ideal .f32) (A13 : S1x1.Idx → Elt Ideal .f32) (A14 : S1x1.Idx → Elt Ideal .f32) (A15 : S1x1.Idx → Elt Ideal .f32) (A16 : S1x1.Idx → Elt Ideal .f32)

/-- The arrays' function: the block of four layers and the residual sum, row by row over all the rows. -/
def wholeOf : S25088x768.Idx → Elt Ideal .f32 := fun i =>
  Cert.Spec.mlp (fun (p : Fin 25088) (k : Fin 768) => A0 (ix2 p k)) (fun (p : Fin 25088) (o : Fin 768) => A1 (ix2 p o))
      (fun (o : Fin 768) (k : Fin 768) => A2 (ix2 o k)) (fun o => A3 (ix1 o)) (A4 (ix2 0 0))
      (fun (o : Fin 3072) (k : Fin 768) => A5 (ix2 o k)) (fun o => A6 (ix1 o)) (A7 (ix2 0 0))
      (fun (o : Fin 768) (k : Fin 3072) => A8 (ix2 o k)) (fun o => A9 (ix1 o)) (A10 (ix2 0 0))
      (fun (o : Fin 768) (k : Fin 768) => A11 (ix2 o k)) (fun o => A12 (ix1 o)) (A13 (ix2 0 0))
      (A14 (ix2 0 0)) (A15 (ix2 0 0)) (A16 (ix2 0 0)) (i 0) (i 1)

/-- If row `p` of the two activation blocks is row `r` of the two activation arrays, and every parameter block is its
    whole array, then row `p` of what the body stores is row `r` of the arrays' function. -/
theorem stored_row (r : Fin 25088) (p : Fin 392)
    (h0 : ∀ k, x0 (ix2 p k) = A0 (ix2 r k)) (h1 : ∀ k, x1 (ix2 p k) = A1 (ix2 r k))
    (h2 : x2 = A2) (h3 : x3 = A3) (h4 : x4 = A4) (h5 : x5 = A5) (h6 : x6 = A6) (h7 : x7 = A7) (h8 : x8 = A8) (h9 : x9 = A9) (h10 : x10 = A10) (h11 : x11 = A11) (h12 : x12 = A12) (h13 : x13 = A13) (h14 : x14 = A14) (h15 : x15 = A15) (h16 : x16 = A16) (o : Fin 768) :
    out3_17 x0 x1 x2 x3 x4 x5 x6 x7 x8 x9 x10 x11 x12 x13 x14 x15 x16 (ix2 p o)
      = wholeOf A0 A1 A2 A3 A4 A5 A6 A7 A8 A9 A10 A11 A12 A13 A14 A15 A16 (ix2 r o) := by
  subst h2 h3 h4 h5 h6 h7 h8 h9 h10 h11 h12 h13 h14 h15 h16
  refine (out_block_at x0 x1 x2 x3 x4 x5 x6 x7 x8 x9 x10 x11 x12 x13 x14 x15 x16 p o).trans ?_
  exact mlp_row _ _ _ _ _ _ _ _ _ _ _ _ _ _ _ _ _ _ _ p r (funext h0) (funext h1) o

end Rows

section Arrays

variable (V : (c : Dev nD) → (b : Ref sig .tc) → Buf (Elt Ideal) ((c : Thread nD τ).loc b)) (c : Dev nD)

/-- The windows over the two activations and the output move down their arrays one block a point, on the first axis
    only. -/
theorem moves3 : ∀ t : Fin cfg3.N, win3_0.index t (0 : Fin 2) = t.val ∧ win3_0.index t (1 : Fin 2) = 0
    ∧ win3_1.index t (0 : Fin 2) = t.val ∧ win3_1.index t (1 : Fin 2) = 0
    ∧ win3_17.index t (0 : Fin 2) = t.val ∧ win3_17.index t (1 : Fin 2) = 0 :=
  (by decide +kernel : ∀ t : Fin grid3.N, _)

/-- Every other window stays on the one block that is its whole array. -/
theorem still3_2 : ∀ t : Fin cfg3.N, win3_2.index t (0 : Fin 2) = 0 ∧ win3_2.index t (1 : Fin 2) = 0 :=
  (by decide +kernel : ∀ t : Fin grid3.N, _)
theorem still3_3 : ∀ t : Fin cfg3.N, win3_3.index t (0 : Fin 1) = 0 :=
  (by decide +kernel : ∀ t : Fin grid3.N, _)
theorem still3_4 : ∀ t : Fin cfg3.N, win3_4.index t (0 : Fin 2) = 0 ∧ win3_4.index t (1 : Fin 2) = 0 :=
  (by decide +kernel : ∀ t : Fin grid3.N, _)
theorem still3_5 : ∀ t : Fin cfg3.N, win3_5.index t (0 : Fin 2) = 0 ∧ win3_5.index t (1 : Fin 2) = 0 :=
  (by decide +kernel : ∀ t : Fin grid3.N, _)
theorem still3_6 : ∀ t : Fin cfg3.N, win3_6.index t (0 : Fin 1) = 0 :=
  (by decide +kernel : ∀ t : Fin grid3.N, _)
theorem still3_7 : ∀ t : Fin cfg3.N, win3_7.index t (0 : Fin 2) = 0 ∧ win3_7.index t (1 : Fin 2) = 0 :=
  (by decide +kernel : ∀ t : Fin grid3.N, _)
theorem still3_8 : ∀ t : Fin cfg3.N, win3_8.index t (0 : Fin 2) = 0 ∧ win3_8.index t (1 : Fin 2) = 0 :=
  (by decide +kernel : ∀ t : Fin grid3.N, _)
theorem still3_9 : ∀ t : Fin cfg3.N, win3_9.index t (0 : Fin 1) = 0 :=
  (by decide +kernel : ∀ t : Fin grid3.N, _)
theorem still3_10 : ∀ t : Fin cfg3.N, win3_10.index t (0 : Fin 2) = 0 ∧ win3_10.index t (1 : Fin 2) = 0 :=
  (by decide +kernel : ∀ t : Fin grid3.N, _)
theorem still3_11 : ∀ t : Fin cfg3.N, win3_11.index t (0 : Fin 2) = 0 ∧ win3_11.index t (1 : Fin 2) = 0 :=
  (by decide +kernel : ∀ t : Fin grid3.N, _)
theorem still3_12 : ∀ t : Fin cfg3.N, win3_12.index t (0 : Fin 1) = 0 :=
  (by decide +kernel : ∀ t : Fin grid3.N, _)
theorem still3_13 : ∀ t : Fin cfg3.N, win3_13.index t (0 : Fin 2) = 0 ∧ win3_13.index t (1 : Fin 2) = 0 :=
  (by decide +kernel : ∀ t : Fin grid3.N, _)
theorem still3_14 : ∀ t : Fin cfg3.N, win3_14.index t (0 : Fin 2) = 0 ∧ win3_14.index t (1 : Fin 2) = 0 :=
  (by decide +kernel : ∀ t : Fin grid3.N, _)
theorem still3_15 : ∀ t : Fin cfg3.N, win3_15.index t (0 : Fin 2) = 0 ∧ win3_15.index t (1 : Fin 2) = 0 :=
  (by decide +kernel : ∀ t : Fin grid3.N, _)
theorem still3_16 : ∀ t : Fin cfg3.N, win3_16.index t (0 : Fin 2) = 0 ∧ win3_16.index t (1 : Fin 2) = 0 :=
  (by decide +kernel : ∀ t : Fin grid3.N, _)

/-- So each parameter window's block is its array. -/
theorem whole3_2 (t : Fin cfg3.N) (y : S768x768.Idx) :
    iblk3 V c 2 t y = (V c (Pipeline.arrRef spec3 2) : S768x768.Idx → Elt Ideal .bf16) y := by
  show V c (Pipeline.arrRef spec3 2) (((cfg3.win 2).blk t).view.emb y) = V c (Pipeline.arrRef spec3 2) y
  refine congrArg _ (funext fun a => Fin.ext ?_)
  obtain ⟨h0, h1⟩ := still3_2 t
  match a with
    | ⟨0, _⟩ => show win3_2.index t (0 : Fin 2) * 768 + 1 * (y 0).val = (y 0).val; omega
    | ⟨1, _⟩ => show win3_2.index t (1 : Fin 2) * 768 + 1 * (y 1).val = (y 1).val; omega

theorem whole3_3 (t : Fin cfg3.N) (y : S768.Idx) :
    iblk3 V c 3 t y = (V c (Pipeline.arrRef spec3 3) : S768.Idx → Elt Ideal .f32) y := by
  show V c (Pipeline.arrRef spec3 3) (((cfg3.win 3).blk t).view.emb y) = V c (Pipeline.arrRef spec3 3) y
  refine congrArg _ (funext fun a => Fin.ext ?_)
  have h0 := still3_3 t
  match a with
    | ⟨0, _⟩ => show win3_3.index t (0 : Fin 1) * 768 + 1 * (y 0).val = (y 0).val; omega

theorem whole3_4 (t : Fin cfg3.N) (y : S1x1.Idx) :
    iblk3 V c 4 t y = (V c (Pipeline.arrRef spec3 4) : S1x1.Idx → Elt Ideal .f32) y := by
  show V c (Pipeline.arrRef spec3 4) (((cfg3.win 4).blk t).view.emb y) = V c (Pipeline.arrRef spec3 4) y
  refine congrArg _ (funext fun a => Fin.ext ?_)
  obtain ⟨h0, h1⟩ := still3_4 t
  match a with
    | ⟨0, _⟩ => show win3_4.index t (0 : Fin 2) * 1 + 1 * (y 0).val = (y 0).val; omega
    | ⟨1, _⟩ => show win3_4.index t (1 : Fin 2) * 1 + 1 * (y 1).val = (y 1).val; omega

theorem whole3_5 (t : Fin cfg3.N) (y : S3072x768.Idx) :
    iblk3 V c 5 t y = (V c (Pipeline.arrRef spec3 5) : S3072x768.Idx → Elt Ideal .bf16) y := by
  show V c (Pipeline.arrRef spec3 5) (((cfg3.win 5).blk t).view.emb y) = V c (Pipeline.arrRef spec3 5) y
  refine congrArg _ (funext fun a => Fin.ext ?_)
  obtain ⟨h0, h1⟩ := still3_5 t
  match a with
    | ⟨0, _⟩ => show win3_5.index t (0 : Fin 2) * 3072 + 1 * (y 0).val = (y 0).val; omega
    | ⟨1, _⟩ => show win3_5.index t (1 : Fin 2) * 768 + 1 * (y 1).val = (y 1).val; omega

theorem whole3_6 (t : Fin cfg3.N) (y : S3072.Idx) :
    iblk3 V c 6 t y = (V c (Pipeline.arrRef spec3 6) : S3072.Idx → Elt Ideal .f32) y := by
  show V c (Pipeline.arrRef spec3 6) (((cfg3.win 6).blk t).view.emb y) = V c (Pipeline.arrRef spec3 6) y
  refine congrArg _ (funext fun a => Fin.ext ?_)
  have h0 := still3_6 t
  match a with
    | ⟨0, _⟩ => show win3_6.index t (0 : Fin 1) * 3072 + 1 * (y 0).val = (y 0).val; omega

theorem whole3_7 (t : Fin cfg3.N) (y : S1x1.Idx) :
    iblk3 V c 7 t y = (V c (Pipeline.arrRef spec3 7) : S1x1.Idx → Elt Ideal .f32) y := by
  show V c (Pipeline.arrRef spec3 7) (((cfg3.win 7).blk t).view.emb y) = V c (Pipeline.arrRef spec3 7) y
  refine congrArg _ (funext fun a => Fin.ext ?_)
  obtain ⟨h0, h1⟩ := still3_7 t
  match a with
    | ⟨0, _⟩ => show win3_7.index t (0 : Fin 2) * 1 + 1 * (y 0).val = (y 0).val; omega
    | ⟨1, _⟩ => show win3_7.index t (1 : Fin 2) * 1 + 1 * (y 1).val = (y 1).val; omega

theorem whole3_8 (t : Fin cfg3.N) (y : S768x3072.Idx) :
    iblk3 V c 8 t y = (V c (Pipeline.arrRef spec3 8) : S768x3072.Idx → Elt Ideal .bf16) y := by
  show V c (Pipeline.arrRef spec3 8) (((cfg3.win 8).blk t).view.emb y) = V c (Pipeline.arrRef spec3 8) y
  refine congrArg _ (funext fun a => Fin.ext ?_)
  obtain ⟨h0, h1⟩ := still3_8 t
  match a with
    | ⟨0, _⟩ => show win3_8.index t (0 : Fin 2) * 768 + 1 * (y 0).val = (y 0).val; omega
    | ⟨1, _⟩ => show win3_8.index t (1 : Fin 2) * 3072 + 1 * (y 1).val = (y 1).val; omega

theorem whole3_9 (t : Fin cfg3.N) (y : S768.Idx) :
    iblk3 V c 9 t y = (V c (Pipeline.arrRef spec3 9) : S768.Idx → Elt Ideal .f32) y := by
  show V c (Pipeline.arrRef spec3 9) (((cfg3.win 9).blk t).view.emb y) = V c (Pipeline.arrRef spec3 9) y
  refine congrArg _ (funext fun a => Fin.ext ?_)
  have h0 := still3_9 t
  match a with
    | ⟨0, _⟩ => show win3_9.index t (0 : Fin 1) * 768 + 1 * (y 0).val = (y 0).val; omega

theorem whole3_10 (t : Fin cfg3.N) (y : S1x1.Idx) :
    iblk3 V c 10 t y = (V c (Pipeline.arrRef spec3 10) : S1x1.Idx → Elt Ideal .f32) y := by
  show V c (Pipeline.arrRef spec3 10) (((cfg3.win 10).blk t).view.emb y) = V c (Pipeline.arrRef spec3 10) y
  refine congrArg _ (funext fun a => Fin.ext ?_)
  obtain ⟨h0, h1⟩ := still3_10 t
  match a with
    | ⟨0, _⟩ => show win3_10.index t (0 : Fin 2) * 1 + 1 * (y 0).val = (y 0).val; omega
    | ⟨1, _⟩ => show win3_10.index t (1 : Fin 2) * 1 + 1 * (y 1).val = (y 1).val; omega

theorem whole3_11 (t : Fin cfg3.N) (y : S768x768.Idx) :
    iblk3 V c 11 t y = (V c (Pipeline.arrRef spec3 11) : S768x768.Idx → Elt Ideal .bf16) y := by
  show V c (Pipeline.arrRef spec3 11) (((cfg3.win 11).blk t).view.emb y) = V c (Pipeline.arrRef spec3 11) y
  refine congrArg _ (funext fun a => Fin.ext ?_)
  obtain ⟨h0, h1⟩ := still3_11 t
  match a with
    | ⟨0, _⟩ => show win3_11.index t (0 : Fin 2) * 768 + 1 * (y 0).val = (y 0).val; omega
    | ⟨1, _⟩ => show win3_11.index t (1 : Fin 2) * 768 + 1 * (y 1).val = (y 1).val; omega

theorem whole3_12 (t : Fin cfg3.N) (y : S768.Idx) :
    iblk3 V c 12 t y = (V c (Pipeline.arrRef spec3 12) : S768.Idx → Elt Ideal .f32) y := by
  show V c (Pipeline.arrRef spec3 12) (((cfg3.win 12).blk t).view.emb y) = V c (Pipeline.arrRef spec3 12) y
  refine congrArg _ (funext fun a => Fin.ext ?_)
  have h0 := still3_12 t
  match a with
    | ⟨0, _⟩ => show win3_12.index t (0 : Fin 1) * 768 + 1 * (y 0).val = (y 0).val; omega

theorem whole3_13 (t : Fin cfg3.N) (y : S1x1.Idx) :
    iblk3 V c 13 t y = (V c (Pipeline.arrRef spec3 13) : S1x1.Idx → Elt Ideal .f32) y := by
  show V c (Pipeline.arrRef spec3 13) (((cfg3.win 13).blk t).view.emb y) = V c (Pipeline.arrRef spec3 13) y
  refine congrArg _ (funext fun a => Fin.ext ?_)
  obtain ⟨h0, h1⟩ := still3_13 t
  match a with
    | ⟨0, _⟩ => show win3_13.index t (0 : Fin 2) * 1 + 1 * (y 0).val = (y 0).val; omega
    | ⟨1, _⟩ => show win3_13.index t (1 : Fin 2) * 1 + 1 * (y 1).val = (y 1).val; omega

theorem whole3_14 (t : Fin cfg3.N) (y : S1x1.Idx) :
    iblk3 V c 14 t y = (V c (Pipeline.arrRef spec3 14) : S1x1.Idx → Elt Ideal .f32) y := by
  show V c (Pipeline.arrRef spec3 14) (((cfg3.win 14).blk t).view.emb y) = V c (Pipeline.arrRef spec3 14) y
  refine congrArg _ (funext fun a => Fin.ext ?_)
  obtain ⟨h0, h1⟩ := still3_14 t
  match a with
    | ⟨0, _⟩ => show win3_14.index t (0 : Fin 2) * 1 + 1 * (y 0).val = (y 0).val; omega
    | ⟨1, _⟩ => show win3_14.index t (1 : Fin 2) * 1 + 1 * (y 1).val = (y 1).val; omega

theorem whole3_15 (t : Fin cfg3.N) (y : S1x1.Idx) :
    iblk3 V c 15 t y = (V c (Pipeline.arrRef spec3 15) : S1x1.Idx → Elt Ideal .f32) y := by
  show V c (Pipeline.arrRef spec3 15) (((cfg3.win 15).blk t).view.emb y) = V c (Pipeline.arrRef spec3 15) y
  refine congrArg _ (funext fun a => Fin.ext ?_)
  obtain ⟨h0, h1⟩ := still3_15 t
  match a with
    | ⟨0, _⟩ => show win3_15.index t (0 : Fin 2) * 1 + 1 * (y 0).val = (y 0).val; omega
    | ⟨1, _⟩ => show win3_15.index t (1 : Fin 2) * 1 + 1 * (y 1).val = (y 1).val; omega

theorem whole3_16 (t : Fin cfg3.N) (y : S1x1.Idx) :
    iblk3 V c 16 t y = (V c (Pipeline.arrRef spec3 16) : S1x1.Idx → Elt Ideal .f32) y := by
  show V c (Pipeline.arrRef spec3 16) (((cfg3.win 16).blk t).view.emb y) = V c (Pipeline.arrRef spec3 16) y
  refine congrArg _ (funext fun a => Fin.ext ?_)
  obtain ⟨h0, h1⟩ := still3_16 t
  match a with
    | ⟨0, _⟩ => show win3_16.index t (0 : Fin 2) * 1 + 1 * (y 0).val = (y 0).val; omega
    | ⟨1, _⟩ => show win3_16.index t (1 : Fin 2) * 1 + 1 * (y 1).val = (y 1).val; omega

/-- Row `p` of point `t`'s block of an activation array is row `392 t + p` of the array. -/
theorem row_in_bounds (t : Fin cfg3.N) (p : Fin 392) : t.val * 392 + p.val < 25088 := by
  have ht : t.val < 64 := t.isLt
  have hp := p.isLt
  omega

theorem act3_0 (t : Fin cfg3.N) (p : Fin 392) (k : Fin 768) :
    iblk3 V c 0 t (ix2 p k) = (V c (Pipeline.arrRef spec3 0) : S25088x768.Idx → Elt Ideal .bf16) (ix2 ⟨t.val * 392 + p.val, row_in_bounds t p⟩ k) := by
  show V c (Pipeline.arrRef spec3 0) (((cfg3.win 0).blk t).view.emb (ix2 p k)) = V c (Pipeline.arrRef spec3 0) _
  refine congrArg _ (funext fun a => Fin.ext ?_)
  obtain ⟨h0, h1, -⟩ := moves3 t
  match a with
  | ⟨0, _⟩ => show win3_0.index t (0 : Fin 2) * 392 + 1 * p.val = t.val * 392 + p.val; omega
  | ⟨1, _⟩ => show win3_0.index t (1 : Fin 2) * 768 + 1 * k.val = k.val; omega

theorem act3_1 (t : Fin cfg3.N) (p : Fin 392) (k : Fin 768) :
    iblk3 V c 1 t (ix2 p k) = (V c (Pipeline.arrRef spec3 1) : S25088x768.Idx → Elt Ideal .bf16) (ix2 ⟨t.val * 392 + p.val, row_in_bounds t p⟩ k) := by
  show V c (Pipeline.arrRef spec3 1) (((cfg3.win 1).blk t).view.emb (ix2 p k)) = V c (Pipeline.arrRef spec3 1) _
  refine congrArg _ (funext fun a => Fin.ext ?_)
  obtain ⟨-, -, h0, h1, -⟩ := moves3 t
  match a with
  | ⟨0, _⟩ => show win3_1.index t (0 : Fin 2) * 392 + 1 * p.val = t.val * 392 + p.val; omega
  | ⟨1, _⟩ => show win3_1.index t (1 : Fin 2) * 768 + 1 * k.val = k.val; omega

/-- Where row `p`, feature `o` of point `t`'s output block lies in the output array. -/
theorem out_at3 (t : Fin cfg3.N) (p : Fin 392) (o : Fin 768) :
    ((cfg3.win 17).blk t).view.emb (ix2 p o) = (ix2 ⟨t.val * 392 + p.val, row_in_bounds t p⟩ o : S25088x768.Idx) := by
  refine funext fun a => Fin.ext ?_
  obtain ⟨-, -, -, -, h0, h1⟩ := moves3 t
  match a with
  | ⟨0, _⟩ => show win3_17.index t (0 : Fin 2) * 392 + 1 * p.val = t.val * 392 + p.val; omega
  | ⟨1, _⟩ => show win3_17.index t (1 : Fin 2) * 768 + 1 * o.val = o.val; omega

/-- An index of the output array lies in point `t`'s block exactly when, on each axis, it lies in the block's range. -/
theorem mem_blk3 (t : Fin cfg3.N) (i : S25088x768.Idx) :
    i ∈ ((cfg3.win 17).blk t).view.set ↔ ∀ a : Fin 2, win3_17.index t a * S392x768.size a ≤ (i a).val
      ∧ (i a).val < win3_17.index t a * S392x768.size a + S392x768.size a := by
  show i ∈ ((View.whole main_v42).slice (win3_17.rect t)).set ↔ _
  rw [View.set_slice_whole, Rect.mem_set_unit]
  exact Iff.rfl

/-- Every row of the output array is written back: row `r` at point `r / 392`. -/
theorem cover3 (i : S25088x768.Idx) :
    ∃ t : Fin cfg3.N, (cfg3.win 17).flush t = true ∧ i ∈ ((cfg3.win 17).blk t).view.set := by
  have hi0 : (i 0).val < 25088 := (i 0).isLt
  have hi1 : (i 1).val < 768 := (i 1).isLt
  have ht : (i 0).val / 392 < cfg3.N := by
    show (i 0).val / 392 < grid3.N
    rw [N_3]; omega
  refine ⟨⟨(i 0).val / 392, ht⟩, flush3_17 _, ?_⟩
  rw [mem_blk3]
  obtain ⟨-, -, -, -, h0, h1⟩ := moves3 ⟨(i 0).val / 392, ht⟩
  have h0' : win3_17.index ⟨(i 0).val / 392, ht⟩ (0 : Fin 2) = (i 0).val / 392 := h0
  intro a
  match a with
  | ⟨0, _⟩ =>
    show win3_17.index ⟨(i 0).val / 392, ht⟩ (0 : Fin 2) * 392 ≤ (i 0).val
      ∧ (i 0).val < win3_17.index ⟨(i 0).val / 392, ht⟩ (0 : Fin 2) * 392 + 392
    omega
  | ⟨1, _⟩ =>
    show win3_17.index ⟨(i 0).val / 392, ht⟩ (1 : Fin 2) * 768 ≤ (i 1).val
      ∧ (i 1).val < win3_17.index ⟨(i 0).val / 392, ht⟩ (1 : Fin 2) * 768 + 768
    omega

end Arrays

end Val3

end Cert.KernelIdeal.Hand

end
-- ==== Proof.KI.Val3.lean ====
/-
  Region 3 read as values, from the blocks to the arrays: what each grid point writes back is its block of one
  function of the arrays the region was entered with; the blocks cover the output array; so the array ends as that
  function, which entry by entry is the specification's block of four quantised layers and a residual sum.
-/
import proofs.«131422_j57432302682877_2_alg».proof.Proof.KI.Val3Block

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

namespace Val3

variable (V : (c : Dev nD) → (b : Ref sig .tc) → Buf (Elt Ideal) ((c : Thread nD τ).loc b)) (c : Dev nD)

set_option maxHeartbeats 1000000 in
/-- The output array the region leaves, as one function of the arrays it was entered with. -/
def whole3 : S25088x768.Idx → Elt Ideal .f32 :=
  wholeOf (V c (Pipeline.arrRef spec3 0) : S25088x768.Idx → Elt Ideal .bf16)
      (V c (Pipeline.arrRef spec3 1) : S25088x768.Idx → Elt Ideal .bf16)
      (V c (Pipeline.arrRef spec3 2) : S768x768.Idx → Elt Ideal .bf16)
      (V c (Pipeline.arrRef spec3 3) : S768.Idx → Elt Ideal .f32)
      (V c (Pipeline.arrRef spec3 4) : S1x1.Idx → Elt Ideal .f32)
      (V c (Pipeline.arrRef spec3 5) : S3072x768.Idx → Elt Ideal .bf16)
      (V c (Pipeline.arrRef spec3 6) : S3072.Idx → Elt Ideal .f32)
      (V c (Pipeline.arrRef spec3 7) : S1x1.Idx → Elt Ideal .f32)
      (V c (Pipeline.arrRef spec3 8) : S768x3072.Idx → Elt Ideal .bf16)
      (V c (Pipeline.arrRef spec3 9) : S768.Idx → Elt Ideal .f32)
      (V c (Pipeline.arrRef spec3 10) : S1x1.Idx → Elt Ideal .f32)
      (V c (Pipeline.arrRef spec3 11) : S768x768.Idx → Elt Ideal .bf16)
      (V c (Pipeline.arrRef spec3 12) : S768.Idx → Elt Ideal .f32)
      (V c (Pipeline.arrRef spec3 13) : S1x1.Idx → Elt Ideal .f32)
      (V c (Pipeline.arrRef spec3 14) : S1x1.Idx → Elt Ideal .f32)
      (V c (Pipeline.arrRef spec3 15) : S1x1.Idx → Elt Ideal .f32)
      (V c (Pipeline.arrRef spec3 16) : S1x1.Idx → Elt Ideal .f32)

set_option maxHeartbeats 1000000 in
/-- What point `t` writes back is its block of `whole3`: row `p` of the block is computed from row `p` of the two
    activation blocks, which is row `392 t + p` of the activation arrays, and from the parameter blocks, each of
    which is its whole array. -/
theorem flushed3_eq (t : Fin cfg3.N) :
    (dat3 (F := Ideal) V c).flushed 17 t = ((cfg3.win 17).blk t).view.read (Elt Ideal) (whole3 V c) := by
  show (cfg3.win 17).cut (grid3.coords t) ((dat3 (F := Ideal) V c).after 17 t) = _
  rw [after3_17]
  funext j
  obtain ⟨p, o, rfl⟩ : ∃ (p : Fin 392) (o : Fin 768), j = ix2 p o := ⟨j 0, j 1, eq_ix2 j⟩
  show out3_17 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (ix2 p o) = whole3 V c (((cfg3.win 17).blk t).view.emb (ix2 p o))
  rw [out_at3 t p o]
  exact stored_row (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t)
    (V c (Pipeline.arrRef spec3 0) : S25088x768.Idx → Elt Ideal .bf16)
      (V c (Pipeline.arrRef spec3 1) : S25088x768.Idx → Elt Ideal .bf16)
      (V c (Pipeline.arrRef spec3 2) : S768x768.Idx → Elt Ideal .bf16)
      (V c (Pipeline.arrRef spec3 3) : S768.Idx → Elt Ideal .f32)
      (V c (Pipeline.arrRef spec3 4) : S1x1.Idx → Elt Ideal .f32)
      (V c (Pipeline.arrRef spec3 5) : S3072x768.Idx → Elt Ideal .bf16)
      (V c (Pipeline.arrRef spec3 6) : S3072.Idx → Elt Ideal .f32)
      (V c (Pipeline.arrRef spec3 7) : S1x1.Idx → Elt Ideal .f32)
      (V c (Pipeline.arrRef spec3 8) : S768x3072.Idx → Elt Ideal .bf16)
      (V c (Pipeline.arrRef spec3 9) : S768.Idx → Elt Ideal .f32)
      (V c (Pipeline.arrRef spec3 10) : S1x1.Idx → Elt Ideal .f32)
      (V c (Pipeline.arrRef spec3 11) : S768x768.Idx → Elt Ideal .bf16)
      (V c (Pipeline.arrRef spec3 12) : S768.Idx → Elt Ideal .f32)
      (V c (Pipeline.arrRef spec3 13) : S1x1.Idx → Elt Ideal .f32)
      (V c (Pipeline.arrRef spec3 14) : S1x1.Idx → Elt Ideal .f32)
      (V c (Pipeline.arrRef spec3 15) : S1x1.Idx → Elt Ideal .f32)
      (V c (Pipeline.arrRef spec3 16) : S1x1.Idx → Elt Ideal .f32)
    ⟨t.val * 392 + p.val, row_in_bounds t p⟩ p (act3_0 V c t p) (act3_1 V c t p)
    (funext (whole3_2 V c t)) (funext (whole3_3 V c t)) (funext (whole3_4 V c t)) (funext (whole3_5 V c t)) (funext (whole3_6 V c t)) (funext (whole3_7 V c t)) (funext (whole3_8 V c t)) (funext (whole3_9 V c t)) (funext (whole3_10 V c t)) (funext (whole3_11 V c t)) (funext (whole3_12 V c t)) (funext (whole3_13 V c t)) (funext (whole3_14 V c t)) (funext (whole3_15 V c t)) (funext (whole3_16 V c t)) o

/-- The blocks cover the output array, so it ends as `whole3` of the arrays the region was entered with. -/
theorem arr_final3 : (dat3 (F := Ideal) V c).arrAt 17 cfg3.N = whole3 V c :=
  (dat3 (F := Ideal) V c).arrAt_eq_of_cover 17 (whole3 V c) (fun t _ => flushed3_eq V c t) cover3

set_option maxHeartbeats 1000000 in
/-- Entry by entry: row `p`, feature `o` of the output array is the block of four layers and the residual sum at
    that row of the two activation arrays. -/
theorem final3 (p : Fin 25088) (o : Fin 768) :
    (dat3 (F := Ideal) V c).arrAt 17 cfg3.N (ValueIdx.ix2 p o)
      = Cert.Spec.mlp (fun (p : Fin 25088) (k : Fin 768) => (V c (Pipeline.arrRef spec3 0) : S25088x768.Idx → Elt Ideal .bf16) (ix2 p k)) (fun (p : Fin 25088) (o : Fin 768) => (V c (Pipeline.arrRef spec3 1) : S25088x768.Idx → Elt Ideal .bf16) (ix2 p o))
      (fun (o : Fin 768) (k : Fin 768) => (V c (Pipeline.arrRef spec3 2) : S768x768.Idx → Elt Ideal .bf16) (ix2 o k)) (fun o => (V c (Pipeline.arrRef spec3 3) : S768.Idx → Elt Ideal .f32) (ix1 o)) ((V c (Pipeline.arrRef spec3 4) : S1x1.Idx → Elt Ideal .f32) (ix2 0 0))
      (fun (o : Fin 3072) (k : Fin 768) => (V c (Pipeline.arrRef spec3 5) : S3072x768.Idx → Elt Ideal .bf16) (ix2 o k)) (fun o => (V c (Pipeline.arrRef spec3 6) : S3072.Idx → Elt Ideal .f32) (ix1 o)) ((V c (Pipeline.arrRef spec3 7) : S1x1.Idx → Elt Ideal .f32) (ix2 0 0))
      (fun (o : Fin 768) (k : Fin 3072) => (V c (Pipeline.arrRef spec3 8) : S768x3072.Idx → Elt Ideal .bf16) (ix2 o k)) (fun o => (V c (Pipeline.arrRef spec3 9) : S768.Idx → Elt Ideal .f32) (ix1 o)) ((V c (Pipeline.arrRef spec3 10) : S1x1.Idx → Elt Ideal .f32) (ix2 0 0))
      (fun (o : Fin 768) (k : Fin 768) => (V c (Pipeline.arrRef spec3 11) : S768x768.Idx → Elt Ideal .bf16) (ix2 o k)) (fun o => (V c (Pipeline.arrRef spec3 12) : S768.Idx → Elt Ideal .f32) (ix1 o)) ((V c (Pipeline.arrRef spec3 13) : S1x1.Idx → Elt Ideal .f32) (ix2 0 0))
      ((V c (Pipeline.arrRef spec3 14) : S1x1.Idx → Elt Ideal .f32) (ix2 0 0)) ((V c (Pipeline.arrRef spec3 15) : S1x1.Idx → Elt Ideal .f32) (ix2 0 0)) ((V c (Pipeline.arrRef spec3 16) : S1x1.Idx → Elt Ideal .f32) (ix2 0 0)) p o := by
  rw [arr_final3]
  rfl

end Val3

end Cert.KernelIdeal.Hand

end
-- ==== Proof.KI.Value.lean ====
/-
  The four regions chained: the kernel program's result is the specification's block of its arguments.
-/
import proofs.«131422_j57432302682877_2_alg».proof.Proof.KI.Readers
import proofs.«131422_j57432302682877_2_alg».proof.Proof.KI.Val0
import proofs.«131422_j57432302682877_2_alg».proof.Proof.KI.Val1
import proofs.«131422_j57432302682877_2_alg».proof.Proof.KI.Val2
import proofs.«131422_j57432302682877_2_alg».proof.Proof.KI.Val3

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Cert.Spec

variable (m : (ℓ : Loc nD τ sig) → Buf (Elt Ideal) ℓ) (c : Dev nD)

/-! ## The arguments as plain functions -/

abbrev aX : Fin 128 × Fin 196 → Fin 768 → EReal := fun r k => (m (c, Proc.devRef .tc main_arg0) : S128x196x768.Idx → EReal) (ix3 r.1 r.2 k)
abbrev aA : EReal := (m (c, Proc.devRef .tc main_arg1) : S1.Idx → EReal) (ix1 0)
abbrev aWn1 : Fin 768 → Fin 768 → EReal := fun o k => (m (c, Proc.devRef .tc main_arg2) : S768x768.Idx → EReal) (ix2 o k)
abbrev abn1 : Fin 768 → EReal := fun o => (m (c, Proc.devRef .tc main_arg3) : S768.Idx → EReal) (ix1 o)
abbrev awsn1 : EReal := (m (c, Proc.devRef .tc main_arg4) : S_.Idx → EReal) ix0
abbrev ason1 : EReal := (m (c, Proc.devRef .tc main_arg5) : S_.Idx → EReal) ix0
abbrev aWat : Fin 196 → Fin 196 → EReal := fun o k => (m (c, Proc.devRef .tc main_arg6) : S196x196.Idx → EReal) (ix2 o k)
abbrev abat : Fin 196 → EReal := fun o => (m (c, Proc.devRef .tc main_arg7) : S196.Idx → EReal) (ix1 o)
abbrev awsat : EReal := (m (c, Proc.devRef .tc main_arg8) : S_.Idx → EReal) ix0
abbrev asoat : EReal := (m (c, Proc.devRef .tc main_arg9) : S_.Idx → EReal) ix0
abbrev aWg1 : Fin 768 → Fin 768 → EReal := fun o k => (m (c, Proc.devRef .tc main_arg10) : S768x768.Idx → EReal) (ix2 o k)
abbrev abg1 : Fin 768 → EReal := fun o => (m (c, Proc.devRef .tc main_arg11) : S768.Idx → EReal) (ix1 o)
abbrev awsg1 : EReal := (m (c, Proc.devRef .tc main_arg12) : S_.Idx → EReal) ix0
abbrev asog1 : EReal := (m (c, Proc.devRef .tc main_arg13) : S_.Idx → EReal) ix0
abbrev asadd1 : EReal := (m (c, Proc.devRef .tc main_arg14) : S_.Idx → EReal) ix0
abbrev aWn2 : Fin 768 → Fin 768 → EReal := fun o k => (m (c, Proc.devRef .tc main_arg15) : S768x768.Idx → EReal) (ix2 o k)
abbrev abn2 : Fin 768 → EReal := fun o => (m (c, Proc.devRef .tc main_arg16) : S768.Idx → EReal) (ix1 o)
abbrev awsn2 : EReal := (m (c, Proc.devRef .tc main_arg17) : S_.Idx → EReal) ix0
abbrev ason2 : EReal := (m (c, Proc.devRef .tc main_arg18) : S_.Idx → EReal) ix0
abbrev aWf1 : Fin 3072 → Fin 768 → EReal := fun o k => (m (c, Proc.devRef .tc main_arg19) : S3072x768.Idx → EReal) (ix2 o k)
abbrev abf1 : Fin 3072 → EReal := fun o => (m (c, Proc.devRef .tc main_arg20) : S3072.Idx → EReal) (ix1 o)
abbrev awsf1 : EReal := (m (c, Proc.devRef .tc main_arg21) : S_.Idx → EReal) ix0
abbrev asof1 : EReal := (m (c, Proc.devRef .tc main_arg22) : S_.Idx → EReal) ix0
abbrev aWf2 : Fin 768 → Fin 3072 → EReal := fun o k => (m (c, Proc.devRef .tc main_arg23) : S768x3072.Idx → EReal) (ix2 o k)
abbrev abf2 : Fin 768 → EReal := fun o => (m (c, Proc.devRef .tc main_arg24) : S768.Idx → EReal) (ix1 o)
abbrev awsf2 : EReal := (m (c, Proc.devRef .tc main_arg25) : S_.Idx → EReal) ix0
abbrev asof2 : EReal := (m (c, Proc.devRef .tc main_arg26) : S_.Idx → EReal) ix0
abbrev aWg2 : Fin 768 → Fin 768 → EReal := fun o k => (m (c, Proc.devRef .tc main_arg27) : S768x768.Idx → EReal) (ix2 o k)
abbrev abg2 : Fin 768 → EReal := fun o => (m (c, Proc.devRef .tc main_arg28) : S768.Idx → EReal) (ix1 o)
abbrev awsg2 : EReal := (m (c, Proc.devRef .tc main_arg29) : S_.Idx → EReal) ix0
abbrev asog2 : EReal := (m (c, Proc.devRef .tc main_arg30) : S_.Idx → EReal) ix0
abbrev asadd2 : EReal := (m (c, Proc.devRef .tc main_arg31) : S_.Idx → EReal) ix0

/-! ## Layers agree when their rows, weights and scales do -/

theorem lin_congr {ρ ρ' κ ν : Type} [Fintype κ] {X : ρ → κ → EReal} {X' : ρ' → κ → EReal} {W W' : ν → κ → EReal}
    {b b' : ν → EReal} {s s' : EReal} {r : ρ} {r' : ρ'} (o : ν) (hX : ∀ k, X r k = X' r' k) (hW : ∀ k, W o k = W' o k)
    (hb : b o = b' o) (hs : s = s') : lin X W b s r o = lin X' W' b' s' r' o := by
  simp only [lin, hX, hW, hb, hs]

theorem qadd_congr {ρ ρ' ν : Type} {Y I : ρ → ν → EReal} {Y' I' : ρ' → ν → EReal} {ag org sout ag' org' sout' : EReal}
    {r : ρ} {r' : ρ'} (o : ν) (hY : Y r o = Y' r' o) (hI : I r o = I' r' o) (hag : ag = ag') (horg : org = org')
    (hsout : sout = sout') : qadd Y I ag org sout r o = qadd Y' I' ag' org' sout' r' o := by
  simp only [qadd, hY, hI, hag, horg, hsout]

theorem mlp_congr {ρ ρ' δ χ : Type} [Fintype δ] [Fintype χ] {R I : ρ → δ → EReal} {R' I' : ρ' → δ → EReal}
    {Wn2 Wn2' : δ → δ → EReal} {bn2 bn2' : δ → EReal} {sn2 sn2' : EReal}
    {Wf1 Wf1' : χ → δ → EReal} {bf1 bf1' : χ → EReal} {sf1 sf1' : EReal}
    {Wf2 Wf2' : δ → χ → EReal} {bf2 bf2' : δ → EReal} {sf2 sf2' : EReal}
    {Wg2 Wg2' : δ → δ → EReal} {bg2 bg2' : δ → EReal} {sg2 sg2' ag ag' org org' sout sout' : EReal}
    {r : ρ} {r' : ρ'} (o : δ) (hR : ∀ k, R r k = R' r' k) (hI : I r o = I' r' o)
    (h1 : Wn2 = Wn2') (h2 : bn2 = bn2') (h3 : sn2 = sn2') (h4 : Wf1 = Wf1') (h5 : bf1 = bf1') (h6 : sf1 = sf1')
    (h7 : Wf2 = Wf2') (h8 : bf2 = bf2') (h9 : sf2 = sf2') (h10 : Wg2 = Wg2') (h11 : bg2 = bg2') (h12 : sg2 = sg2')
    (h13 : ag = ag') (h14 : org = org') (h15 : sout = sout') :
    mlp R I Wn2 bn2 sn2 Wf1 bf1 sf1 Wf2 bf2 sf2 Wg2 bg2 sg2 ag org sout r o
      = mlp R' I' Wn2' bn2' sn2' Wf1' bf1' sf1' Wf2' bf2' sf2' Wg2' bg2' sg2' ag' org' sout' r' o := by
  subst h1 h2 h3 h4 h5 h6 h7 h8 h9 h10 h11 h12 h13 h14 h15
  simp only [mlp, lin, linRelu, qadd, hR, hI]

/-! ## The rows -/

/-- Row 196·b + n of the flattened arrays: patch `n` of batch `b`. -/
def row (b : Fin 128) (n : Fin 196) : Fin 25088 := ⟨196 * b.val + n.val, by have := b.isLt; have := n.isLt; omega⟩

theorem row_val (b : Fin 128) (n : Fin 196) : (row b n).val = 196 * b.val + n.val := rfl

/-! ## The stages of the specification at the arguments -/

/-- After the first feature layer. -/
def y1 : Fin 128 × Fin 196 → Fin 768 → EReal := lin (aX m c) (aWn1 m c) (abn1 m c) (scale (aA m c) (awsn1 m c) (ason1 m c))
/-- After the patch-mixing layer: rows the pairs (batch, feature). -/
def y2 : Fin 128 × Fin 768 → Fin 196 → EReal :=
  lin (fun r k => y1 m c (r.1, k) r.2) (aWat m c) (abat m c) (scale (ason1 m c) (awsat m c) (asoat m c))
/-- After the second feature layer. -/
def y3 : Fin 128 × Fin 196 → Fin 768 → EReal :=
  lin (fun r k => y2 m c (r.1, k) r.2) (aWg1 m c) (abg1 m c) (scale (asoat m c) (awsg1 m c) (asog1 m c))
/-- After the first residual sum. -/
def r1 : Fin 128 × Fin 196 → Fin 768 → EReal := qadd (y3 m c) (aX m c) (asog1 m c) (aA m c) (asadd1 m c)

theorem r1_eq_half1 : r1 m c = half1 (aX m c) (aA m c) (aWn1 m c) (abn1 m c) (awsn1 m c) (ason1 m c) (aWat m c) (abat m c)
    (awsat m c) (asoat m c) (aWg1 m c) (abg1 m c) (awsg1 m c) (asog1 m c) (asadd1 m c) := rfl

/-! ## Region by region -/

theorem after_region0 (b : Fin 128) (n : Fin 196) (d : Fin 768) :
    (rd (St2 m) c main_v7 : S25088x768.Idx → EReal) (ix2 (row b n) d) = y1 m c (b, n) d := by
  refine (congrFun (St2_at_array m c 4) (ix2 (row b n) d)).symm.trans ?_
  rw [final0]
  exact lin_congr d (fun k => st1_v0_apply m c b n k (row b n) (row_val b n)) (fun k => st1_v6_apply m c d k)
    (st1_arg3 m c d) (st1_v5_apply m c)

theorem after_region1 (b : Fin 128) (o : Fin 196) (d : Fin 768) :
    (rd (St4 m) c main_v14 : S128x196x768.Idx → EReal) (ix3 b o d) = y2 m c (b, d) o := by
  refine (congrFun (St4_at_array m c 4) (ix3 b o d)).symm.trans ?_
  rw [final1]
  exact lin_congr o (fun k => (st3_v8_apply m c b k d (row b k) (row_val b k)).trans (after_region0 m c b k d))
    (fun k => st3_v12_apply m c o k) (st3_v13_apply m c o) (st3_v11_apply m c)

theorem after_region2 (b : Fin 128) (n : Fin 196) (d : Fin 768) :
    (rd (St6 m) c main_v23 : S25088x768.Idx → EReal) (ix2 (row b n) d) = r1 m c (b, n) d := by
  refine (congrFun (St6_at_array m c 8) (ix2 (row b n) d)).symm.trans ?_
  rw [final2]
  refine qadd_congr d ?_ (st5_v22_apply m c b n d (row b n) (row_val b n)) (st5_v20_apply m c) (st5_v1_apply m c) (st5_v21_apply m c)
  exact lin_congr d (fun k => (st5_v15_apply m c b n k (row b n) (row_val b n)).trans (after_region1 m c b n k))
    (fun k => st5_v19_apply m c d k) (st5_arg11 m c d) (st5_v18_apply m c)

theorem after_region3 (b : Fin 128) (n : Fin 196) (d : Fin 768) :
    (rd (St8 m) c main_v42 : S25088x768.Idx → EReal) (ix2 (row b n) d)
      = half2 (r1 m c) (asadd1 m c) (aWn2 m c) (abn2 m c) (awsn2 m c) (ason2 m c) (aWf1 m c) (abf1 m c) (awsf1 m c) (asof1 m c)
          (aWf2 m c) (abf2 m c) (awsf2 m c) (asof2 m c) (aWg2 m c) (abg2 m c) (awsg2 m c) (asog2 m c) (asadd2 m c) (b, n) d := by
  refine (congrFun (St8_at_array m c 17) (ix2 (row b n) d)).symm.trans ?_
  rw [Val3.final3]
  have hrow : ∀ k : Fin 768, (rd (St7 m) c main_v23 : S25088x768.Idx → EReal) (ix2 (row b n) k) = r1 m c (b, n) k :=
    fun k => (congrFun (st7_v23 m c) (ix2 (row b n) k)).trans (after_region2 m c b n k)
  unfold half2
  exact mlp_congr d hrow (hrow d)
    (funext fun o => funext fun k => st7_v38_apply m c o k) (funext fun o => st7_arg16 m c o) (st7_v26_apply m c)
    (funext fun o => funext fun k => st7_v39_apply m c o k) (funext fun o => st7_arg20 m c o) (st7_v29_apply m c)
    (funext fun o => funext fun k => st7_v40_apply m c o k) (funext fun o => st7_arg24 m c o) (st7_v32_apply m c)
    (funext fun o => funext fun k => st7_v41_apply m c o k) (funext fun o => st7_arg28 m c o) (st7_v35_apply m c)
    (st7_v36_apply m c) (st7_v21_apply m c) (st7_v37_apply m c)

/-- THE VALUE: the result buffer after the run, entry by entry, is the specification's block of the arguments. -/
theorem result_apply (b : Fin 128) (n : Fin 196) (d : Fin 768) :
    (rd (St9 m) c main_v43 : S128x196x768.Idx → EReal) (ix3 b n d)
      = half2 (half1 (aX m c) (aA m c) (aWn1 m c) (abn1 m c) (awsn1 m c) (ason1 m c) (aWat m c) (abat m c) (awsat m c) (asoat m c)
            (aWg1 m c) (abg1 m c) (awsg1 m c) (asog1 m c) (asadd1 m c))
          (asadd1 m c) (aWn2 m c) (abn2 m c) (awsn2 m c) (ason2 m c) (aWf1 m c) (abf1 m c) (awsf1 m c) (asof1 m c)
          (aWf2 m c) (abf2 m c) (awsf2 m c) (asof2 m c) (aWg2 m c) (abg2 m c) (awsg2 m c) (asog2 m c) (asadd2 m c) (b, n) d := by
  rw [← r1_eq_half1]
  exact (st9_v43_apply m c b n d (row b n) (row_val b n)).trans (after_region3 m c b n d)

/-- The kernel program's run with its result buffer named: the result at `St9`'s contents, the second result (an
    argument passed through) and every argument as launched. -/
theorem run_result (ρ : Dev nD → PrngReg) :
    θ_run defs (onTc (τ := τ) (main (F := Ideal))) ⟨m, fun _ => 0, ρ⟩
      (fun r => ∀ c : Dev nD, r.2.mem ((c.tc : Thread nD τ).loc main_v43) = rd (St9 m) c main_v43
        ∧ r.2.mem ((c.tc : Thread nD τ).loc main_arg31) = m ((c.tc : Thread nD τ).loc main_arg31)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26)
        ∧ r.2.mem ((c.tc : Thread nD τ).loc main_arg27) = m ((c.tc : Thread nD τ).loc main_arg27)
        ∧ r.2.mem ((c.tc : Thread nD τ).loc main_arg28) = m ((c.tc : Thread nD τ).loc main_arg28)
        ∧ r.2.mem ((c.tc : Thread nD τ).loc main_arg29) = m ((c.tc : Thread nD τ).loc main_arg29)
        ∧ r.2.mem ((c.tc : Thread nD τ).loc main_arg30) = m ((c.tc : Thread nD τ).loc main_arg30)
        ∧ r.2.mem ((c.tc : Thread nD τ).loc main_arg31) = m ((c.tc : Thread nD τ).loc main_arg31)) :=
  (θ_run defs _ _).mono (fun r h c =>
    ⟨h c _ (held_ref main_v43 (by decide)),
     (h c _ (held_ref main_arg31 (by decide))).trans (St9_untouched m c main_arg31 (by decide) (by decide) (by decide) (by decide) (by decide) (by decide) (by decide) (by decide) (by decide)),
     (h c _ (held_ref main_arg0 (by decide))).trans (St9_untouched m c main_arg0 (by decide) (by decide) (by decide) (by decide) (by decide) (by decide) (by decide) (by decide) (by decide)),
     (h c _ (held_ref main_arg1 (by decide))).trans (St9_untouched m c main_arg1 (by decide) (by decide) (by decide) (by decide) (by decide) (by decide) (by decide) (by decide) (by decide)),
     (h c _ (held_ref main_arg2 (by decide))).trans (St9_untouched m c main_arg2 (by decide) (by decide) (by decide) (by decide) (by decide) (by decide) (by decide) (by decide) (by decide)),
     (h c _ (held_ref main_arg3 (by decide))).trans (St9_untouched m c main_arg3 (by decide) (by decide) (by decide) (by decide) (by decide) (by decide) (by decide) (by decide) (by decide)),
     (h c _ (held_ref main_arg4 (by decide))).trans (St9_untouched m c main_arg4 (by decide) (by decide) (by decide) (by decide) (by decide) (by decide) (by decide) (by decide) (by decide)),
     (h c _ (held_ref main_arg5 (by decide))).trans (St9_untouched m c main_arg5 (by decide) (by decide) (by decide) (by decide) (by decide) (by decide) (by decide) (by decide) (by decide)),
     (h c _ (held_ref main_arg6 (by decide))).trans (St9_untouched m c main_arg6 (by decide) (by decide) (by decide) (by decide) (by decide) (by decide) (by decide) (by decide) (by decide)),
     (h c _ (held_ref main_arg7 (by decide))).trans (St9_untouched m c main_arg7 (by decide) (by decide) (by decide) (by decide) (by decide) (by decide) (by decide) (by decide) (by decide)),
     (h c _ (held_ref main_arg8 (by decide))).trans (St9_untouched m c main_arg8 (by decide) (by decide) (by decide) (by decide) (by decide) (by decide) (by decide) (by decide) (by decide)),
     (h c _ (held_ref main_arg9 (by decide))).trans (St9_untouched m c main_arg9 (by decide) (by decide) (by decide) (by decide) (by decide) (by decide) (by decide) (by decide) (by decide)),
     (h c _ (held_ref main_arg10 (by decide))).trans (St9_untouched m c main_arg10 (by decide) (by decide) (by decide) (by decide) (by decide) (by decide) (by decide) (by decide) (by decide)),
     (h c _ (held_ref main_arg11 (by decide))).trans (St9_untouched m c main_arg11 (by decide) (by decide) (by decide) (by decide) (by decide) (by decide) (by decide) (by decide) (by decide)),
     (h c _ (held_ref main_arg12 (by decide))).trans (St9_untouched m c main_arg12 (by decide) (by decide) (by decide) (by decide) (by decide) (by decide) (by decide) (by decide) (by decide)),
     (h c _ (held_ref main_arg13 (by decide))).trans (St9_untouched m c main_arg13 (by decide) (by decide) (by decide) (by decide) (by decide) (by decide) (by decide) (by decide) (by decide)),
     (h c _ (held_ref main_arg14 (by decide))).trans (St9_untouched m c main_arg14 (by decide) (by decide) (by decide) (by decide) (by decide) (by decide) (by decide) (by decide) (by decide)),
     (h c _ (held_ref main_arg15 (by decide))).trans (St9_untouched m c main_arg15 (by decide) (by decide) (by decide) (by decide) (by decide) (by decide) (by decide) (by decide) (by decide)),
     (h c _ (held_ref main_arg16 (by decide))).trans (St9_untouched m c main_arg16 (by decide) (by decide) (by decide) (by decide) (by decide) (by decide) (by decide) (by decide) (by decide)),
     (h c _ (held_ref main_arg17 (by decide))).trans (St9_untouched m c main_arg17 (by decide) (by decide) (by decide) (by decide) (by decide) (by decide) (by decide) (by decide) (by decide)),
     (h c _ (held_ref main_arg18 (by decide))).trans (St9_untouched m c main_arg18 (by decide) (by decide) (by decide) (by decide) (by decide) (by decide) (by decide) (by decide) (by decide)),
     (h c _ (held_ref main_arg19 (by decide))).trans (St9_untouched m c main_arg19 (by decide) (by decide) (by decide) (by decide) (by decide) (by decide) (by decide) (by decide) (by decide)),
     (h c _ (held_ref main_arg20 (by decide))).trans (St9_untouched m c main_arg20 (by decide) (by decide) (by decide) (by decide) (by decide) (by decide) (by decide) (by decide) (by decide)),
     (h c _ (held_ref main_arg21 (by decide))).trans (St9_untouched m c main_arg21 (by decide) (by decide) (by decide) (by decide) (by decide) (by decide) (by decide) (by decide) (by decide)),
     (h c _ (held_ref main_arg22 (by decide))).trans (St9_untouched m c main_arg22 (by decide) (by decide) (by decide) (by decide) (by decide) (by decide) (by decide) (by decide) (by decide)),
     (h c _ (held_ref main_arg23 (by decide))).trans (St9_untouched m c main_arg23 (by decide) (by decide) (by decide) (by decide) (by decide) (by decide) (by decide) (by decide) (by decide)),
     (h c _ (held_ref main_arg24 (by decide))).trans (St9_untouched m c main_arg24 (by decide) (by decide) (by decide) (by decide) (by decide) (by decide) (by decide) (by decide) (by decide)),
     (h c _ (held_ref main_arg25 (by decide))).trans (St9_untouched m c main_arg25 (by decide) (by decide) (by decide) (by decide) (by decide) (by decide) (by decide) (by decide) (by decide)),
     (h c _ (held_ref main_arg26 (by decide))).trans (St9_untouched m c main_arg26 (by decide) (by decide) (by decide) (by decide) (by decide) (by decide) (by decide) (by decide) (by decide)),
     (h c _ (held_ref main_arg27 (by decide))).trans (St9_untouched m c main_arg27 (by decide) (by decide) (by decide) (by decide) (by decide) (by decide) (by decide) (by decide) (by decide)),
     (h c _ (held_ref main_arg28 (by decide))).trans (St9_untouched m c main_arg28 (by decide) (by decide) (by decide) (by decide) (by decide) (by decide) (by decide) (by decide) (by decide)),
     (h c _ (held_ref main_arg29 (by decide))).trans (St9_untouched m c main_arg29 (by decide) (by decide) (by decide) (by decide) (by decide) (by decide) (by decide) (by decide) (by decide)),
     (h c _ (held_ref main_arg30 (by decide))).trans (St9_untouched m c main_arg30 (by decide) (by decide) (by decide) (by decide) (by decide) (by decide) (by decide) (by decide) (by decide)),
     (h c _ (held_ref main_arg31 (by decide))).trans (St9_untouched m c main_arg31 (by decide) (by decide) (by decide) (by decide) (by decide) (by decide) (by decide) (by decide) (by decide))⟩)
    (run_items m ρ)

end Cert.KernelIdeal.Hand

end
-- ==== Proof.Ref.Ops.lean ====
/-
  The reference's entry function as a list of its host operations, in order; an outlined function's operations stand at
  its call, over that call's buffers.
-/
import proofs.«131422_j57432302682877_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the entry function, in order. -/
abbrev ops : List (HloOp τ sig (Elt F)) :=
  [ StableHlo.reshape main_arg1 main_v0 rfl shapeCasts_S1_S_,
    StableHlo.binary main_arg0 main_arg2 main_v1 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg3 main_v2 (broadcastInDim S1x1x768 ![2] bcast_S768_S1x1x768_2 : (⟨S768, .f32⟩ : BufTy).Contents (Elt F) → (⟨S1x1x768, .f32⟩ : BufTy).Contents (Elt F)),
    StableHlo.unary main_v2 main_v3 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v1 main_v3 main_v4 (addf : (⟨S128x196x768, .f32⟩ : BufTy).Contents (Elt F) → (⟨S128x196x768, .f32⟩ : BufTy).Contents (Elt F) → (⟨S128x196x768, .f32⟩ : BufTy).Contents (Elt F)),
    StableHlo.binary main_v0 main_arg4 main_v5 (mulf : (⟨S_, .f32⟩ : BufTy).Contents (Elt F) → (⟨S_, .f32⟩ : BufTy).Contents (Elt F) → (⟨S_, .f32⟩ : BufTy).Contents (Elt F)),
    StableHlo.binary main_v5 main_arg5 main_v6 (Host.divf : (⟨S_, .f32⟩ : BufTy).Contents (Elt F) → (⟨S_, .f32⟩ : BufTy).Contents (Elt F) → (⟨S_, .f32⟩ : BufTy).Contents (Elt F)),
    StableHlo.unary main_v6 main_v7 (broadcastInDim S128x196x768 ![] bcast_S_S128x196x768 : (⟨S_, .f32⟩ : BufTy).Contents (Elt F) → (⟨S128x196x768, .f32⟩ : BufTy).Contents (Elt F)),
    StableHlo.binary main_v4 main_v7 main_v8 (mulf : (⟨S128x196x768, .f32⟩ : BufTy).Contents (Elt F) → (⟨S128x196x768, .f32⟩ : BufTy).Contents (Elt F) → (⟨S128x196x768, .f32⟩ : BufTy).Contents (Elt F)),
    StableHlo.nullary main_cst (constant S_ .f32 0xC3000000#32),
    StableHlo.nullary main_cst_0 (constant S_ .f32 0x42FE0000#32),
    StableHlo.TRef.unary (StableHlo.TRef.of (T := ⟨S_, .f32⟩) main_cst) main_call0.v0 id,
    StableHlo.TRef.unary main_call0.v0 main_call0.v1 (broadcastInDim S128x196x768 ![] bcast_S_S128x196x768),
    StableHlo.TRef.binary main_call0.v1 (StableHlo.TRef.of (T := ⟨S128x196x768, .f32⟩) main_v8) main_call0.v2 maximumf,
    StableHlo.TRef.unary (StableHlo.TRef.of (T := ⟨S_, .f32⟩) main_cst_0) main_call0.v3 id,
    StableHlo.TRef.unary main_call0.v3 main_call0.v4 (broadcastInDim S128x196x768 ![] bcast_S_S128x196x768),
    StableHlo.TRef.binary main_call0.v4 main_call0.v2 main_call0.v5 minimumf,
    StableHlo.TRef.unary (StableHlo.TRef.of (T := ⟨S128x196x768, .f32⟩) main_v9) main_call1.v0 Host.roundeven,
    StableHlo.binary main_v10 main_v9 main_v11 (subf : (⟨S128x196x768, .f32⟩ : BufTy).Contents (Elt F) → (⟨S128x196x768, .f32⟩ : BufTy).Contents (Elt F) → (⟨S128x196x768, .f32⟩ : BufTy).Contents (Elt F)),
    StableHlo.binary main_v9 main_v11 main_v12 (addf : (⟨S128x196x768, .f32⟩ : BufTy).Contents (Elt F) → (⟨S128x196x768, .f32⟩ : BufTy).Contents (Elt F) → (⟨S128x196x768, .f32⟩ : BufTy).Contents (Elt F)),
    StableHlo.unary main_v12 main_v13 ((transpose S128x768x196 [0, 2, 1] · transposes_S128x196x768_S128x768x196_0_2_1) : (⟨S128x196x768, .f32⟩ : BufTy).Contents (Elt F) → (⟨S128x768x196, .f32⟩ : BufTy).Contents (Elt F)),
    StableHlo.binary main_v13 main_arg6 main_v14 ((fun l r => Host.dotGeneral dot_S128x768x196_S196x196_S128x768x196_2_1_01_0_n_n none l r) : (⟨S128x768x196, .f32⟩ : BufTy).Contents (Elt F) → (⟨S196x196, .f32⟩ : BufTy).Contents (Elt F) → (⟨S128x768x196, .f32⟩ : BufTy).Contents (Elt F)),
    StableHlo.unary main_arg7 main_v15 (broadcastInDim S1x1x196 ![2] bcast_S196_S1x1x196_2 : (⟨S196, .f32⟩ : BufTy).Contents (Elt F) → (⟨S1x1x196, .f32⟩ : BufTy).Contents (Elt F)),
    StableHlo.unary main_v15 main_v16 (broadcastInDim S128x768x196 ![0, 1, 2] bcast_S1x1x196_S128x768x196_0_1_2 : (⟨S1x1x196, .f32⟩ : BufTy).Contents (Elt F) → (⟨S128x768x196, .f32⟩ : BufTy).Contents (Elt F)),
    StableHlo.binary main_v14 main_v16 main_v17 (addf : (⟨S128x768x196, .f32⟩ : BufTy).Contents (Elt F) → (⟨S128x768x196, .f32⟩ : BufTy).Contents (Elt F) → (⟨S128x768x196, .f32⟩ : BufTy).Contents (Elt F)),
    StableHlo.binary main_arg5 main_arg8 main_v18 (mulf : (⟨S_, .f32⟩ : BufTy).Contents (Elt F) → (⟨S_, .f32⟩ : BufTy).Contents (Elt F) → (⟨S_, .f32⟩ : BufTy).Contents (Elt F)),
    StableHlo.binary main_v18 main_arg9 main_v19 (Host.divf : (⟨S_, .f32⟩ : BufTy).Contents (Elt F) → (⟨S_, .f32⟩ : BufTy).Contents (Elt F) → (⟨S_, .f32⟩ : BufTy).Contents (Elt F)),
    StableHlo.unary main_v19 main_v20 (broadcastInDim S128x768x196 ![] bcast_S_S128x768x196 : (⟨S_, .f32⟩ : BufTy).Contents (Elt F) → (⟨S128x768x196, .f32⟩ : BufTy).Contents (Elt F)),
    StableHlo.binary main_v17 main_v20 main_v21 (mulf : (⟨S128x768x196, .f32⟩ : BufTy).Contents (Elt F) → (⟨S128x768x196, .f32⟩ : BufTy).Contents (Elt F) → (⟨S128x768x196, .f32⟩ : BufTy).Contents (Elt F)),
    StableHlo.nullary main_cst_1 (constant S_ .f32 0xC3000000#32),
    StableHlo.nullary main_cst_2 (constant S_ .f32 0x42FE0000#32),
    StableHlo.TRef.unary (StableHlo.TRef.of (T := ⟨S_, .f32⟩) main_cst_1) main_call2.v0 id,
    StableHlo.TRef.unary main_call2.v0 main_call2.v1 (broadcastInDim S128x768x196 ![] bcast_S_S128x768x196),
    StableHlo.TRef.binary main_call2.v1 (StableHlo.TRef.of (T := ⟨S128x768x196, .f32⟩) main_v21) main_call2.v2 maximumf,
    StableHlo.TRef.unary (StableHlo.TRef.of (T := ⟨S_, .f32⟩) main_cst_2) main_call2.v3 id,
    StableHlo.TRef.unary main_call2.v3 main_call2.v4 (broadcastInDim S128x768x196 ![] bcast_S_S128x768x196),
    StableHlo.TRef.binary main_call2.v4 main_call2.v2 main_call2.v5 minimumf,
    StableHlo.TRef.unary (StableHlo.TRef.of (T := ⟨S128x768x196, .f32⟩) main_v22) main_call3.v0 Host.roundeven,
    StableHlo.binary main_v23 main_v22 main_v24 (subf : (⟨S128x768x196, .f32⟩ : BufTy).Contents (Elt F) → (⟨S128x768x196, .f32⟩ : BufTy).Contents (Elt F) → (⟨S128x768x196, .f32⟩ : BufTy).Contents (Elt F)),
    StableHlo.binary main_v22 main_v24 main_v25 (addf : (⟨S128x768x196, .f32⟩ : BufTy).Contents (Elt F) → (⟨S128x768x196, .f32⟩ : BufTy).Contents (Elt F) → (⟨S128x768x196, .f32⟩ : BufTy).Contents (Elt F)),
    StableHlo.unary main_v25 main_v26 ((transpose S128x196x768 [0, 2, 1] · transposes_S128x768x196_S128x196x768_0_2_1) : (⟨S128x768x196, .f32⟩ : BufTy).Contents (Elt F) → (⟨S128x196x768, .f32⟩ : BufTy).Contents (Elt F)),
    StableHlo.binary main_v26 main_arg10 main_v27 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg11 main_v28 (broadcastInDim S1x1x768 ![2] bcast_S768_S1x1x768_2 : (⟨S768, .f32⟩ : BufTy).Contents (Elt F) → (⟨S1x1x768, .f32⟩ : BufTy).Contents (Elt F)),
    StableHlo.unary main_v28 main_v29 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v27 main_v29 main_v30 (addf : (⟨S128x196x768, .f32⟩ : BufTy).Contents (Elt F) → (⟨S128x196x768, .f32⟩ : BufTy).Contents (Elt F) → (⟨S128x196x768, .f32⟩ : BufTy).Contents (Elt F)),
    StableHlo.binary main_arg9 main_arg12 main_v31 (mulf : (⟨S_, .f32⟩ : BufTy).Contents (Elt F) → (⟨S_, .f32⟩ : BufTy).Contents (Elt F) → (⟨S_, .f32⟩ : BufTy).Contents (Elt F)),
    StableHlo.binary main_v31 main_arg13 main_v32 (Host.divf : (⟨S_, .f32⟩ : BufTy).Contents (Elt F) → (⟨S_, .f32⟩ : BufTy).Contents (Elt F) → (⟨S_, .f32⟩ : BufTy).Contents (Elt F)),
    StableHlo.unary main_v32 main_v33 (broadcastInDim S128x196x768 ![] bcast_S_S128x196x768 : (⟨S_, .f32⟩ : BufTy).Contents (Elt F) → (⟨S128x196x768, .f32⟩ : BufTy).Contents (Elt F)),
    StableHlo.binary main_v30 main_v33 main_v34 (mulf : (⟨S128x196x768, .f32⟩ : BufTy).Contents (Elt F) → (⟨S128x196x768, .f32⟩ : BufTy).Contents (Elt F) → (⟨S128x196x768, .f32⟩ : BufTy).Contents (Elt F)),
    StableHlo.nullary main_cst_3 (constant S_ .f32 0xC3000000#32),
    StableHlo.nullary main_cst_4 (constant S_ .f32 0x42FE0000#32),
    StableHlo.TRef.unary (StableHlo.TRef.of (T := ⟨S_, .f32⟩) main_cst_3) main_call4.v0 id,
    StableHlo.TRef.unary main_call4.v0 main_call4.v1 (broadcastInDim S128x196x768 ![] bcast_S_S128x196x768),
    StableHlo.TRef.binary main_call4.v1 (StableHlo.TRef.of (T := ⟨S128x196x768, .f32⟩) main_v34) main_call4.v2 maximumf,
    StableHlo.TRef.unary (StableHlo.TRef.of (T := ⟨S_, .f32⟩) main_cst_4) main_call4.v3 id,
    StableHlo.TRef.unary main_call4.v3 main_call4.v4 (broadcastInDim S128x196x768 ![] bcast_S_S128x196x768),
    StableHlo.TRef.binary main_call4.v4 main_call4.v2 main_call4.v5 minimumf,
    StableHlo.TRef.unary (StableHlo.TRef.of (T := ⟨S128x196x768, .f32⟩) main_v35) main_call5.v0 Host.roundeven,
    StableHlo.binary main_v36 main_v35 main_v37 (subf : (⟨S128x196x768, .f32⟩ : BufTy).Contents (Elt F) → (⟨S128x196x768, .f32⟩ : BufTy).Contents (Elt F) → (⟨S128x196x768, .f32⟩ : BufTy).Contents (Elt F)),
    StableHlo.binary main_v35 main_v37 main_v38 (addf : (⟨S128x196x768, .f32⟩ : BufTy).Contents (Elt F) → (⟨S128x196x768, .f32⟩ : BufTy).Contents (Elt F) → (⟨S128x196x768, .f32⟩ : BufTy).Contents (Elt F)),
    StableHlo.unary main_arg13 main_v39 (broadcastInDim S128x196x768 ![] bcast_S_S128x196x768 : (⟨S_, .f32⟩ : BufTy).Contents (Elt F) → (⟨S128x196x768, .f32⟩ : BufTy).Contents (Elt F)),
    StableHlo.binary main_v38 main_v39 main_v40 (mulf : (⟨S128x196x768, .f32⟩ : BufTy).Contents (Elt F) → (⟨S128x196x768, .f32⟩ : BufTy).Contents (Elt F) → (⟨S128x196x768, .f32⟩ : BufTy).Contents (Elt F)),
    StableHlo.unary main_v0 main_v41 (broadcastInDim S128x196x768 ![] bcast_S_S128x196x768 : (⟨S_, .f32⟩ : BufTy).Contents (Elt F) → (⟨S128x196x768, .f32⟩ : BufTy).Contents (Elt F)),
    StableHlo.binary main_arg0 main_v41 main_v42 (mulf : (⟨S128x196x768, .f32⟩ : BufTy).Contents (Elt F) → (⟨S128x196x768, .f32⟩ : BufTy).Contents (Elt F) → (⟨S128x196x768, .f32⟩ : BufTy).Contents (Elt F)),
    StableHlo.binary main_v40 main_v42 main_v43 (addf : (⟨S128x196x768, .f32⟩ : BufTy).Contents (Elt F) → (⟨S128x196x768, .f32⟩ : BufTy).Contents (Elt F) → (⟨S128x196x768, .f32⟩ : BufTy).Contents (Elt F)),
    StableHlo.unary main_arg14 main_v44 (broadcastInDim S128x196x768 ![] bcast_S_S128x196x768 : (⟨S_, .f32⟩ : BufTy).Contents (Elt F) → (⟨S128x196x768, .f32⟩ : BufTy).Contents (Elt F)),
    StableHlo.binary main_v43 main_v44 main_v45 (Host.divf : (⟨S128x196x768, .f32⟩ : BufTy).Contents (Elt F) → (⟨S128x196x768, .f32⟩ : BufTy).Contents (Elt F) → (⟨S128x196x768, .f32⟩ : BufTy).Contents (Elt F)),
    StableHlo.nullary main_cst_5 (constant S_ .f32 0xC3000000#32),
    StableHlo.nullary main_cst_6 (constant S_ .f32 0x42FE0000#32),
    StableHlo.TRef.unary (StableHlo.TRef.of (T := ⟨S_, .f32⟩) main_cst_5) main_call6.v0 id,
    StableHlo.TRef.unary main_call6.v0 main_call6.v1 (broadcastInDim S128x196x768 ![] bcast_S_S128x196x768),
    StableHlo.TRef.binary main_call6.v1 (StableHlo.TRef.of (T := ⟨S128x196x768, .f32⟩) main_v45) main_call6.v2 maximumf,
    StableHlo.TRef.unary (StableHlo.TRef.of (T := ⟨S_, .f32⟩) main_cst_6) main_call6.v3 id,
    StableHlo.TRef.unary main_call6.v3 main_call6.v4 (broadcastInDim S128x196x768 ![] bcast_S_S128x196x768),
    StableHlo.TRef.binary main_call6.v4 main_call6.v2 main_call6.v5 minimumf,
    StableHlo.TRef.unary (StableHlo.TRef.of (T := ⟨S128x196x768, .f32⟩) main_v46) main_call7.v0 Host.roundeven,
    StableHlo.binary main_v47 main_v46 main_v48 (subf : (⟨S128x196x768, .f32⟩ : BufTy).Contents (Elt F) → (⟨S128x196x768, .f32⟩ : BufTy).Contents (Elt F) → (⟨S128x196x768, .f32⟩ : BufTy).Contents (Elt F)),
    StableHlo.binary main_v46 main_v48 main_v49 (addf : (⟨S128x196x768, .f32⟩ : BufTy).Contents (Elt F) → (⟨S128x196x768, .f32⟩ : BufTy).Contents (Elt F) → (⟨S128x196x768, .f32⟩ : BufTy).Contents (Elt F)),
    StableHlo.binary main_v49 main_arg15 main_v50 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg16 main_v51 (broadcastInDim S1x1x768 ![2] bcast_S768_S1x1x768_2 : (⟨S768, .f32⟩ : BufTy).Contents (Elt F) → (⟨S1x1x768, .f32⟩ : BufTy).Contents (Elt F)),
    StableHlo.unary main_v51 main_v52 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v50 main_v52 main_v53 (addf : (⟨S128x196x768, .f32⟩ : BufTy).Contents (Elt F) → (⟨S128x196x768, .f32⟩ : BufTy).Contents (Elt F) → (⟨S128x196x768, .f32⟩ : BufTy).Contents (Elt F)),
    StableHlo.binary main_arg14 main_arg17 main_v54 (mulf : (⟨S_, .f32⟩ : BufTy).Contents (Elt F) → (⟨S_, .f32⟩ : BufTy).Contents (Elt F) → (⟨S_, .f32⟩ : BufTy).Contents (Elt F)),
    StableHlo.binary main_v54 main_arg18 main_v55 (Host.divf : (⟨S_, .f32⟩ : BufTy).Contents (Elt F) → (⟨S_, .f32⟩ : BufTy).Contents (Elt F) → (⟨S_, .f32⟩ : BufTy).Contents (Elt F)),
    StableHlo.unary main_v55 main_v56 (broadcastInDim S128x196x768 ![] bcast_S_S128x196x768 : (⟨S_, .f32⟩ : BufTy).Contents (Elt F) → (⟨S128x196x768, .f32⟩ : BufTy).Contents (Elt F)),
    StableHlo.binary main_v53 main_v56 main_v57 (mulf : (⟨S128x196x768, .f32⟩ : BufTy).Contents (Elt F) → (⟨S128x196x768, .f32⟩ : BufTy).Contents (Elt F) → (⟨S128x196x768, .f32⟩ : BufTy).Contents (Elt F)),
    StableHlo.nullary main_cst_7 (constant S_ .f32 0xC3000000#32),
    StableHlo.nullary main_cst_8 (constant S_ .f32 0x42FE0000#32),
    StableHlo.TRef.unary (StableHlo.TRef.of (T := ⟨S_, .f32⟩) main_cst_7) main_call8.v0 id,
    StableHlo.TRef.unary main_call8.v0 main_call8.v1 (broadcastInDim S128x196x768 ![] bcast_S_S128x196x768),
    StableHlo.TRef.binary main_call8.v1 (StableHlo.TRef.of (T := ⟨S128x196x768, .f32⟩) main_v57) main_call8.v2 maximumf,
    StableHlo.TRef.unary (StableHlo.TRef.of (T := ⟨S_, .f32⟩) main_cst_8) main_call8.v3 id,
    StableHlo.TRef.unary main_call8.v3 main_call8.v4 (broadcastInDim S128x196x768 ![] bcast_S_S128x196x768),
    StableHlo.TRef.binary main_call8.v4 main_call8.v2 main_call8.v5 minimumf,
    StableHlo.TRef.unary (StableHlo.TRef.of (T := ⟨S128x196x768, .f32⟩) main_v58) main_call9.v0 Host.roundeven,
    StableHlo.binary main_v59 main_v58 main_v60 (subf : (⟨S128x196x768, .f32⟩ : BufTy).Contents (Elt F) → (⟨S128x196x768, .f32⟩ : BufTy).Contents (Elt F) → (⟨S128x196x768, .f32⟩ : BufTy).Contents (Elt F)),
    StableHlo.binary main_v58 main_v60 main_v61 (addf : (⟨S128x196x768, .f32⟩ : BufTy).Contents (Elt F) → (⟨S128x196x768, .f32⟩ : BufTy).Contents (Elt F) → (⟨S128x196x768, .f32⟩ : BufTy).Contents (Elt F)),
    StableHlo.binary main_v61 main_arg19 main_v62 ((fun l r => Host.dotGeneral dot_S128x196x768_S3072x768_S128x196x3072_2_1_01_0_n_n none l r) : (⟨S128x196x768, .f32⟩ : BufTy).Contents (Elt F) → (⟨S3072x768, .f32⟩ : BufTy).Contents (Elt F) → (⟨S128x196x3072, .f32⟩ : BufTy).Contents (Elt F)),
    StableHlo.unary main_arg20 main_v63 (broadcastInDim S1x1x3072 ![2] bcast_S3072_S1x1x3072_2 : (⟨S3072, .f32⟩ : BufTy).Contents (Elt F) → (⟨S1x1x3072, .f32⟩ : BufTy).Contents (Elt F)),
    StableHlo.unary main_v63 main_v64 (broadcastInDim S128x196x3072 ![0, 1, 2] bcast_S1x1x3072_S128x196x3072_0_1_2 : (⟨S1x1x3072, .f32⟩ : BufTy).Contents (Elt F) → (⟨S128x196x3072, .f32⟩ : BufTy).Contents (Elt F)),
    StableHlo.binary main_v62 main_v64 main_v65 (addf : (⟨S128x196x3072, .f32⟩ : BufTy).Contents (Elt F) → (⟨S128x196x3072, .f32⟩ : BufTy).Contents (Elt F) → (⟨S128x196x3072, .f32⟩ : BufTy).Contents (Elt F)),
    StableHlo.binary main_arg18 main_arg21 main_v66 (mulf : (⟨S_, .f32⟩ : BufTy).Contents (Elt F) → (⟨S_, .f32⟩ : BufTy).Contents (Elt F) → (⟨S_, .f32⟩ : BufTy).Contents (Elt F)),
    StableHlo.binary main_v66 main_arg22 main_v67 (Host.divf : (⟨S_, .f32⟩ : BufTy).Contents (Elt F) → (⟨S_, .f32⟩ : BufTy).Contents (Elt F) → (⟨S_, .f32⟩ : BufTy).Contents (Elt F)),
    StableHlo.unary main_v67 main_v68 (broadcastInDim S128x196x3072 ![] bcast_S_S128x196x3072 : (⟨S_, .f32⟩ : BufTy).Contents (Elt F) → (⟨S128x196x3072, .f32⟩ : BufTy).Contents (Elt F)),
    StableHlo.binary main_v65 main_v68 main_v69 (mulf : (⟨S128x196x3072, .f32⟩ : BufTy).Contents (Elt F) → (⟨S128x196x3072, .f32⟩ : BufTy).Contents (Elt F) → (⟨S128x196x3072, .f32⟩ : BufTy).Contents (Elt F)),
    StableHlo.nullary main_cst_9 (constant S_ .f32 0xC3000000#32),
    StableHlo.nullary main_cst_10 (constant S_ .f32 0x42FE0000#32),
    StableHlo.TRef.unary (StableHlo.TRef.of (T := ⟨S_, .f32⟩) main_cst_9) main_call10.v0 id,
    StableHlo.TRef.unary main_call10.v0 main_call10.v1 (broadcastInDim S128x196x3072 ![] bcast_S_S128x196x3072),
    StableHlo.TRef.binary main_call10.v1 (StableHlo.TRef.of (T := ⟨S128x196x3072, .f32⟩) main_v69) main_call10.v2 maximumf,
    StableHlo.TRef.unary (StableHlo.TRef.of (T := ⟨S_, .f32⟩) main_cst_10) main_call10.v3 id,
    StableHlo.TRef.unary main_call10.v3 main_call10.v4 (broadcastInDim S128x196x3072 ![] bcast_S_S128x196x3072),
    StableHlo.TRef.binary main_call10.v4 main_call10.v2 main_call10.v5 minimumf,
    StableHlo.TRef.unary (StableHlo.TRef.of (T := ⟨S128x196x3072, .f32⟩) main_v70) main_call11.v0 Host.roundeven,
    StableHlo.binary main_v71 main_v70 main_v72 (subf : (⟨S128x196x3072, .f32⟩ : BufTy).Contents (Elt F) → (⟨S128x196x3072, .f32⟩ : BufTy).Contents (Elt F) → (⟨S128x196x3072, .f32⟩ : BufTy).Contents (Elt F)),
    StableHlo.binary main_v70 main_v72 main_v73 (addf : (⟨S128x196x3072, .f32⟩ : BufTy).Contents (Elt F) → (⟨S128x196x3072, .f32⟩ : BufTy).Contents (Elt F) → (⟨S128x196x3072, .f32⟩ : BufTy).Contents (Elt F)),
    StableHlo.binary main_v73 main_arg23 main_v74 ((fun l r => Host.dotGeneral dot_S128x196x3072_S768x3072_S128x196x768_2_1_01_0_n_n none l r) : (⟨S128x196x3072, .f32⟩ : BufTy).Contents (Elt F) → (⟨S768x3072, .f32⟩ : BufTy).Contents (Elt F) → (⟨S128x196x768, .f32⟩ : BufTy).Contents (Elt F)),
    StableHlo.unary main_arg24 main_v75 (broadcastInDim S1x1x768 ![2] bcast_S768_S1x1x768_2 : (⟨S768, .f32⟩ : BufTy).Contents (Elt F) → (⟨S1x1x768, .f32⟩ : BufTy).Contents (Elt F)),
    StableHlo.unary main_v75 main_v76 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v74 main_v76 main_v77 (addf : (⟨S128x196x768, .f32⟩ : BufTy).Contents (Elt F) → (⟨S128x196x768, .f32⟩ : BufTy).Contents (Elt F) → (⟨S128x196x768, .f32⟩ : BufTy).Contents (Elt F)),
    StableHlo.binary main_arg22 main_arg25 main_v78 (mulf : (⟨S_, .f32⟩ : BufTy).Contents (Elt F) → (⟨S_, .f32⟩ : BufTy).Contents (Elt F) → (⟨S_, .f32⟩ : BufTy).Contents (Elt F)),
    StableHlo.binary main_v78 main_arg26 main_v79 (Host.divf : (⟨S_, .f32⟩ : BufTy).Contents (Elt F) → (⟨S_, .f32⟩ : BufTy).Contents (Elt F) → (⟨S_, .f32⟩ : BufTy).Contents (Elt F)),
    StableHlo.unary main_v79 main_v80 (broadcastInDim S128x196x768 ![] bcast_S_S128x196x768 : (⟨S_, .f32⟩ : BufTy).Contents (Elt F) → (⟨S128x196x768, .f32⟩ : BufTy).Contents (Elt F)),
    StableHlo.binary main_v77 main_v80 main_v81 (mulf : (⟨S128x196x768, .f32⟩ : BufTy).Contents (Elt F) → (⟨S128x196x768, .f32⟩ : BufTy).Contents (Elt F) → (⟨S128x196x768, .f32⟩ : BufTy).Contents (Elt F)),
    StableHlo.nullary main_cst_11 (constant S_ .f32 0x00000000#32),
    StableHlo.unary main_cst_11 main_v82 (broadcastInDim S128x196x768 ![] bcast_S_S128x196x768 : (⟨S_, .f32⟩ : BufTy).Contents (Elt F) → (⟨S128x196x768, .f32⟩ : BufTy).Contents (Elt F)),
    StableHlo.binary main_v81 main_v82 main_v83 (maximumf : (⟨S128x196x768, .f32⟩ : BufTy).Contents (Elt F) → (⟨S128x196x768, .f32⟩ : BufTy).Contents (Elt F) → (⟨S128x196x768, .f32⟩ : BufTy).Contents (Elt F)),
    StableHlo.nullary main_cst_12 (constant S_ .f32 0xC3000000#32),
    StableHlo.nullary main_cst_13 (constant S_ .f32 0x42FE0000#32),
    StableHlo.TRef.unary (StableHlo.TRef.of (T := ⟨S_, .f32⟩) main_cst_12) main_call12.v0 id,
    StableHlo.TRef.unary main_call12.v0 main_call12.v1 (broadcastInDim S128x196x768 ![] bcast_S_S128x196x768),
    StableHlo.TRef.binary main_call12.v1 (StableHlo.TRef.of (T := ⟨S128x196x768, .f32⟩) main_v83) main_call12.v2 maximumf,
    StableHlo.TRef.unary (StableHlo.TRef.of (T := ⟨S_, .f32⟩) main_cst_13) main_call12.v3 id,
    StableHlo.TRef.unary main_call12.v3 main_call12.v4 (broadcastInDim S128x196x768 ![] bcast_S_S128x196x768),
    StableHlo.TRef.binary main_call12.v4 main_call12.v2 main_call12.v5 minimumf,
    StableHlo.TRef.unary (StableHlo.TRef.of (T := ⟨S128x196x768, .f32⟩) main_v84) main_call13.v0 Host.roundeven,
    StableHlo.binary main_v85 main_v84 main_v86 (subf : (⟨S128x196x768, .f32⟩ : BufTy).Contents (Elt F) → (⟨S128x196x768, .f32⟩ : BufTy).Contents (Elt F) → (⟨S128x196x768, .f32⟩ : BufTy).Contents (Elt F)),
    StableHlo.binary main_v84 main_v86 main_v87 (addf : (⟨S128x196x768, .f32⟩ : BufTy).Contents (Elt F) → (⟨S128x196x768, .f32⟩ : BufTy).Contents (Elt F) → (⟨S128x196x768, .f32⟩ : BufTy).Contents (Elt F)),
    StableHlo.binary main_v87 main_arg27 main_v88 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg28 main_v89 (broadcastInDim S1x1x768 ![2] bcast_S768_S1x1x768_2 : (⟨S768, .f32⟩ : BufTy).Contents (Elt F) → (⟨S1x1x768, .f32⟩ : BufTy).Contents (Elt F)),
    StableHlo.unary main_v89 main_v90 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v88 main_v90 main_v91 (addf : (⟨S128x196x768, .f32⟩ : BufTy).Contents (Elt F) → (⟨S128x196x768, .f32⟩ : BufTy).Contents (Elt F) → (⟨S128x196x768, .f32⟩ : BufTy).Contents (Elt F)),
    StableHlo.binary main_arg26 main_arg29 main_v92 (mulf : (⟨S_, .f32⟩ : BufTy).Contents (Elt F) → (⟨S_, .f32⟩ : BufTy).Contents (Elt F) → (⟨S_, .f32⟩ : BufTy).Contents (Elt F)),
    StableHlo.binary main_v92 main_arg30 main_v93 (Host.divf : (⟨S_, .f32⟩ : BufTy).Contents (Elt F) → (⟨S_, .f32⟩ : BufTy).Contents (Elt F) → (⟨S_, .f32⟩ : BufTy).Contents (Elt F)),
    StableHlo.unary main_v93 main_v94 (broadcastInDim S128x196x768 ![] bcast_S_S128x196x768 : (⟨S_, .f32⟩ : BufTy).Contents (Elt F) → (⟨S128x196x768, .f32⟩ : BufTy).Contents (Elt F)),
    StableHlo.binary main_v91 main_v94 main_v95 (mulf : (⟨S128x196x768, .f32⟩ : BufTy).Contents (Elt F) → (⟨S128x196x768, .f32⟩ : BufTy).Contents (Elt F) → (⟨S128x196x768, .f32⟩ : BufTy).Contents (Elt F)),
    StableHlo.nullary main_cst_14 (constant S_ .f32 0xC3000000#32),
    StableHlo.nullary main_cst_15 (constant S_ .f32 0x42FE0000#32),
    StableHlo.TRef.unary (StableHlo.TRef.of (T := ⟨S_, .f32⟩) main_cst_14) main_call14.v0 id,
    StableHlo.TRef.unary main_call14.v0 main_call14.v1 (broadcastInDim S128x196x768 ![] bcast_S_S128x196x768),
    StableHlo.TRef.binary main_call14.v1 (StableHlo.TRef.of (T := ⟨S128x196x768, .f32⟩) main_v95) main_call14.v2 maximumf,
    StableHlo.TRef.unary (StableHlo.TRef.of (T := ⟨S_, .f32⟩) main_cst_15) main_call14.v3 id,
    StableHlo.TRef.unary main_call14.v3 main_call14.v4 (broadcastInDim S128x196x768 ![] bcast_S_S128x196x768),
    StableHlo.TRef.binary main_call14.v4 main_call14.v2 main_call14.v5 minimumf,
    StableHlo.TRef.unary (StableHlo.TRef.of (T := ⟨S128x196x768, .f32⟩) main_v96) main_call15.v0 Host.roundeven,
    StableHlo.binary main_v97 main_v96 main_v98 (subf : (⟨S128x196x768, .f32⟩ : BufTy).Contents (Elt F) → (⟨S128x196x768, .f32⟩ : BufTy).Contents (Elt F) → (⟨S128x196x768, .f32⟩ : BufTy).Contents (Elt F)),
    StableHlo.binary main_v96 main_v98 main_v99 (addf : (⟨S128x196x768, .f32⟩ : BufTy).Contents (Elt F) → (⟨S128x196x768, .f32⟩ : BufTy).Contents (Elt F) → (⟨S128x196x768, .f32⟩ : BufTy).Contents (Elt F)),
    StableHlo.unary main_arg30 main_v100 (broadcastInDim S128x196x768 ![] bcast_S_S128x196x768 : (⟨S_, .f32⟩ : BufTy).Contents (Elt F) → (⟨S128x196x768, .f32⟩ : BufTy).Contents (Elt F)),
    StableHlo.binary main_v99 main_v100 main_v101 (mulf : (⟨S128x196x768, .f32⟩ : BufTy).Contents (Elt F) → (⟨S128x196x768, .f32⟩ : BufTy).Contents (Elt F) → (⟨S128x196x768, .f32⟩ : BufTy).Contents (Elt F)),
    StableHlo.unary main_arg14 main_v102 (broadcastInDim S128x196x768 ![] bcast_S_S128x196x768 : (⟨S_, .f32⟩ : BufTy).Contents (Elt F) → (⟨S128x196x768, .f32⟩ : BufTy).Contents (Elt F)),
    StableHlo.binary main_v49 main_v102 main_v103 (mulf : (⟨S128x196x768, .f32⟩ : BufTy).Contents (Elt F) → (⟨S128x196x768, .f32⟩ : BufTy).Contents (Elt F) → (⟨S128x196x768, .f32⟩ : BufTy).Contents (Elt F)),
    StableHlo.binary main_v101 main_v103 main_v104 (addf : (⟨S128x196x768, .f32⟩ : BufTy).Contents (Elt F) → (⟨S128x196x768, .f32⟩ : BufTy).Contents (Elt F) → (⟨S128x196x768, .f32⟩ : BufTy).Contents (Elt F)),
    StableHlo.unary main_arg31 main_v105 (broadcastInDim S128x196x768 ![] bcast_S_S128x196x768 : (⟨S_, .f32⟩ : BufTy).Contents (Elt F) → (⟨S128x196x768, .f32⟩ : BufTy).Contents (Elt F)),
    StableHlo.binary main_v104 main_v105 main_v106 (Host.divf : (⟨S128x196x768, .f32⟩ : BufTy).Contents (Elt F) → (⟨S128x196x768, .f32⟩ : BufTy).Contents (Elt F) → (⟨S128x196x768, .f32⟩ : BufTy).Contents (Elt F)),
    StableHlo.nullary main_cst_16 (constant S_ .f32 0xC3000000#32),
    StableHlo.nullary main_cst_17 (constant S_ .f32 0x42FE0000#32),
    StableHlo.TRef.unary (StableHlo.TRef.of (T := ⟨S_, .f32⟩) main_cst_16) main_call16.v0 id,
    StableHlo.TRef.unary main_call16.v0 main_call16.v1 (broadcastInDim S128x196x768 ![] bcast_S_S128x196x768),
    StableHlo.TRef.binary main_call16.v1 (StableHlo.TRef.of (T := ⟨S128x196x768, .f32⟩) main_v106) main_call16.v2 maximumf,
    StableHlo.TRef.unary (StableHlo.TRef.of (T := ⟨S_, .f32⟩) main_cst_17) main_call16.v3 id,
    StableHlo.TRef.unary main_call16.v3 main_call16.v4 (broadcastInDim S128x196x768 ![] bcast_S_S128x196x768),
    StableHlo.TRef.binary main_call16.v4 main_call16.v2 main_call16.v5 minimumf,
    StableHlo.TRef.unary (StableHlo.TRef.of (T := ⟨S128x196x768, .f32⟩) main_v107) main_call17.v0 Host.roundeven,
    StableHlo.binary main_v108 main_v107 main_v109 (subf : (⟨S128x196x768, .f32⟩ : BufTy).Contents (Elt F) → (⟨S128x196x768, .f32⟩ : BufTy).Contents (Elt F) → (⟨S128x196x768, .f32⟩ : BufTy).Contents (Elt F)),
    StableHlo.binary main_v107 main_v109 main_v110 (addf : (⟨S128x196x768, .f32⟩ : BufTy).Contents (Elt F) → (⟨S128x196x768, .f32⟩ : BufTy).Contents (Elt F) → (⟨S128x196x768, .f32⟩ : BufTy).Contents (Elt F)) ]

set_option maxRecDepth 16384 in
set_option maxHeartbeats 4000000 in
/-- The entry function is that straight line: the outlined functions unfolded at their calls, sequencing reassociated. -/
theorem main_eq (c : Dev nD) : main (F := F) c = seq ops := by
  simp only [main, main_part0, main_part1, main_part2, fn_clip.body, fn_round.body, fn_clip_0.body, fn_round_1.body,
    fn_clip_2.body, fn_round_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., binary_bufs_sub .., unary_bufs_sub .., unary_bufs_sub .., binary_bufs_sub .., binary_bufs_sub ..,
    binary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    binary_bufs_sub .., binary_bufs_sub .., unary_bufs_sub .., binary_bufs_sub .., unary_bufs_sub .., unary_bufs_sub ..,
    binary_bufs_sub .., binary_bufs_sub .., binary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., binary_bufs_sub .., binary_bufs_sub .., unary_bufs_sub .., binary_bufs_sub ..,
    unary_bufs_sub .., unary_bufs_sub .., binary_bufs_sub .., binary_bufs_sub .., binary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., binary_bufs_sub .., binary_bufs_sub ..,
    unary_bufs_sub .., binary_bufs_sub .., unary_bufs_sub .., binary_bufs_sub .., binary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., binary_bufs_sub .., binary_bufs_sub ..,
    binary_bufs_sub .., unary_bufs_sub .., unary_bufs_sub .., binary_bufs_sub .., binary_bufs_sub .., binary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    binary_bufs_sub .., binary_bufs_sub .., unary_bufs_sub .., unary_bufs_sub .., binary_bufs_sub .., binary_bufs_sub ..,
    binary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    binary_bufs_sub .., binary_bufs_sub .., binary_bufs_sub .., unary_bufs_sub .., unary_bufs_sub .., binary_bufs_sub ..,
    binary_bufs_sub .., binary_bufs_sub .., unary_bufs_sub .., binary_bufs_sub .., nullary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., binary_bufs_sub .., binary_bufs_sub ..,
    binary_bufs_sub .., unary_bufs_sub .., unary_bufs_sub .., binary_bufs_sub .., binary_bufs_sub .., binary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    binary_bufs_sub .., unary_bufs_sub .., binary_bufs_sub .., unary_bufs_sub .., binary_bufs_sub .., binary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., binary_bufs_sub ..,
    binary_bufs_sub ..⟩

end Cert.ReferenceIdeal.Hand

end
-- ==== Proof.Ref.Layers.lean ====
/-
  The reference's value as a composition of named stages: one quantised layer (or residual sum) per stage, each a
  function of the previous stage's array and of the layer's parameters, so that no array's term is written twice.
-/
import proofs.«131422_j57432302682877_2_alg».proof.Proof.Gen.ReferenceIdeal
import Idealize.ShloMosaic.Lib.StableHlo.Run
import proofs.«131422_j57432302682877_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An array of binary32 elements of shape `S`. -/
abbrev C (F : FTy → Type) (S : Shape) : Type := (⟨S, .f32⟩ : BufTy).Contents (Elt F)

/-! ## The operations, one list per layer -/

abbrev L1 : List (HloOp τ sig (Elt F)) :=
  [ StableHlo.reshape main_arg1 main_v0 rfl shapeCasts_S1_S_,
    StableHlo.binary main_arg0 main_arg2 main_v1 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg3 main_v2 (broadcastInDim S1x1x768 ![2] bcast_S768_S1x1x768_2 : (⟨S768, .f32⟩ : BufTy).Contents (Elt F) → (⟨S1x1x768, .f32⟩ : BufTy).Contents (Elt F)),
    StableHlo.unary main_v2 main_v3 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v1 main_v3 main_v4 (addf : (⟨S128x196x768, .f32⟩ : BufTy).Contents (Elt F) → (⟨S128x196x768, .f32⟩ : BufTy).Contents (Elt F) → (⟨S128x196x768, .f32⟩ : BufTy).Contents (Elt F)),
    StableHlo.binary main_v0 main_arg4 main_v5 (mulf : (⟨S_, .f32⟩ : BufTy).Contents (Elt F) → (⟨S_, .f32⟩ : BufTy).Contents (Elt F) → (⟨S_, .f32⟩ : BufTy).Contents (Elt F)),
    StableHlo.binary main_v5 main_arg5 main_v6 (Host.divf : (⟨S_, .f32⟩ : BufTy).Contents (Elt F) → (⟨S_, .f32⟩ : BufTy).Contents (Elt F) → (⟨S_, .f32⟩ : BufTy).Contents (Elt F)),
    StableHlo.unary main_v6 main_v7 (broadcastInDim S128x196x768 ![] bcast_S_S128x196x768 : (⟨S_, .f32⟩ : BufTy).Contents (Elt F) → (⟨S128x196x768, .f32⟩ : BufTy).Contents (Elt F)),
    StableHlo.binary main_v4 main_v7 main_v8 (mulf : (⟨S128x196x768, .f32⟩ : BufTy).Contents (Elt F) → (⟨S128x196x768, .f32⟩ : BufTy).Contents (Elt F) → (⟨S128x196x768, .f32⟩ : BufTy).Contents (Elt F)),
    StableHlo.nullary main_cst (constant S_ .f32 0xC3000000#32),
    StableHlo.nullary main_cst_0 (constant S_ .f32 0x42FE0000#32),
    StableHlo.TRef.unary (StableHlo.TRef.of (T := ⟨S_, .f32⟩) main_cst) main_call0.v0 id,
    StableHlo.TRef.unary main_call0.v0 main_call0.v1 (broadcastInDim S128x196x768 ![] bcast_S_S128x196x768),
    StableHlo.TRef.binary main_call0.v1 (StableHlo.TRef.of (T := ⟨S128x196x768, .f32⟩) main_v8) main_call0.v2 maximumf,
    StableHlo.TRef.unary (StableHlo.TRef.of (T := ⟨S_, .f32⟩) main_cst_0) main_call0.v3 id,
    StableHlo.TRef.unary main_call0.v3 main_call0.v4 (broadcastInDim S128x196x768 ![] bcast_S_S128x196x768),
    StableHlo.TRef.binary main_call0.v4 main_call0.v2 main_call0.v5 minimumf,
    StableHlo.TRef.unary (StableHlo.TRef.of (T := ⟨S128x196x768, .f32⟩) main_v9) main_call1.v0 Host.roundeven,
    StableHlo.binary main_v10 main_v9 main_v11 (subf : (⟨S128x196x768, .f32⟩ : BufTy).Contents (Elt F) → (⟨S128x196x768, .f32⟩ : BufTy).Contents (Elt F) → (⟨S128x196x768, .f32⟩ : BufTy).Contents (Elt F)),
    StableHlo.binary main_v9 main_v11 main_v12 (addf : (⟨S128x196x768, .f32⟩ : BufTy).Contents (Elt F) → (⟨S128x196x768, .f32⟩ : BufTy).Contents (Elt F) → (⟨S128x196x768, .f32⟩ : BufTy).Contents (Elt F)) ]

abbrev L2 : List (HloOp τ sig (Elt F)) :=
  [ StableHlo.unary main_v12 main_v13 ((transpose S128x768x196 [0, 2, 1] · transposes_S128x196x768_S128x768x196_0_2_1) : (⟨S128x196x768, .f32⟩ : BufTy).Contents (Elt F) → (⟨S128x768x196, .f32⟩ : BufTy).Contents (Elt F)),
    StableHlo.binary main_v13 main_arg6 main_v14 ((fun l r => Host.dotGeneral dot_S128x768x196_S196x196_S128x768x196_2_1_01_0_n_n none l r) : (⟨S128x768x196, .f32⟩ : BufTy).Contents (Elt F) → (⟨S196x196, .f32⟩ : BufTy).Contents (Elt F) → (⟨S128x768x196, .f32⟩ : BufTy).Contents (Elt F)),
    StableHlo.unary main_arg7 main_v15 (broadcastInDim S1x1x196 ![2] bcast_S196_S1x1x196_2 : (⟨S196, .f32⟩ : BufTy).Contents (Elt F) → (⟨S1x1x196, .f32⟩ : BufTy).Contents (Elt F)),
    StableHlo.unary main_v15 main_v16 (broadcastInDim S128x768x196 ![0, 1, 2] bcast_S1x1x196_S128x768x196_0_1_2 : (⟨S1x1x196, .f32⟩ : BufTy).Contents (Elt F) → (⟨S128x768x196, .f32⟩ : BufTy).Contents (Elt F)),
    StableHlo.binary main_v14 main_v16 main_v17 (addf : (⟨S128x768x196, .f32⟩ : BufTy).Contents (Elt F) → (⟨S128x768x196, .f32⟩ : BufTy).Contents (Elt F) → (⟨S128x768x196, .f32⟩ : BufTy).Contents (Elt F)),
    StableHlo.binary main_arg5 main_arg8 main_v18 (mulf : (⟨S_, .f32⟩ : BufTy).Contents (Elt F) → (⟨S_, .f32⟩ : BufTy).Contents (Elt F) → (⟨S_, .f32⟩ : BufTy).Contents (Elt F)),
    StableHlo.binary main_v18 main_arg9 main_v19 (Host.divf : (⟨S_, .f32⟩ : BufTy).Contents (Elt F) → (⟨S_, .f32⟩ : BufTy).Contents (Elt F) → (⟨S_, .f32⟩ : BufTy).Contents (Elt F)),
    StableHlo.unary main_v19 main_v20 (broadcastInDim S128x768x196 ![] bcast_S_S128x768x196 : (⟨S_, .f32⟩ : BufTy).Contents (Elt F) → (⟨S128x768x196, .f32⟩ : BufTy).Contents (Elt F)),
    StableHlo.binary main_v17 main_v20 main_v21 (mulf : (⟨S128x768x196, .f32⟩ : BufTy).Contents (Elt F) → (⟨S128x768x196, .f32⟩ : BufTy).Contents (Elt F) → (⟨S128x768x196, .f32⟩ : BufTy).Contents (Elt F)),
    StableHlo.nullary main_cst_1 (constant S_ .f32 0xC3000000#32),
    StableHlo.nullary main_cst_2 (constant S_ .f32 0x42FE0000#32),
    StableHlo.TRef.unary (StableHlo.TRef.of (T := ⟨S_, .f32⟩) main_cst_1) main_call2.v0 id,
    StableHlo.TRef.unary main_call2.v0 main_call2.v1 (broadcastInDim S128x768x196 ![] bcast_S_S128x768x196),
    StableHlo.TRef.binary main_call2.v1 (StableHlo.TRef.of (T := ⟨S128x768x196, .f32⟩) main_v21) main_call2.v2 maximumf,
    StableHlo.TRef.unary (StableHlo.TRef.of (T := ⟨S_, .f32⟩) main_cst_2) main_call2.v3 id,
    StableHlo.TRef.unary main_call2.v3 main_call2.v4 (broadcastInDim S128x768x196 ![] bcast_S_S128x768x196),
    StableHlo.TRef.binary main_call2.v4 main_call2.v2 main_call2.v5 minimumf,
    StableHlo.TRef.unary (StableHlo.TRef.of (T := ⟨S128x768x196, .f32⟩) main_v22) main_call3.v0 Host.roundeven,
    StableHlo.binary main_v23 main_v22 main_v24 (subf : (⟨S128x768x196, .f32⟩ : BufTy).Contents (Elt F) → (⟨S128x768x196, .f32⟩ : BufTy).Contents (Elt F) → (⟨S128x768x196, .f32⟩ : BufTy).Contents (Elt F)),
    StableHlo.binary main_v22 main_v24 main_v25 (addf : (⟨S128x768x196, .f32⟩ : BufTy).Contents (Elt F) → (⟨S128x768x196, .f32⟩ : BufTy).Contents (Elt F) → (⟨S128x768x196, .f32⟩ : BufTy).Contents (Elt F)) ]

abbrev L3 : List (HloOp τ sig (Elt F)) :=
  [ StableHlo.unary main_v25 main_v26 ((transpose S128x196x768 [0, 2, 1] · transposes_S128x768x196_S128x196x768_0_2_1) : (⟨S128x768x196, .f32⟩ : BufTy).Contents (Elt F) → (⟨S128x196x768, .f32⟩ : BufTy).Contents (Elt F)),
    StableHlo.binary main_v26 main_arg10 main_v27 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg11 main_v28 (broadcastInDim S1x1x768 ![2] bcast_S768_S1x1x768_2 : (⟨S768, .f32⟩ : BufTy).Contents (Elt F) → (⟨S1x1x768, .f32⟩ : BufTy).Contents (Elt F)),
    StableHlo.unary main_v28 main_v29 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v27 main_v29 main_v30 (addf : (⟨S128x196x768, .f32⟩ : BufTy).Contents (Elt F) → (⟨S128x196x768, .f32⟩ : BufTy).Contents (Elt F) → (⟨S128x196x768, .f32⟩ : BufTy).Contents (Elt F)),
    StableHlo.binary main_arg9 main_arg12 main_v31 (mulf : (⟨S_, .f32⟩ : BufTy).Contents (Elt F) → (⟨S_, .f32⟩ : BufTy).Contents (Elt F) → (⟨S_, .f32⟩ : BufTy).Contents (Elt F)),
    StableHlo.binary main_v31 main_arg13 main_v32 (Host.divf : (⟨S_, .f32⟩ : BufTy).Contents (Elt F) → (⟨S_, .f32⟩ : BufTy).Contents (Elt F) → (⟨S_, .f32⟩ : BufTy).Contents (Elt F)),
    StableHlo.unary main_v32 main_v33 (broadcastInDim S128x196x768 ![] bcast_S_S128x196x768 : (⟨S_, .f32⟩ : BufTy).Contents (Elt F) → (⟨S128x196x768, .f32⟩ : BufTy).Contents (Elt F)),
    StableHlo.binary main_v30 main_v33 main_v34 (mulf : (⟨S128x196x768, .f32⟩ : BufTy).Contents (Elt F) → (⟨S128x196x768, .f32⟩ : BufTy).Contents (Elt F) → (⟨S128x196x768, .f32⟩ : BufTy).Contents (Elt F)),
    StableHlo.nullary main_cst_3 (constant S_ .f32 0xC3000000#32),
    StableHlo.nullary main_cst_4 (constant S_ .f32 0x42FE0000#32),
    StableHlo.TRef.unary (StableHlo.TRef.of (T := ⟨S_, .f32⟩) main_cst_3) main_call4.v0 id,
    StableHlo.TRef.unary main_call4.v0 main_call4.v1 (broadcastInDim S128x196x768 ![] bcast_S_S128x196x768),
    StableHlo.TRef.binary main_call4.v1 (StableHlo.TRef.of (T := ⟨S128x196x768, .f32⟩) main_v34) main_call4.v2 maximumf,
    StableHlo.TRef.unary (StableHlo.TRef.of (T := ⟨S_, .f32⟩) main_cst_4) main_call4.v3 id,
    StableHlo.TRef.unary main_call4.v3 main_call4.v4 (broadcastInDim S128x196x768 ![] bcast_S_S128x196x768),
    StableHlo.TRef.binary main_call4.v4 main_call4.v2 main_call4.v5 minimumf,
    StableHlo.TRef.unary (StableHlo.TRef.of (T := ⟨S128x196x768, .f32⟩) main_v35) main_call5.v0 Host.roundeven,
    StableHlo.binary main_v36 main_v35 main_v37 (subf : (⟨S128x196x768, .f32⟩ : BufTy).Contents (Elt F) → (⟨S128x196x768, .f32⟩ : BufTy).Contents (Elt F) → (⟨S128x196x768, .f32⟩ : BufTy).Contents (Elt F)),
    StableHlo.binary main_v35 main_v37 main_v38 (addf : (⟨S128x196x768, .f32⟩ : BufTy).Contents (Elt F) → (⟨S128x196x768, .f32⟩ : BufTy).Contents (Elt F) → (⟨S128x196x768, .f32⟩ : BufTy).Contents (Elt F)) ]

abbrev L4 : List (HloOp τ sig (Elt F)) :=
  [ StableHlo.unary main_arg13 main_v39 (broadcastInDim S128x196x768 ![] bcast_S_S128x196x768 : (⟨S_, .f32⟩ : BufTy).Contents (Elt F) → (⟨S128x196x768, .f32⟩ : BufTy).Contents (Elt F)),
    StableHlo.binary main_v38 main_v39 main_v40 (mulf : (⟨S128x196x768, .f32⟩ : BufTy).Contents (Elt F) → (⟨S128x196x768, .f32⟩ : BufTy).Contents (Elt F) → (⟨S128x196x768, .f32⟩ : BufTy).Contents (Elt F)),
    StableHlo.unary main_v0 main_v41 (broadcastInDim S128x196x768 ![] bcast_S_S128x196x768 : (⟨S_, .f32⟩ : BufTy).Contents (Elt F) → (⟨S128x196x768, .f32⟩ : BufTy).Contents (Elt F)),
    StableHlo.binary main_arg0 main_v41 main_v42 (mulf : (⟨S128x196x768, .f32⟩ : BufTy).Contents (Elt F) → (⟨S128x196x768, .f32⟩ : BufTy).Contents (Elt F) → (⟨S128x196x768, .f32⟩ : BufTy).Contents (Elt F)),
    StableHlo.binary main_v40 main_v42 main_v43 (addf : (⟨S128x196x768, .f32⟩ : BufTy).Contents (Elt F) → (⟨S128x196x768, .f32⟩ : BufTy).Contents (Elt F) → (⟨S128x196x768, .f32⟩ : BufTy).Contents (Elt F)),
    StableHlo.unary main_arg14 main_v44 (broadcastInDim S128x196x768 ![] bcast_S_S128x196x768 : (⟨S_, .f32⟩ : BufTy).Contents (Elt F) → (⟨S128x196x768, .f32⟩ : BufTy).Contents (Elt F)),
    StableHlo.binary main_v43 main_v44 main_v45 (Host.divf : (⟨S128x196x768, .f32⟩ : BufTy).Contents (Elt F) → (⟨S128x196x768, .f32⟩ : BufTy).Contents (Elt F) → (⟨S128x196x768, .f32⟩ : BufTy).Contents (Elt F)),
    StableHlo.nullary main_cst_5 (constant S_ .f32 0xC3000000#32),
    StableHlo.nullary main_cst_6 (constant S_ .f32 0x42FE0000#32),
    StableHlo.TRef.unary (StableHlo.TRef.of (T := ⟨S_, .f32⟩) main_cst_5) main_call6.v0 id,
    StableHlo.TRef.unary main_call6.v0 main_call6.v1 (broadcastInDim S128x196x768 ![] bcast_S_S128x196x768),
    StableHlo.TRef.binary main_call6.v1 (StableHlo.TRef.of (T := ⟨S128x196x768, .f32⟩) main_v45) main_call6.v2 maximumf,
    StableHlo.TRef.unary (StableHlo.TRef.of (T := ⟨S_, .f32⟩) main_cst_6) main_call6.v3 id,
    StableHlo.TRef.unary main_call6.v3 main_call6.v4 (broadcastInDim S128x196x768 ![] bcast_S_S128x196x768),
    StableHlo.TRef.binary main_call6.v4 main_call6.v2 main_call6.v5 minimumf,
    StableHlo.TRef.unary (StableHlo.TRef.of (T := ⟨S128x196x768, .f32⟩) main_v46) main_call7.v0 Host.roundeven,
    StableHlo.binary main_v47 main_v46 main_v48 (subf : (⟨S128x196x768, .f32⟩ : BufTy).Contents (Elt F) → (⟨S128x196x768, .f32⟩ : BufTy).Contents (Elt F) → (⟨S128x196x768, .f32⟩ : BufTy).Contents (Elt F)),
    StableHlo.binary main_v46 main_v48 main_v49 (addf : (⟨S128x196x768, .f32⟩ : BufTy).Contents (Elt F) → (⟨S128x196x768, .f32⟩ : BufTy).Contents (Elt F) → (⟨S128x196x768, .f32⟩ : BufTy).Contents (Elt F)) ]

abbrev L5 : List (HloOp τ sig (Elt F)) :=
  [ StableHlo.binary main_v49 main_arg15 main_v50 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg16 main_v51 (broadcastInDim S1x1x768 ![2] bcast_S768_S1x1x768_2 : (⟨S768, .f32⟩ : BufTy).Contents (Elt F) → (⟨S1x1x768, .f32⟩ : BufTy).Contents (Elt F)),
    StableHlo.unary main_v51 main_v52 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v50 main_v52 main_v53 (addf : (⟨S128x196x768, .f32⟩ : BufTy).Contents (Elt F) → (⟨S128x196x768, .f32⟩ : BufTy).Contents (Elt F) → (⟨S128x196x768, .f32⟩ : BufTy).Contents (Elt F)),
    StableHlo.binary main_arg14 main_arg17 main_v54 (mulf : (⟨S_, .f32⟩ : BufTy).Contents (Elt F) → (⟨S_, .f32⟩ : BufTy).Contents (Elt F) → (⟨S_, .f32⟩ : BufTy).Contents (Elt F)),
    StableHlo.binary main_v54 main_arg18 main_v55 (Host.divf : (⟨S_, .f32⟩ : BufTy).Contents (Elt F) → (⟨S_, .f32⟩ : BufTy).Contents (Elt F) → (⟨S_, .f32⟩ : BufTy).Contents (Elt F)),
    StableHlo.unary main_v55 main_v56 (broadcastInDim S128x196x768 ![] bcast_S_S128x196x768 : (⟨S_, .f32⟩ : BufTy).Contents (Elt F) → (⟨S128x196x768, .f32⟩ : BufTy).Contents (Elt F)),
    StableHlo.binary main_v53 main_v56 main_v57 (mulf : (⟨S128x196x768, .f32⟩ : BufTy).Contents (Elt F) → (⟨S128x196x768, .f32⟩ : BufTy).Contents (Elt F) → (⟨S128x196x768, .f32⟩ : BufTy).Contents (Elt F)),
    StableHlo.nullary main_cst_7 (constant S_ .f32 0xC3000000#32),
    StableHlo.nullary main_cst_8 (constant S_ .f32 0x42FE0000#32),
    StableHlo.TRef.unary (StableHlo.TRef.of (T := ⟨S_, .f32⟩) main_cst_7) main_call8.v0 id,
    StableHlo.TRef.unary main_call8.v0 main_call8.v1 (broadcastInDim S128x196x768 ![] bcast_S_S128x196x768),
    StableHlo.TRef.binary main_call8.v1 (StableHlo.TRef.of (T := ⟨S128x196x768, .f32⟩) main_v57) main_call8.v2 maximumf,
    StableHlo.TRef.unary (StableHlo.TRef.of (T := ⟨S_, .f32⟩) main_cst_8) main_call8.v3 id,
    StableHlo.TRef.unary main_call8.v3 main_call8.v4 (broadcastInDim S128x196x768 ![] bcast_S_S128x196x768),
    StableHlo.TRef.binary main_call8.v4 main_call8.v2 main_call8.v5 minimumf,
    StableHlo.TRef.unary (StableHlo.TRef.of (T := ⟨S128x196x768, .f32⟩) main_v58) main_call9.v0 Host.roundeven,
    StableHlo.binary main_v59 main_v58 main_v60 (subf : (⟨S128x196x768, .f32⟩ : BufTy).Contents (Elt F) → (⟨S128x196x768, .f32⟩ : BufTy).Contents (Elt F) → (⟨S128x196x768, .f32⟩ : BufTy).Contents (Elt F)),
    StableHlo.binary main_v58 main_v60 main_v61 (addf : (⟨S128x196x768, .f32⟩ : BufTy).Contents (Elt F) → (⟨S128x196x768, .f32⟩ : BufTy).Contents (Elt F) → (⟨S128x196x768, .f32⟩ : BufTy).Contents (Elt F)) ]

abbrev L6 : List (HloOp τ sig (Elt F)) :=
  [ StableHlo.binary main_v61 main_arg19 main_v62 ((fun l r => Host.dotGeneral dot_S128x196x768_S3072x768_S128x196x3072_2_1_01_0_n_n none l r) : (⟨S128x196x768, .f32⟩ : BufTy).Contents (Elt F) → (⟨S3072x768, .f32⟩ : BufTy).Contents (Elt F) → (⟨S128x196x3072, .f32⟩ : BufTy).Contents (Elt F)),
    StableHlo.unary main_arg20 main_v63 (broadcastInDim S1x1x3072 ![2] bcast_S3072_S1x1x3072_2 : (⟨S3072, .f32⟩ : BufTy).Contents (Elt F) → (⟨S1x1x3072, .f32⟩ : BufTy).Contents (Elt F)),
    StableHlo.unary main_v63 main_v64 (broadcastInDim S128x196x3072 ![0, 1, 2] bcast_S1x1x3072_S128x196x3072_0_1_2 : (⟨S1x1x3072, .f32⟩ : BufTy).Contents (Elt F) → (⟨S128x196x3072, .f32⟩ : BufTy).Contents (Elt F)),
    StableHlo.binary main_v62 main_v64 main_v65 (addf : (⟨S128x196x3072, .f32⟩ : BufTy).Contents (Elt F) → (⟨S128x196x3072, .f32⟩ : BufTy).Contents (Elt F) → (⟨S128x196x3072, .f32⟩ : BufTy).Contents (Elt F)),
    StableHlo.binary main_arg18 main_arg21 main_v66 (mulf : (⟨S_, .f32⟩ : BufTy).Contents (Elt F) → (⟨S_, .f32⟩ : BufTy).Contents (Elt F) → (⟨S_, .f32⟩ : BufTy).Contents (Elt F)),
    StableHlo.binary main_v66 main_arg22 main_v67 (Host.divf : (⟨S_, .f32⟩ : BufTy).Contents (Elt F) → (⟨S_, .f32⟩ : BufTy).Contents (Elt F) → (⟨S_, .f32⟩ : BufTy).Contents (Elt F)),
    StableHlo.unary main_v67 main_v68 (broadcastInDim S128x196x3072 ![] bcast_S_S128x196x3072 : (⟨S_, .f32⟩ : BufTy).Contents (Elt F) → (⟨S128x196x3072, .f32⟩ : BufTy).Contents (Elt F)),
    StableHlo.binary main_v65 main_v68 main_v69 (mulf : (⟨S128x196x3072, .f32⟩ : BufTy).Contents (Elt F) → (⟨S128x196x3072, .f32⟩ : BufTy).Contents (Elt F) → (⟨S128x196x3072, .f32⟩ : BufTy).Contents (Elt F)),
    StableHlo.nullary main_cst_9 (constant S_ .f32 0xC3000000#32),
    StableHlo.nullary main_cst_10 (constant S_ .f32 0x42FE0000#32),
    StableHlo.TRef.unary (StableHlo.TRef.of (T := ⟨S_, .f32⟩) main_cst_9) main_call10.v0 id,
    StableHlo.TRef.unary main_call10.v0 main_call10.v1 (broadcastInDim S128x196x3072 ![] bcast_S_S128x196x3072),
    StableHlo.TRef.binary main_call10.v1 (StableHlo.TRef.of (T := ⟨S128x196x3072, .f32⟩) main_v69) main_call10.v2 maximumf,
    StableHlo.TRef.unary (StableHlo.TRef.of (T := ⟨S_, .f32⟩) main_cst_10) main_call10.v3 id,
    StableHlo.TRef.unary main_call10.v3 main_call10.v4 (broadcastInDim S128x196x3072 ![] bcast_S_S128x196x3072),
    StableHlo.TRef.binary main_call10.v4 main_call10.v2 main_call10.v5 minimumf,
    StableHlo.TRef.unary (StableHlo.TRef.of (T := ⟨S128x196x3072, .f32⟩) main_v70) main_call11.v0 Host.roundeven,
    StableHlo.binary main_v71 main_v70 main_v72 (subf : (⟨S128x196x3072, .f32⟩ : BufTy).Contents (Elt F) → (⟨S128x196x3072, .f32⟩ : BufTy).Contents (Elt F) → (⟨S128x196x3072, .f32⟩ : BufTy).Contents (Elt F)),
    StableHlo.binary main_v70 main_v72 main_v73 (addf : (⟨S128x196x3072, .f32⟩ : BufTy).Contents (Elt F) → (⟨S128x196x3072, .f32⟩ : BufTy).Contents (Elt F) → (⟨S128x196x3072, .f32⟩ : BufTy).Contents (Elt F)) ]

abbrev L7 : List (HloOp τ sig (Elt F)) :=
  [ StableHlo.binary main_v73 main_arg23 main_v74 ((fun l r => Host.dotGeneral dot_S128x196x3072_S768x3072_S128x196x768_2_1_01_0_n_n none l r) : (⟨S128x196x3072, .f32⟩ : BufTy).Contents (Elt F) → (⟨S768x3072, .f32⟩ : BufTy).Contents (Elt F) → (⟨S128x196x768, .f32⟩ : BufTy).Contents (Elt F)),
    StableHlo.unary main_arg24 main_v75 (broadcastInDim S1x1x768 ![2] bcast_S768_S1x1x768_2 : (⟨S768, .f32⟩ : BufTy).Contents (Elt F) → (⟨S1x1x768, .f32⟩ : BufTy).Contents (Elt F)),
    StableHlo.unary main_v75 main_v76 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v74 main_v76 main_v77 (addf : (⟨S128x196x768, .f32⟩ : BufTy).Contents (Elt F) → (⟨S128x196x768, .f32⟩ : BufTy).Contents (Elt F) → (⟨S128x196x768, .f32⟩ : BufTy).Contents (Elt F)),
    StableHlo.binary main_arg22 main_arg25 main_v78 (mulf : (⟨S_, .f32⟩ : BufTy).Contents (Elt F) → (⟨S_, .f32⟩ : BufTy).Contents (Elt F) → (⟨S_, .f32⟩ : BufTy).Contents (Elt F)),
    StableHlo.binary main_v78 main_arg26 main_v79 (Host.divf : (⟨S_, .f32⟩ : BufTy).Contents (Elt F) → (⟨S_, .f32⟩ : BufTy).Contents (Elt F) → (⟨S_, .f32⟩ : BufTy).Contents (Elt F)),
    StableHlo.unary main_v79 main_v80 (broadcastInDim S128x196x768 ![] bcast_S_S128x196x768 : (⟨S_, .f32⟩ : BufTy).Contents (Elt F) → (⟨S128x196x768, .f32⟩ : BufTy).Contents (Elt F)),
    StableHlo.binary main_v77 main_v80 main_v81 (mulf : (⟨S128x196x768, .f32⟩ : BufTy).Contents (Elt F) → (⟨S128x196x768, .f32⟩ : BufTy).Contents (Elt F) → (⟨S128x196x768, .f32⟩ : BufTy).Contents (Elt F)),
    StableHlo.nullary main_cst_11 (constant S_ .f32 0x00000000#32),
    StableHlo.unary main_cst_11 main_v82 (broadcastInDim S128x196x768 ![] bcast_S_S128x196x768 : (⟨S_, .f32⟩ : BufTy).Contents (Elt F) → (⟨S128x196x768, .f32⟩ : BufTy).Contents (Elt F)),
    StableHlo.binary main_v81 main_v82 main_v83 (maximumf : (⟨S128x196x768, .f32⟩ : BufTy).Contents (Elt F) → (⟨S128x196x768, .f32⟩ : BufTy).Contents (Elt F) → (⟨S128x196x768, .f32⟩ : BufTy).Contents (Elt F)),
    StableHlo.nullary main_cst_12 (constant S_ .f32 0xC3000000#32),
    StableHlo.nullary main_cst_13 (constant S_ .f32 0x42FE0000#32),
    StableHlo.TRef.unary (StableHlo.TRef.of (T := ⟨S_, .f32⟩) main_cst_12) main_call12.v0 id,
    StableHlo.TRef.unary main_call12.v0 main_call12.v1 (broadcastInDim S128x196x768 ![] bcast_S_S128x196x768),
    StableHlo.TRef.binary main_call12.v1 (StableHlo.TRef.of (T := ⟨S128x196x768, .f32⟩) main_v83) main_call12.v2 maximumf,
    StableHlo.TRef.unary (StableHlo.TRef.of (T := ⟨S_, .f32⟩) main_cst_13) main_call12.v3 id,
    StableHlo.TRef.unary main_call12.v3 main_call12.v4 (broadcastInDim S128x196x768 ![] bcast_S_S128x196x768),
    StableHlo.TRef.binary main_call12.v4 main_call12.v2 main_call12.v5 minimumf,
    StableHlo.TRef.unary (StableHlo.TRef.of (T := ⟨S128x196x768, .f32⟩) main_v84) main_call13.v0 Host.roundeven,
    StableHlo.binary main_v85 main_v84 main_v86 (subf : (⟨S128x196x768, .f32⟩ : BufTy).Contents (Elt F) → (⟨S128x196x768, .f32⟩ : BufTy).Contents (Elt F) → (⟨S128x196x768, .f32⟩ : BufTy).Contents (Elt F)),
    StableHlo.binary main_v84 main_v86 main_v87 (addf : (⟨S128x196x768, .f32⟩ : BufTy).Contents (Elt F) → (⟨S128x196x768, .f32⟩ : BufTy).Contents (Elt F) → (⟨S128x196x768, .f32⟩ : BufTy).Contents (Elt F)) ]

abbrev L8 : List (HloOp τ sig (Elt F)) :=
  [ StableHlo.binary main_v87 main_arg27 main_v88 ((fun l r => Host.dotGeneral dot_S128x196x768_S768x768_S128x196x768_2_1_01_0_n_n none l r) : (⟨S128x196x768, .f32⟩ : BufTy).Contents (Elt F) → (⟨S768x768, .f32⟩ : BufTy).Contents (Elt F) → (⟨S128x196x768, .f32⟩ : BufTy).Contents (Elt F)),
    StableHlo.unary main_arg28 main_v89 (broadcastInDim S1x1x768 ![2] bcast_S768_S1x1x768_2 : (⟨S768, .f32⟩ : BufTy).Contents (Elt F) → (⟨S1x1x768, .f32⟩ : BufTy).Contents (Elt F)),
    StableHlo.unary main_v89 main_v90 (broadcastInDim S128x196x768 ![0, 1, 2] bcast_S1x1x768_S128x196x768_0_1_2 : (⟨S1x1x768, .f32⟩ : BufTy).Contents (Elt F) → (⟨S128x196x768, .f32⟩ : BufTy).Contents (Elt F)),
    StableHlo.binary main_v88 main_v90 main_v91 (addf : (⟨S128x196x768, .f32⟩ : BufTy).Contents (Elt F) → (⟨S128x196x768, .f32⟩ : BufTy).Contents (Elt F) → (⟨S128x196x768, .f32⟩ : BufTy).Contents (Elt F)),
    StableHlo.binary main_arg26 main_arg29 main_v92 (mulf : (⟨S_, .f32⟩ : BufTy).Contents (Elt F) → (⟨S_, .f32⟩ : BufTy).Contents (Elt F) → (⟨S_, .f32⟩ : BufTy).Contents (Elt F)),
    StableHlo.binary main_v92 main_arg30 main_v93 (Host.divf : (⟨S_, .f32⟩ : BufTy).Contents (Elt F) → (⟨S_, .f32⟩ : BufTy).Contents (Elt F) → (⟨S_, .f32⟩ : BufTy).Contents (Elt F)),
    StableHlo.unary main_v93 main_v94 (broadcastInDim S128x196x768 ![] bcast_S_S128x196x768 : (⟨S_, .f32⟩ : BufTy).Contents (Elt F) → (⟨S128x196x768, .f32⟩ : BufTy).Contents (Elt F)),
    StableHlo.binary main_v91 main_v94 main_v95 (mulf : (⟨S128x196x768, .f32⟩ : BufTy).Contents (Elt F) → (⟨S128x196x768, .f32⟩ : BufTy).Contents (Elt F) → (⟨S128x196x768, .f32⟩ : BufTy).Contents (Elt F)),
    StableHlo.nullary main_cst_14 (constant S_ .f32 0xC3000000#32),
    StableHlo.nullary main_cst_15 (constant S_ .f32 0x42FE0000#32),
    StableHlo.TRef.unary (StableHlo.TRef.of (T := ⟨S_, .f32⟩) main_cst_14) main_call14.v0 id,
    StableHlo.TRef.unary main_call14.v0 main_call14.v1 (broadcastInDim S128x196x768 ![] bcast_S_S128x196x768),
    StableHlo.TRef.binary main_call14.v1 (StableHlo.TRef.of (T := ⟨S128x196x768, .f32⟩) main_v95) main_call14.v2 maximumf,
    StableHlo.TRef.unary (StableHlo.TRef.of (T := ⟨S_, .f32⟩) main_cst_15) main_call14.v3 id,
    StableHlo.TRef.unary main_call14.v3 main_call14.v4 (broadcastInDim S128x196x768 ![] bcast_S_S128x196x768),
    StableHlo.TRef.binary main_call14.v4 main_call14.v2 main_call14.v5 minimumf,
    StableHlo.TRef.unary (StableHlo.TRef.of (T := ⟨S128x196x768, .f32⟩) main_v96) main_call15.v0 Host.roundeven,
    StableHlo.binary main_v97 main_v96 main_v98 (subf : (⟨S128x196x768, .f32⟩ : BufTy).Contents (Elt F) → (⟨S128x196x768, .f32⟩ : BufTy).Contents (Elt F) → (⟨S128x196x768, .f32⟩ : BufTy).Contents (Elt F)),
    StableHlo.binary main_v96 main_v98 main_v99 (addf : (⟨S128x196x768, .f32⟩ : BufTy).Contents (Elt F) → (⟨S128x196x768, .f32⟩ : BufTy).Contents (Elt F) → (⟨S128x196x768, .f32⟩ : BufTy).Contents (Elt F)) ]

abbrev L9 : List (HloOp τ sig (Elt F)) :=
  [ StableHlo.unary main_arg30 main_v100 (broadcastInDim S128x196x768 ![] bcast_S_S128x196x768 : (⟨S_, .f32⟩ : BufTy).Contents (Elt F) → (⟨S128x196x768, .f32⟩ : BufTy).Contents (Elt F)),
    StableHlo.binary main_v99 main_v100 main_v101 (mulf : (⟨S128x196x768, .f32⟩ : BufTy).Contents (Elt F) → (⟨S128x196x768, .f32⟩ : BufTy).Contents (Elt F) → (⟨S128x196x768, .f32⟩ : BufTy).Contents (Elt F)),
    StableHlo.unary main_arg14 main_v102 (broadcastInDim S128x196x768 ![] bcast_S_S128x196x768 : (⟨S_, .f32⟩ : BufTy).Contents (Elt F) → (⟨S128x196x768, .f32⟩ : BufTy).Contents (Elt F)),
    StableHlo.binary main_v49 main_v102 main_v103 (mulf : (⟨S128x196x768, .f32⟩ : BufTy).Contents (Elt F) → (⟨S128x196x768, .f32⟩ : BufTy).Contents (Elt F) → (⟨S128x196x768, .f32⟩ : BufTy).Contents (Elt F)),
    StableHlo.binary main_v101 main_v103 main_v104 (addf : (⟨S128x196x768, .f32⟩ : BufTy).Contents (Elt F) → (⟨S128x196x768, .f32⟩ : BufTy).Contents (Elt F) → (⟨S128x196x768, .f32⟩ : BufTy).Contents (Elt F)),
    StableHlo.unary main_arg31 main_v105 (broadcastInDim S128x196x768 ![] bcast_S_S128x196x768 : (⟨S_, .f32⟩ : BufTy).Contents (Elt F) → (⟨S128x196x768, .f32⟩ : BufTy).Contents (Elt F)),
    StableHlo.binary main_v104 main_v105 main_v106 (Host.divf : (⟨S128x196x768, .f32⟩ : BufTy).Contents (Elt F) → (⟨S128x196x768, .f32⟩ : BufTy).Contents (Elt F) → (⟨S128x196x768, .f32⟩ : BufTy).Contents (Elt F)),
    StableHlo.nullary main_cst_16 (constant S_ .f32 0xC3000000#32),
    StableHlo.nullary main_cst_17 (constant S_ .f32 0x42FE0000#32),
    StableHlo.TRef.unary (StableHlo.TRef.of (T := ⟨S_, .f32⟩) main_cst_16) main_call16.v0 id,
    StableHlo.TRef.unary main_call16.v0 main_call16.v1 (broadcastInDim S128x196x768 ![] bcast_S_S128x196x768),
    StableHlo.TRef.binary main_call16.v1 (StableHlo.TRef.of (T := ⟨S128x196x768, .f32⟩) main_v106) main_call16.v2 maximumf,
    StableHlo.TRef.unary (StableHlo.TRef.of (T := ⟨S_, .f32⟩) main_cst_17) main_call16.v3 id,
    StableHlo.TRef.unary main_call16.v3 main_call16.v4 (broadcastInDim S128x196x768 ![] bcast_S_S128x196x768),
    StableHlo.TRef.binary main_call16.v4 main_call16.v2 main_call16.v5 minimumf,
    StableHlo.TRef.unary (StableHlo.TRef.of (T := ⟨S128x196x768, .f32⟩) main_v107) main_call17.v0 Host.roundeven,
    StableHlo.binary main_v108 main_v107 main_v109 (subf : (⟨S128x196x768, .f32⟩ : BufTy).Contents (Elt F) → (⟨S128x196x768, .f32⟩ : BufTy).Contents (Elt F) → (⟨S128x196x768, .f32⟩ : BufTy).Contents (Elt F)),
    StableHlo.binary main_v107 main_v109 main_v110 (addf : (⟨S128x196x768, .f32⟩ : BufTy).Contents (Elt F) → (⟨S128x196x768, .f32⟩ : BufTy).Contents (Elt F) → (⟨S128x196x768, .f32⟩ : BufTy).Contents (Elt F)) ]

theorem ops_layers : (ops : List (HloOp τ sig (Elt F))) = L1 ++ L2 ++ L3 ++ L4 ++ L5 ++ L6 ++ L7 ++ L8 ++ L9 := rfl

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What a layer leaves alone -/

theorem single_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

section Writes
variable {x a b y : Ref sig .tc} {W : List (Ref sig .tc)}
theorem w_nullary {v : y.ty.Contents (Elt F)} {hy} (h : y ∈ W) :
    (nullary (τ := τ) y v hy).writes ⊆ (W.map (Proc.devRef (τ := τ) .tc)).toFinset := by
  rw [nullary_writes]; exact single_sub_of_mem h
theorem w_unary {f : x.ty.Contents (Elt F) → y.ty.Contents (Elt F)} {hx hy} (h : y ∈ W) :
    (unary (τ := τ) x y f hx hy).writes ⊆ (W.map (Proc.devRef (τ := τ) .tc)).toFinset := by
  rw [unary_writes]; exact single_sub_of_mem h
theorem w_binary {f : a.ty.Contents (Elt F) → b.ty.Contents (Elt F) → y.ty.Contents (Elt F)} {ha hb hy} (h : y ∈ W) :
    (binary (τ := τ) a b y f ha hb hy).writes ⊆ (W.map (Proc.devRef (τ := τ) .tc)).toFinset := by
  rw [binary_writes]; exact single_sub_of_mem h
theorem w_reshape {he hn hx hy} (h : y ∈ W) :
    (reshape (τ := τ) (Val := Elt F) x y he hn hx hy).writes ⊆ (W.map (Proc.devRef (τ := τ) .tc)).toFinset := by
  rw [reshape_writes]; exact single_sub_of_mem h
end Writes

/-- The buffers layer 1 writes. -/
abbrev writes1 : List (Ref sig .tc) := [main_v0, main_v1, main_v2, main_v3, main_v4, main_v5, main_v6, main_v7, main_v8, main_cst, main_cst_0, main_call0_v0, main_call0_v1, main_call0_v2, main_call0_v3, main_call0_v4, main_v9, main_v10, main_v11, main_v12]
theorem hL1 : (L1 : List (HloOp τ sig (Elt F))).Forall fun op => op.writes ⊆ ((writes1).map (Proc.devRef (τ := τ) .tc)).toFinset :=
  ⟨w_reshape (by decide), w_binary (by decide), w_unary (by decide), w_unary (by decide), w_binary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep1 (W : Valuation τ sig (Elt F)) (r : Ref sig .tc) (hr : r ∉ writes1) :
    after L1 W (no_index (Proc.devRef .tc r)) = W (Proc.devRef .tc r) := after_of_writes_sub L1 W hL1 hr

/-- The buffers layer 2 writes. -/
abbrev writes2 : List (Ref sig .tc) := [main_v13, main_v14, main_v15, main_v16, main_v17, main_v18, main_v19, main_v20, main_v21, main_cst_1, main_cst_2, main_call2_v0, main_call2_v1, main_call2_v2, main_call2_v3, main_call2_v4, main_v22, main_v23, main_v24, main_v25]
theorem hL2 : (L2 : List (HloOp τ sig (Elt F))).Forall fun op => op.writes ⊆ ((writes2).map (Proc.devRef (τ := τ) .tc)).toFinset :=
  ⟨w_unary (by decide), w_binary (by decide), w_unary (by decide), w_unary (by decide), w_binary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep2 (W : Valuation τ sig (Elt F)) (r : Ref sig .tc) (hr : r ∉ writes2) :
    after L2 W (no_index (Proc.devRef .tc r)) = W (Proc.devRef .tc r) := after_of_writes_sub L2 W hL2 hr

/-- The buffers layer 3 writes. -/
abbrev writes3 : List (Ref sig .tc) := [main_v26, main_v27, main_v28, main_v29, main_v30, main_v31, main_v32, main_v33, main_v34, main_cst_3, main_cst_4, main_call4_v0, main_call4_v1, main_call4_v2, main_call4_v3, main_call4_v4, main_v35, main_v36, main_v37, main_v38]
theorem hL3 : (L3 : List (HloOp τ sig (Elt F))).Forall fun op => op.writes ⊆ ((writes3).map (Proc.devRef (τ := τ) .tc)).toFinset :=
  ⟨w_unary (by decide), w_binary (by decide), w_unary (by decide), w_unary (by decide), w_binary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep3 (W : Valuation τ sig (Elt F)) (r : Ref sig .tc) (hr : r ∉ writes3) :
    after L3 W (no_index (Proc.devRef .tc r)) = W (Proc.devRef .tc r) := after_of_writes_sub L3 W hL3 hr

/-- The buffers layer 4 writes. -/
abbrev writes4 : List (Ref sig .tc) := [main_v39, main_v40, main_v41, main_v42, main_v43, main_v44, main_v45, main_cst_5, main_cst_6, main_call6_v0, main_call6_v1, main_call6_v2, main_call6_v3, main_call6_v4, main_v46, main_v47, main_v48, main_v49]
theorem hL4 : (L4 : List (HloOp τ sig (Elt F))).Forall fun op => op.writes ⊆ ((writes4).map (Proc.devRef (τ := τ) .tc)).toFinset :=
  ⟨w_unary (by decide), w_binary (by decide), w_unary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep4 (W : Valuation τ sig (Elt F)) (r : Ref sig .tc) (hr : r ∉ writes4) :
    after L4 W (no_index (Proc.devRef .tc r)) = W (Proc.devRef .tc r) := after_of_writes_sub L4 W hL4 hr

/-- The buffers layer 5 writes. -/
abbrev writes5 : List (Ref sig .tc) := [main_v50, main_v51, main_v52, main_v53, main_v54, main_v55, main_v56, main_v57, main_cst_7, main_cst_8, main_call8_v0, main_call8_v1, main_call8_v2, main_call8_v3, main_call8_v4, main_v58, main_v59, main_v60, main_v61]
theorem hL5 : (L5 : List (HloOp τ sig (Elt F))).Forall fun op => op.writes ⊆ ((writes5).map (Proc.devRef (τ := τ) .tc)).toFinset :=
  ⟨w_binary (by decide), w_unary (by decide), w_unary (by decide), w_binary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep5 (W : Valuation τ sig (Elt F)) (r : Ref sig .tc) (hr : r ∉ writes5) :
    after L5 W (no_index (Proc.devRef .tc r)) = W (Proc.devRef .tc r) := after_of_writes_sub L5 W hL5 hr

/-- The buffers layer 6 writes. -/
abbrev writes6 : List (Ref sig .tc) := [main_v62, main_v63, main_v64, main_v65, main_v66, main_v67, main_v68, main_v69, main_cst_9, main_cst_10, main_call10_v0, main_call10_v1, main_call10_v2, main_call10_v3, main_call10_v4, main_v70, main_v71, main_v72, main_v73]
theorem hL6 : (L6 : List (HloOp τ sig (Elt F))).Forall fun op => op.writes ⊆ ((writes6).map (Proc.devRef (τ := τ) .tc)).toFinset :=
  ⟨w_binary (by decide), w_unary (by decide), w_unary (by decide), w_binary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep6 (W : Valuation τ sig (Elt F)) (r : Ref sig .tc) (hr : r ∉ writes6) :
    after L6 W (no_index (Proc.devRef .tc r)) = W (Proc.devRef .tc r) := after_of_writes_sub L6 W hL6 hr

/-- The buffers layer 7 writes. -/
abbrev writes7 : List (Ref sig .tc) := [main_v74, main_v75, main_v76, main_v77, main_v78, main_v79, main_v80, main_v81, main_cst_11, main_v82, main_v83, main_cst_12, main_cst_13, main_call12_v0, main_call12_v1, main_call12_v2, main_call12_v3, main_call12_v4, main_v84, main_v85, main_v86, main_v87]
theorem hL7 : (L7 : List (HloOp τ sig (Elt F))).Forall fun op => op.writes ⊆ ((writes7).map (Proc.devRef (τ := τ) .tc)).toFinset :=
  ⟨w_binary (by decide), w_unary (by decide), w_unary (by decide), w_binary (by decide), w_binary (by decide), w_binary (by decide), w_unary (by decide), w_binary (by decide), w_nullary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep7 (W : Valuation τ sig (Elt F)) (r : Ref sig .tc) (hr : r ∉ writes7) :
    after L7 W (no_index (Proc.devRef .tc r)) = W (Proc.devRef .tc r) := after_of_writes_sub L7 W hL7 hr

/-- The buffers layer 8 writes. -/
abbrev writes8 : List (Ref sig .tc) := [main_v88, main_v89, main_v90, main_v91, main_v92, main_v93, main_v94, main_v95, main_cst_14, main_cst_15, main_call14_v0, main_call14_v1, main_call14_v2, main_call14_v3, main_call14_v4, main_v96, main_v97, main_v98, main_v99]
theorem hL8 : (L8 : List (HloOp τ sig (Elt F))).Forall fun op => op.writes ⊆ ((writes8).map (Proc.devRef (τ := τ) .tc)).toFinset :=
  ⟨w_binary (by decide), w_unary (by decide), w_unary (by decide), w_binary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep8 (W : Valuation τ sig (Elt F)) (r : Ref sig .tc) (hr : r ∉ writes8) :
    after L8 W (no_index (Proc.devRef .tc r)) = W (Proc.devRef .tc r) := after_of_writes_sub L8 W hL8 hr

/-- The buffers layer 9 writes. -/
abbrev writes9 : List (Ref sig .tc) := [main_v100, main_v101, main_v102, main_v103, main_v104, main_v105, main_v106, main_cst_16, main_cst_17, main_call16_v0, main_call16_v1, main_call16_v2, main_call16_v3, main_call16_v4, main_v107, main_v108, main_v109, main_v110]
theorem hL9 : (L9 : List (HloOp τ sig (Elt F))).Forall fun op => op.writes ⊆ ((writes9).map (Proc.devRef (τ := τ) .tc)).toFinset :=
  ⟨w_unary (by decide), w_binary (by decide), w_unary (by decide), w_binary (by decide), w_binary (by decide), w_unary (by decide), w_binary (by decide), w_nullary (by decide), w_nullary (by decide), w_unary (by decide), w_unary (by decide), w_binary (by decide), w_unary (by decide), w_unary (by decide), w_binary (by decide), w_unary (by decide), w_binary (by decide), w_binary (by decide)⟩
theorem keep9 (W : Valuation τ sig (Elt F)) (r : Ref sig .tc) (hr : r ∉ writes9) :
    after L9 W (no_index (Proc.devRef .tc r)) = W (Proc.devRef .tc r) := after_of_writes_sub L9 W hL9 hr

end Cert.ReferenceIdeal.Hand

end
-- ==== Proof.Ref.Stages.lean ====
/-
  The stages as pure functions of arrays, and each layer's list of operations read back as its stage.
-/
import proofs.«131422_j57432302682877_2_alg».proof.Proof.Gen.ReferenceIdeal
import Idealize.ShloMosaic.Lib.StableHlo.Run
import proofs.«131422_j57432302682877_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stage functions -/

/-- The activation scale: the one-element array as a scalar. -/
def a0 (x1 : C F S1) : C F S_ := shapeCast S_ x1 shapeCasts_S1_S_

/-- A layer's scale: incoming scale times weight scale over outgoing scale. -/
def sclV (a w s : C F S_) : C F S_ := Host.divf (mulf a w) s

/-- The layer before its clip: the contraction with the weights, plus the bias, times the scale. -/
def preA (x : C F S128x196x768) (w : C F S768x768) (b : C F S768) (s : C F S_) : C F S128x196x768 :=
  mulf (addf (Host.dotGeneral dot_S128x196x768_S768x768_S128x196x768_2_1_01_0_n_n none x w)
      (broadcastInDim S128x196x768 ![0, 1, 2] bcast_S1x1x768_S128x196x768_0_1_2 (broadcastInDim S1x1x768 ![2] bcast_S768_S1x1x768_2 b)))
    (broadcastInDim S128x196x768 ![] bcast_S_S128x196x768 s)

/-- The layer before its clip: the contraction with the weights, plus the bias, times the scale. -/
def preB (x : C F S128x768x196) (w : C F S196x196) (b : C F S196) (s : C F S_) : C F S128x768x196 :=
  mulf (addf (Host.dotGeneral dot_S128x768x196_S196x196_S128x768x196_2_1_01_0_n_n none x w)
      (broadcastInDim S128x768x196 ![0, 1, 2] bcast_S1x1x196_S128x768x196_0_1_2 (broadcastInDim S1x1x196 ![2] bcast_S196_S1x1x196_2 b)))
    (broadcastInDim S128x768x196 ![] bcast_S_S128x768x196 s)

/-- The layer before its clip: the contraction with the weights, plus the bias, times the scale. -/
def preC (x : C F S128x196x768) (w : C F S3072x768) (b : C F S3072) (s : C F S_) : C F S128x196x3072 :=
  mulf (addf (Host.dotGeneral dot_S128x196x768_S3072x768_S128x196x3072_2_1_01_0_n_n none x w)
      (broadcastInDim S128x196x3072 ![0, 1, 2] bcast_S1x1x3072_S128x196x3072_0_1_2 (broadcastInDim S1x1x3072 ![2] bcast_S3072_S1x1x3072_2 b)))
    (broadcastInDim S128x196x3072 ![] bcast_S_S128x196x3072 s)

/-- The layer before its clip: the contraction with the weights, plus the bias, times the scale. -/
def preD (x : C F S128x196x3072) (w : C F S768x3072) (b : C F S768) (s : C F S_) : C F S128x196x768 :=
  mulf (addf (Host.dotGeneral dot_S128x196x3072_S768x3072_S128x196x768_2_1_01_0_n_n none x w)
      (broadcastInDim S128x196x768 ![0, 1, 2] bcast_S1x1x768_S128x196x768_0_1_2 (broadcastInDim S1x1x768 ![2] bcast_S768_S1x1x768_2 b)))
    (broadcastInDim S128x196x768 ![] bcast_S_S128x196x768 s)

/-- Clipped into [-128, 127]. -/
def clipT (y : C F S128x196x768) : C F S128x196x768 :=
  minimumf (broadcastInDim S128x196x768 ![] bcast_S_S128x196x768 (id (constant S_ .f32 0x42FE0000#32)))
    (maximumf (broadcastInDim S128x196x768 ![] bcast_S_S128x196x768 (id (constant S_ .f32 0xC3000000#32))) y)
/-- Clipped, then rounded through the clipped value. -/
def steT (y : C F S128x196x768) : C F S128x196x768 :=
  addf (clipT y) (subf (Host.roundeven (clipT y)) (clipT y))

/-- Clipped into [-128, 127]. -/
def clipU (y : C F S128x768x196) : C F S128x768x196 :=
  minimumf (broadcastInDim S128x768x196 ![] bcast_S_S128x768x196 (id (constant S_ .f32 0x42FE0000#32)))
    (maximumf (broadcastInDim S128x768x196 ![] bcast_S_S128x768x196 (id (constant S_ .f32 0xC3000000#32))) y)
/-- Clipped, then rounded through the clipped value. -/
def steU (y : C F S128x768x196) : C F S128x768x196 :=
  addf (clipU y) (subf (Host.roundeven (clipU y)) (clipU y))

/-- Clipped into [-128, 127]. -/
def clipH (y : C F S128x196x3072) : C F S128x196x3072 :=
  minimumf (broadcastInDim S128x196x3072 ![] bcast_S_S128x196x3072 (id (constant S_ .f32 0x42FE0000#32)))
    (maximumf (broadcastInDim S128x196x3072 ![] bcast_S_S128x196x3072 (id (constant S_ .f32 0xC3000000#32))) y)
/-- Clipped, then rounded through the clipped value. -/
def steH (y : C F S128x196x3072) : C F S128x196x3072 :=
  addf (clipH y) (subf (Host.roundeven (clipH y)) (clipH y))

/-- The positive part. -/
def reluT (y : C F S128x196x768) : C F S128x196x768 :=
  maximumf y (broadcastInDim S128x196x768 ![] bcast_S_S128x196x768 (constant S_ .f32 0x00000000#32))

/-- The patch axis and the feature axis exchanged. -/
def trTU (y : C F S128x196x768) : C F S128x768x196 := transpose S128x768x196 [0, 2, 1] y transposes_S128x196x768_S128x768x196_0_2_1
def trUT (y : C F S128x768x196) : C F S128x196x768 := transpose S128x196x768 [0, 2, 1] y transposes_S128x768x196_S128x196x768_0_2_1

/-- A quantised feature layer, 768 → 768. -/
def layA (x : C F S128x196x768) (w : C F S768x768) (b : C F S768) (a ws so : C F S_) : C F S128x196x768 := steT (preA x w b (sclV a ws so))
/-- The quantised patch-mixing layer, 196 → 196, on the exchanged array. -/
def layB (x : C F S128x768x196) (w : C F S196x196) (b : C F S196) (a ws so : C F S_) : C F S128x768x196 := steU (preB x w b (sclV a ws so))
/-- A quantised feature layer, 768 → 3072. -/
def layC (x : C F S128x196x768) (w : C F S3072x768) (b : C F S3072) (a ws so : C F S_) : C F S128x196x3072 := steH (preC x w b (sclV a ws so))
/-- A quantised feature layer, 3072 → 768, with a positive part before the clip. -/
def layD (x : C F S128x196x3072) (w : C F S768x3072) (b : C F S768) (a ws so : C F S_) : C F S128x196x768 := steT (reluT (preD x w b (sclV a ws so)))
/-- A quantised residual sum. -/
def qaddT (y i : C F S128x196x768) (ag org sout : C F S_) : C F S128x196x768 :=
  steT (Host.divf (addf (mulf y (broadcastInDim S128x196x768 ![] bcast_S_S128x196x768 ag)) (mulf i (broadcastInDim S128x196x768 ![] bcast_S_S128x196x768 org)))
    (broadcastInDim S128x196x768 ![] bcast_S_S128x196x768 sout))

/-! ## Each layer's operations are its stage -/

section Layers
variable (W : Valuation τ sig (Elt F))

theorem out1 : after L1 W (main_v12 : DevRef τ sig)
    = layA (W (main_arg0 : DevRef τ sig)) (W (main_arg2 : DevRef τ sig)) (W (main_arg3 : DevRef τ sig)) (a0 (W (main_arg1 : DevRef τ sig))) (W (main_arg4 : DevRef τ sig)) (W (main_arg5 : DevRef τ sig)) := by
  after_results_simp <;> rfl
theorem out1a : after L1 W (main_v0 : DevRef τ sig) = a0 (W (main_arg1 : DevRef τ sig)) := by
  after_results_simp <;> rfl
theorem out2 : after L2 W (main_v25 : DevRef τ sig)
    = layB (trTU (W (main_v12 : DevRef τ sig))) (W (main_arg6 : DevRef τ sig)) (W (main_arg7 : DevRef τ sig)) (W (main_arg5 : DevRef τ sig)) (W (main_arg8 : DevRef τ sig)) (W (main_arg9 : DevRef τ sig)) := by
  after_results_simp <;> rfl
theorem out3 : after L3 W (main_v38 : DevRef τ sig)
    = layA (trUT (W (main_v25 : DevRef τ sig))) (W (main_arg10 : DevRef τ sig)) (W (main_arg11 : DevRef τ sig)) (W (main_arg9 : DevRef τ sig)) (W (main_arg12 : DevRef τ sig)) (W (main_arg13 : DevRef τ sig)) := by
  after_results_simp <;> rfl
theorem out4 : after L4 W (main_v49 : DevRef τ sig)
    = qaddT (W (main_v38 : DevRef τ sig)) (W (main_arg0 : DevRef τ sig)) (W (main_arg13 : DevRef τ sig)) (W (main_v0 : DevRef τ sig)) (W (main_arg14 : DevRef τ sig)) := by
  after_results_simp <;> rfl
theorem out5 : after L5 W (main_v61 : DevRef τ sig)
    = layA (W (main_v49 : DevRef τ sig)) (W (main_arg15 : DevRef τ sig)) (W (main_arg16 : DevRef τ sig)) (W (main_arg14 : DevRef τ sig)) (W (main_arg17 : DevRef τ sig)) (W (main_arg18 : DevRef τ sig)) := by
  after_results_simp <;> rfl
theorem out6 : after L6 W (main_v73 : DevRef τ sig)
    = layC (W (main_v61 : DevRef τ sig)) (W (main_arg19 : DevRef τ sig)) (W (main_arg20 : DevRef τ sig)) (W (main_arg18 : DevRef τ sig)) (W (main_arg21 : DevRef τ sig)) (W (main_arg22 : DevRef τ sig)) := by
  after_results_simp <;> rfl
theorem out7 : after L7 W (main_v87 : DevRef τ sig)
    = layD (W (main_v73 : DevRef τ sig)) (W (main_arg23 : DevRef τ sig)) (W (main_arg24 : DevRef τ sig)) (W (main_arg22 : DevRef τ sig)) (W (main_arg25 : DevRef τ sig)) (W (main_arg26 : DevRef τ sig)) := by
  after_results_simp <;> rfl
theorem out8 : after L8 W (main_v99 : DevRef τ sig)
    = layA (W (main_v87 : DevRef τ sig)) (W (main_arg27 : DevRef τ sig)) (W (main_arg28 : DevRef τ sig)) (W (main_arg26 : DevRef τ sig)) (W (main_arg29 : DevRef τ sig)) (W (main_arg30 : DevRef τ sig)) := by
  after_results_simp <;> rfl
theorem out9 : after L9 W (main_v110 : DevRef τ sig)
    = qaddT (W (main_v99 : DevRef τ sig)) (W (main_v49 : DevRef τ sig)) (W (main_arg30 : DevRef τ sig)) (W (main_arg14 : DevRef τ sig)) (W (main_arg31 : DevRef τ sig)) := by
  after_results_simp <;> rfl

end Layers

end Cert.ReferenceIdeal.Hand

end
-- ==== Proof.Ref.Run.lean ====
/-
  The reference's run: every execution ends with the result buffer at the composition of the stages over the launch
  contents of the arguments, and the arguments unchanged.
-/
import proofs.«131422_j57432302682877_2_alg».proof.Proof.Gen.ReferenceIdeal
import Idealize.ShloMosaic.Lib.StableHlo.Run
import proofs.«131422_j57432302682877_2_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages over the buffers' contents -/

section Values
variable (V : Valuation τ sig (Elt F))

/-- The first feature layer. -/
def y1 : C F S128x196x768 := layA (V (main_arg0 : DevRef τ sig)) (V (main_arg2 : DevRef τ sig)) (V (main_arg3 : DevRef τ sig)) (a0 (V (main_arg1 : DevRef τ sig))) (V (main_arg4 : DevRef τ sig)) (V (main_arg5 : DevRef τ sig))
/-- The patch-mixing layer, on the exchanged array. -/
def y2 : C F S128x768x196 := layB (trTU (y1 V)) (V (main_arg6 : DevRef τ sig)) (V (main_arg7 : DevRef τ sig)) (V (main_arg5 : DevRef τ sig)) (V (main_arg8 : DevRef τ sig)) (V (main_arg9 : DevRef τ sig))
/-- The second feature layer, on the array exchanged back. -/
def y3 : C F S128x196x768 := layA (trUT (y2 V)) (V (main_arg10 : DevRef τ sig)) (V (main_arg11 : DevRef τ sig)) (V (main_arg9 : DevRef τ sig)) (V (main_arg12 : DevRef τ sig)) (V (main_arg13 : DevRef τ sig))
/-- The first residual sum. -/
def r1 : C F S128x196x768 := qaddT (y3 V) (V (main_arg0 : DevRef τ sig)) (V (main_arg13 : DevRef τ sig)) (a0 (V (main_arg1 : DevRef τ sig))) (V (main_arg14 : DevRef τ sig))
def y4 : C F S128x196x768 := layA (r1 V) (V (main_arg15 : DevRef τ sig)) (V (main_arg16 : DevRef τ sig)) (V (main_arg14 : DevRef τ sig)) (V (main_arg17 : DevRef τ sig)) (V (main_arg18 : DevRef τ sig))
def y5 : C F S128x196x3072 := layC (y4 V) (V (main_arg19 : DevRef τ sig)) (V (main_arg20 : DevRef τ sig)) (V (main_arg18 : DevRef τ sig)) (V (main_arg21 : DevRef τ sig)) (V (main_arg22 : DevRef τ sig))
def y6 : C F S128x196x768 := layD (y5 V) (V (main_arg23 : DevRef τ sig)) (V (main_arg24 : DevRef τ sig)) (V (main_arg22 : DevRef τ sig)) (V (main_arg25 : DevRef τ sig)) (V (main_arg26 : DevRef τ sig))
def y7 : C F S128x196x768 := layA (y6 V) (V (main_arg27 : DevRef τ sig)) (V (main_arg28 : DevRef τ sig)) (V (main_arg26 : DevRef τ sig)) (V (main_arg29 : DevRef τ sig)) (V (main_arg30 : DevRef τ sig))
/-- The second residual sum: the result. -/
def outV : C F S128x196x768 := qaddT (y7 V) (r1 V) (V (main_arg30 : DevRef τ sig)) (V (main_arg14 : DevRef τ sig)) (V (main_arg31 : DevRef τ sig))

theorem keep1' (W : Valuation τ sig (Elt F)) (r : Ref sig .tc) (hr : r ∉ writes1) :
    after L1 W (Proc.devRef .tc r) = W (Proc.devRef .tc r) := keep1 W r hr
theorem keep2' (W : Valuation τ sig (Elt F)) (r : Ref sig .tc) (hr : r ∉ writes2) :
    after L2 W (Proc.devRef .tc r) = W (Proc.devRef .tc r) := keep2 W r hr
theorem keep3' (W : Valuation τ sig (Elt F)) (r : Ref sig .tc) (hr : r ∉ writes3) :
    after L3 W (Proc.devRef .tc r) = W (Proc.devRef .tc r) := keep3 W r hr
theorem keep4' (W : Valuation τ sig (Elt F)) (r : Ref sig .tc) (hr : r ∉ writes4) :
    after L4 W (Proc.devRef .tc r) = W (Proc.devRef .tc r) := keep4 W r hr
theorem keep5' (W : Valuation τ sig (Elt F)) (r : Ref sig .tc) (hr : r ∉ writes5) :
    after L5 W (Proc.devRef .tc r) = W (Proc.devRef .tc r) := keep5 W r hr
theorem keep6' (W : Valuation τ sig (Elt F)) (r : Ref sig .tc) (hr : r ∉ writes6) :
    after L6 W (Proc.devRef .tc r) = W (Proc.devRef .tc r) := keep6 W r hr
theorem keep7' (W : Valuation τ sig (Elt F)) (r : Ref sig .tc) (hr : r ∉ writes7) :
    after L7 W (Proc.devRef .tc r) = W (Proc.devRef .tc r) := keep7 W r hr
theorem keep8' (W : Valuation τ sig (Elt F)) (r : Ref sig .tc) (hr : r ∉ writes8) :
    after L8 W (Proc.devRef .tc r) = W (Proc.devRef .tc r) := keep8 W r hr
theorem keep9' (W : Valuation τ sig (Elt F)) (r : Ref sig .tc) (hr : r ∉ writes9) :
    after L9 W (Proc.devRef .tc r) = W (Proc.devRef .tc r) := keep9 W r hr

/-- The operations' fold at the result buffer is the composition of the stages. -/
theorem out_eq : after ops V (main_v110 : DevRef τ sig) = outV V := by
  rw [ops_layers]
  simp only [after_append]
  rw [out9]
  simp (disch := decide) only [keep1, keep2, keep3, keep4, keep5, keep6, keep7, keep8, keep9]
  rw [out8]
  simp (disch := decide) only [keep1, keep2, keep3, keep4, keep5, keep6, keep7, keep8, keep9]
  rw [out7]
  simp (disch := decide) only [keep1, keep2, keep3, keep4, keep5, keep6, keep7, keep8, keep9]
  rw [out6]
  simp (disch := decide) only [keep1, keep2, keep3, keep4, keep5, keep6, keep7, keep8, keep9]
  rw [out5]
  simp (disch := decide) only [keep1, keep2, keep3, keep4, keep5, keep6, keep7, keep8, keep9]
  rw [out4]
  simp (disch := decide) only [keep1, keep2, keep3, keep4, keep5, keep6, keep7, keep8, keep9]
  rw [out3]
  simp (disch := decide) only [keep1, keep2, keep3, keep4, keep5, keep6, keep7, keep8, keep9]
  rw [out2]
  simp (disch := decide) only [keep1, keep2, keep3, keep4, keep5, keep6, keep7, keep8, keep9]
  rw [out1, out1a]
  rfl

/-- A buffer no layer writes keeps its contents through the whole line. -/
theorem keep_ops (r : Ref sig .tc) (h1 : r ∉ writes1) (h2 : r ∉ writes2) (h3 : r ∉ writes3) (h4 : r ∉ writes4) (h5 : r ∉ writes5)
    (h6 : r ∉ writes6) (h7 : r ∉ writes7) (h8 : r ∉ writes8) (h9 : r ∉ writes9) :
    after ops V (Proc.devRef .tc r) = V (Proc.devRef .tc r) := by
  rw [ops_layers]
  simp only [after_append]
  rw [keep9' _ r h9, keep8' _ r h8, keep7' _ r h7, keep6' _ r h6, keep5' _ r h5, keep4' _ r h4, keep3' _ r h3, keep2' _ r h2, keep1' _ r h1]

end Values

/-- The result: the stages composed over the launch contents. -/
def refOut (m : (ℓ : Loc nD τ sig) → Buf (Elt F) ℓ) (c : Dev nD) : Buf (Elt F) ((c.tc : Thread nD τ).loc main_v110) :=
  outV (launchContents m c)

/-- On every device, for any float values, from any memory with zero counters: every weakly fair execution of the entry
    function terminates with the result buffer at the stages' composition and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = refOut m c
      ∧ r.2.mem ((c.tc : Thread nD τ).loc main_arg31) = m ((c.tc : Thread nD τ).loc main_arg31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun _ h c => ⟨(h c main_v110).trans (out_eq _),
      (h c main_arg31).trans (keep_ops _ main_arg31 (by decide) (by decide) (by decide) (by decide) (by decide) (by decide) (by decide) (by decide) (by decide)),
      (h c main_arg0).trans (keep_ops _ main_arg0 (by decide) (by decide) (by decide) (by decide) (by decide) (by decide) (by decide) (by decide) (by decide)),
      (h c main_arg1).trans (keep_ops _ main_arg1 (by decide) (by decide) (by decide) (by decide) (by decide) (by decide) (by decide) (by decide) (by decide)),
      (h c main_arg2).trans (keep_ops _ main_arg2 (by decide) (by decide) (by decide) (by decide) (by decide) (by decide) (by decide) (by decide) (by decide)),
      (h c main_arg3).trans (keep_ops _ main_arg3 (by decide) (by decide) (by decide) (by decide) (by decide) (by decide) (by decide) (by decide) (by decide)),
      (h c main_arg4).trans (keep_ops _ main_arg4 (by decide) (by decide) (by decide) (by decide) (by decide) (by decide) (by decide) (by decide) (by decide)),
      (h c main_arg5).trans (keep_ops _ main_arg5 (by decide) (by decide) (by decide) (by decide) (by decide) (by decide) (by decide) (by decide) (by decide)),
      (h c main_arg6).trans (keep_ops _ main_arg6 (by decide) (by decide) (by decide) (by decide) (by decide) (by decide) (by decide) (by decide) (by decide)),
      (h c main_arg7).trans (keep_ops _ main_arg7 (by decide) (by decide) (by decide) (by decide) (by decide) (by decide) (by decide) (by decide) (by decide)),
      (h c main_arg8).trans (keep_ops _ main_arg8 (by decide) (by decide) (by decide) (by decide) (by decide) (by decide) (by decide) (by decide) (by decide)),
      (h c main_arg9).trans (keep_ops _ main_arg9 (by decide) (by decide) (by decide) (by decide) (by decide) (by decide) (by decide) (by decide) (by decide)),
      (h c main_arg10).trans (keep_ops _ main_arg10 (by decide) (by decide) (by decide) (by decide) (by decide) (by decide) (by decide) (by decide) (by decide)),
      (h c main_arg11).trans (keep_ops _ main_arg11 (by decide) (by decide) (by decide) (by decide) (by decide) (by decide) (by decide) (by decide) (by decide)),
      (h c main_arg12).trans (keep_ops _ main_arg12 (by decide) (by decide) (by decide) (by decide) (by decide) (by decide) (by decide) (by decide) (by decide)),
      (h c main_arg13).trans (keep_ops _ main_arg13 (by decide) (by decide) (by decide) (by decide) (by decide) (by decide) (by decide) (by decide) (by decide)),
      (h c main_arg14).trans (keep_ops _ main_arg14 (by decide) (by decide) (by decide) (by decide) (by decide) (by decide) (by decide) (by decide) (by decide)),
      (h c main_arg15).trans (keep_ops _ main_arg15 (by decide) (by decide) (by decide) (by decide) (by decide) (by decide) (by decide) (by decide) (by decide)),
      (h c main_arg16).trans (keep_ops _ main_arg16 (by decide) (by decide) (by decide) (by decide) (by decide) (by decide) (by decide) (by decide) (by decide)),
      (h c main_arg17).trans (keep_ops _ main_arg17 (by decide) (by decide) (by decide) (by decide) (by decide) (by decide) (by decide) (by decide) (by decide)),
      (h c main_arg18).trans (keep_ops _ main_arg18 (by decide) (by decide) (by decide) (by decide) (by decide) (by decide) (by decide) (by decide) (by decide)),
      (h c main_arg19).trans (keep_ops _ main_arg19 (by decide) (by decide) (by decide) (by decide) (by decide) (by decide) (by decide) (by decide) (by decide)),
      (h c main_arg20).trans (keep_ops _ main_arg20 (by decide) (by decide) (by decide) (by decide) (by decide) (by decide) (by decide) (by decide) (by decide)),
      (h c main_arg21).trans (keep_ops _ main_arg21 (by decide) (by decide) (by decide) (by decide) (by decide) (by decide) (by decide) (by decide) (by decide)),
      (h c main_arg22).trans (keep_ops _ main_arg22 (by decide) (by decide) (by decide) (by decide) (by decide) (by decide) (by decide) (by decide) (by decide)),
      (h c main_arg23).trans (keep_ops _ main_arg23 (by decide) (by decide) (by decide) (by decide) (by decide) (by decide) (by decide) (by decide) (by decide)),
      (h c main_arg24).trans (keep_ops _ main_arg24 (by decide) (by decide) (by decide) (by decide) (by decide) (by decide) (by decide) (by decide) (by decide)),
      (h c main_arg25).trans (keep_ops _ main_arg25 (by decide) (by decide) (by decide) (by decide) (by decide) (by decide) (by decide) (by decide) (by decide)),
      (h c main_arg26).trans (keep_ops _ main_arg26 (by decide) (by decide) (by decide) (by decide) (by decide) (by decide) (by decide) (by decide) (by decide)),
      (h c main_arg27).trans (keep_ops _ main_arg27 (by decide) (by decide) (by decide) (by decide) (by decide) (by decide) (by decide) (by decide) (by decide)),
      (h c main_arg28).trans (keep_ops _ main_arg28 (by decide) (by decide) (by decide) (by decide) (by decide) (by decide) (by decide) (by decide) (by decide)),
      (h c main_arg29).trans (keep_ops _ main_arg29 (by decide) (by decide) (by decide) (by decide) (by decide) (by decide) (by decide) (by decide) (by decide)),
      (h c main_arg30).trans (keep_ops _ main_arg30 (by decide) (by decide) (by decide) (by decide) (by decide) (by decide) (by decide) (by decide) (by decide)),
      (h c main_arg31).trans (keep_ops _ main_arg31 (by decide) (by decide) (by decide) (by decide) (by decide) (by decide) (by decide) (by decide) (by decide))⟩)
    (run_seq scopedRefs_eq scopedSems_eq defs main (fun _ => ops) main_eq (fun _ => ops_sub) m ρ)

end Cert.ReferenceIdeal.Hand

end
-- ==== Proof.Ref.Args.lean ====
/-
  The reference's inputs read as plain functions on the extended reals: an array at its coordinates, a matrix at
  (output feature, input feature), a vector at its coordinate, a scalar.
-/
import proofs.«131422_j57432302682877_2_alg».proof.Proof.Gen.ReferenceIdeal
import Idealize.ShloMosaic.Lib.ValueIdx
import Idealize.ShloMosaic.PureOps.Ideal

noncomputable section

namespace Cert.ReferenceIdeal.Hand

open Cert.ReferenceIdeal Idealize.ShloMosaic Idealize.ShloMosaic.TcCoe Idealize.SL.Sem

/-- A rank-3 array as rows (the pairs of its first two coordinates) by its last coordinate. -/
def rows3 {a b k : Nat} (x : (⟨3, ![a, b, k]⟩ : Shape).Idx → EReal) : Fin a × Fin b → Fin k → EReal :=
  fun r j => x (ValueIdx.ix3 r.1 r.2 j)
/-- A matrix at (row, column). -/
def mat {n k : Nat} (x : (⟨2, ![n, k]⟩ : Shape).Idx → EReal) : Fin n → Fin k → EReal := fun o j => x (ValueIdx.ix2 o j)
/-- A vector at its coordinate. -/
def vec {n : Nat} (x : (⟨1, ![n]⟩ : Shape).Idx → EReal) : Fin n → EReal := fun o => x (ValueIdx.ix1 o)
/-- A rank-0 array's one element. -/
def sc (x : (⟨0, ![]⟩ : Shape).Idx → EReal) : EReal := x ValueIdx.ix0

variable (m : (ℓ : Loc nD τ sig) → Buf (Elt Ideal) ℓ) (c : Dev nD)

/-- The activation scale: the one-element array's element. -/
def inA : EReal := (m ((c.tc : Thread nD τ).loc main_arg1) : (⟨S1, .f32⟩ : BufTy).Contents (Elt Ideal)) (ValueIdx.ix1 (0 : Fin 1))
def inX : Fin 128 × Fin 196 → Fin 768 → EReal := rows3 (m ((c.tc : Thread nD τ).loc main_arg0) : (⟨S128x196x768, .f32⟩ : BufTy).Contents (Elt Ideal))
def inWn1 : Fin 768 → Fin 768 → EReal := mat (m ((c.tc : Thread nD τ).loc main_arg2) : (⟨S768x768, .f32⟩ : BufTy).Contents (Elt Ideal))
def inbn1 : Fin 768 → EReal := vec (m ((c.tc : Thread nD τ).loc main_arg3) : (⟨S768, .f32⟩ : BufTy).Contents (Elt Ideal))
def inwsn1 : EReal := sc (m ((c.tc : Thread nD τ).loc main_arg4) : (⟨S_, .f32⟩ : BufTy).Contents (Elt Ideal))
def inson1 : EReal := sc (m ((c.tc : Thread nD τ).loc main_arg5) : (⟨S_, .f32⟩ : BufTy).Contents (Elt Ideal))
def inWat : Fin 196 → Fin 196 → EReal := mat (m ((c.tc : Thread nD τ).loc main_arg6) : (⟨S196x196, .f32⟩ : BufTy).Contents (Elt Ideal))
def inbat : Fin 196 → EReal := vec (m ((c.tc : Thread nD τ).loc main_arg7) : (⟨S196, .f32⟩ : BufTy).Contents (Elt Ideal))
def inwsat : EReal := sc (m ((c.tc : Thread nD τ).loc main_arg8) : (⟨S_, .f32⟩ : BufTy).Contents (Elt Ideal))
def insoat : EReal := sc (m ((c.tc : Thread nD τ).loc main_arg9) : (⟨S_, .f32⟩ : BufTy).Contents (Elt Ideal))
def inWg1 : Fin 768 → Fin 768 → EReal := mat (m ((c.tc : Thread nD τ).loc main_arg10) : (⟨S768x768, .f32⟩ : BufTy).Contents (Elt Ideal))
def inbg1 : Fin 768 → EReal := vec (m ((c.tc : Thread nD τ).loc main_arg11) : (⟨S768, .f32⟩ : BufTy).Contents (Elt Ideal))
def inwsg1 : EReal := sc (m ((c.tc : Thread nD τ).loc main_arg12) : (⟨S_, .f32⟩ : BufTy).Contents (Elt Ideal))
def insog1 : EReal := sc (m ((c.tc : Thread nD τ).loc main_arg13) : (⟨S_, .f32⟩ : BufTy).Contents (Elt Ideal))
def insadd1 : EReal := sc (m ((c.tc : Thread nD τ).loc main_arg14) : (⟨S_, .f32⟩ : BufTy).Contents (Elt Ideal))
def inWn2 : Fin 768 → Fin 768 → EReal := mat (m ((c.tc : Thread nD τ).loc main_arg15) : (⟨S768x768, .f32⟩ : BufTy).Contents (Elt Ideal))
def inbn2 : Fin 768 → EReal := vec (m ((c.tc : Thread nD τ).loc main_arg16) : (⟨S768, .f32⟩ : BufTy).Contents (Elt Ideal))
def inwsn2 : EReal := sc (m ((c.tc : Thread nD τ).loc main_arg17) : (⟨S_, .f32⟩ : BufTy).Contents (Elt Ideal))
def inson2 : EReal := sc (m ((c.tc : Thread nD τ).loc main_arg18) : (⟨S_, .f32⟩ : BufTy).Contents (Elt Ideal))
def inWf1 : Fin 3072 → Fin 768 → EReal := mat (m ((c.tc : Thread nD τ).loc main_arg19) : (⟨S3072x768, .f32⟩ : BufTy).Contents (Elt Ideal))
def inbf1 : Fin 3072 → EReal := vec (m ((c.tc : Thread nD τ).loc main_arg20) : (⟨S3072, .f32⟩ : BufTy).Contents (Elt Ideal))
def inwsf1 : EReal := sc (m ((c.tc : Thread nD τ).loc main_arg21) : (⟨S_, .f32⟩ : BufTy).Contents (Elt Ideal))
def insof1 : EReal := sc (m ((c.tc : Thread nD τ).loc main_arg22) : (⟨S_, .f32⟩ : BufTy).Contents (Elt Ideal))
def inWf2 : Fin 768 → Fin 3072 → EReal := mat (m ((c.tc : Thread nD τ).loc main_arg23) : (⟨S768x3072, .f32⟩ : BufTy).Contents (Elt Ideal))
def inbf2 : Fin 768 → EReal := vec (m ((c.tc : Thread nD τ).loc main_arg24) : (⟨S768, .f32⟩ : BufTy).Contents (Elt Ideal))
def inwsf2 : EReal := sc (m ((c.tc : Thread nD τ).loc main_arg25) : (⟨S_, .f32⟩ : BufTy).Contents (Elt Ideal))
def insof2 : EReal := sc (m ((c.tc : Thread nD τ).loc main_arg26) : (⟨S_, .f32⟩ : BufTy).Contents (Elt Ideal))
def inWg2 : Fin 768 → Fin 768 → EReal := mat (m ((c.tc : Thread nD τ).loc main_arg27) : (⟨S768x768, .f32⟩ : BufTy).Contents (Elt Ideal))
def inbg2 : Fin 768 → EReal := vec (m ((c.tc : Thread nD τ).loc main_arg28) : (⟨S768, .f32⟩ : BufTy).Contents (Elt Ideal))
def inwsg2 : EReal := sc (m ((c.tc : Thread nD τ).loc main_arg29) : (⟨S_, .f32⟩ : BufTy).Contents (Elt Ideal))
def insog2 : EReal := sc (m ((c.tc : Thread nD τ).loc main_arg30) : (⟨S_, .f32⟩ : BufTy).Contents (Elt Ideal))
def insadd2 : EReal := sc (m ((c.tc : Thread nD τ).loc main_arg31) : (⟨S_, .f32⟩ : BufTy).Contents (Elt Ideal))

end Cert.ReferenceIdeal.Hand

end
-- ==== Proof.Ref.Read.lean ====
/-
  The stages read at an index, at the extended reals: each is the specification's layer on the rows of its input.
-/
import proofs.«131422_j57432302682877_2_alg».proof.Proof.Gen.ReferenceIdeal
import Idealize.ShloMosaic.Lib.StableHlo.Run
import proofs.«131422_j57432302682877_2_alg».proof.Proof.Ref.Run
import proofs.«131422_j57432302682877_2_alg».proof.Proof.Ref.Args
import proofs.«131422_j57432302682877_2_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

open scoped BigOperators

/-! ## The data movement at an index -/

/-- A broadcast scalar reads the scalar everywhere. -/
theorem bscal_apply {α : Type} {S : Shape} (h : S_.BroadcastsInDim S (![] : Fin 0 → Fin S.rank)) (s : S_.Idx → α) (I : S.Idx) :
    broadcastInDim S ![] h s I = s ValueIdx.ix0 :=
  broadcastInDim_apply _ h s I ValueIdx.ix0 (fun a => a.elim0)

/-- The bias, broadcast along the leading axes, read at an index is the bias at the last coordinate. -/
theorem biasT_apply {α : Type} (b : S768.Idx → α) (i : Fin 128) (j : Fin 196) (d : Fin 768) :
    broadcastInDim S128x196x768 ![0, 1, 2] bcast_S1x1x768_S128x196x768_0_1_2 (broadcastInDim S1x1x768 ![2] bcast_S768_S1x1x768_2 b) (ValueIdx.ix3 i j d) = b (ValueIdx.ix1 d) :=
  (broadcastInDim_apply _ bcast_S1x1x768_S128x196x768_0_1_2 _ (ValueIdx.ix3 i j d) (ValueIdx.ix3 (0 : Fin 1) (0 : Fin 1) d) (fun a => match a with
    | ⟨0, _⟩ => by show 0 = if (1 : Nat) = 1 then 0 else i.val; rw [if_pos rfl]
    | ⟨1, _⟩ => by show 0 = if (1 : Nat) = 1 then 0 else j.val; rw [if_pos rfl]
    | ⟨2, _⟩ => by show d.val = if (768 : Nat) = 1 then 0 else d.val; rw [if_neg (by decide)])).trans
  (broadcastInDim_apply _ bcast_S768_S1x1x768_2 b (ValueIdx.ix3 (0 : Fin 1) (0 : Fin 1) d) (ValueIdx.ix1 d) (fun a => match a with
    | ⟨0, _⟩ => by show d.val = if (768 : Nat) = 1 then 0 else d.val; rw [if_neg (by decide)]))

/-- The bias, broadcast along the leading axes, read at an index is the bias at the last coordinate. -/
theorem biasU_apply {α : Type} (b : S196.Idx → α) (i : Fin 128) (j : Fin 768) (d : Fin 196) :
    broadcastInDim S128x768x196 ![0, 1, 2] bcast_S1x1x196_S128x768x196_0_1_2 (broadcastInDim S1x1x196 ![2] bcast_S196_S1x1x196_2 b) (ValueIdx.ix3 i j d) = b (ValueIdx.ix1 d) :=
  (broadcastInDim_apply _ bcast_S1x1x196_S128x768x196_0_1_2 _ (ValueIdx.ix3 i j d) (ValueIdx.ix3 (0 : Fin 1) (0 : Fin 1) d) (fun a => match a with
    | ⟨0, _⟩ => by show 0 = if (1 : Nat) = 1 then 0 else i.val; rw [if_pos rfl]
    | ⟨1, _⟩ => by show 0 = if (1 : Nat) = 1 then 0 else j.val; rw [if_pos rfl]
    | ⟨2, _⟩ => by show d.val = if (196 : Nat) = 1 then 0 else d.val; rw [if_neg (by decide)])).trans
  (broadcastInDim_apply _ bcast_S196_S1x1x196_2 b (ValueIdx.ix3 (0 : Fin 1) (0 : Fin 1) d) (ValueIdx.ix1 d) (fun a => match a with
    | ⟨0, _⟩ => by show d.val = if (196 : Nat) = 1 then 0 else d.val; rw [if_neg (by decide)]))

/-- The bias, broadcast along the leading axes, read at an index is the bias at the last coordinate. -/
theorem biasH_apply {α : Type} (b : S3072.Idx → α) (i : Fin 128) (j : Fin 196) (d : Fin 3072) :
    broadcastInDim S128x196x3072 ![0, 1, 2] bcast_S1x1x3072_S128x196x3072_0_1_2 (broadcastInDim S1x1x3072 ![2] bcast_S3072_S1x1x3072_2 b) (ValueIdx.ix3 i j d) = b (ValueIdx.ix1 d) :=
  (broadcastInDim_apply _ bcast_S1x1x3072_S128x196x3072_0_1_2 _ (ValueIdx.ix3 i j d) (ValueIdx.ix3 (0 : Fin 1) (0 : Fin 1) d) (fun a => match a with
    | ⟨0, _⟩ => by show 0 = if (1 : Nat) = 1 then 0 else i.val; rw [if_pos rfl]
    | ⟨1, _⟩ => by show 0 = if (1 : Nat) = 1 then 0 else j.val; rw [if_pos rfl]
    | ⟨2, _⟩ => by show d.val = if (3072 : Nat) = 1 then 0 else d.val; rw [if_neg (by decide)])).trans
  (broadcastInDim_apply _ bcast_S3072_S1x1x3072_2 b (ValueIdx.ix3 (0 : Fin 1) (0 : Fin 1) d) (ValueIdx.ix1 d) (fun a => match a with
    | ⟨0, _⟩ => by show d.val = if (3072 : Nat) = 1 then 0 else d.val; rw [if_neg (by decide)]))

theorem trTU_apply (y : C F S128x196x768) (i : Fin 128) (d : Fin 768) (n : Fin 196) :
    trTU y (ValueIdx.ix3 i d n) = y (ValueIdx.ix3 i n d) :=
  transpose_apply [0, 2, 1] y transposes_S128x196x768_S128x768x196_0_2_1 (ValueIdx.ix3 i d n) (ValueIdx.ix3 i n d) (fun b => match b with
    | ⟨0, _⟩ => rfl
    | ⟨1, _⟩ => rfl
    | ⟨2, _⟩ => rfl)
theorem trUT_apply (y : C F S128x768x196) (i : Fin 128) (n : Fin 196) (d : Fin 768) :
    trUT y (ValueIdx.ix3 i n d) = y (ValueIdx.ix3 i d n) :=
  transpose_apply [0, 2, 1] y transposes_S128x768x196_S128x196x768_0_2_1 (ValueIdx.ix3 i n d) (ValueIdx.ix3 i d n) (fun b => match b with
    | ⟨0, _⟩ => rfl
    | ⟨1, _⟩ => rfl
    | ⟨2, _⟩ => rfl)

theorem a0_apply (x1 : C F S1) : a0 x1 ValueIdx.ix0 = x1 (ValueIdx.ix1 (0 : Fin 1)) :=
  shapeCast_apply x1 shapeCasts_S1_S_ ValueIdx.ix0 (ValueIdx.ix1 (0 : Fin 1)) (by decide)

/-! ## The contractions at an index -/

/-! The contraction `A`: [128, 196, 768] with [768, 768] over the last axis of each. -/
theorem lhsA_0 (i : S128x196x768.Idx) (q : dot_S128x196x768_S768x768_S128x196x768_2_1_01_0_n_n.contr.Idx) : (dot_S128x196x768_S768x768_S128x196x768_2_1_01_0_n_n.lhsIdx i q 0).val = (i 0).val := by
  unfold DotDims.lhsIdx
  rw [dif_neg (show ¬(0 : Fin S128x196x768.rank) ∈ dot_S128x196x768_S768x768_S128x196x768_2_1_01_0_n_n.lhsBatch by decide), dif_pos (show (0 : Fin S128x196x768.rank) ∈ dot_S128x196x768_S768x768_S128x196x768_2_1_01_0_n_n.lhsNonContracting by decide)]
  rfl
theorem lhsA_1 (i : S128x196x768.Idx) (q : dot_S128x196x768_S768x768_S128x196x768_2_1_01_0_n_n.contr.Idx) : (dot_S128x196x768_S768x768_S128x196x768_2_1_01_0_n_n.lhsIdx i q 1).val = (i 1).val := by
  unfold DotDims.lhsIdx
  rw [dif_neg (show ¬(1 : Fin S128x196x768.rank) ∈ dot_S128x196x768_S768x768_S128x196x768_2_1_01_0_n_n.lhsBatch by decide), dif_pos (show (1 : Fin S128x196x768.rank) ∈ dot_S128x196x768_S768x768_S128x196x768_2_1_01_0_n_n.lhsNonContracting by decide)]
  rfl
theorem lhsA_2 (i : S128x196x768.Idx) (q : dot_S128x196x768_S768x768_S128x196x768_2_1_01_0_n_n.contr.Idx) : (dot_S128x196x768_S768x768_S128x196x768_2_1_01_0_n_n.lhsIdx i q 2).val = (q ⟨0, by decide⟩).val :=
  dot_S128x196x768_S768x768_S128x196x768_2_1_01_0_n_n.lhsIdx_val_of_single rfl i q
theorem rhsA_0 (i : S128x196x768.Idx) (q : dot_S128x196x768_S768x768_S128x196x768_2_1_01_0_n_n.contr.Idx) : (dot_S128x196x768_S768x768_S128x196x768_2_1_01_0_n_n.rhsIdx i q 0).val = (i 2).val := by
  unfold DotDims.rhsIdx
  rw [dif_neg (show ¬(0 : Fin S768x768.rank) ∈ dot_S128x196x768_S768x768_S128x196x768_2_1_01_0_n_n.rhsBatch by decide), dif_pos (show (0 : Fin S768x768.rank) ∈ dot_S128x196x768_S768x768_S128x196x768_2_1_01_0_n_n.rhsNonContracting by decide)]
  rfl
theorem rhsA_1 (i : S128x196x768.Idx) (q : dot_S128x196x768_S768x768_S128x196x768_2_1_01_0_n_n.contr.Idx) : (dot_S128x196x768_S768x768_S128x196x768_2_1_01_0_n_n.rhsIdx i q 1).val = (q ⟨0, by decide⟩).val :=
  dot_S128x196x768_S768x768_S128x196x768_2_1_01_0_n_n.rhsIdx_val_of_single rfl i q
/-- At the extended reals the host's contraction, read at an index, is the sum over the contracted coordinate. -/
theorem dotA_apply (x : C Ideal S128x196x768) (w : C Ideal S768x768) (i : Fin 128) (j : Fin 196) (d : Fin 768) :
    Host.dotGeneral (F := Ideal) (φ₁ := .f32) (φ₂ := .f32) dot_S128x196x768_S768x768_S128x196x768_2_1_01_0_n_n none x w (ValueIdx.ix3 i j d) = ∑ k : Fin 768, x (ValueIdx.ix3 i j k) * w (ValueIdx.ix2 d k) := by
  simp only [Host.dotGeneral]
  rw [Ideal.dotGeneral_apply, ← Equiv.sum_comp (ValueIdx.contrEquiv1 dot_S128x196x768_S768x768_S128x196x768_2_1_01_0_n_n 768 rfl rfl).symm]
  refine Finset.sum_congr rfl fun k _ => ?_
  have hk := ValueIdx.contrEquiv1_symm_val dot_S128x196x768_S768x768_S128x196x768_2_1_01_0_n_n 768 rfl rfl k
  have el : dot_S128x196x768_S768x768_S128x196x768_2_1_01_0_n_n.lhsIdx (ValueIdx.ix3 i j d) ((ValueIdx.contrEquiv1 dot_S128x196x768_S768x768_S128x196x768_2_1_01_0_n_n 768 rfl rfl).symm k) = ValueIdx.ix3 i j k := funext fun a => Fin.ext (by
    match a with
    | ⟨0, _⟩ => exact lhsA_0 _ _
    | ⟨1, _⟩ => exact lhsA_1 _ _
    | ⟨2, _⟩ => exact (lhsA_2 _ _).trans hk)
  have er : dot_S128x196x768_S768x768_S128x196x768_2_1_01_0_n_n.rhsIdx (ValueIdx.ix3 i j d) ((ValueIdx.contrEquiv1 dot_S128x196x768_S768x768_S128x196x768_2_1_01_0_n_n 768 rfl rfl).symm k) = ValueIdx.ix2 d k := funext fun a => Fin.ext (by
    match a with
    | ⟨0, _⟩ => exact rhsA_0 _ _
    | ⟨1, _⟩ => exact (rhsA_1 _ _).trans hk)
  rw [el, er]

/-! The contraction `B`: [128, 768, 196] with [196, 196] over the last axis of each. -/
theorem lhsB_0 (i : S128x768x196.Idx) (q : dot_S128x768x196_S196x196_S128x768x196_2_1_01_0_n_n.contr.Idx) : (dot_S128x768x196_S196x196_S128x768x196_2_1_01_0_n_n.lhsIdx i q 0).val = (i 0).val := by
  unfold DotDims.lhsIdx
  rw [dif_neg (show ¬(0 : Fin S128x768x196.rank) ∈ dot_S128x768x196_S196x196_S128x768x196_2_1_01_0_n_n.lhsBatch by decide), dif_pos (show (0 : Fin S128x768x196.rank) ∈ dot_S128x768x196_S196x196_S128x768x196_2_1_01_0_n_n.lhsNonContracting by decide)]
  rfl
theorem lhsB_1 (i : S128x768x196.Idx) (q : dot_S128x768x196_S196x196_S128x768x196_2_1_01_0_n_n.contr.Idx) : (dot_S128x768x196_S196x196_S128x768x196_2_1_01_0_n_n.lhsIdx i q 1).val = (i 1).val := by
  unfold DotDims.lhsIdx
  rw [dif_neg (show ¬(1 : Fin S128x768x196.rank) ∈ dot_S128x768x196_S196x196_S128x768x196_2_1_01_0_n_n.lhsBatch by decide), dif_pos (show (1 : Fin S128x768x196.rank) ∈ dot_S128x768x196_S196x196_S128x768x196_2_1_01_0_n_n.lhsNonContracting by decide)]
  rfl
theorem lhsB_2 (i : S128x768x196.Idx) (q : dot_S128x768x196_S196x196_S128x768x196_2_1_01_0_n_n.contr.Idx) : (dot_S128x768x196_S196x196_S128x768x196_2_1_01_0_n_n.lhsIdx i q 2).val = (q ⟨0, by decide⟩).val :=
  dot_S128x768x196_S196x196_S128x768x196_2_1_01_0_n_n.lhsIdx_val_of_single rfl i q
theorem rhsB_0 (i : S128x768x196.Idx) (q : dot_S128x768x196_S196x196_S128x768x196_2_1_01_0_n_n.contr.Idx) : (dot_S128x768x196_S196x196_S128x768x196_2_1_01_0_n_n.rhsIdx i q 0).val = (i 2).val := by
  unfold DotDims.rhsIdx
  rw [dif_neg (show ¬(0 : Fin S196x196.rank) ∈ dot_S128x768x196_S196x196_S128x768x196_2_1_01_0_n_n.rhsBatch by decide), dif_pos (show (0 : Fin S196x196.rank) ∈ dot_S128x768x196_S196x196_S128x768x196_2_1_01_0_n_n.rhsNonContracting by decide)]
  rfl
theorem rhsB_1 (i : S128x768x196.Idx) (q : dot_S128x768x196_S196x196_S128x768x196_2_1_01_0_n_n.contr.Idx) : (dot_S128x768x196_S196x196_S128x768x196_2_1_01_0_n_n.rhsIdx i q 1).val = (q ⟨0, by decide⟩).val :=
  dot_S128x768x196_S196x196_S128x768x196_2_1_01_0_n_n.rhsIdx_val_of_single rfl i q
/-- At the extended reals the host's contraction, read at an index, is the sum over the contracted coordinate. -/
theorem dotB_apply (x : C Ideal S128x768x196) (w : C Ideal S196x196) (i : Fin 128) (j : Fin 768) (d : Fin 196) :
    Host.dotGeneral (F := Ideal) (φ₁ := .f32) (φ₂ := .f32) dot_S128x768x196_S196x196_S128x768x196_2_1_01_0_n_n none x w (ValueIdx.ix3 i j d) = ∑ k : Fin 196, x (ValueIdx.ix3 i j k) * w (ValueIdx.ix2 d k) := by
  simp only [Host.dotGeneral]
  rw [Ideal.dotGeneral_apply, ← Equiv.sum_comp (ValueIdx.contrEquiv1 dot_S128x768x196_S196x196_S128x768x196_2_1_01_0_n_n 196 rfl rfl).symm]
  refine Finset.sum_congr rfl fun k _ => ?_
  have hk := ValueIdx.contrEquiv1_symm_val dot_S128x768x196_S196x196_S128x768x196_2_1_01_0_n_n 196 rfl rfl k
  have el : dot_S128x768x196_S196x196_S128x768x196_2_1_01_0_n_n.lhsIdx (ValueIdx.ix3 i j d) ((ValueIdx.contrEquiv1 dot_S128x768x196_S196x196_S128x768x196_2_1_01_0_n_n 196 rfl rfl).symm k) = ValueIdx.ix3 i j k := funext fun a => Fin.ext (by
    match a with
    | ⟨0, _⟩ => exact lhsB_0 _ _
    | ⟨1, _⟩ => exact lhsB_1 _ _
    | ⟨2, _⟩ => exact (lhsB_2 _ _).trans hk)
  have er : dot_S128x768x196_S196x196_S128x768x196_2_1_01_0_n_n.rhsIdx (ValueIdx.ix3 i j d) ((ValueIdx.contrEquiv1 dot_S128x768x196_S196x196_S128x768x196_2_1_01_0_n_n 196 rfl rfl).symm k) = ValueIdx.ix2 d k := funext fun a => Fin.ext (by
    match a with
    | ⟨0, _⟩ => exact rhsB_0 _ _
    | ⟨1, _⟩ => exact (rhsB_1 _ _).trans hk)
  rw [el, er]

/-! The contraction `C`: [128, 196, 768] with [3072, 768] over the last axis of each. -/
theorem lhsC_0 (i : S128x196x3072.Idx) (q : dot_S128x196x768_S3072x768_S128x196x3072_2_1_01_0_n_n.contr.Idx) : (dot_S128x196x768_S3072x768_S128x196x3072_2_1_01_0_n_n.lhsIdx i q 0).val = (i 0).val := by
  unfold DotDims.lhsIdx
  rw [dif_neg (show ¬(0 : Fin S128x196x768.rank) ∈ dot_S128x196x768_S3072x768_S128x196x3072_2_1_01_0_n_n.lhsBatch by decide), dif_pos (show (0 : Fin S128x196x768.rank) ∈ dot_S128x196x768_S3072x768_S128x196x3072_2_1_01_0_n_n.lhsNonContracting by decide)]
  rfl
theorem lhsC_1 (i : S128x196x3072.Idx) (q : dot_S128x196x768_S3072x768_S128x196x3072_2_1_01_0_n_n.contr.Idx) : (dot_S128x196x768_S3072x768_S128x196x3072_2_1_01_0_n_n.lhsIdx i q 1).val = (i 1).val := by
  unfold DotDims.lhsIdx
  rw [dif_neg (show ¬(1 : Fin S128x196x768.rank) ∈ dot_S128x196x768_S3072x768_S128x196x3072_2_1_01_0_n_n.lhsBatch by decide), dif_pos (show (1 : Fin S128x196x768.rank) ∈ dot_S128x196x768_S3072x768_S128x196x3072_2_1_01_0_n_n.lhsNonContracting by decide)]
  rfl
theorem lhsC_2 (i : S128x196x3072.Idx) (q : dot_S128x196x768_S3072x768_S128x196x3072_2_1_01_0_n_n.contr.Idx) : (dot_S128x196x768_S3072x768_S128x196x3072_2_1_01_0_n_n.lhsIdx i q 2).val = (q ⟨0, by decide⟩).val :=
  dot_S128x196x768_S3072x768_S128x196x3072_2_1_01_0_n_n.lhsIdx_val_of_single rfl i q
theorem rhsC_0 (i : S128x196x3072.Idx) (q : dot_S128x196x768_S3072x768_S128x196x3072_2_1_01_0_n_n.contr.Idx) : (dot_S128x196x768_S3072x768_S128x196x3072_2_1_01_0_n_n.rhsIdx i q 0).val = (i 2).val := by
  unfold DotDims.rhsIdx
  rw [dif_neg (show ¬(0 : Fin S3072x768.rank) ∈ dot_S128x196x768_S3072x768_S128x196x3072_2_1_01_0_n_n.rhsBatch by decide), dif_pos (show (0 : Fin S3072x768.rank) ∈ dot_S128x196x768_S3072x768_S128x196x3072_2_1_01_0_n_n.rhsNonContracting by decide)]
  rfl
theorem rhsC_1 (i : S128x196x3072.Idx) (q : dot_S128x196x768_S3072x768_S128x196x3072_2_1_01_0_n_n.contr.Idx) : (dot_S128x196x768_S3072x768_S128x196x3072_2_1_01_0_n_n.rhsIdx i q 1).val = (q ⟨0, by decide⟩).val :=
  dot_S128x196x768_S3072x768_S128x196x3072_2_1_01_0_n_n.rhsIdx_val_of_single rfl i q
/-- At the extended reals the host's contraction, read at an index, is the sum over the contracted coordinate. -/
theorem dotC_apply (x : C Ideal S128x196x768) (w : C Ideal S3072x768) (i : Fin 128) (j : Fin 196) (d : Fin 3072) :
    Host.dotGeneral (F := Ideal) (φ₁ := .f32) (φ₂ := .f32) dot_S128x196x768_S3072x768_S128x196x3072_2_1_01_0_n_n none x w (ValueIdx.ix3 i j d) = ∑ k : Fin 768, x (ValueIdx.ix3 i j k) * w (ValueIdx.ix2 d k) := by
  simp only [Host.dotGeneral]
  rw [Ideal.dotGeneral_apply, ← Equiv.sum_comp (ValueIdx.contrEquiv1 dot_S128x196x768_S3072x768_S128x196x3072_2_1_01_0_n_n 768 rfl rfl).symm]
  refine Finset.sum_congr rfl fun k _ => ?_
  have hk := ValueIdx.contrEquiv1_symm_val dot_S128x196x768_S3072x768_S128x196x3072_2_1_01_0_n_n 768 rfl rfl k
  have el : dot_S128x196x768_S3072x768_S128x196x3072_2_1_01_0_n_n.lhsIdx (ValueIdx.ix3 i j d) ((ValueIdx.contrEquiv1 dot_S128x196x768_S3072x768_S128x196x3072_2_1_01_0_n_n 768 rfl rfl).symm k) = ValueIdx.ix3 i j k := funext fun a => Fin.ext (by
    match a with
    | ⟨0, _⟩ => exact lhsC_0 _ _
    | ⟨1, _⟩ => exact lhsC_1 _ _
    | ⟨2, _⟩ => exact (lhsC_2 _ _).trans hk)
  have er : dot_S128x196x768_S3072x768_S128x196x3072_2_1_01_0_n_n.rhsIdx (ValueIdx.ix3 i j d) ((ValueIdx.contrEquiv1 dot_S128x196x768_S3072x768_S128x196x3072_2_1_01_0_n_n 768 rfl rfl).symm k) = ValueIdx.ix2 d k := funext fun a => Fin.ext (by
    match a with
    | ⟨0, _⟩ => exact rhsC_0 _ _
    | ⟨1, _⟩ => exact (rhsC_1 _ _).trans hk)
  rw [el, er]

/-! The contraction `D`: [128, 196, 3072] with [768, 3072] over the last axis of each. -/
theorem lhsD_0 (i : S128x196x768.Idx) (q : dot_S128x196x3072_S768x3072_S128x196x768_2_1_01_0_n_n.contr.Idx) : (dot_S128x196x3072_S768x3072_S128x196x768_2_1_01_0_n_n.lhsIdx i q 0).val = (i 0).val := by
  unfold DotDims.lhsIdx
  rw [dif_neg (show ¬(0 : Fin S128x196x3072.rank) ∈ dot_S128x196x3072_S768x3072_S128x196x768_2_1_01_0_n_n.lhsBatch by decide), dif_pos (show (0 : Fin S128x196x3072.rank) ∈ dot_S128x196x3072_S768x3072_S128x196x768_2_1_01_0_n_n.lhsNonContracting by decide)]
  rfl
theorem lhsD_1 (i : S128x196x768.Idx) (q : dot_S128x196x3072_S768x3072_S128x196x768_2_1_01_0_n_n.contr.Idx) : (dot_S128x196x3072_S768x3072_S128x196x768_2_1_01_0_n_n.lhsIdx i q 1).val = (i 1).val := by
  unfold DotDims.lhsIdx
  rw [dif_neg (show ¬(1 : Fin S128x196x3072.rank) ∈ dot_S128x196x3072_S768x3072_S128x196x768_2_1_01_0_n_n.lhsBatch by decide), dif_pos (show (1 : Fin S128x196x3072.rank) ∈ dot_S128x196x3072_S768x3072_S128x196x768_2_1_01_0_n_n.lhsNonContracting by decide)]
  rfl
theorem lhsD_2 (i : S128x196x768.Idx) (q : dot_S128x196x3072_S768x3072_S128x196x768_2_1_01_0_n_n.contr.Idx) : (dot_S128x196x3072_S768x3072_S128x196x768_2_1_01_0_n_n.lhsIdx i q 2).val = (q ⟨0, by decide⟩).val :=
  dot_S128x196x3072_S768x3072_S128x196x768_2_1_01_0_n_n.lhsIdx_val_of_single rfl i q
theorem rhsD_0 (i : S128x196x768.Idx) (q : dot_S128x196x3072_S768x3072_S128x196x768_2_1_01_0_n_n.contr.Idx) : (dot_S128x196x3072_S768x3072_S128x196x768_2_1_01_0_n_n.rhsIdx i q 0).val = (i 2).val := by
  unfold DotDims.rhsIdx
  rw [dif_neg (show ¬(0 : Fin S768x3072.rank) ∈ dot_S128x196x3072_S768x3072_S128x196x768_2_1_01_0_n_n.rhsBatch by decide), dif_pos (show (0 : Fin S768x3072.rank) ∈ dot_S128x196x3072_S768x3072_S128x196x768_2_1_01_0_n_n.rhsNonContracting by decide)]
  rfl
theorem rhsD_1 (i : S128x196x768.Idx) (q : dot_S128x196x3072_S768x3072_S128x196x768_2_1_01_0_n_n.contr.Idx) : (dot_S128x196x3072_S768x3072_S128x196x768_2_1_01_0_n_n.rhsIdx i q 1).val = (q ⟨0, by decide⟩).val :=
  dot_S128x196x3072_S768x3072_S128x196x768_2_1_01_0_n_n.rhsIdx_val_of_single rfl i q
/-- At the extended reals the host's contraction, read at an index, is the sum over the contracted coordinate. -/
theorem dotD_apply (x : C Ideal S128x196x3072) (w : C Ideal S768x3072) (i : Fin 128) (j : Fin 196) (d : Fin 768) :
    Host.dotGeneral (F := Ideal) (φ₁ := .f32) (φ₂ := .f32) dot_S128x196x3072_S768x3072_S128x196x768_2_1_01_0_n_n none x w (ValueIdx.ix3 i j d) = ∑ k : Fin 3072, x (ValueIdx.ix3 i j k) * w (ValueIdx.ix2 d k) := by
  simp only [Host.dotGeneral]
  rw [Ideal.dotGeneral_apply, ← Equiv.sum_comp (ValueIdx.contrEquiv1 dot_S128x196x3072_S768x3072_S128x196x768_2_1_01_0_n_n 3072 rfl rfl).symm]
  refine Finset.sum_congr rfl fun k _ => ?_
  have hk := ValueIdx.contrEquiv1_symm_val dot_S128x196x3072_S768x3072_S128x196x768_2_1_01_0_n_n 3072 rfl rfl k
  have el : dot_S128x196x3072_S768x3072_S128x196x768_2_1_01_0_n_n.lhsIdx (ValueIdx.ix3 i j d) ((ValueIdx.contrEquiv1 dot_S128x196x3072_S768x3072_S128x196x768_2_1_01_0_n_n 3072 rfl rfl).symm k) = ValueIdx.ix3 i j k := funext fun a => Fin.ext (by
    match a with
    | ⟨0, _⟩ => exact lhsD_0 _ _
    | ⟨1, _⟩ => exact lhsD_1 _ _
    | ⟨2, _⟩ => exact (lhsD_2 _ _).trans hk)
  have er : dot_S128x196x3072_S768x3072_S128x196x768_2_1_01_0_n_n.rhsIdx (ValueIdx.ix3 i j d) ((ValueIdx.contrEquiv1 dot_S128x196x3072_S768x3072_S128x196x768_2_1_01_0_n_n 3072 rfl rfl).symm k) = ValueIdx.ix2 d k := funext fun a => Fin.ext (by
    match a with
    | ⟨0, _⟩ => exact rhsD_0 _ _
    | ⟨1, _⟩ => exact (rhsD_1 _ _).trans hk)
  rw [el, er]

/-! ## The stages at an index -/

theorem clipT_apply (y : C Ideal S128x196x768) (I : S128x196x768.Idx) : clipT y I = Spec.clip (y I) := by
  unfold clipT
  rw [ValueIdx.minimumf_apply, ValueIdx.maximumf_apply, bscal_apply, bscal_apply]
  rfl
/-- Rounding through the clipped value is the quantiser. -/
theorem steT_apply (y : C Ideal S128x196x768) (I : S128x196x768.Idx) : steT y I = Spec.q (y I) := by
  show clipT y I + (Ideal.liftRound Ideal.roundHalfEven (clipT y I) - clipT y I) = Spec.q (y I)
  rw [clipT_apply]
  exact Spec.ste_eq (y I)

theorem clipU_apply (y : C Ideal S128x768x196) (I : S128x768x196.Idx) : clipU y I = Spec.clip (y I) := by
  unfold clipU
  rw [ValueIdx.minimumf_apply, ValueIdx.maximumf_apply, bscal_apply, bscal_apply]
  rfl
/-- Rounding through the clipped value is the quantiser. -/
theorem steU_apply (y : C Ideal S128x768x196) (I : S128x768x196.Idx) : steU y I = Spec.q (y I) := by
  show clipU y I + (Ideal.liftRound Ideal.roundHalfEven (clipU y I) - clipU y I) = Spec.q (y I)
  rw [clipU_apply]
  exact Spec.ste_eq (y I)

theorem clipH_apply (y : C Ideal S128x196x3072) (I : S128x196x3072.Idx) : clipH y I = Spec.clip (y I) := by
  unfold clipH
  rw [ValueIdx.minimumf_apply, ValueIdx.maximumf_apply, bscal_apply, bscal_apply]
  rfl
/-- Rounding through the clipped value is the quantiser. -/
theorem steH_apply (y : C Ideal S128x196x3072) (I : S128x196x3072.Idx) : steH y I = Spec.q (y I) := by
  show clipH y I + (Ideal.liftRound Ideal.roundHalfEven (clipH y I) - clipH y I) = Spec.q (y I)
  rw [clipH_apply]
  exact Spec.ste_eq (y I)

theorem reluT_apply (y : C Ideal S128x196x768) (I : S128x196x768.Idx) : reluT y I = max (y I) Spec.zero := by
  unfold reluT
  rw [ValueIdx.maximumf_apply, bscal_apply]
  rfl

theorem preA_apply (x : C Ideal S128x196x768) (w : C Ideal S768x768) (b : C Ideal S768) (s : C Ideal S_) (i : Fin 128) (j : Fin 196) (d : Fin 768) :
    preA x w b s (ValueIdx.ix3 i j d) = (∑ k : Fin 768, x (ValueIdx.ix3 i j k) * w (ValueIdx.ix2 d k) + b (ValueIdx.ix1 d)) * s ValueIdx.ix0 := by
  unfold preA
  rw [ValueIdx.mulf_apply, ValueIdx.addf_apply, dotA_apply, biasT_apply, bscal_apply]

theorem preB_apply (x : C Ideal S128x768x196) (w : C Ideal S196x196) (b : C Ideal S196) (s : C Ideal S_) (i : Fin 128) (j : Fin 768) (d : Fin 196) :
    preB x w b s (ValueIdx.ix3 i j d) = (∑ k : Fin 196, x (ValueIdx.ix3 i j k) * w (ValueIdx.ix2 d k) + b (ValueIdx.ix1 d)) * s ValueIdx.ix0 := by
  unfold preB
  rw [ValueIdx.mulf_apply, ValueIdx.addf_apply, dotB_apply, biasU_apply, bscal_apply]

theorem preC_apply (x : C Ideal S128x196x768) (w : C Ideal S3072x768) (b : C Ideal S3072) (s : C Ideal S_) (i : Fin 128) (j : Fin 196) (d : Fin 3072) :
    preC x w b s (ValueIdx.ix3 i j d) = (∑ k : Fin 768, x (ValueIdx.ix3 i j k) * w (ValueIdx.ix2 d k) + b (ValueIdx.ix1 d)) * s ValueIdx.ix0 := by
  unfold preC
  rw [ValueIdx.mulf_apply, ValueIdx.addf_apply, dotC_apply, biasH_apply, bscal_apply]

theorem preD_apply (x : C Ideal S128x196x3072) (w : C Ideal S768x3072) (b : C Ideal S768) (s : C Ideal S_) (i : Fin 128) (j : Fin 196) (d : Fin 768) :
    preD x w b s (ValueIdx.ix3 i j d) = (∑ k : Fin 3072, x (ValueIdx.ix3 i j k) * w (ValueIdx.ix2 d k) + b (ValueIdx.ix1 d)) * s ValueIdx.ix0 := by
  unfold preD
  rw [ValueIdx.mulf_apply, ValueIdx.addf_apply, dotD_apply, biasT_apply, bscal_apply]

/-! ## The stages on rows -/

/-- The layer is the specification's quantised linear layer on the array's rows. -/
theorem layA_rows (x : C Ideal S128x196x768) (w : C Ideal S768x768) (b : C Ideal S768) (a ws so : C Ideal S_) :
    rows3 (layA x w b a ws so) = Spec.lin (rows3 x) (mat w) (vec b) (Spec.scale (sc a) (sc ws) (sc so)) := by
  funext r o
  obtain ⟨i, j⟩ := r
  show layA x w b a ws so (ValueIdx.ix3 i j o) = _
  unfold layA
  rw [steT_apply, preA_apply]
  rfl

/-- The layer is the specification's quantised linear layer on the array's rows. -/
theorem layB_rows (x : C Ideal S128x768x196) (w : C Ideal S196x196) (b : C Ideal S196) (a ws so : C Ideal S_) :
    rows3 (layB x w b a ws so) = Spec.lin (rows3 x) (mat w) (vec b) (Spec.scale (sc a) (sc ws) (sc so)) := by
  funext r o
  obtain ⟨i, j⟩ := r
  show layB x w b a ws so (ValueIdx.ix3 i j o) = _
  unfold layB
  rw [steU_apply, preB_apply]
  rfl

/-- The layer is the specification's quantised linear layer on the array's rows. -/
theorem layC_rows (x : C Ideal S128x196x768) (w : C Ideal S3072x768) (b : C Ideal S3072) (a ws so : C Ideal S_) :
    rows3 (layC x w b a ws so) = Spec.lin (rows3 x) (mat w) (vec b) (Spec.scale (sc a) (sc ws) (sc so)) := by
  funext r o
  obtain ⟨i, j⟩ := r
  show layC x w b a ws so (ValueIdx.ix3 i j o) = _
  unfold layC
  rw [steH_apply, preC_apply]
  rfl

/-- The layer with a positive part is the specification's. -/
theorem layD_rows (x : C Ideal S128x196x3072) (w : C Ideal S768x3072) (b : C Ideal S768) (a ws so : C Ideal S_) :
    rows3 (layD x w b a ws so) = Spec.linRelu (rows3 x) (mat w) (vec b) (Spec.scale (sc a) (sc ws) (sc so)) Spec.zero := by
  funext r o
  obtain ⟨i, j⟩ := r
  show layD x w b a ws so (ValueIdx.ix3 i j o) = _
  unfold layD
  rw [steT_apply, reluT_apply, preD_apply]
  rfl

/-- The residual sum is the specification's. -/
theorem qaddT_rows (y i : C Ideal S128x196x768) (ag org sout : C Ideal S_) :
    rows3 (qaddT y i ag org sout) = Spec.qadd (rows3 y) (rows3 i) (sc ag) (sc org) (sc sout) := by
  funext r o
  obtain ⟨p, q⟩ := r
  show qaddT y i ag org sout (ValueIdx.ix3 p q o) = _
  unfold qaddT
  rw [steT_apply]
  show Spec.q (Ideal.div (y (ValueIdx.ix3 p q o) * broadcastInDim S128x196x768 ![] bcast_S_S128x196x768 ag (ValueIdx.ix3 p q o)
      + i (ValueIdx.ix3 p q o) * broadcastInDim S128x196x768 ![] bcast_S_S128x196x768 org (ValueIdx.ix3 p q o))
      (broadcastInDim S128x196x768 ![] bcast_S_S128x196x768 sout (ValueIdx.ix3 p q o))) = _
  rw [bscal_apply, bscal_apply, bscal_apply]
  rfl

theorem trTU_rows (y : C Ideal S128x196x768) : rows3 (trTU y) = fun r k => rows3 y (r.1, k) r.2 := by
  funext r k; exact trTU_apply y r.1 r.2 k
theorem trUT_rows (y : C Ideal S128x768x196) : rows3 (trUT y) = fun r k => rows3 y (r.1, k) r.2 := by
  funext r k; exact trUT_apply y r.1 r.2 k

end Cert.ReferenceIdeal.Hand

end
-- ==== Proof.Ref.Value.lean ====
/-
  The reference's result is the specification's block on the inputs, index by index.
-/
import proofs.«131422_j57432302682877_2_alg».proof.Proof.Gen.ReferenceIdeal
import Idealize.ShloMosaic.Lib.StableHlo.Run
import proofs.«131422_j57432302682877_2_alg».proof.Proof.Ref.Read

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem sc_a0 (x1 : C Ideal S1) : sc (a0 x1) = x1 (ValueIdx.ix1 (0 : Fin 1)) := a0_apply x1

/-- The block the specification states, on the reference's inputs. -/
def specOut (m : (ℓ : Loc nD τ sig) → Buf (Elt Ideal) ℓ) (c : Dev nD) : Fin 128 × Fin 196 → Fin 768 → EReal :=
  Spec.half2 (Spec.half1 (inX m c) (inA m c) (inWn1 m c) (inbn1 m c) (inwsn1 m c) (inson1 m c) (inWat m c) (inbat m c) (inwsat m c) (insoat m c) (inWg1 m c) (inbg1 m c) (inwsg1 m c) (insog1 m c) (insadd1 m c))
    (insadd1 m c) (inWn2 m c) (inbn2 m c) (inwsn2 m c) (inson2 m c) (inWf1 m c) (inbf1 m c) (inwsf1 m c) (insof1 m c) (inWf2 m c) (inbf2 m c) (inwsf2 m c) (insof2 m c) (inWg2 m c) (inbg2 m c) (inwsg2 m c) (insog2 m c) (insadd2 m c)

/-- The result's rows are the specification's block. -/
theorem refOut_rows (m : (ℓ : Loc nD τ sig) → Buf (Elt Ideal) ℓ) (c : Dev nD) :
    rows3 (refOut m c : C Ideal S128x196x768) = specOut m c := by
  have e1 : rows3 (y1 (launchContents m c)) = _ := layA_rows _ _ _ _ _ _
  have e2 : rows3 (y2 (launchContents m c)) = _ := layB_rows _ _ _ _ _ _
  have e3 : rows3 (y3 (launchContents m c)) = _ := layA_rows _ _ _ _ _ _
  have e4 : rows3 (r1 (launchContents m c)) = _ := qaddT_rows _ _ _ _ _
  have e5 : rows3 (y4 (launchContents m c)) = _ := layA_rows _ _ _ _ _ _
  have e6 : rows3 (y5 (launchContents m c)) = _ := layC_rows _ _ _ _ _ _
  have e7 : rows3 (y6 (launchContents m c)) = _ := layD_rows _ _ _ _ _ _
  have e8 : rows3 (y7 (launchContents m c)) = _ := layA_rows _ _ _ _ _ _
  have e9 : rows3 (outV (launchContents m c)) = _ := qaddT_rows _ _ _ _ _
  show rows3 (outV (launchContents m c)) = _
  rw [e9, e8, e7, e6, e5, e4, e3, trUT_rows, e2, trTU_rows, e1, sc_a0]
  rfl

/-- The result at an index is the specification's block at that row and feature. -/
theorem refOut_apply (m : (ℓ : Loc nD τ sig) → Buf (Elt Ideal) ℓ) (c : Dev nD) (b : Fin 128) (n : Fin 196) (d : Fin 768) :
    (refOut m c : C Ideal S128x196x768) (ValueIdx.ix3 b n d)
      = Spec.half2 (Spec.half1 (inX m c) (inA m c) (inWn1 m c) (inbn1 m c) (inwsn1 m c) (inson1 m c) (inWat m c) (inbat m c) (inwsat m c) (insoat m c) (inWg1 m c) (inbg1 m c) (inwsg1 m c) (insog1 m c) (insadd1 m c))
          (insadd1 m c) (inWn2 m c) (inbn2 m c) (inwsn2 m c) (inson2 m c) (inWf1 m c) (inbf1 m c) (inwsf1 m c) (insof1 m c) (inWf2 m c) (inbf2 m c) (inwsf2 m c) (insof2 m c) (inWg2 m c) (inbg2 m c) (inwsg2 m c) (insog2 m c) (insadd2 m c) (b, n) d :=
  congrFun (congrFun (refOut_rows m c) (b, n)) d

end Cert.ReferenceIdeal.Hand

end
-- ==== Proof.lean ====
/-
  The two programs compute one function.

  The block takes an activation array `x` of shape [128, 196, 768] with its scale and the weights, biases and scales of
  seven quantised linear layers. A quantised value is `q y`: `y` clipped into [-128, 127], then rounded to the nearest
  integer, ties to even. A layer reads `q ((Σ_k X r k · W o k + b o) · s)` at row `r` and output feature `o` (one layer
  takes a positive part before the clip); a residual sum reads `q ((Y · ag + I · org) / sout)`. The first half applies a
  feature layer, a layer mixing along the patch axis (its rows are the pairs (batch, feature)), a second feature layer,
  and the residual sum with `x`; the second half applies four feature layers and the residual sum with the first
  half's result.

  The reference spells the rounding as `c + (round c − c)` with `c` the clipped value. The clipped value is a real
  number, so this is `round c` on the extended reals, whatever the layer's input: nothing is assumed finite.

  The kernel program runs the block as four launches over row blocks, each writing back whole blocks of its result.
  Read entry by entry, each launch's result array is the specification's layer (or layers, and residual sum) of the
  arrays it was given, and chaining the four gives the same composition of quantised layers. Both result arrays are
  therefore the specification's block of the arguments; from equal arguments they are equal, and every argument array
  ends as it started.
-/
import proofs.«131422_j57432302682877_2_alg».proof.Defs
import proofs.«131422_j57432302682877_2_alg».proof.Proof.Gen.Kernel
import proofs.«131422_j57432302682877_2_alg».proof.Proof.Gen.KernelIdeal
import proofs.«131422_j57432302682877_2_alg».proof.Proof.Gen.ReferenceIdeal
import proofs.«131422_j57432302682877_2_alg».proof.Proof.Gen.Pre_finite_inputs
import proofs.«131422_j57432302682877_2_alg».proof.Proof.K.Run
import proofs.«131422_j57432302682877_2_alg».proof.Proof.KI.Run
import proofs.«131422_j57432302682877_2_alg».proof.Proof.KI.Value
import proofs.«131422_j57432302682877_2_alg».proof.Proof.Ref.Value
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.ValueIdx
open Cert.KernelIdeal Cert.KernelIdeal.Hand Cert.Spec

/-- The word-level program runs and leaves its arguments as they were. -/
theorem frame_words : Cert.frame_Kernel := fun m ρ _ => Cert.Kernel.Hand.frame m ρ

/-- So does the same program read on the extended reals. -/
theorem frame_reals : Cert.frame_KernelIdeal := fun m ρ _ => Cert.KernelIdeal.Hand.frame m ρ

/-- The reference runs and leaves its arguments as they were: its run's post, the two results dropped. -/
theorem frame_reference : Cert.frame_ReferenceIdeal := fun m ρ _ =>
  (θ_run Cert.ReferenceIdeal.defs _ _).mono (fun _ h c => (h c).2.2) (Cert.ReferenceIdeal.Hand.run (F := Ideal) m ρ)

/-- From equal arguments both programs end with the specification's block of those arguments in their result arrays,
    hence with equal results: the block depends on the thirty-two argument arrays alone, and each of them is read
    the same way on both sides. The second result is the last argument, passed through. -/
theorem same_block : Cert.algebraic_KernelIdeal_ReferenceIdeal := by
  intro m g m' g' _ hagree
  refine ⟨fun c => rd (St9 m) c main_v43, fun c => m ((c.tc : Thread nD τ).loc main_arg31), run_result m g, ?_⟩
  refine (θ_run Cert.ReferenceIdeal.defs _ _).mono (fun r h c => ?_) (Cert.ReferenceIdeal.Hand.run (F := Ideal) m' g')
  obtain ⟨h0, h1, h2, h3, h4, h5, h6, h7, h8, h9, h10, h11, h12, h13, h14, h15, h16, h17, h18, h19, h20, h21, h22, h23, h24, h25, h26, h27, h28, h29, h30, h31⟩ := hagree c
  refine ⟨(h c).1.trans ?_, (h c).2.1.trans h31, (h c).2.2⟩
  show (Cert.ReferenceIdeal.Hand.refOut m' c : (⟨3, ![128, 196, 768]⟩ : Shape).Idx → EReal) = _
  funext i
  obtain ⟨b, n, d, rfl⟩ : ∃ (b : Fin 128) (n : Fin 196) (d : Fin 768), i = ValueIdx.ix3 b n d :=
    ⟨i 0, i 1, i 2, ValueIdx.eq_ix3 i⟩
  refine (Cert.ReferenceIdeal.Hand.refOut_apply m' c b n d).trans (Eq.trans ?_ (result_apply m c b n d).symm)
  have e0 : Cert.ReferenceIdeal.Hand.inX m' c = aX m c := congrArg (Cert.ReferenceIdeal.Hand.rows3 (a := 128) (b := 196) (k := 768)) h0
  have e1 : Cert.ReferenceIdeal.Hand.inA m' c = aA m c := congrArg (fun x : (⟨1, ![1]⟩ : Shape).Idx → EReal => x (ValueIdx.ix1 (0 : Fin 1))) h1
  have e2 : Cert.ReferenceIdeal.Hand.inWn1 m' c = aWn1 m c := congrArg (Cert.ReferenceIdeal.Hand.mat (n := 768) (k := 768)) h2
  have e3 : Cert.ReferenceIdeal.Hand.inbn1 m' c = abn1 m c := congrArg (Cert.ReferenceIdeal.Hand.vec (n := 768)) h3
  have e4 : Cert.ReferenceIdeal.Hand.inwsn1 m' c = awsn1 m c := congrArg (Cert.ReferenceIdeal.Hand.sc ) h4
  have e5 : Cert.ReferenceIdeal.Hand.inson1 m' c = ason1 m c := congrArg (Cert.ReferenceIdeal.Hand.sc ) h5
  have e6 : Cert.ReferenceIdeal.Hand.inWat m' c = aWat m c := congrArg (Cert.ReferenceIdeal.Hand.mat (n := 196) (k := 196)) h6
  have e7 : Cert.ReferenceIdeal.Hand.inbat m' c = abat m c := congrArg (Cert.ReferenceIdeal.Hand.vec (n := 196)) h7
  have e8 : Cert.ReferenceIdeal.Hand.inwsat m' c = awsat m c := congrArg (Cert.ReferenceIdeal.Hand.sc ) h8
  have e9 : Cert.ReferenceIdeal.Hand.insoat m' c = asoat m c := congrArg (Cert.ReferenceIdeal.Hand.sc ) h9
  have e10 : Cert.ReferenceIdeal.Hand.inWg1 m' c = aWg1 m c := congrArg (Cert.ReferenceIdeal.Hand.mat (n := 768) (k := 768)) h10
  have e11 : Cert.ReferenceIdeal.Hand.inbg1 m' c = abg1 m c := congrArg (Cert.ReferenceIdeal.Hand.vec (n := 768)) h11
  have e12 : Cert.ReferenceIdeal.Hand.inwsg1 m' c = awsg1 m c := congrArg (Cert.ReferenceIdeal.Hand.sc ) h12
  have e13 : Cert.ReferenceIdeal.Hand.insog1 m' c = asog1 m c := congrArg (Cert.ReferenceIdeal.Hand.sc ) h13
  have e14 : Cert.ReferenceIdeal.Hand.insadd1 m' c = asadd1 m c := congrArg (Cert.ReferenceIdeal.Hand.sc ) h14
  have e15 : Cert.ReferenceIdeal.Hand.inWn2 m' c = aWn2 m c := congrArg (Cert.ReferenceIdeal.Hand.mat (n := 768) (k := 768)) h15
  have e16 : Cert.ReferenceIdeal.Hand.inbn2 m' c = abn2 m c := congrArg (Cert.ReferenceIdeal.Hand.vec (n := 768)) h16
  have e17 : Cert.ReferenceIdeal.Hand.inwsn2 m' c = awsn2 m c := congrArg (Cert.ReferenceIdeal.Hand.sc ) h17
  have e18 : Cert.ReferenceIdeal.Hand.inson2 m' c = ason2 m c := congrArg (Cert.ReferenceIdeal.Hand.sc ) h18
  have e19 : Cert.ReferenceIdeal.Hand.inWf1 m' c = aWf1 m c := congrArg (Cert.ReferenceIdeal.Hand.mat (n := 3072) (k := 768)) h19
  have e20 : Cert.ReferenceIdeal.Hand.inbf1 m' c = abf1 m c := congrArg (Cert.ReferenceIdeal.Hand.vec (n := 3072)) h20
  have e21 : Cert.ReferenceIdeal.Hand.inwsf1 m' c = awsf1 m c := congrArg (Cert.ReferenceIdeal.Hand.sc ) h21
  have e22 : Cert.ReferenceIdeal.Hand.insof1 m' c = asof1 m c := congrArg (Cert.ReferenceIdeal.Hand.sc ) h22
  have e23 : Cert.ReferenceIdeal.Hand.inWf2 m' c = aWf2 m c := congrArg (Cert.ReferenceIdeal.Hand.mat (n := 768) (k := 3072)) h23
  have e24 : Cert.ReferenceIdeal.Hand.inbf2 m' c = abf2 m c := congrArg (Cert.ReferenceIdeal.Hand.vec (n := 768)) h24
  have e25 : Cert.ReferenceIdeal.Hand.inwsf2 m' c = awsf2 m c := congrArg (Cert.ReferenceIdeal.Hand.sc ) h25
  have e26 : Cert.ReferenceIdeal.Hand.insof2 m' c = asof2 m c := congrArg (Cert.ReferenceIdeal.Hand.sc ) h26
  have e27 : Cert.ReferenceIdeal.Hand.inWg2 m' c = aWg2 m c := congrArg (Cert.ReferenceIdeal.Hand.mat (n := 768) (k := 768)) h27
  have e28 : Cert.ReferenceIdeal.Hand.inbg2 m' c = abg2 m c := congrArg (Cert.ReferenceIdeal.Hand.vec (n := 768)) h28
  have e29 : Cert.ReferenceIdeal.Hand.inwsg2 m' c = awsg2 m c := congrArg (Cert.ReferenceIdeal.Hand.sc ) h29
  have e30 : Cert.ReferenceIdeal.Hand.insog2 m' c = asog2 m c := congrArg (Cert.ReferenceIdeal.Hand.sc ) h30
  have e31 : Cert.ReferenceIdeal.Hand.insadd2 m' c = asadd2 m c := congrArg (Cert.ReferenceIdeal.Hand.sc ) h31
  rw [e0, e1, e2, e3, e4, e5, e6, e7, e8, e9, e10, e11, e12, e13, e14, e15, e16, e17, e18, e19, e20, e21, e22, e23, e24, e25, e26, e27, e28, e29, e30, e31]

theorem claim : Cert.Claim :=
  ⟨Cert.Kernel.Gen.facts, Cert.KernelIdeal.Gen.facts, Cert.ReferenceIdeal.Gen.facts, Cert.Pre_finite_inputs.Gen.facts,
    frame_words, frame_reals, frame_reference, trivial, same_block⟩

end Cert.Proof

end
